-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S3x256x256 : Shape := ⟨3, ![3, 256, 256]⟩
abbrev S256 : Shape := ⟨1, ![256]⟩
abbrev S131072x3 : Shape := ⟨2, ![131072, 3]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S3x256x256 : S_.BroadcastsInDim S3x256x256 (![] : Fin 0 → Fin S3x256x256.rank)
  reducesTo_S3x256x256_S_d0_1_2 : S3x256x256.ReducesTo [0, 1, 2] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_arg8 : FVec F S256 .f32) (main_arg9 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg4 : FVec F S256 .f32) (main_arg5 : FVec F S256 .f32) (main_arg6 : FVec F S256 .f32) (main_arg7 : FVec F S256 .f32) (main_arg8 : FVec F S256 .f32) (main_arg9 : FVec F S256 .f32) (main_v13 : IVec S_ 1) (main_v16 : IVec S3x256x256 1) : IVec S_ 1 :=
  let main_c_5 : IVec S_ 1 := constantI S_ 1 1#1
  let main_v17 : IVec S_ 1 := (fun x v => Host.reduce IntOp.andi x v reducesTo_S3x256x256_S_d0_1_2 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_v33

def fn {F : FTy → Type} [FloatOps F] (main_arg0 : FVec F S131072x256 .f32) (main_arg1 : FVec F S3x256x256 .f32) (main_arg2 : FVec F S3x256x256 .f32) (main_arg3 : FVec F S3x256x256 .f32) (main_arg4 : FVec F S256 .f32) (main_arg5 : FVec F S256 .f32) (main_arg6 : FVec F S256 .f32) (main_arg7 : FVec F S256 .f32) (main_arg8 : FVec F S256 .f32) (main_arg9 : FVec F S256 .f32) (main_arg10 : IVec S131072x3 32) (main_arg11 : IVec S131072x3 32) (main_arg12 : IVec S131072x3 32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S3x256x256 .f32 := Host.absf main_arg1
  let main_cst_0 : FVec F S_ .f32 := constant S_ .f32 0x7F800000#32
  let main_v5 : FVec F S3x256x256 .f32 := broadcastInDim S3x256x256 ![] bcast_S_S3x256x256 main_cst_0
  let main_v6 : IVec S3x256x256 1 := cmpf .olt main_v4 main_v5
  let main_c_1 : IVec S_ 1 := constantI S_ 1 1#1
  let main_v7 : IVec S_ 1 := (fun x v => Host.reduce IntOp.andi x v reducesTo_S3x256x256_S_d0_1_2 h_S_) main_v6 main_c_1
  let main_v8 : IVec S_ 1 := andi main_v3 main_v7
  let main_v9 : FVec F S3x256x256 .f32 := Host.absf main_arg2
  let main_cst_2 : FVec F S_ .f32 := constant S_ .f32 0x7F800000#32
  let main_v10 : FVec F S3x256x256 .f32 := broadcastInDim S3x256x256 ![] bcast_S_S3x256x256 main_cst_2
  let main_v11 : IVec S3x256x256 1 := cmpf .olt main_v9 main_v10
  let main_c_3 : IVec S_ 1 := constantI S_ 1 1#1
  let main_v12 : IVec S_ 1 := (fun x v => Host.reduce IntOp.andi x v reducesTo_S3x256x256_S_d0_1_2 h_S_) main_v11 main_c_3
  let main_v13 : IVec S_ 1 := andi main_v8 main_v12
  let main_v14 : FVec F S3x256x256 .f32 := Host.absf main_arg3
  let main_cst_4 : FVec F S_ .f32 := constant S_ .f32 0x7F800000#32
  let main_v15 : FVec F S3x256x256 .f32 := broadcastInDim S3x256x256 ![] bcast_S_S3x256x256 main_cst_4
  let main_v16 : IVec S3x256x256 1 := cmpf .olt main_v14 main_v15
  fn_part1 (F := F) main_arg4 main_arg5 main_arg6 main_arg7 main_arg8 main_arg9 main_v13 main_v16
-- ==== Kernel.lean ====
abbrev S131072x256 : Shape := ⟨2, ![131072, 256]⟩
abbrev S3x256x256 : Shape := ⟨3, ![3, 256, 256]⟩
abbrev S256 : Shape := ⟨1, ![256]⟩
abbrev S131072x3 : Shape := ⟨2, ![131072, 3]⟩
abbrev S_ : Shape := ⟨0, ![]⟩
abbrev S1x256 : Shape := ⟨2, ![1, 256]⟩
abbrev S131073x256 : Shape := ⟨2, ![131073, 256]⟩
abbrev S393216 : Shape := ⟨1, ![393216]⟩
abbrev S393216x1 : Shape := ⟨2, ![393216, 1]⟩
abbrev S393216x256 : Shape := ⟨2, ![393216, 256]⟩
abbrev S131072x768 : Shape := ⟨2, ![131072, 768]⟩
abbrev S32x8x256 : Shape := ⟨3, ![32, 8, 256]⟩
abbrev S4096x768 : Shape := ⟨2, ![4096, 768]⟩
abbrev S4096x256 : Shape := ⟨2, ![4096, 256]⟩
abbrev S1x8x256 : Shape := ⟨3, ![1, 8, 256]⟩
abbrev S1x256x256 : Shape := ⟨3, ![1, 256, 256]⟩
abbrev S256x256 : Shape := ⟨2, ![256, 256]⟩
abbrev S1x1x256 : Shape := ⟨3, ![1, 1, 256]⟩
abbrev S2048x256 : Shape := ⟨2, ![2048, 256]⟩

abbrev nBuf : Space → Nat
  | .hbm => 144
  | .vmem => 43
  | .smem => 0
  | _ => 0

abbrev hbmTy0_0 (i : Nat) : BufTy := match i % 128 with
  | 0 => ⟨S131072x256, .f32⟩
  | 1 => ⟨S3x256x256, .f32⟩
  | 2 => ⟨S3x256x256, .f32⟩
  | 3 => ⟨S3x256x256, .f32⟩
  | 4 => ⟨S256, .f32⟩
  | 5 => ⟨S256, .f32⟩
  | 6 => ⟨S256, .f32⟩
  | 7 => ⟨S256, .f32⟩
  | 8 => ⟨S256, .f32⟩
  | 9 => ⟨S256, .f32⟩
  | 10 => ⟨S131072x3, .i32⟩
  | 11 => ⟨S131072x3, .i32⟩
  | 12 => ⟨S131072x3, .i32⟩
  | 13 => ⟨S_, .f32⟩
  | 14 => ⟨S1x256, .f32⟩
  | 15 => ⟨S131073x256, .f32⟩
  | 16 => ⟨S131073x256, .bf16⟩
  | 17 => ⟨S393216, .i32⟩
  | 18 => ⟨S_, .i32⟩
  | 19 => ⟨S393216, .i32⟩
  | 20 => ⟨S393216, .i1⟩
  | 21 => ⟨S_, .i32⟩
  | 22 => ⟨S393216, .i32⟩
  | 23 => ⟨S393216, .i32⟩
  | 24 => ⟨S393216, .i32⟩
  | 25 => ⟨S393216x1, .i32⟩
  | 26 => ⟨S393216x256, .bf16⟩
  | 27 => ⟨S131072x768, .bf16⟩
  | 28 => ⟨S393216, .i32⟩
  | 29 => ⟨S_, .i32⟩
  | 30 => ⟨S393216, .i32⟩
  | 31 => ⟨S393216, .i1⟩
  | 32 => ⟨S_, .i32⟩
  | 33 => ⟨S393216, .i32⟩
  | 34 => ⟨S393216, .i32⟩
  | 35 => ⟨S393216, .i32⟩
  | 36 => ⟨S393216x1, .i32⟩
  | 37 => ⟨S393216x256, .bf16⟩
  | 38 => ⟨S131072x768, .bf16⟩
  | 39 => ⟨S393216, .i32⟩
  | 40 => ⟨S_, .i32⟩
  | 41 => ⟨S393216, .i32⟩
  | 42 => ⟨S393216, .i1⟩
  | 43 => ⟨S_, .i32⟩
  | 44 => ⟨S393216, .i32⟩
  | 45 => ⟨S393216, .i32⟩
  | 46 => ⟨S393216, .i32⟩
  | 47 => ⟨S393216x1, .i32⟩
  | 48 => ⟨S393216x256, .bf16⟩
  | 49 => ⟨S131072x768, .bf16⟩
  | 50 => ⟨S3x256x256, .bf16⟩
  | 51 => ⟨S3x256x256, .bf16⟩
  | 52 => ⟨S3x256x256, .bf16⟩
  | 53 => ⟨S131072x256, .bf16⟩
  | 54 => ⟨S32x8x256, .f32⟩
  | 55 => ⟨S32x8x256, .f32⟩
  | 56 => ⟨S131072x256, .bf16⟩
  | 57 => ⟨S32x8x256, .f32⟩
  | 58 => ⟨S32x8x256, .f32⟩
  | 59 => ⟨S131072x256, .bf16⟩
  | 60 => ⟨S32x8x256, .f32⟩
  | 61 => ⟨S32x8x256, .f32⟩
  | 62 => ⟨S_, .f32⟩
  | 63 => ⟨S256, .f32⟩
  | 64 => ⟨S_, .f32⟩
  | 65 => ⟨S256, .f32⟩
  | 66 => ⟨S256, .f32⟩
  | 67 => ⟨S_, .f32⟩
  | 68 => ⟨S256, .f32⟩
  | 69 => ⟨S_, .f32⟩
  | 70 => ⟨S256, .f32⟩
  | 71 => ⟨S256, .f32⟩
  | 72 => ⟨S_, .f32⟩
  | 73 => ⟨S256, .f32⟩
  | 74 => ⟨S256, .f32⟩
  | 75 => ⟨S_, .f32⟩
  | 76 => ⟨S256, .f32⟩
  | 77 => ⟨S256, .f32⟩
  | 78 => ⟨S256, .f32⟩
  | 79 => ⟨S256, .f32⟩
  | 80 => ⟨S_, .f32⟩
  | 81 => ⟨S256, .f32⟩
  | 82 => ⟨S256, .f32⟩
  | 83 => ⟨S256, .f32⟩
  | 84 => ⟨S256, .f32⟩
  | 85 => ⟨S256, .f32⟩
  | 86 => ⟨S256, .f32⟩
  | 87 => ⟨S1x256, .f32⟩
  | 88 => ⟨S1x256, .f32⟩
  | 89 => ⟨S_, .f32⟩
  | 90 => ⟨S256, .f32⟩
  | 91 => ⟨S_, .f32⟩
  | 92 => ⟨S256, .f32⟩
  | 93 => ⟨S256, .f32⟩
  | 94 => ⟨S_, .f32⟩
  | 95 => ⟨S256, .f32⟩
  | 96 => ⟨S_, .f32⟩
  | 97 => ⟨S256, .f32⟩
  | 98 => ⟨S256, .f32⟩
  | 99 => ⟨S_, .f32⟩
  | 100 => ⟨S256, .f32⟩
  | 101 => ⟨S256, .f32⟩
  | 102 => ⟨S_, .f32⟩
  | 103 => ⟨S256, .f32⟩
  | 104 => ⟨S256, .f32⟩
  | 105 => ⟨S256, .f32⟩
  | 106 => ⟨S256, .f32⟩
  | 107 => ⟨S_, .f32⟩
  | 108 => ⟨S256, .f32⟩
  | 109 => ⟨S256, .f32⟩
  | 110 => ⟨S256, .f32⟩
  | 111 => ⟨S256, .f32⟩
  | 112 => ⟨S256, .f32⟩
  | 113 => ⟨S256, .f32⟩
  | 114 => ⟨S1x256, .f32⟩
  | 115 => ⟨S1x256, .f32⟩
  | 116 => ⟨S_, .f32⟩
  | 117 => ⟨S256, .f32⟩
  | 118 => ⟨S_, .f32⟩
  | 119 => ⟨S256, .f32⟩
  | 120 => ⟨S256, .f32⟩
  | 121 => ⟨S_, .f32⟩
  | 122 => ⟨S256, .f32⟩
  | 123 => ⟨S_, .f32⟩
  | 124 => ⟨S256, .f32⟩
  | 125 => ⟨S256, .f32⟩
  | 126 => ⟨S_, .f32⟩
  | 127 => ⟨S256, .f32⟩
  | _ => ⟨S131072x256, .f32⟩

abbrev hbmTy0_1 (i : Nat) : BufTy := match i % 128 with
  | 0 => ⟨S256, .f32⟩
  | 1 => ⟨S_, .f32⟩
  | 2 => ⟨S256, .f32⟩
  | 3 => ⟨S256, .f32⟩
  | 4 => ⟨S256, .f32⟩
  | 5 => ⟨S256, .f32⟩
  | 6 => ⟨S_, .f32⟩
  | 7 => ⟨S256, .f32⟩
  | 8 => ⟨S256, .f32⟩
  | 9 => ⟨S256, .f32⟩
  | 10 => ⟨S256, .f32⟩
  | 11 => ⟨S256, .f32⟩
  | 12 => ⟨S256, .f32⟩
  | 13 => ⟨S1x256, .f32⟩
  | 14 => ⟨S1x256, .f32⟩
  | 15 => ⟨S131072x256, .f32⟩
  | _ => ⟨S131072x256, .f32⟩

abbrev hbmTy (i : Nat) : BufTy := match i / 128 with
  | 0 => hbmTy0_0 i
  | 1 => hbmTy0_1 i
  | _ => ⟨S131072x256, .f32⟩

abbrev bufTy : (tb : Table) → Fin (tcTables nBuf tb) → BufTy
  | .hbm, ⟨i, _⟩ => hbmTy i
  | .local _ .vmem, ⟨0, _⟩ => ⟨S4096x768, .bf16⟩
  | .local _ .vmem, ⟨1, _⟩ => ⟨S4096x768, .bf16⟩
  | .local _ .vmem, ⟨2, _⟩ => ⟨S3x256x256, .bf16⟩
  | .local _ .vmem, ⟨3, _⟩ => ⟨S4096x256, .bf16⟩
  | .local _ .vmem, ⟨4, _⟩ => ⟨S4096x256, .bf16⟩
  | .local _ .vmem, ⟨5, _⟩ => ⟨S1x8x256, .f32⟩
  | .local _ .vmem, ⟨6, _⟩ => ⟨S1x8x256, .f32⟩
  | .local _ .vmem, ⟨7, _⟩ => ⟨S1x8x256, .f32⟩
  | .local _ .vmem, ⟨8, _⟩ => ⟨S1x8x256, .f32⟩
  | .local _ .vmem, ⟨9, _⟩ => ⟨S4096x768, .bf16⟩
  | .local _ .vmem, ⟨10, _⟩ => ⟨S4096x768, .bf16⟩
  | .local _ .vmem, ⟨11, _⟩ => ⟨S3x256x256, .bf16⟩
  | .local _ .vmem, ⟨12, _⟩ => ⟨S4096x256, .bf16⟩
  | .local _ .vmem, ⟨13, _⟩ => ⟨S4096x256, .bf16⟩
  | .local _ .vmem, ⟨14, _⟩ => ⟨S1x8x256, .f32⟩
  | .local _ .vmem, ⟨15, _⟩ => ⟨S1x8x256, .f32⟩
  | .local _ .vmem, ⟨16, _⟩ => ⟨S1x8x256, .f32⟩
  | .local _ .vmem, ⟨17, _⟩ => ⟨S1x8x256, .f32⟩
  | .local _ .vmem, ⟨18, _⟩ => ⟨S4096x768, .bf16⟩
  | .local _ .vmem, ⟨19, _⟩ => ⟨S4096x768, .bf16⟩
  | .local _ .vmem, ⟨20, _⟩ => ⟨S3x256x256, .bf16⟩
  | .local _ .vmem, ⟨21, _⟩ => ⟨S4096x256, .bf16⟩
  | .local _ .vmem, ⟨22, _⟩ => ⟨S4096x256, .bf16⟩
  | .local _ .vmem, ⟨23, _⟩ => ⟨S1x8x256, .f32⟩
  | .local _ .vmem, ⟨24, _⟩ => ⟨S1x8x256, .f32⟩
  | .local _ .vmem, ⟨25, _⟩ => ⟨S1x8x256, .f32⟩
  | .local _ .vmem, ⟨26, _⟩ => ⟨S1x8x256, .f32⟩
  | .local _ .vmem, ⟨27, _⟩ => ⟨S2048x256, .bf16⟩
  | .local _ .vmem, ⟨28, _⟩ => ⟨S2048x256, .bf16⟩
  | .local _ .vmem, ⟨29, _⟩ => ⟨S2048x256, .bf16⟩
  | .local _ .vmem, ⟨30, _⟩ => ⟨S2048x256, .bf16⟩
  | .local _ .vmem, ⟨31, _⟩ => ⟨S2048x256, .bf16⟩
  | .local _ .vmem, ⟨32, _⟩ => ⟨S2048x256, .bf16⟩
  | .local _ .vmem, ⟨33, _⟩ => ⟨S1x256, .f32⟩
  | .local _ .vmem, ⟨34, _⟩ => ⟨S1x256, .f32⟩
  | .local _ .vmem, ⟨35, _⟩ => ⟨S1x256, .f32⟩
  | .local _ .vmem, ⟨36, _⟩ => ⟨S1x256, .f32⟩
  | .local _ .vmem, ⟨37, _⟩ => ⟨S1x256, .f32⟩
  | .local _ .vmem, ⟨38, _⟩ => ⟨S1x256, .f32⟩
  | .local _ .vmem, ⟨39, _⟩ => ⟨S2048x256, .f32⟩
  | .local _ .vmem, ⟨40, _⟩ => ⟨S2048x256, .f32⟩
  | .local _ .vmem, ⟨41, _⟩ => ⟨S2048x256, .f32⟩
  | .local _ .vmem, ⟨42, _⟩ => ⟨S2048x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c_1 : Ref sig .tc := ⟨.hbm, 29, rfl⟩
abbrev main_v13 : Ref sig .tc := ⟨.hbm, 30, rfl⟩
abbrev main_v14 : Ref sig .tc := ⟨.hbm, 31, rfl⟩
abbrev main_c_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33_0 : Ref sig .tc := ⟨.hbm, 53, rfl⟩
abbrev main_v33_1 : Ref sig .tc := ⟨.hbm, 54, rfl⟩
abbrev main_v33_2 : Ref sig .tc := ⟨.hbm, 55, rfl⟩
abbrev main_v34_0 : Ref sig .tc := ⟨.hbm, 56, rfl⟩
abbrev main_v34_1 : Ref sig .tc := ⟨.hbm, 57, rfl⟩
abbrev main_v34_2 : Ref sig .tc := ⟨.hbm, 58, rfl⟩
abbrev main_v35_0 : Ref sig .tc := ⟨.hbm, 59, rfl⟩
abbrev main_v35_1 : Ref sig .tc := ⟨.hbm, 60, rfl⟩
abbrev main_v35_2 : Ref sig .tc := ⟨.hbm, 61, rfl⟩
abbrev main_cst_5 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_cst_7 : Ref sig .tc := ⟨.hbm, 67, rfl⟩
abbrev main_v39 : Ref sig .tc := ⟨.hbm, 68, rfl⟩
abbrev main_cst_8 : Ref sig .tc := ⟨.hbm, 69, rfl⟩
abbrev main_v40 : Ref sig .tc := ⟨.hbm, 70, rfl⟩
abbrev main_v41 : Ref sig .tc := ⟨.hbm, 71, rfl⟩
abbrev main_cst_9 : Ref sig .tc := ⟨.hbm, 72, rfl⟩
abbrev main_v42 : Ref sig .tc := ⟨.hbm, 73, rfl⟩
abbrev main_v43 : Ref sig .tc := ⟨.hbm, 74, rfl⟩
abbrev main_cst_10 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_11 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_12 : Ref sig .tc := ⟨.hbm, 89, rfl⟩
abbrev main_v56 : Ref sig .tc := ⟨.hbm, 90, rfl⟩
abbrev main_cst_13 : Ref sig .tc := ⟨.hbm, 91, rfl⟩
abbrev main_v57 : Ref sig .tc := ⟨.hbm, 92, rfl⟩
abbrev main_v58 : Ref sig .tc := ⟨.hbm, 93, rfl⟩
abbrev main_cst_14 : Ref sig .tc := ⟨.hbm, 94, rfl⟩
abbrev main_v59 : Ref sig .tc := ⟨.hbm, 95, rfl⟩
abbrev main_cst_15 : Ref sig .tc := ⟨.hbm, 96, rfl⟩
abbrev main_v60 : Ref sig .tc := ⟨.hbm, 97, rfl⟩
abbrev main_v61 : Ref sig .tc := ⟨.hbm, 98, rfl⟩
abbrev main_cst_16 : Ref sig .tc := ⟨.hbm, 99, rfl⟩
abbrev main_v62 : Ref sig .tc := ⟨.hbm, 100, rfl⟩
abbrev main_v63 : Ref sig .tc := ⟨.hbm, 101, rfl⟩
abbrev main_cst_17 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_18 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_19 : Ref sig .tc := ⟨.hbm, 116, rfl⟩
abbrev main_v76 : Ref sig .tc := ⟨.hbm, 117, rfl⟩
abbrev main_cst_20 : Ref sig .tc := ⟨.hbm, 118, rfl⟩
abbrev main_v77 : Ref sig .tc := ⟨.hbm, 119, rfl⟩
abbrev main_v78 : Ref sig .tc := ⟨.hbm, 120, rfl⟩
abbrev main_cst_21 : Ref sig .tc := ⟨.hbm, 121, rfl⟩
abbrev main_v79 : Ref sig .tc := ⟨.hbm, 122, rfl⟩
abbrev main_cst_22 : Ref sig .tc := ⟨.hbm, 123, rfl⟩
abbrev main_v80 : Ref sig .tc := ⟨.hbm, 124, rfl⟩
abbrev main_v81 : Ref sig .tc := ⟨.hbm, 125, rfl⟩
abbrev main_cst_23 : Ref sig .tc := ⟨.hbm, 126, rfl⟩
abbrev main_v82 : Ref sig .tc := ⟨.hbm, 127, rfl⟩
abbrev main_v83 : Ref sig .tc := ⟨.hbm, 128, rfl⟩
abbrev main_cst_24 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_cst_25 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg7_0 : Ref sig .tc := ⟨.vmem, 37, rfl⟩
abbrev cc3_stg8_0 : Ref sig .tc := ⟨.vmem, 38, rfl⟩
abbrev cc3_stg9_0 : Ref sig .tc := ⟨.vmem, 39, rfl⟩
abbrev cc3_stg9_1 : Ref sig .tc := ⟨.vmem, 40, rfl⟩
abbrev cc3_stg10_0 : Ref sig .tc := ⟨.vmem, 41, rfl⟩
abbrev cc3_stg10_1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem7_0 : DmaSem sig := 37
abbrev cc3_sem8_0 : DmaSem sig := 38
abbrev cc3_sem9_0 : DmaSem sig := 39
abbrev cc3_sem9_1 : DmaSem sig := 40
abbrev cc3_sem10_0 : DmaSem sig := 41
abbrev cc3_sem10_1 : DmaSem sig := 42

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4096x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x8x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x8x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S4096x768 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3x256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4096x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x8x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x8x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S2048x256 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S2048x256 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

class Facts₀ : Prop where
  bcast_S_S1x256 : S_.BroadcastsInDim S1x256 (![] : Fin 0 → Fin S1x256.rank)
  concatenates_S131072x256_S1x256_S131073x256_d0 : Shape.Concatenates [S131072x256, S1x256] S131073x256 0
  bitsLt_bf16_f32 : FTy.bits .bf16 < FTy.bits .f32
  shapeCasts_S131072x3_S393216 : S131072x3.ShapeCasts S393216
  bcast_S_S393216 : S_.BroadcastsInDim S393216 (![] : Fin 0 → Fin S393216.rank)
  bcast_S393216_S393216x1_0 : S393216.BroadcastsInDim S393216x1 (![0] : Fin 1 → Fin S393216x1.rank)
  shapeCasts_S393216x256_S131072x768 : S393216x256.ShapeCasts S131072x768
  inb_S4096x768_S4096x256_0_0 : ∀ a, (![0, 0] : Fin 2 → Nat) a + S4096x256.size a ≤ S4096x768.size a
  h_S4096x256 : 0 < S4096x256.numel
  shapeCasts_S4096x256_S4096x256 : S4096x256.ShapeCasts S4096x256
  inb_S3x256x256_S1x256x256_0_0_0 : ∀ a, (![0, 0, 0] : Fin 3 → Nat) a + S1x256x256.size a ≤ S3x256x256.size a
  h_S1x256x256 : 0 < S1x256x256.numel
  shapeCasts_S1x256x256_S256x256 : S1x256x256.ShapeCasts S256x256
  inb_S4096x768_S4096x256_0_256 : ∀ a, (![0, 256] : Fin 2 → Nat) a + S4096x256.size a ≤ S4096x768.size a
  inb_S3x256x256_S1x256x256_1_0_0 : ∀ a, (![1, 0, 0] : Fin 3 → Nat) a + S1x256x256.size a ≤ S3x256x256.size a
  inb_S4096x768_S4096x256_0_512 : ∀ a, (![0, 512] : Fin 2 → Nat) a + S4096x256.size a ≤ S4096x768.size a
  inb_S3x256x256_S1x256x256_2_0_0 : ∀ a, (![2, 0, 0] : Fin 3 → Nat) a + S1x256x256.size a ≤ S3x256x256.size a
  inb_S4096x256_S4096x256_0_0 : ∀ a, (![0, 0] : Fin 2 → Nat) a + S4096x256.size a ≤ S4096x256.size a
  packedbf16_S4096x256_S4096x256_0_0 : (Rect.unit (s := S4096x256) ![0, 0] S4096x256.size inb_S4096x256_S4096x256_0_0).PackedRows (EltTy.packing .bf16)
  reduces_S4096x256_S256 : S4096x256.Reduces [0] S256
  shapeCasts_S256_S1x256 : S256.ShapeCasts S1x256
  shapeCasts_S1x256_S1x1x256 : S1x256.ShapeCasts S1x1x256
  shapeCasts_S1x1x256_S1x1x256 : S1x1x256.ShapeCasts S1x1x256
  broadcasts_S1x1x256_S1x8x256 : S1x1x256.Broadcasts S1x8x256
  inb_S1x8x256_S1x8x256_0_0_0 : ∀ a, (![0, 0, 0] : Fin 3 → Nat) a + S1x8x256.size a ≤ S1x8x256.size a
  h_S1x8x256 : 0 < S1x8x256.numel
  reducesTo_S32x8x256_S256_d0_1 : S32x8x256.ReducesTo [0, 1] S256
  h_S_ : 0 < S_.numel
  bcast_S_S256 : S_.BroadcastsInDim S256 (![] : Fin 0 → Fin S256.rank)
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  gather_S131073x256_S393216x1_S393216x256_1_0_n_n_0_1_1256_wf : GatherDims.WF S131073x256 S393216x1 S393216x256 [1] [0] [] [0] [] 1 ![1, 256]
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x768.size a ≤ S131072x768.size a
  hwx0_0 : ∀ i : grid0.Coords, EltTy.bits .bf16 = 32 ∨ (Rect.block (s := S131072x768) S4096x768.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x256x256.size a ≤ S3x256x256.size a
  hwx0_1 : ∀ i : grid0.Coords, EltTy.bits .bf16 = 32 ∨ (Rect.block (s := S3x256x256) S3x256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S131072x256.size a
  hwx0_2 : ∀ i : grid0.Coords, EltTy.bits .bf16 = 32 ∨ (Rect.block (s := S131072x256) S4096x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x256.size a ≤ S32x8x256.size a
  hwx0_3 : ∀ i : grid0.Coords, EltTy.bits .f32 = 32 ∨ (Rect.block (s := S32x8x256) S1x8x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x256.size a ≤ S32x8x256.size a
  hwx0_4 : ∀ i : grid0.Coords, EltTy.bits .f32 = 32 ∨ (Rect.block (s := S32x8x256) S1x8x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x768.size a ≤ S131072x768.size a
  hwx1_0 : ∀ i : grid1.Coords, EltTy.bits .bf16 = 32 ∨ (Rect.block (s := S131072x768) S4096x768.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x256x256.size a ≤ S3x256x256.size a
  hwx1_1 : ∀ i : grid1.Coords, EltTy.bits .bf16 = 32 ∨ (Rect.block (s := S3x256x256) S3x256x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x256.size a ≤ S131072x256.size a
  hwx1_2 : ∀ i : grid1.Coords, EltTy.bits .bf16 = 32 ∨ (Rect.block (s := S131072x256) S4096x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x8x256.size a ≤ S32x8x256.size a
  hwx1_3 : ∀ i : grid1.Coords, EltTy.bits .f32 = 32 ∨ (Rect.block (s := S32x8x256) S1x8x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x8x256.size a ≤ S32x8x256.size a
  hwx1_4 : ∀ i : grid1.Coords, EltTy.bits .f32 = 32 ∨ (Rect.block (s := S32x8x256) S1x8x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x768.size a ≤ S131072x768.size a
  hwx2_0 : ∀ i : grid2.Coords, EltTy.bits .bf16 = 32 ∨ (Rect.block (s := S131072x768) S4096x768.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S3x256x256.size a ≤ S3x256x256.size a
  hwx2_1 : ∀ i : grid2.Coords, EltTy.bits .bf16 = 32 ∨ (Rect.block (s := S3x256x256) S3x256x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x256.size a ≤ S131072x256.size a
  hwx2_2 : ∀ i : grid2.Coords, EltTy.bits .bf16 = 32 ∨ (Rect.block (s := S131072x256) S4096x256.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x8x256.size a ≤ S32x8x256.size a
  hwx2_3 : ∀ i : grid2.Coords, EltTy.bits .f32 = 32 ∨ (Rect.block (s := S32x8x256) S1x8x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x8x256.size a ≤ S32x8x256.size a
  hwx2_4 : ∀ i : grid2.Coords, EltTy.bits .f32 = 32 ∨ (Rect.block (s := S32x8x256) S1x8x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x256.size a ≤ S131072x256.size a
  hwx3_0 : ∀ i : grid3.Coords, EltTy.bits .bf16 = 32 ∨ (Rect.block (s := S131072x256) S2048x256.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x256.size a ≤ S131072x256.size a
  hwx3_1 : ∀ i : grid3.Coords, EltTy.bits .bf16 = 32 ∨ (Rect.block (s := S131072x256) S2048x256.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x256.size a ≤ S131072x256.size a
  hwx3_2 : ∀ i : grid3.Coords, EltTy.bits .bf16 = 32 ∨ (Rect.block (s := S131072x256) S2048x256.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x256.size a ≤ S1x256.size a
  hwx3_7 : ∀ i : grid3.Coords, EltTy.bits .f32 = 32 ∨ (Rect.block (s := S1x256) S1x256.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x256.size a ≤ S1x256.size a
  hwx3_8 : ∀ i : grid3.Coords, EltTy.bits .f32 = 32 ∨ (Rect.block (s := S1x256) S1x256.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S2048x256.size a ≤ S131072x256.size a
  hwx3_9 : ∀ i : grid3.Coords, EltTy.bits .f32 = 32 ∨ (Rect.block (s := S131072x256) S2048x256.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S2048x256.size a ≤ S131072x256.size a
  hwx3_10 : ∀ i : grid3.Coords, EltTy.bits .f32 = 32 ∨ (Rect.block (s := S131072x256) S2048x256.size (cc3_transform_10 i) (hinb3_10 i)).WholeWords (EltTy.packing .f32)

variable [Facts₀]

def gather_S131073x256_S393216x1_S393216x256_1_0_n_n_0_1_1256 : GatherDims S131073x256 S393216x1 S393216x256 where
  offsetDims := [1]
  collapsedSliceDims := [0]
  operandBatchingDims := []
  startIndicesBatchingDims := []
  startIndexMap := [0]
  indexVectorDim := 1
  sliceSizes := ![1, 256]
  wf := gather_S131073x256_S393216x1_S393216x256_1_0_n_n_0_1_1256_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_v11) S4096x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S3x256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33_0) S4096x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33_1) S1x8x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v33_2) S1x8x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v20) S4096x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S3x256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34_0) S4096x256.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34_1) S1x8x256.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v34_2) S1x8x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v29) S4096x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S3x256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35_0) S4096x256.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35_1) S1x8x256.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v35_2) S1x8x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v33_0) S2048x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34_0) S2048x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v35_0) S2048x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v54) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v74) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v75) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v94) S1x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v95) S1x256.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg0) S2048x256.size cc3_transform_9 reads3_9 false false 2 stage3_9 sem3_9
    hrank3 hreads3_9 hinb3_9 nbuf3_9 (Memref.isWhole_whole _) hwx3_9 hstage3_9

abbrev win3_10 : Pipeline.Window sig grid3 :=
  Pipeline.Window.ofSpec (Memref.whole main_v96) S2048x256.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

class Facts : Prop extends Facts₀ where

variable [Facts]
-- ==== ReferenceIdeal.lean ====
abbrev S131072x256 : Shape := ⟨2, ![131072, 256]⟩
abbrev S3x256x256 : Shape := ⟨3, ![3, 256, 256]⟩
abbrev S256 : Shape := ⟨1, ![256]⟩
abbrev S131072x3 : Shape := ⟨2, ![131072, 3]⟩
abbrev S_ : Shape := ⟨0, ![]⟩
abbrev S1x256 : Shape := ⟨2, ![1, 256]⟩
abbrev S131073x256 : Shape := ⟨2, ![131073, 256]⟩
abbrev S131072x1 : Shape := ⟨2, ![131072, 1]⟩
abbrev S131072 : Shape := ⟨1, ![131072]⟩
abbrev S1x256x256 : Shape := ⟨3, ![1, 256, 256]⟩
abbrev S256x256 : Shape := ⟨2, ![256, 256]⟩

abbrev nBuf : Space → Nat
  | .hbm => 307
  | .vmem => 0
  | .smem => 0
  | _ => 0

abbrev hbmTy0_0 (i : Nat) : BufTy := match i % 128 with
  | 0 => ⟨S131072x256, .f32⟩
  | 1 => ⟨S3x256x256, .f32⟩
  | 2 => ⟨S3x256x256, .f32⟩
  | 3 => ⟨S3x256x256, .f32⟩
  | 4 => ⟨S256, .f32⟩
  | 5 => ⟨S256, .f32⟩
  | 6 => ⟨S256, .f32⟩
  | 7 => ⟨S256, .f32⟩
  | 8 => ⟨S256, .f32⟩
  | 9 => ⟨S256, .f32⟩
  | 10 => ⟨S131072x3, .i32⟩
  | 11 => ⟨S131072x3, .i32⟩
  | 12 => ⟨S131072x3, .i32⟩
  | 13 => ⟨S_, .f32⟩
  | 14 => ⟨S1x256, .f32⟩
  | 15 => ⟨S131073x256, .f32⟩
  | 16 => ⟨S131072x1, .i32⟩
  | 17 => ⟨S131072, .i32⟩
  | 18 => ⟨S_, .i32⟩
  | 19 => ⟨S131072, .i32⟩
  | 20 => ⟨S131072, .i1⟩
  | 21 => ⟨S_, .i32⟩
  | 22 => ⟨S131072, .i32⟩
  | 23 => ⟨S131072, .i32⟩
  | 24 => ⟨S131072, .i32⟩
  | 25 => ⟨S131072x1, .i32⟩
  | 26 => ⟨S131072x256, .f32⟩
  | 27 => ⟨S1x256x256, .f32⟩
  | 28 => ⟨S256x256, .f32⟩
  | 29 => ⟨S131072x256, .f32⟩
  | 30 => ⟨S131072x1, .i32⟩
  | 31 => ⟨S131072, .i32⟩
  | 32 => ⟨S_, .i32⟩
  | 33 => ⟨S131072, .i32⟩
  | 34 => ⟨S131072, .i1⟩
  | 35 => ⟨S_, .i32⟩
  | 36 => ⟨S131072, .i32⟩
  | 37 => ⟨S131072, .i32⟩
  | 38 => ⟨S131072, .i32⟩
  | 39 => ⟨S131072x1, .i32⟩
  | 40 => ⟨S131072x256, .f32⟩
  | 41 => ⟨S1x256x256, .f32⟩
  | 42 => ⟨S256x256, .f32⟩
  | 43 => ⟨S131072x256, .f32⟩
  | 44 => ⟨S131072x256, .f32⟩
  | 45 => ⟨S131072x1, .i32⟩
  | 46 => ⟨S131072, .i32⟩
  | 47 => ⟨S_, .i32⟩
  | 48 => ⟨S131072, .i32⟩
  | 49 => ⟨S131072, .i1⟩
  | 50 => ⟨S_, .i32⟩
  | 51 => ⟨S131072, .i32⟩
  | 52 => ⟨S131072, .i32⟩
  | 53 => ⟨S131072, .i32⟩
  | 54 => ⟨S131072x1, .i32⟩
  | 55 => ⟨S131072x256, .f32⟩
  | 56 => ⟨S1x256x256, .f32⟩
  | 57 => ⟨S256x256, .f32⟩
  | 58 => ⟨S131072x256, .f32⟩
  | 59 => ⟨S131072x256, .f32⟩
  | 60 => ⟨S_, .f32⟩
  | 61 => ⟨S256, .f32⟩
  | 62 => ⟨S_, .f32⟩
  | 63 => ⟨S256, .f32⟩
  | 64 => ⟨S256, .f32⟩
  | 65 => ⟨S_, .i32⟩
  | 66 => ⟨S_, .f32⟩
  | 67 => ⟨S256, .f32⟩
  | 68 => ⟨S1x256, .f32⟩
  | 69 => ⟨S_, .f32⟩
  | 70 => ⟨S1x256, .f32⟩
  | 71 => ⟨S1x256, .f32⟩
  | 72 => ⟨S131072x256, .f32⟩
  | 73 => ⟨S131072x256, .f32⟩
  | 74 => ⟨S131072x256, .f32⟩
  | 75 => ⟨S_, .f32⟩
  | 76 => ⟨S_, .f32⟩
  | 77 => ⟨S_, .f32⟩
  | 78 => ⟨S_, .f32⟩
  | 79 => ⟨S256, .f32⟩
  | 80 => ⟨S256, .f32⟩
  | 81 => ⟨S256, .f32⟩
  | 82 => ⟨S_, .f32⟩
  | 83 => ⟨S_, .i1⟩
  | 84 => ⟨S_, .f32⟩
  | 85 => ⟨S_, .f32⟩
  | 86 => ⟨S256, .f32⟩
  | 87 => ⟨S256, .f32⟩
  | 88 => ⟨S1x256, .f32⟩
  | 89 => ⟨S131072x256, .f32⟩
  | 90 => ⟨S131072x256, .f32⟩
  | 91 => ⟨S1x256, .f32⟩
  | 92 => ⟨S131072x256, .f32⟩
  | 93 => ⟨S131072x256, .f32⟩
  | 94 => ⟨S_, .f32⟩
  | 95 => ⟨S256, .f32⟩
  | 96 => ⟨S256, .f32⟩
  | 97 => ⟨S256, .f32⟩
  | 98 => ⟨S1x256, .f32⟩
  | 99 => ⟨S131072x256, .f32⟩
  | 100 => ⟨S131072x256, .f32⟩
  | 101 => ⟨S1x256, .f32⟩
  | 102 => ⟨S131072x256, .f32⟩
  | 103 => ⟨S131072x256, .f32⟩
  | 104 => ⟨S131072x256, .f32⟩
  | 105 => ⟨S131072x256, .f32⟩
  | 106 => ⟨S_, .f32⟩
  | 107 => ⟨S131072x256, .f32⟩
  | 108 => ⟨S131072x256, .f32⟩
  | 109 => ⟨S_, .f32⟩
  | 110 => ⟨S131072x256, .f32⟩
  | 111 => ⟨S131072x256, .f32⟩
  | 112 => ⟨S131072x1, .i32⟩
  | 113 => ⟨S131072, .i32⟩
  | 114 => ⟨S_, .i32⟩
  | 115 => ⟨S131072, .i32⟩
  | 116 => ⟨S131072, .i1⟩
  | 117 => ⟨S_, .i32⟩
  | 118 => ⟨S131072, .i32⟩
  | 119 => ⟨S131072, .i32⟩
  | 120 => ⟨S131072, .i32⟩
  | 121 => ⟨S131072x1, .i32⟩
  | 122 => ⟨S131072x256, .f32⟩
  | 123 => ⟨S1x256x256, .f32⟩
  | 124 => ⟨S256x256, .f32⟩
  | 125 => ⟨S131072x256, .f32⟩
  | 126 => ⟨S131072x1, .i32⟩
  | 127 => ⟨S131072, .i32⟩
  | _ => ⟨S131072x256, .f32⟩

abbrev hbmTy0_1 (i : Nat) : BufTy := match i % 128 with
  | 0 => ⟨S_, .i32⟩
  | 1 => ⟨S131072, .i32⟩
  | 2 => ⟨S131072, .i1⟩
  | 3 => ⟨S_, .i32⟩
  | 4 => ⟨S131072, .i32⟩
  | 5 => ⟨S131072, .i32⟩
  | 6 => ⟨S131072, .i32⟩
  | 7 => ⟨S131072x1, .i32⟩
  | 8 => ⟨S131072x256, .f32⟩
  | 9 => ⟨S1x256x256, .f32⟩
  | 10 => ⟨S256x256, .f32⟩
  | 11 => ⟨S131072x256, .f32⟩
  | 12 => ⟨S131072x256, .f32⟩
  | 13 => ⟨S131072x1, .i32⟩
  | 14 => ⟨S131072, .i32⟩
  | 15 => ⟨S_, .i32⟩
  | 16 => ⟨S131072, .i32⟩
  | 17 => ⟨S131072, .i1⟩
  | 18 => ⟨S_, .i32⟩
  | 19 => ⟨S131072, .i32⟩
  | 20 => ⟨S131072, .i32⟩
  | 21 => ⟨S131072, .i32⟩
  | 22 => ⟨S131072x1, .i32⟩
  | 23 => ⟨S131072x256, .f32⟩
  | 24 => ⟨S1x256x256, .f32⟩
  | 25 => ⟨S256x256, .f32⟩
  | 26 => ⟨S131072x256, .f32⟩
  | 27 => ⟨S131072x256, .f32⟩
  | 28 => ⟨S_, .f32⟩
  | 29 => ⟨S256, .f32⟩
  | 30 => ⟨S_, .f32⟩
  | 31 => ⟨S256, .f32⟩
  | 32 => ⟨S256, .f32⟩
  | 33 => ⟨S_, .i32⟩
  | 34 => ⟨S_, .f32⟩
  | 35 => ⟨S256, .f32⟩
  | 36 => ⟨S1x256, .f32⟩
  | 37 => ⟨S_, .f32⟩
  | 38 => ⟨S1x256, .f32⟩
  | 39 => ⟨S1x256, .f32⟩
  | 40 => ⟨S131072x256, .f32⟩
  | 41 => ⟨S131072x256, .f32⟩
  | 42 => ⟨S131072x256, .f32⟩
  | 43 => ⟨S_, .f32⟩
  | 44 => ⟨S_, .f32⟩
  | 45 => ⟨S_, .f32⟩
  | 46 => ⟨S_, .f32⟩
  | 47 => ⟨S256, .f32⟩
  | 48 => ⟨S256, .f32⟩
  | 49 => ⟨S256, .f32⟩
  | 50 => ⟨S_, .f32⟩
  | 51 => ⟨S_, .i1⟩
  | 52 => ⟨S_, .f32⟩
  | 53 => ⟨S_, .f32⟩
  | 54 => ⟨S256, .f32⟩
  | 55 => ⟨S256, .f32⟩
  | 56 => ⟨S1x256, .f32⟩
  | 57 => ⟨S131072x256, .f32⟩
  | 58 => ⟨S131072x256, .f32⟩
  | 59 => ⟨S1x256, .f32⟩
  | 60 => ⟨S131072x256, .f32⟩
  | 61 => ⟨S131072x256, .f32⟩
  | 62 => ⟨S_, .f32⟩
  | 63 => ⟨S256, .f32⟩
  | 64 => ⟨S256, .f32⟩
  | 65 => ⟨S256, .f32⟩
  | 66 => ⟨S1x256, .f32⟩
  | 67 => ⟨S131072x256, .f32⟩
  | 68 => ⟨S131072x256, .f32⟩
  | 69 => ⟨S1x256, .f32⟩
  | 70 => ⟨S131072x256, .f32⟩
  | 71 => ⟨S131072x256, .f32⟩
  | 72 => ⟨S131072x256, .f32⟩
  | 73 => ⟨S131072x256, .f32⟩
  | 74 => ⟨S_, .f32⟩
  | 75 => ⟨S131072x256, .f32⟩
  | 76 => ⟨S131072x256, .f32⟩
  | 77 => ⟨S_, .f32⟩
  | 78 => ⟨S131072x256, .f32⟩
  | 79 => ⟨S131072x256, .f32⟩
  | 80 => ⟨S131072x1, .i32⟩
  | 81 => ⟨S131072, .i32⟩
  | 82 => ⟨S_, .i32⟩
  | 83 => ⟨S131072, .i32⟩
  | 84 => ⟨S131072, .i1⟩
  | 85 => ⟨S_, .i32⟩
  | 86 => ⟨S131072, .i32⟩
  | 87 => ⟨S131072, .i32⟩
  | 88 => ⟨S131072, .i32⟩
  | 89 => ⟨S131072x1, .i32⟩
  | 90 => ⟨S131072x256, .f32⟩
  | 91 => ⟨S1x256x256, .f32⟩
  | 92 => ⟨S256x256, .f32⟩
  | 93 => ⟨S131072x256, .f32⟩
  | 94 => ⟨S131072x1, .i32⟩
  | 95 => ⟨S131072, .i32⟩
  | 96 => ⟨S_, .i32⟩
  | 97 => ⟨S131072, .i32⟩
  | 98 => ⟨S131072, .i1⟩
  | 99 => ⟨S_, .i32⟩
  | 100 => ⟨S131072, .i32⟩
  | 101 => ⟨S131072, .i32⟩
  | 102 => ⟨S131072, .i32⟩
  | 103 => ⟨S131072x1, .i32⟩
  | 104 => ⟨S131072x256, .f32⟩
  | 105 => ⟨S1x256x256, .f32⟩
  | 106 => ⟨S256x256, .f32⟩
  | 107 => ⟨S131072x256, .f32⟩
  | 108 => ⟨S131072x256, .f32⟩
  | 109 => ⟨S131072x1, .i32⟩
  | 110 => ⟨S131072, .i32⟩
  | 111 => ⟨S_, .i32⟩
  | 112 => ⟨S131072, .i32⟩
  | 113 => ⟨S131072, .i1⟩
  | 114 => ⟨S_, .i32⟩
  | 115 => ⟨S131072, .i32⟩
  | 116 => ⟨S131072, .i32⟩
  | 117 => ⟨S131072, .i32⟩
  | 118 => ⟨S131072x1, .i32⟩
  | 119 => ⟨S131072x256, .f32⟩
  | 120 => ⟨S1x256x256, .f32⟩
  | 121 => ⟨S256x256, .f32⟩
  | 122 => ⟨S131072x256, .f32⟩
  | 123 => ⟨S131072x256, .f32⟩
  | 124 => ⟨S_, .f32⟩
  | 125 => ⟨S256, .f32⟩
  | 126 => ⟨S_, .f32⟩
  | 127 => ⟨S256, .f32⟩
  | _ => ⟨S131072x256, .f32⟩

abbrev hbmTy0_2 (i : Nat) : BufTy := match i % 128 with
  | 0 => ⟨S256, .f32⟩
  | 1 => ⟨S_, .i32⟩
  | 2 => ⟨S_, .f32⟩
  | 3 => ⟨S256, .f32⟩
  | 4 => ⟨S1x256, .f32⟩
  | 5 => ⟨S_, .f32⟩
  | 6 => ⟨S1x256, .f32⟩
  | 7 => ⟨S1x256, .f32⟩
  | 8 => ⟨S131072x256, .f32⟩
  | 9 => ⟨S131072x256, .f32⟩
  | 10 => ⟨S131072x256, .f32⟩
  | 11 => ⟨S_, .f32⟩
  | 12 => ⟨S_, .f32⟩
  | 13 => ⟨S_, .f32⟩
  | 14 => ⟨S_, .f32⟩
  | 15 => ⟨S256, .f32⟩
  | 16 => ⟨S256, .f32⟩
  | 17 => ⟨S256, .f32⟩
  | 18 => ⟨S_, .f32⟩
  | 19 => ⟨S_, .i1⟩
  | 20 => ⟨S_, .f32⟩
  | 21 => ⟨S_, .f32⟩
  | 22 => ⟨S256, .f32⟩
  | 23 => ⟨S256, .f32⟩
  | 24 => ⟨S1x256, .f32⟩
  | 25 => ⟨S131072x256, .f32⟩
  | 26 => ⟨S131072x256, .f32⟩
  | 27 => ⟨S1x256, .f32⟩
  | 28 => ⟨S131072x256, .f32⟩
  | 29 => ⟨S131072x256, .f32⟩
  | 30 => ⟨S_, .f32⟩
  | 31 => ⟨S256, .f32⟩
  | 32 => ⟨S256, .f32⟩
  | 33 => ⟨S256, .f32⟩
  | 34 => ⟨S1x256, .f32⟩
  | 35 => ⟨S131072x256, .f32⟩
  | 36 => ⟨S131072x256, .f32⟩
  | 37 => ⟨S1x256, .f32⟩
  | 38 => ⟨S131072x256, .f32⟩
  | 39 => ⟨S131072x256, .f32⟩
  | 40 => ⟨S131072x256, .f32⟩
  | 41 => ⟨S131072x256, .f32⟩
  | 42 => ⟨S_, .f32⟩
  | 43 => ⟨S131072x256, .f32⟩
  | 44 => ⟨S131072x256, .f32⟩
  | 45 => ⟨S_, .f32⟩
  | 46 => ⟨S131072x256, .f32⟩
  | 47 => ⟨S131072x256, .f32⟩
  | 48 => ⟨S131072x256, .f32⟩
  | 49 => ⟨S131072x256, .f32⟩
  | 50 => ⟨S131072x256, .f32⟩
  | _ => ⟨S131072x256, .f32⟩

abbrev hbmTy (i : Nat) : BufTy := match i / 128 with
  | 0 => hbmTy0_0 i
  | 1 => hbmTy0_1 i
  | 2 => hbmTy0_2 i
  | _ => ⟨S131072x256, .f32⟩

abbrev bufTy : (tb : Table) → Fin (tcTables nBuf tb) → BufTy
  | .hbm, ⟨i, _⟩ => hbmTy i
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_1 : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_3 : Ref sig .tc := ⟨.hbm, 47, rfl⟩
abbrev main_v29 : Ref sig .tc := ⟨.hbm, 48, rfl⟩
abbrev main_v30 : Ref sig .tc := ⟨.hbm, 49, rfl⟩
abbrev main_c_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_c_7 : Ref sig .tc := ⟨.hbm, 65, rfl⟩
abbrev main_call0_cst : Ref sig .tc := ⟨.hbm, 66, rfl⟩
abbrev main_call0_v0 : Ref sig .tc := ⟨.hbm, 67, rfl⟩
abbrev main_call0_v1 : Ref sig .tc := ⟨.hbm, 68, rfl⟩
abbrev main_call0_cst_0 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_v5 : Ref sig .tc := ⟨.hbm, 73, rfl⟩
abbrev main_call0_v6 : Ref sig .tc := ⟨.hbm, 74, rfl⟩
abbrev main_call0_v7 : Ref sig .tc := ⟨.hbm, 75, rfl⟩
abbrev main_call0_cst_1 : Ref sig .tc := ⟨.hbm, 76, rfl⟩
abbrev main_call0_v8 : Ref sig .tc := ⟨.hbm, 77, rfl⟩
abbrev main_call0_cst_2 : Ref sig .tc := ⟨.hbm, 78, rfl⟩
abbrev main_call0_v9 : Ref sig .tc := ⟨.hbm, 79, rfl⟩
abbrev main_call0_v10 : Ref sig .tc := ⟨.hbm, 80, rfl⟩
abbrev main_call0_v11 : Ref sig .tc := ⟨.hbm, 81, rfl⟩
abbrev main_call0_cst_3 : Ref sig .tc := ⟨.hbm, 82, rfl⟩
abbrev main_call0_v12 : Ref sig .tc := ⟨.hbm, 83, rfl⟩
abbrev main_call0_cst_4 : Ref sig .tc := ⟨.hbm, 84, rfl⟩
abbrev main_call0_call0_v0 : Ref sig .tc := ⟨.hbm, 85, rfl⟩
abbrev main_call0_call0_v1 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_cst_8 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_cst_9 : Ref sig .tc := ⟨.hbm, 106, rfl⟩
abbrev main_v61 : Ref sig .tc := ⟨.hbm, 107, rfl⟩
abbrev main_v62 : Ref sig .tc := ⟨.hbm, 108, rfl⟩
abbrev main_cst_10 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_c_11 : Ref sig .tc := ⟨.hbm, 114, rfl⟩
abbrev main_v67 : Ref sig .tc := ⟨.hbm, 115, rfl⟩
abbrev main_v68 : Ref sig .tc := ⟨.hbm, 116, rfl⟩
abbrev main_c_12 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_c_13 : Ref sig .tc := ⟨.hbm, 128, rfl⟩
abbrev main_v79 : Ref sig .tc := ⟨.hbm, 129, rfl⟩
abbrev main_v80 : Ref sig .tc := ⟨.hbm, 130, rfl⟩
abbrev main_c_14 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_c_15 : Ref sig .tc := ⟨.hbm, 143, rfl⟩
abbrev main_v92 : Ref sig .tc := ⟨.hbm, 144, rfl⟩
abbrev main_v93 : Ref sig .tc := ⟨.hbm, 145, rfl⟩
abbrev main_c_16 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_cst_17 : Ref sig .tc := ⟨.hbm, 156, rfl⟩
abbrev main_v103 : Ref sig .tc := ⟨.hbm, 157, rfl⟩
abbrev main_cst_18 : Ref sig .tc := ⟨.hbm, 158, rfl⟩
abbrev main_v104 : Ref sig .tc := ⟨.hbm, 159, rfl⟩
abbrev main_v105 : Ref sig .tc := ⟨.hbm, 160, rfl⟩
abbrev main_c_19 : Ref sig .tc := ⟨.hbm, 161, rfl⟩
abbrev main_call1_cst : Ref sig .tc := ⟨.hbm, 162, rfl⟩
abbrev main_call1_v0 : Ref sig .tc := ⟨.hbm, 163, rfl⟩
abbrev main_call1_v1 : Ref sig .tc := ⟨.hbm, 164, rfl⟩
abbrev main_call1_cst_0 : Ref sig .tc := ⟨.hbm, 165, rfl⟩
abbrev main_call1_v2 : Ref sig .tc := ⟨.hbm, 166, rfl⟩
abbrev main_call1_v3 : Ref sig .tc := ⟨.hbm, 167, rfl⟩
abbrev main_call1_v4 : Ref sig .tc := ⟨.hbm, 168, rfl⟩
abbrev main_call1_v5 : Ref sig .tc := ⟨.hbm, 169, rfl⟩
abbrev main_call1_v6 : Ref sig .tc := ⟨.hbm, 170, rfl⟩
abbrev main_call1_v7 : Ref sig .tc := ⟨.hbm, 171, rfl⟩
abbrev main_call1_cst_1 : Ref sig .tc := ⟨.hbm, 172, rfl⟩
abbrev main_call1_v8 : Ref sig .tc := ⟨.hbm, 173, rfl⟩
abbrev main_call1_cst_2 : Ref sig .tc := ⟨.hbm, 174, rfl⟩
abbrev main_call1_v9 : Ref sig .tc := ⟨.hbm, 175, rfl⟩
abbrev main_call1_v10 : Ref sig .tc := ⟨.hbm, 176, rfl⟩
abbrev main_call1_v11 : Ref sig .tc := ⟨.hbm, 177, rfl⟩
abbrev main_call1_cst_3 : Ref sig .tc := ⟨.hbm, 178, rfl⟩
abbrev main_call1_v12 : Ref sig .tc := ⟨.hbm, 179, rfl⟩
abbrev main_call1_cst_4 : Ref sig .tc := ⟨.hbm, 180, rfl⟩
abbrev main_call1_call0_v0 : Ref sig .tc := ⟨.hbm, 181, rfl⟩
abbrev main_call1_call0_v1 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_cst_20 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_cst_21 : Ref sig .tc := ⟨.hbm, 202, rfl⟩
abbrev main_v124 : Ref sig .tc := ⟨.hbm, 203, rfl⟩
abbrev main_v125 : Ref sig .tc := ⟨.hbm, 204, rfl⟩
abbrev main_cst_22 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_c_23 : Ref sig .tc := ⟨.hbm, 210, rfl⟩
abbrev main_v130 : Ref sig .tc := ⟨.hbm, 211, rfl⟩
abbrev main_v131 : Ref sig .tc := ⟨.hbm, 212, rfl⟩
abbrev main_c_24 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_c_25 : Ref sig .tc := ⟨.hbm, 224, rfl⟩
abbrev main_v142 : Ref sig .tc := ⟨.hbm, 225, rfl⟩
abbrev main_v143 : Ref sig .tc := ⟨.hbm, 226, rfl⟩
abbrev main_c_26 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_v153 : Ref sig .tc := ⟨.hbm, 237, rfl⟩
abbrev main_v154 : Ref sig .tc := ⟨.hbm, 238, rfl⟩
abbrev main_c_27 : Ref sig .tc := ⟨.hbm, 239, rfl⟩
abbrev main_v155 : Ref sig .tc := ⟨.hbm, 240, rfl⟩
abbrev main_v156 : Ref sig .tc := ⟨.hbm, 241, rfl⟩
abbrev main_c_28 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_v160 : Ref sig .tc := ⟨.hbm, 246, rfl⟩
abbrev main_v161 : Ref sig .tc := ⟨.hbm, 247, rfl⟩
abbrev main_v162 : Ref sig .tc := ⟨.hbm, 248, rfl⟩
abbrev main_v163 : Ref sig .tc := ⟨.hbm, 249, rfl⟩
abbrev main_v164 : Ref sig .tc := ⟨.hbm, 250, rfl⟩
abbrev main_v165 : Ref sig .tc := ⟨.hbm, 251, rfl⟩
abbrev main_cst_29 : Ref sig .tc := ⟨.hbm, 252, rfl⟩
abbrev main_v166 : Ref sig .tc := ⟨.hbm, 253, rfl⟩
abbrev main_cst_30 : Ref sig .tc := ⟨.hbm, 254, rfl⟩
abbrev main_v167 : Ref sig .tc := ⟨.hbm, 255, rfl⟩
abbrev main_v168 : Ref sig .tc := ⟨.hbm, 256, rfl⟩
abbrev main_c_31 : Ref sig .tc := ⟨.hbm, 257, rfl⟩
abbrev main_call2_cst : Ref sig .tc := ⟨.hbm, 258, rfl⟩
abbrev main_call2_v0 : Ref sig .tc := ⟨.hbm, 259, rfl⟩
abbrev main_call2_v1 : Ref sig .tc := ⟨.hbm, 260, rfl⟩
abbrev main_call2_cst_0 : Ref sig .tc := ⟨.hbm, 261, rfl⟩
abbrev main_call2_v2 : Ref sig .tc := ⟨.hbm, 262, rfl⟩
abbrev main_call2_v3 : Ref sig .tc := ⟨.hbm, 263, rfl⟩
abbrev main_call2_v4 : Ref sig .tc := ⟨.hbm, 264, rfl⟩
abbrev main_call2_v5 : Ref sig .tc := ⟨.hbm, 265, rfl⟩
abbrev main_call2_v6 : Ref sig .tc := ⟨.hbm, 266, rfl⟩
abbrev main_call2_v7 : Ref sig .tc := ⟨.hbm, 267, rfl⟩
abbrev main_call2_cst_1 : Ref sig .tc := ⟨.hbm, 268, rfl⟩
abbrev main_call2_v8 : Ref sig .tc := ⟨.hbm, 269, rfl⟩
abbrev main_call2_cst_2 : Ref sig .tc := ⟨.hbm, 270, rfl⟩
abbrev main_call2_v9 : Ref sig .tc := ⟨.hbm, 271, rfl⟩
abbrev main_call2_v10 : Ref sig .tc := ⟨.hbm, 272, rfl⟩
abbrev main_call2_v11 : Ref sig .tc := ⟨.hbm, 273, rfl⟩
abbrev main_call2_cst_3 : Ref sig .tc := ⟨.hbm, 274, rfl⟩
abbrev main_call2_v12 : Ref sig .tc := ⟨.hbm, 275, rfl⟩
abbrev main_call2_cst_4 : Ref sig .tc := ⟨.hbm, 276, rfl⟩
abbrev main_call2_call0_v0 : Ref sig .tc := ⟨.hbm, 277, rfl⟩
abbrev main_call2_call0_v1 : Ref sig .tc := ⟨.hbm, 278, rfl⟩
abbrev main_v169 : Ref sig .tc := ⟨.hbm, 279, rfl⟩
abbrev main_v170 : Ref sig .tc := ⟨.hbm, 280, rfl⟩
abbrev main_v171 : Ref sig .tc := ⟨.hbm, 281, rfl⟩
abbrev main_v172 : Ref sig .tc := ⟨.hbm, 282, rfl⟩
abbrev main_v173 : Ref sig .tc := ⟨.hbm, 283, rfl⟩
abbrev main_v174 : Ref sig .tc := ⟨.hbm, 284, rfl⟩
abbrev main_v175 : Ref sig .tc := ⟨.hbm, 285, rfl⟩
abbrev main_cst_32 : Ref sig .tc := ⟨.hbm, 286, rfl⟩
abbrev main_v176 : Ref sig .tc := ⟨.hbm, 287, rfl⟩
abbrev main_v177 : Ref sig .tc := ⟨.hbm, 288, rfl⟩
abbrev main_v178 : Ref sig .tc := ⟨.hbm, 289, rfl⟩
abbrev main_v179 : Ref sig .tc := ⟨.hbm, 290, rfl⟩
abbrev main_v180 : Ref sig .tc := ⟨.hbm, 291, rfl⟩
abbrev main_v181 : Ref sig .tc := ⟨.hbm, 292, rfl⟩
abbrev main_v182 : Ref sig .tc := ⟨.hbm, 293, rfl⟩
abbrev main_v183 : Ref sig .tc := ⟨.hbm, 294, rfl⟩
abbrev main_v184 : Ref sig .tc := ⟨.hbm, 295, rfl⟩
abbrev main_v185 : Ref sig .tc := ⟨.hbm, 296, rfl⟩
abbrev main_v186 : Ref sig .tc := ⟨.hbm, 297, rfl⟩
abbrev main_cst_33 : Ref sig .tc := ⟨.hbm, 298, rfl⟩
abbrev main_v187 : Ref sig .tc := ⟨.hbm, 299, rfl⟩
abbrev main_v188 : Ref sig .tc := ⟨.hbm, 300, rfl⟩
abbrev main_cst_34 : Ref sig .tc := ⟨.hbm, 301, rfl⟩
abbrev main_v189 : Ref sig .tc := ⟨.hbm, 302, rfl⟩
abbrev main_v190 : Ref sig .tc := ⟨.hbm, 303, rfl⟩
abbrev main_v191 : Ref sig .tc := ⟨.hbm, 304, rfl⟩
abbrev main_v192 : Ref sig .tc := ⟨.hbm, 305, rfl⟩
abbrev main_v193 : Ref sig .tc := ⟨.hbm, 306, rfl⟩

abbrev nD : Nat := 1
abbrev τ : Topo := Topo.v7x

variable {F : FTy → Type} [FloatOps F]

class Facts₀ : Prop where
  bcast_S_S1x256 : S_.BroadcastsInDim S1x256 (![] : Fin 0 → Fin S1x256.rank)
  concatenates_S131072x256_S1x256_S131073x256_d0 : Shape.Concatenates [S131072x256, S1x256] S131073x256 0
  slices_S131072x3_S131072x1_0_0 : S131072x3.Slices ![0, 0] S131072x1
  shapeCasts_S131072x1_S131072 : S131072x1.ShapeCasts S131072
  bcast_S_S131072 : S_.BroadcastsInDim S131072 (![] : Fin 0 → Fin S131072.rank)
  bcast_S131072_S131072x1_0 : S131072.BroadcastsInDim S131072x1 (![0] : Fin 1 → Fin S131072x1.rank)
  slices_S3x256x256_S1x256x256_0_0_0 : S3x256x256.Slices ![0, 0, 0] S1x256x256
  shapeCasts_S1x256x256_S256x256 : S1x256x256.ShapeCasts S256x256
  slices_S131072x3_S131072x1_0_1 : S131072x3.Slices ![0, 1] S131072x1
  slices_S3x256x256_S1x256x256_1_0_0 : S3x256x256.Slices ![1, 0, 0] S1x256x256
  slices_S131072x3_S131072x1_0_2 : S131072x3.Slices ![0, 2] S131072x1
  slices_S3x256x256_S1x256x256_2_0_0 : S3x256x256.Slices ![2, 0, 0] S1x256x256
  reducesTo_S131072x256_S256_d0 : S131072x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S_S131072x256 : S_.BroadcastsInDim S131072x256 (![] : Fin 0 → Fin S131072x256.rank)
  gather_S131073x256_S131072x1_S131072x256_1_0_n_n_0_1_1256_wf : GatherDims.WF S131073x256 S131072x1 S131072x256 [1] [0] [] [0] [] 1 ![1, 256]
  dot_S131072x256_S256x256_S131072x256_1_0_0_1_n_n_wf : DotDims.WF S131072x256 S256x256 S131072x256 [1] [0] [0] [1] [] []

variable [Facts₀]

def gather_S131073x256_S131072x1_S131072x256_1_0_n_n_0_1_1256 : GatherDims S131073x256 S131072x1 S131072x256 where
  offsetDims := [1]
  collapsedSliceDims := [0]
  operandBatchingDims := []
  startIndicesBatchingDims := []
  startIndexMap := [0]
  indexVectorDim := 1
  sliceSizes := ![1, 256]
  wf := gather_S131073x256_S131072x1_S131072x256_1_0_n_n_0_1_1256_wf
def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf

class Facts : Prop extends Facts₀ where

variable [Facts]
-- ==== Proof.KRun.lean ====
/-
  The idealized kernel's run with its result buffer named.

  The program is four pipelined regions among two stretches of host operations. The buffer contents at the seven segment
  boundaries — the launch and the end of each of the six segments — are a fold from the launch memory (`Gen.W0` … `Gen.W6`): a host stretch applies its operations, a region
  replaces each of its windows' arrays by what its write-backs leave and keeps every other buffer. Every weakly fair
  execution terminates in a state whose unscoped buffers hold the last boundary's contents; read at the result buffer
  and at the thirteen arguments this is the statement below. The arguments are written by no operation and no region,
  so they end as launched; the result is region 3's output array, a function of the arguments that is read off the
  four regions and the two host stretches separately.
-/
import proofs.«177556_j33500744909242_2_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the thirteen arguments as launched. -/
theorem run_value : θ_run defs (onTc (τ := τ) (main (F := F))) ⟨m, fun _ => 0, ρ⟩ (fun r => ∀ c : Dev nD,
      r.2.mem ((c.tc : Thread nD τ).loc main_v96) = W6 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v96 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)

end Cert.KernelIdeal.KValue

end
-- ==== Proof.KPay.lean ====
/-
  The conv body read at an index.

  At the ideal values the body of a conv region takes a 4096×768 block `x0` of gathered features (three 256-column
  taps side by side) and the 3×256×256 weights `x1`, and computes the 4096×256 block
      hBlock x0 x1 p q = ((0 + Σₖ x0[p, k]·x1[0, k, q]) + Σₖ x0[p, 256 + k]·x1[1, k, q]) + Σₖ x0[p, 512 + k]·x1[2, k, q]
  (three matrix products into zero accumulators, added to a zero splat from the left). It stores that block (the change of
  float format is the identity), the block's column sums Σₚ hBlock p q written to each of eight rows, and the column sums
  of its squares likewise.
-/
import proofs.«177556_j33500744909242_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KValue

open Cert.KernelIdeal Cert.KernelIdeal.Gen Idealize.ShloMosaic Idealize.ShloMosaic.ValueIdx

/-- The dimension numbers of each tap's product: rows × contraction times contraction × columns. -/
abbrev DD := dot_S4096x256_S256x256_S4096x256_1_0_0_1_n_n

/-- The left operand's index at output (p, q) and contraction position k is (p, k). -/
theorem lhs_ix (p : Fin 4096) (q : Fin 256) (k : Fin 256) :
    DD.lhsIdx (ix2 p q) ((contrEquiv1 DD 256 rfl rfl).symm k) = ix2 p k := by
  funext x; refine Fin.ext ?_
  match x with
  | ⟨0, _⟩ => rfl
  | ⟨1, _⟩ => exact (DD.lhsIdx_val_of_single (cl := 1) rfl _ _).trans (contrEquiv1_symm_val DD 256 rfl rfl k)

/-- The right operand's index there is (k, q). -/
theorem rhs_ix (p : Fin 4096) (q : Fin 256) (k : Fin 256) :
    DD.rhsIdx (ix2 p q) ((contrEquiv1 DD 256 rfl rfl).symm k) = ix2 k q := by
  funext x; refine Fin.ext ?_
  match x with
  | ⟨0, _⟩ => exact (DD.rhsIdx_val_of_single (cr := 0) rfl _ _).trans (contrEquiv1_symm_val DD 256 rfl rfl k)
  | ⟨1, _⟩ => rfl

/-- One tap: a 4096×256 block times one 256×256 slab of the weights, into a zero accumulator, is the plain sum over the
    contracted column. -/
theorem tap_apply (a : FVec Ideal S4096x256 .bf16) (w : FVec Ideal S1x256x256 .bf16) (p : Fin 4096) (q : Fin 256) :
    matmul DD none (shapeCast S4096x256 a shapeCasts_S4096x256_S4096x256)
      (shapeCast S256x256 w shapeCasts_S1x256x256_S256x256) (constant (F := Ideal) S4096x256 .f32 0x00000000#32) (ix2 p q)
    = ∑ k : Fin 256, a (ix2 p k) * w (ix3 (0 : Fin 1) k q) := by
  show FloatOps.matmul DD none (shapeCast S4096x256 a shapeCasts_S4096x256_S4096x256)
      (shapeCast S256x256 w shapeCasts_S1x256x256_S256x256) (constant (F := Ideal) S4096x256 .f32 0x00000000#32) (ix2 p q) = _
  refine (Ideal.matmul_constant_zero_apply DD none _ _ _).trans ?_
  rw [shapeCast_self, ← Equiv.sum_comp (contrEquiv1 DD 256 rfl rfl).symm]
  refine Finset.sum_congr rfl fun k _ => ?_
  rw [lhs_ix, rhs_ix, shapeCast_1ab_ab_apply]

/-- The block of the three-tap linear map. -/
def hBlock (x0 : FVec Ideal S4096x768 .bf16) (x1 : FVec Ideal S3x256x256 .bf16) (p : Fin 4096) (q : Fin 256) : EReal :=
  ((0 + ∑ k : Fin 256, x0 (ix2 p ⟨k.val, by omega⟩) * x1 (ix3 (0 : Fin 3) k q))
    + ∑ k : Fin 256, x0 (ix2 p ⟨256 + k.val, by omega⟩) * x1 (ix3 (1 : Fin 3) k q))
    + ∑ k : Fin 256, x0 (ix2 p ⟨512 + k.val, by omega⟩) * x1 (ix3 (2 : Fin 3) k q)

/-- A column slice of the feature block, read at (p, k): column `o + k`. -/
theorem ld_cols (x0 : FVec Ideal S4096x768 .bf16) (o : Nat) (inb : ∀ a, (![0, o] : Fin 2 → Nat) a + S4096x256.size a ≤ S4096x768.size a)
    (ho : o + 256 ≤ 768) (p : Fin 4096) (k : Fin 256) :
    View.ld (Val := Elt Ideal) (e' := EltTy.bf16) x0 (Rect.unit (s := S4096x768) ![0, o] S4096x256.size inb) (ix2 p k) = x0 (ix2 p ⟨o + k.val, by omega⟩) := by
  refine congrArg x0 (funext fun a => Fin.ext ?_)
  match a with
  | ⟨0, _⟩ => show 0 + 1 * p.val = p.val; omega
  | ⟨1, _⟩ => show o + 1 * k.val = o + k.val; omega

/-- A slab of the weights, read at (0, k, q): slab `t`. -/
theorem ld_slab (x1 : FVec Ideal S3x256x256 .bf16) (t : Nat) (inb : ∀ a, (![t, 0, 0] : Fin 3 → Nat) a + S1x256x256.size a ≤ S3x256x256.size a)
    (ht : t < 3) (u : Fin 1) (k q : Fin 256) :
    View.ld (Val := Elt Ideal) (e' := EltTy.bf16) x1 (Rect.unit (s := S3x256x256) ![t, 0, 0] S1x256x256.size inb) (ix3 u k q) = x1 (ix3 (⟨t, ht⟩ : Fin 3) k q) := by
  refine congrArg x1 (funext fun a => Fin.ext ?_)
  match a with
  | ⟨0, _⟩ => show t + 1 * u.val = t; omega
  | ⟨1, _⟩ => show 0 + 1 * k.val = k.val; omega
  | ⟨2, _⟩ => show 0 + 1 * q.val = q.val; omega

/-- The body's accumulated block is `hBlock` of the staged blocks. -/
theorem pay2_apply (x0 : FVec Ideal S4096x768 .bf16) (x1 : FVec Ideal S3x256x256 .bf16) (p : Fin 4096) (q : Fin 256) :
    k0_pay2 (F := Ideal) (View.ld (Val := Elt Ideal) (e' := EltTy.bf16) x0 r0_0) (View.ld (Val := Elt Ideal) (e' := EltTy.bf16) x1 r0_1) (View.ld (Val := Elt Ideal) (e' := EltTy.bf16) x0 r0_2) (View.ld (Val := Elt Ideal) (e' := EltTy.bf16) x1 r0_3) (View.ld (Val := Elt Ideal) (e' := EltTy.bf16) x0 r0_4) (View.ld (Val := Elt Ideal) (e' := EltTy.bf16) x1 r0_5) (ix2 p q)
      = hBlock x0 x1 p q := by
  unfold k0_pay2 hBlock
  show ((Ideal.ofBits .f32 0x00000000#32 + _) + _) + _ = _
  rw [tap_apply, tap_apply, tap_apply, Ideal.ofBits_zero_f32]
  simp only [ld_cols x0 0 _ (by omega), ld_cols x0 256 _ (by omega), ld_cols x0 512 _ (by omega),
    ld_slab x1 0 _ (by omega), ld_slab x1 1 _ (by omega), ld_slab x1 2 _ (by omega), Nat.zero_add]
  rfl

/-- The stored block is the accumulated one: the narrowing float format change is the identity. -/
theorem pay3_apply (x0 : FVec Ideal S4096x768 .bf16) (x1 : FVec Ideal S3x256x256 .bf16) (p : Fin 4096) (q : Fin 256) :
    k0_pay3 (F := Ideal) (View.ld (Val := Elt Ideal) (e' := EltTy.bf16) x0 r0_0) (View.ld (Val := Elt Ideal) (e' := EltTy.bf16) x1 r0_1) (View.ld (Val := Elt Ideal) (e' := EltTy.bf16) x0 r0_2) (View.ld (Val := Elt Ideal) (e' := EltTy.bf16) x1 r0_3) (View.ld (Val := Elt Ideal) (e' := EltTy.bf16) x0 r0_4) (View.ld (Val := Elt Ideal) (e' := EltTy.bf16) x1 r0_5) (ix2 p q) = hBlock x0 x1 p q := by
  unfold k0_pay3
  exact pay2_apply x0 x1 p q

/-- The row a reduced column index and a row coordinate name. -/
theorem lift_ix (c : Fin 256) (p : Fin 4096) : reduces_S4096x256_S256.lift (ix1 c) p = ix2 p c := by
  funext a; refine Fin.ext ?_
  match a with
  | ⟨0, _⟩ => rfl
  | ⟨1, _⟩ => rfl

/-- A [1,1,256] row broadcast over eight rows reads the row's entry. -/
theorem bcast8_apply (v : FVec Ideal S1x1x256 .f32) (u : Fin 1) (r : Fin 8) (c : Fin 256) :
    broadcastTo S1x8x256 v broadcasts_S1x1x256_S1x8x256 (ix3 u r c) = v (ix3 (0 : Fin 1) (0 : Fin 1) c) := by
  refine broadcastTo_apply v _ (ix3 u r c) (ix3 (0 : Fin 1) (0 : Fin 1) c) fun a => ?_
  match a with
  | ⟨0, _⟩ => rfl
  | ⟨1, _⟩ => rfl
  | ⟨2, _⟩ => rfl

/-- The first statistics row: the block's column sums, the same on each of the eight rows. -/
theorem pay4_apply (x0 : FVec Ideal S4096x768 .bf16) (x1 : FVec Ideal S3x256x256 .bf16) (u : Fin 1) (r : Fin 8) (c : Fin 256) :
    k0_pay4 (F := Ideal) (View.ld (Val := Elt Ideal) (e' := EltTy.bf16) x0 r0_0) (View.ld (Val := Elt Ideal) (e' := EltTy.bf16) x1 r0_1) (View.ld (Val := Elt Ideal) (e' := EltTy.bf16) x0 r0_2) (View.ld (Val := Elt Ideal) (e' := EltTy.bf16) x1 r0_3) (View.ld (Val := Elt Ideal) (e' := EltTy.bf16) x0 r0_4) (View.ld (Val := Elt Ideal) (e' := EltTy.bf16) x1 r0_5) (ix3 u r c) = ∑ p : Fin 4096, hBlock x0 x1 p c := by
  unfold k0_pay4
  refine (bcast8_apply _ u r c).trans ?_
  rw [shapeCast_self, shapeCast_ab_1ab_apply, shapeCast_a_1a_apply]
  refine (Ideal.multiReduction_add_single _ 0x00000000#32 reduces_S4096x256_S256 (.inl rfl) rfl (ix1 c)).trans ?_
  show (∑ p : Fin 4096, k0_pay2 (F := Ideal) (View.ld (Val := Elt Ideal) (e' := EltTy.bf16) x0 r0_0) (View.ld (Val := Elt Ideal) (e' := EltTy.bf16) x1 r0_1) (View.ld (Val := Elt Ideal) (e' := EltTy.bf16) x0 r0_2) (View.ld (Val := Elt Ideal) (e' := EltTy.bf16) x1 r0_3) (View.ld (Val := Elt Ideal) (e' := EltTy.bf16) x0 r0_4) (View.ld (Val := Elt Ideal) (e' := EltTy.bf16) x1 r0_5) (reduces_S4096x256_S256.lift (ix1 c) p)) = _
  refine Finset.sum_congr rfl fun p _ => ?_
  rw [lift_ix]
  exact pay2_apply x0 x1 p c

/-- The second statistics row: the column sums of the block's squares. -/
theorem pay15_apply (x0 : FVec Ideal S4096x768 .bf16) (x1 : FVec Ideal S3x256x256 .bf16) (u : Fin 1) (r : Fin 8) (c : Fin 256) :
    k0_pay1 (F := Ideal) (k0_pay5 (F := Ideal) (View.ld (Val := Elt Ideal) (e' := EltTy.bf16) x0 r0_0) (View.ld (Val := Elt Ideal) (e' := EltTy.bf16) x1 r0_1) (View.ld (Val := Elt Ideal) (e' := EltTy.bf16) x0 r0_2) (View.ld (Val := Elt Ideal) (e' := EltTy.bf16) x1 r0_3) (View.ld (Val := Elt Ideal) (e' := EltTy.bf16) x0 r0_4) (View.ld (Val := Elt Ideal) (e' := EltTy.bf16) x1 r0_5)) (ix3 u r c) = ∑ p : Fin 4096, hBlock x0 x1 p c * hBlock x0 x1 p c := by
  unfold k0_pay1 k0_pay5
  refine (bcast8_apply _ u r c).trans ?_
  rw [shapeCast_self, shapeCast_ab_1ab_apply, shapeCast_a_1a_apply]
  refine (Ideal.multiReduction_add_single _ 0x00000000#32 reduces_S4096x256_S256 (.inl rfl) rfl (ix1 c)).trans ?_
  show (∑ p : Fin 4096, k0_pay2 (F := Ideal) (View.ld (Val := Elt Ideal) (e' := EltTy.bf16) x0 r0_0) (View.ld (Val := Elt Ideal) (e' := EltTy.bf16) x1 r0_1) (View.ld (Val := Elt Ideal) (e' := EltTy.bf16) x0 r0_2) (View.ld (Val := Elt Ideal) (e' := EltTy.bf16) x1 r0_3) (View.ld (Val := Elt Ideal) (e' := EltTy.bf16) x0 r0_4) (View.ld (Val := Elt Ideal) (e' := EltTy.bf16) x1 r0_5) (reduces_S4096x256_S256.lift (ix1 c) p)
      * k0_pay2 (F := Ideal) (View.ld (Val := Elt Ideal) (e' := EltTy.bf16) x0 r0_0) (View.ld (Val := Elt Ideal) (e' := EltTy.bf16) x1 r0_1) (View.ld (Val := Elt Ideal) (e' := EltTy.bf16) x0 r0_2) (View.ld (Val := Elt Ideal) (e' := EltTy.bf16) x1 r0_3) (View.ld (Val := Elt Ideal) (e' := EltTy.bf16) x0 r0_4) (View.ld (Val := Elt Ideal) (e' := EltTy.bf16) x1 r0_5) (reduces_S4096x256_S256.lift (ix1 c) p)) = _
  refine Finset.sum_congr rfl fun p _ => ?_
  rw [lift_ix, pay2_apply x0 x1 p c]

/-- One row of the three-tap linear map of whole arrays: `A` holds, per row, the three gathered 256-column taps side by
    side; `Wt` the three 256×256 weight slabs. -/
def convRow (A : S131072x768.Idx → EReal) (Wt : S3x256x256.Idx → EReal) (i : Fin 131072) (q : Fin 256) : EReal :=
  ((0 + ∑ k : Fin 256, A (ix2 i ⟨k.val, by omega⟩) * Wt (ix3 (0 : Fin 3) k q))
    + ∑ k : Fin 256, A (ix2 i ⟨256 + k.val, by omega⟩) * Wt (ix3 (1 : Fin 3) k q))
    + ∑ k : Fin 256, A (ix2 i ⟨512 + k.val, by omega⟩) * Wt (ix3 (2 : Fin 3) k q)

theorem hz2 : (![0, 0] : Fin 2 → Nat) = fun _ => 0 := funext fun a => by fin_cases a <;> rfl
theorem hz3 : (![0, 0, 0] : Fin 3 → Nat) = fun _ => 0 := funext fun a => by fin_cases a <;> rfl

/-- The second and third conv regions run the same body. -/
theorem k1_pay3_eq : k1_pay3 (F := Ideal) = k0_pay3 (F := Ideal) := rfl
theorem k1_pay4_eq : k1_pay4 (F := Ideal) = k0_pay4 (F := Ideal) := rfl
theorem k1_pay5_eq : k1_pay5 (F := Ideal) = k0_pay5 (F := Ideal) := rfl
theorem k1_pay1_eq : k1_pay1 (F := Ideal) = k0_pay1 (F := Ideal) := rfl
theorem k2_pay3_eq : k2_pay3 (F := Ideal) = k0_pay3 (F := Ideal) := rfl
theorem k2_pay4_eq : k2_pay4 (F := Ideal) = k0_pay4 (F := Ideal) := rfl
theorem k2_pay5_eq : k2_pay5 (F := Ideal) = k0_pay5 (F := Ideal) := rfl
theorem k2_pay1_eq : k2_pay1 (F := Ideal) = k0_pay1 (F := Ideal) := rfl

end Cert.KernelIdeal.KValue

end
-- ==== Proof.Spec.lean ====
/-
  The mathematics both programs compute, over plain index types.

  One branch of the network: a three-tap linear map `h` of row-gathered, zero-padded features (131072 rows, 256
  channels), each channel normalised over all rows by its batch mean and (biased) batch variance, an affine map, and the
  logistic function. The result is the sum of three branches' activations, times the features.

  The normalisation is stated in two arrangements that agree on finite data:
  * the centred one: mean `μ = (Σᵢ h) / N`, variance `(Σᵢ (h − μ)²) / N`, activation `σ(g·(h − μ)·rsqrt(var + ε) + β)`
    with `σ(t) = 1 / (1 + e^(−t))` spelt out;
  * the blocked one: the rows are cut into 32 blocks of 4096; each block's column sum (and column sum of squares) is
    written eight times, the 256 copies are summed and the total divided by 8 and then by `N`; the variance is
    `E[h²] − mean²`; the affine map is folded into a scale `g·rsqrt(var + ε)` and a shift `β − mean·scale`.
  Every float literal is kept as its binary word.
-/
import Idealize.ShloMosaic.PureOps.Ideal

noncomputable section

namespace Cert.SubmBN

open Idealize.ShloMosaic

abbrev Rows := Fin 131072
abbrev Chan := Fin 256

/-- The float literals of the two programs, as extended reals: 8, 131072, 1e-5 (rounded to f32), 1. -/
abbrev c8 : EReal := Ideal.ofBits .f32 0x41000000#32
abbrev cN : EReal := Ideal.ofBits .f32 0x48000000#32
abbrev cEps : EReal := Ideal.ofBits .f32 0x3727C5AC#32
abbrev cOne : EReal := Ideal.ofBits .f32 0x3F800000#32

/-- The features with one zero row appended (row 131072). -/
def padded (x : Rows → Chan → EReal) : Fin 131073 → Chan → EReal :=
  fun r c => if h : r.val < 131072 then x ⟨r.val, h⟩ c else 0

/-- The three-tap linear map: tap `k` of output row `i` reads padded row `row i k`. -/
def conv3 (fp : Fin 131073 → Chan → EReal) (row : Rows → Fin 3 → Fin 131073) (W : Fin 3 → Chan → Chan → EReal)
    (i : Rows) (o : Chan) : EReal :=
  (∑ k : Chan, fp (row i 0) k * W 0 k o + ∑ k : Chan, fp (row i 1) k * W 1 k o) + ∑ k : Chan, fp (row i 2) k * W 2 k o

/-! ## The centred arrangement -/

def refMean (h : Rows → Chan → EReal) (c : Chan) : EReal := Ideal.div (0 + ∑ i : Rows, h i c) cN

def refVar (h : Rows → Chan → EReal) (c : Chan) : EReal :=
  Ideal.div (0 + ∑ i : Rows, (h i c - refMean h c) * (h i c - refMean h c)) cN

def refAct (h : Rows → Chan → EReal) (g β : Chan → EReal) (i : Rows) (c : Chan) : EReal :=
  Ideal.div cOne (cOne + Ideal.exp (-(g c * (h i c - refMean h c) * Ideal.rsqrt (refVar h c + cEps) + β c)))

/-! ## The blocked arrangement -/

/-- Row `j` of block `b`. -/
def blockRow (b : Fin 32) (j : Fin 4096) : Rows := ⟨b.val * 4096 + j.val, by omega⟩

def kerMean (h : Rows → Chan → EReal) (c : Chan) : EReal :=
  Ideal.div (Ideal.div (0 + ∑ b : Fin 32, ∑ _r : Fin 8, ∑ j : Fin 4096, h (blockRow b j) c) c8) cN

def kerMeanSq (h : Rows → Chan → EReal) (c : Chan) : EReal :=
  Ideal.div (Ideal.div (0 + ∑ b : Fin 32, ∑ _r : Fin 8, ∑ j : Fin 4096, h (blockRow b j) c * h (blockRow b j) c) c8) cN

def kerVar (h : Rows → Chan → EReal) (c : Chan) : EReal := kerMeanSq h c - kerMean h c * kerMean h c

def kerScale (h : Rows → Chan → EReal) (g : Chan → EReal) (c : Chan) : EReal := g c * Ideal.rsqrt (kerVar h c + cEps)

def kerShift (h : Rows → Chan → EReal) (g β : Chan → EReal) (c : Chan) : EReal := β c - kerMean h c * kerScale h g c

def kerAct (h : Rows → Chan → EReal) (g β : Chan → EReal) (i : Rows) (c : Chan) : EReal :=
  Ideal.logistic (h i c * kerScale h g c + kerShift h g β c)

/-! ## The whole result -/

/-- The result from three branches' activations `s₁ s₂ s₃` and the features. -/
def combine (s1 s2 s3 x : Rows → Chan → EReal) (i : Rows) (c : Chan) : EReal := (s1 i c + s2 i c + s3 i c) * x i c

end Cert.SubmBN

end
-- ==== Proof.Views.lean ====
/-
  Plain-index views of the arrays both programs handle, and the row a neighbour word selects.

  A feature matrix is read as a function of (row, channel), a per-channel vector as a function of the channel, the
  three-tap weight as a function of (tap, input channel, output channel). A neighbour word is turned into a row of the
  padded feature matrix in three steps: a negative word is wrapped by adding 131073 (so that −1 names the appended
  zero row 131072), the result is read as a signed integer, and it is clamped into [0, 131072].
-/
import proofs.«177556_j33500744909242_2_alg».proof.Proof.Spec
import Idealize.ShloMosaic.Lib.ValueIdx

noncomputable section

namespace Cert.SubmBN

open Idealize.ShloMosaic

/-- A 131072 × 256 array as a function of row and channel. -/
def mat (a : (⟨2, ![131072, 256]⟩ : Shape).Idx → EReal) : Rows → Chan → EReal := fun i c => a (ValueIdx.ix2 i c)

/-- A 256-vector as a function of the channel. -/
def vec (a : (⟨1, ![256]⟩ : Shape).Idx → EReal) : Chan → EReal := fun c => a (ValueIdx.ix1 c)

/-- A 3 × 256 × 256 array as a function of tap, input channel and output channel. -/
def ten (a : (⟨3, ![3, 256, 256]⟩ : Shape).Idx → EReal) : Fin 3 → Chan → Chan → EReal :=
  fun k p q => a (ValueIdx.ix3 k p q)

/-- The padded row one neighbour word names: a negative word is wrapped by adding 131073, the result is read as a
    signed integer and clamped into [0, 131072]. -/
def rowOf (n : BitVec 32) : Fin 131073 :=
  ⟨min (Scalar.select (IntOp.cmpi .slt n 0#32) (IntOp.addi n 131073#32) n).toInt.toNat 131072, by omega⟩

/-- The padded rows the neighbour table names: tap `k` of output row `i`. -/
def rows (nbr : (⟨2, ![131072, 3]⟩ : Shape).Idx → BitVec 32) : Rows → Fin 3 → Fin 131073 :=
  fun i k => rowOf (nbr (ValueIdx.ix2 i k))

end Cert.SubmBN

end
-- ==== Proof.LibRowGather.lean ====
/-
  A row gather read at an index.

  What `x[idx]` of a matrix `x : [N, C]` at an index column `idx : [R, 1]` lowers to: `stablehlo.gather` with
  offset_dims `[1]`, collapsed_slice_dims `[0]`, start_index_map `[0]`, index_vector_dim 1, slice_sizes `[1, C]` and no
  batching axes; the result has shape `[R, C]`. Result element `(r, c)` is `x` at the row "`idx[r, 0]` read as a signed
  integer and clamped into `[0, N − 1]`" and the column `c`: on operand axis 0 (in the start index map, collapsed) the
  operand index is the clamped start alone, on operand axis 1 (not in the start index map, so its start is 0; the one
  offset axis) it is the result's second coordinate.
-/
import Idealize.ShloMosaic.PureOps.ShapeOps
import Idealize.ShloMosaic.Lib.ValueIdx

namespace Idealize.ShloMosaic.RowGather

open Idealize.ShloMosaic Idealize.ShloMosaic.ValueIdx

variable {α : Type}

/-- The row gather's dimension numbers for an operand `[N, C]`, start indices `[R, 1]` and result `[R, C]`; their
    conditions `wf` are decided on a program's literal shapes. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`, for the record `rowDims`: the operand at row `idx[r, 0]`, read signed and clamped
    into `[0, N − 1]`, and column `c`. -/
theorem rowDims_gather_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N C R wf) x idx (ix2 r c)
      = x (ix2 ⟨min (idx (ix2 r ⟨0, Nat.one_pos⟩)).toInt.toNat (N - 1), by omega⟩ c) := by
  unfold Host.gather
  congr 1
  funext a
  refine Fin.ext ?_
  match a with
  | ⟨0, _⟩ =>
    show (rowDims N C R wf).start (ix2 r c) idx 0 + (rowDims N C R wf).batchCoord (ix2 r c) 0
      + (rowDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 r c) ⟨List.idxOf (0 : Fin 2) (rowDims N C R wf).startIndexMap,
        List.idxOf_lt_length_iff.2 (List.mem_singleton.mpr rfl)⟩ = ix2 r ⟨0, Nat.one_pos⟩ := by
      funext b; refine Fin.ext ?_
      match b with
      | ⟨0, _⟩ => rfl
      | ⟨1, _⟩ => rfl
    rw [hsi]
    rfl
  | ⟨1, _⟩ =>
    show (rowDims N C R wf).start (ix2 r c) idx 1 + (rowDims N C R wf).batchCoord (ix2 r c) 1
      + (rowDims N C R wf).offCoord (ix2 r c) 1 = c.val
    have hst : (rowDims N C R wf).start (ix2 r c) idx 1 = 0 := by
      unfold GatherDims.start
      rw [dif_neg (show ¬ (1 : Fin 2) ∈ (rowDims N C R wf).startIndexMap from
        (by decide : (1 : Fin 2) ∉ ([0] : List (Fin 2))))]
    have hk : (1 : Fin 2) ∈ (rowDims N C R wf).sKept :=
      (GatherDims.mem_sKept _ _).mpr ⟨(by decide : (1 : Fin 2) ∉ ([0] : List (Fin 2))), List.not_mem_nil⟩
    rw [hst, GatherDims.batchCoord_eq_zero _ _ _ List.not_mem_nil]
    simp only [Nat.zero_add]
    unfold GatherDims.offCoord
    rw [dif_pos hk]
    rfl

/-- THE ROW GATHER READ AT `(r, c)`, for any record with the row gather's dimension numbers: the operand at row
    `idx[r, 0]`, read signed and clamped into `[0, N − 1]`, and column `c`. -/
theorem rowGather_apply {N C R w : Nat} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (r : Fin R) (c : Fin C) :
    Host.gather d x idx (ix2 r c)
      = x (ix2 ⟨min (idx (ix2 r ⟨0, Nat.one_pos⟩)).toInt.toNat (N - 1), by omega⟩ c) := by
  obtain ⟨od, cd, ob, sb, sm, iv, ss, wf⟩ := d
  simp only at h1 h2 h3 h4 h5 h6 h7
  subst h1 h2 h3 h4 h5 h6 h7
  exact rowDims_gather_apply hN wf x idx r c

end Idealize.ShloMosaic.RowGather
-- ==== Proof.KHost0.lean ====
/-
  The host operations before the first pass, read at an index: the features get one zero row appended (and are narrowed
  to bf16, which the ideal values do not see); each neighbour table is flattened, its negative words wrapped by adding
  131073, and used to gather rows of the padded features, three taps side by side per output row. So entry
  `(i, 256·j + k)` of the gathered array is the padded features at the row word `(i, j)` names, channel `k`, and one
  row of the three-slab product of the gathered array with the weights is the three-tap linear map.
-/
import proofs.«177556_j33500744909242_2_alg».proof.KernelIdeal
import proofs.«177556_j33500744909242_2_alg».proof.Proof.KPay
import proofs.«177556_j33500744909242_2_alg».proof.Proof.Spec
import proofs.«177556_j33500744909242_2_alg».proof.Proof.Views
import proofs.«177556_j33500744909242_2_alg».proof.Proof.LibRowGather
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.KernelIdeal.KHost

open Idealize.ShloMosaic Idealize.ShloMosaic.ValueIdx Cert.KernelIdeal
open Cert.SubmBN (Rows Chan padded conv3 mat ten rowOf rows)

/-! ## The operations, composed -/

section Defs

variable {F : FTy → Type} [FloatOps F] [Cert.KernelIdeal.Facts]
open Facts₀ Facts

/-- The features with the zero row appended, narrowed to bf16. -/
def paddedK (x : FVec F S131072x256 .f32) : FVec F S131073x256 .bf16 :=
  truncf .bf16
    (concatenate S131073x256 0
      [⟨S131072x256, x⟩, ⟨S1x256, broadcastInDim S1x256 ![] bcast_S_S1x256 (constant S_ .f32 0x00000000#32)⟩]
      concatenates_S131072x256_S1x256_S131073x256_d0)
    bitsLt_bf16_f32

/-- A neighbour table flattened [131072, 3] → [393216]. -/
def flatK (nbr : IVec S131072x3 32) : IVec S393216 32 := shapeCast S393216 nbr shapeCasts_S131072x3_S393216

/-- The flattened table with its negative words wrapped: `select (n < 0) (n + 131073) n`. -/
def wrappedK (nbr : IVec S131072x3 32) : IVec S393216 32 :=
  select (cmpi .slt (flatK nbr) (broadcastInDim S393216 ![] bcast_S_S393216 (constantI S_ 32 0#32)))
    (addi (flatK nbr) (broadcastInDim S393216 ![] bcast_S_S393216 (constantI S_ 32 131073#32))) (flatK nbr)

/-- The gathered rows of the padded features, [393216, 256] reshaped to [131072, 768]. -/
def gatheredK (x : FVec F S131072x256 .f32) (nbr : IVec S131072x3 32) : FVec F S131072x768 .bf16 :=
  shapeCast S131072x768
    (Host.gather gather_S131073x256_S393216x1_S393216x256_1_0_n_n_0_1_1256 (paddedK x)
      (broadcastInDim S393216x1 ![0] bcast_S393216_S393216x1_0 (wrappedK nbr)))
    shapeCasts_S393216x256_S131072x768

/-- The weights narrowed to bf16. -/
def weightsK (W : FVec F S3x256x256 .f32) : FVec F S3x256x256 .bf16 := truncf .bf16 W bitsLt_bf16_f32

end Defs

/-! ## Their reading at the ideal values -/

section Apply

variable [Cert.KernelIdeal.Facts]
open Facts₀ Facts

/-- The padded features at row `ρ`, channel `k`: the features below row 131072, zero at the appended row. -/
theorem paddedK_apply (x : FVec Ideal S131072x256 .f32) (ρ : Fin 131073) (k : Fin 256) :
    paddedK x (ix2 ρ k) = padded (mat x) ρ k := by
  unfold paddedK padded
  rw [truncf_apply]
  split_ifs with h
  · exact concatenate_pair_apply_left (s₁ := S131072x256) (s₂ := S1x256) (0 : Fin S131073x256.rank) _ _ _ (ix2 ρ k) rfl
      (ix2 (⟨ρ.val, h⟩ : Fin 131072) k)
      (fun b => by match b with | ⟨0, _⟩ => rfl | ⟨1, _⟩ => rfl)
  · have hρ : ρ.val = 131072 := by omega
    rw [concatenate_pair_apply_right (s₁ := S131072x256) (s₂ := S1x256) (0 : Fin S131073x256.rank) _ _ _ (ix2 ρ k) rfl rfl
      (ix2 (0 : Fin 1) k)
      (fun b hb => by
        match b with
        | ⟨0, _⟩ => exact absurd rfl hb
        | ⟨1, _⟩ => rfl)
      (by show 0 + 131072 = ρ.val; omega)]
    rw [broadcastInDim_scalar_apply, constant_apply, Ideal.ofBits_zero_f32]

/-- The flattened table at position `3i + j` is the table at `(i, j)`. -/
theorem flatK_apply (nbr : IVec S131072x3 32) (i : Fin 131072) (j : Fin 3) :
    flatK nbr (ix1 (⟨3 * i.val + j.val, by omega⟩ : Fin 393216)) = nbr (ix2 i j) := by
  unfold flatK
  refine shapeCast_apply nbr _ _ (ix2 i j) ?_
  rw [Shape.rowMajor_val_two, Shape.rowMajor_val_one]
  show i.val * 3 + j.val = 3 * i.val + j.val
  omega

/-- The wrapped table at position `3i + j`: the word at `(i, j)`, plus 131073 when negative. -/
theorem wrappedK_apply (nbr : IVec S131072x3 32) (i : Fin 131072) (j : Fin 3) :
    wrappedK nbr (ix1 (⟨3 * i.val + j.val, by omega⟩ : Fin 393216))
      = Scalar.select (IntOp.cmpi .slt (nbr (ix2 i j)) 0#32) (IntOp.addi (nbr (ix2 i j)) 131073#32) (nbr (ix2 i j)) := by
  unfold wrappedK
  rw [select_apply]
  show Scalar.select (IntOp.cmpi .slt (flatK nbr _) (broadcastInDim S393216 ![] bcast_S_S393216 (constantI S_ 32 0#32) _))
    (IntOp.addi (flatK nbr _) (broadcastInDim S393216 ![] bcast_S_S393216 (constantI S_ 32 131073#32) _)) (flatK nbr _) = _
  rw [broadcastInDim_scalar_apply, broadcastInDim_scalar_apply, constantI_apply, constantI_apply, flatK_apply]

/-- Entry `(i, c)` of the gathered array, for `c = 256·j + k`: the padded features at the row the word `(i, j)` names,
    channel `k`. -/
theorem gatheredK_apply_of_eq (x : FVec Ideal S131072x256 .f32) (nbr : IVec S131072x3 32) (i : Fin 131072) (j : Fin 3)
    (k : Fin 256) (c : Fin 768) (hc : c.val = 256 * j.val + k.val) :
    gatheredK x nbr (ix2 i c) = padded (mat x) (rowOf (nbr (ix2 i j))) k := by
  unfold gatheredK
  rw [shapeCast_apply _ _ _ (ix2 (⟨3 * i.val + j.val, by omega⟩ : Fin 393216) k) (by
    rw [Shape.rowMajor_val_two, Shape.rowMajor_val_two]
    show (3 * i.val + j.val) * 256 + k.val = i.val * 768 + c.val
    omega)]
  rw [RowGather.rowGather_apply (by norm_num) _ rfl rfl rfl rfl rfl rfl rfl]
  rw [paddedK_apply]
  refine congrArg (fun ρ => padded (mat x) ρ k) (Fin.ext ?_)
  dsimp only [rowOf]
  rw [broadcastInDim_apply ![0] _ (wrappedK nbr) _ (ix1 (⟨3 * i.val + j.val, by omega⟩ : Fin 393216)) (fun a => by
    match a with
    | ⟨0, _⟩ => exact (if_neg (show ¬ (393216 : Nat) = 1 by omega)).symm)]
  rw [wrappedK_apply]

theorem gatheredK_apply (x : FVec Ideal S131072x256 .f32) (nbr : IVec S131072x3 32) (i : Fin 131072) (j : Fin 3)
    (k : Fin 256) :
    gatheredK x nbr (ix2 i ⟨256 * j.val + k.val, by omega⟩) = padded (mat x) (rowOf (nbr (ix2 i j))) k :=
  gatheredK_apply_of_eq x nbr i j k _ rfl

/-- The narrowed weights are the weights. -/
theorem weightsK_apply (W : FVec Ideal S3x256x256 .f32) (j : Fin 3) (p q : Fin 256) :
    weightsK W (ix3 j p q) = ten W j p q := by
  unfold weightsK
  rw [truncf_apply]
  rfl

/-- One row of the three-slab product of the gathered array with the narrowed weights is the three-tap linear map of the
    padded features: the column offsets 0, 256, 512 are `256·j` for the taps `j = 0, 1, 2`. -/
theorem convRow_gatheredK (x : FVec Ideal S131072x256 .f32) (nbr : IVec S131072x3 32) (W : FVec Ideal S3x256x256 .f32)
    (i : Fin 131072) (q : Fin 256) :
    Cert.KernelIdeal.KValue.convRow (gatheredK x nbr) (weightsK W) i q
      = conv3 (padded (mat x)) (rows nbr) (ten W) i q := by
  have e0 : ∀ k : Fin 256, gatheredK x nbr (ix2 i ⟨k.val, by omega⟩) = padded (mat x) (rows nbr i 0) k :=
    fun k => gatheredK_apply_of_eq x nbr i 0 k _ (by show k.val = 256 * 0 + k.val; omega)
  have e1 : ∀ k : Fin 256, gatheredK x nbr (ix2 i ⟨256 + k.val, by omega⟩) = padded (mat x) (rows nbr i 1) k :=
    fun k => gatheredK_apply_of_eq x nbr i 1 k _ (by show 256 + k.val = 256 * 1 + k.val; omega)
  have e2 : ∀ k : Fin 256, gatheredK x nbr (ix2 i ⟨512 + k.val, by omega⟩) = padded (mat x) (rows nbr i 2) k :=
    fun k => gatheredK_apply_of_eq x nbr i 2 k _ (by show 512 + k.val = 256 * 2 + k.val; omega)
  unfold Cert.KernelIdeal.KValue.convRow conv3
  rw [zero_add]
  simp only [e0, e1, e2, weightsK_apply]

end Apply

end Cert.KernelIdeal.KHost

end
-- ==== Proof.KHost3.lean ====
/-
  The host operations between the statistics pass and the normalising pass, per branch: two [32, 8, 256] arrays of
  per-block column sums (each block's sum written eight times) become the [1, 256] scale and shift rows. Read at the
  ideal values, the reduction over the two leading axes is `0 + Σ_b Σ_r`, and what follows is, word for word, the
  blocked arrangement's mean, mean of squares, variance, scale `g · rsqrt(var + ε)` and shift `β − mean · scale`.
-/
import proofs.«177556_j33500744909242_2_alg».proof.KernelIdeal
import proofs.«177556_j33500744909242_2_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.KernelIdeal.KHost

open Idealize.ShloMosaic Idealize.ShloMosaic.ValueIdx Cert.KernelIdeal
open Cert.SubmBN (Rows Chan blockRow kerMean kerMeanSq kerVar kerScale kerShift c8 cN cEps)

/-! ## The reduction over the two leading axes -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- An index of the [32, 8, 256] array reduces, over axes 0 and 1, to column `c` exactly when its last coordinate is
    `c`. -/
theorem drop01_eq_iff (hr : S32x8x256.ReducesTo [0, 1] S256) (b : Fin 32) (r : Fin 8) (c' c : Fin 256) :
    hr.drop (ix3 b r c') = ix1 c ↔ c' = c := by
  have hv : ((hr.drop (ix3 b r c') 0 : Fin _) : Nat) = c'.val :=
    Shape.ReducesTo.drop_apply_val_of_eq hr (ix3 b r c') 0 2
  constructor
  · intro e
    apply Fin.ext
    rw [← hv, e]
  · intro e
    subst e
    funext d
    match d with
    | ⟨0, _⟩ => exact Fin.ext hv

/-- The host's sum over axes 0 and 1 of a [32, 8, 256] array, at column `c`: the initial value plus the double sum
    over block and copy. -/
theorem hostReduceAdd01_apply (hr : S32x8x256.ReducesTo [0, 1] S256) (x : S32x8x256.Idx → EReal) (init : EReal)
    (c : Fin 256) :
    Ideal.hostReduceAdd hr x init (ix1 c) = init + ∑ b : Fin 32, ∑ r : Fin 8, x (ix3 b r c) := by
  unfold Ideal.hostReduceAdd
  congr 1
  rw [Finset.sum_filter, ← Equiv.sum_comp (idxEquiv3 (n0 := 32) (n1 := 8) (n2 := 256)).symm, Fintype.sum_prod_type]
  refine Finset.sum_congr rfl fun b _ => ?_
  rw [Fintype.sum_prod_type]
  refine Finset.sum_congr rfl fun r _ => ?_
  show (∑ c' : Fin 256, if hr.drop (ix3 b r c') = ix1 c then x (ix3 b r c') else 0) = x (ix3 b r c)
  simp only [drop01_eq_iff, Finset.sum_ite_eq', Finset.mem_univ, if_true]

/-! ## The operations, composed -/

section Defs

variable {F : FTy → Type} [FloatOps F] [Cert.KernelIdeal.Facts]
open Facts₀ Facts

/-- A [32, 8, 256] array of block sums to the [256] row of means: sum over axes 0 and 1 from 0, divide by the 8.0
    splat, divide by the 131072.0 splat. -/
def meanRow (sumP : FVec F S32x8x256 .f32) : FVec F S256 .f32 :=
  Host.divf
    (Host.divf (Host.reduceAdd sumP (constant S_ .f32 0x00000000#32) reducesTo_S32x8x256_S256_d0_1 h_S_)
      (broadcastInDim S256 ![] bcast_S_S256 (constant S_ .f32 0x41000000#32)))
    (broadcastInDim S256 ![] bcast_S_S256 (constant S_ .f32 0x48000000#32))

/-- The [256] scale row: `g · rsqrt((E[h²] − mean·mean) + ε)`. -/
def scaleRow (sumP sumsqP : FVec F S32x8x256 .f32) (g : FVec F S256 .f32) : FVec F S256 .f32 :=
  mulf g (Host.rsqrt (addf (subf (meanRow sumsqP) (mulf (meanRow sumP) (meanRow sumP)))
    (broadcastInDim S256 ![] bcast_S_S256 (constant S_ .f32 0x3727C5AC#32))))

/-- The scale row, reshaped [256] → [1, 256]. -/
def scaleK (sumP sumsqP : FVec F S32x8x256 .f32) (g : FVec F S256 .f32) : FVec F S1x256 .f32 :=
  shapeCast S1x256 (scaleRow sumP sumsqP g) shapeCasts_S256_S1x256

/-- The shift row `β − mean · scale`, reshaped [256] → [1, 256]. -/
def shiftK (sumP sumsqP : FVec F S32x8x256 .f32) (g β : FVec F S256 .f32) : FVec F S1x256 .f32 :=
  shapeCast S1x256 (subf β (mulf (meanRow sumP) (scaleRow sumP sumsqP g))) shapeCasts_S256_S1x256

end Defs

/-! ## Their reading at the ideal values -/

section Apply

variable [Cert.KernelIdeal.Facts]
open Facts₀ Facts

/-- The row of means of block sums `S (b, r, c) = f b c` at column `c`: the blocked arrangement's
    `((0 + Σ_b Σ_r f b c) / 8) / 131072`. -/
theorem meanRow_apply (S : FVec Ideal S32x8x256 .f32) (f : Fin 32 → Fin 256 → EReal)
    (hS : ∀ (b : Fin 32) (r : Fin 8) (c : Fin 256), S (ix3 b r c) = f b c) (c : Fin 256) :
    meanRow S (ix1 c) = Ideal.div (Ideal.div (0 + ∑ b : Fin 32, ∑ _r : Fin 8, f b c) c8) cN := by
  unfold meanRow
  rw [hostDivf_apply, hostDivf_apply, hostReduceAdd_apply, hostReduceAdd01_apply, broadcastInDim_scalar_apply,
    broadcastInDim_scalar_apply, constant_apply, constant_apply, constant_apply, Ideal.ofBits_zero_f32]
  simp only [hS]

/-- The row of means of the block sums of `h` is the blocked arrangement's mean. -/
theorem meanRow_sum (sumP : FVec Ideal S32x8x256 .f32) (h : Rows → Chan → EReal)
    (hP : ∀ (b : Fin 32) (r : Fin 8) (c : Fin 256), sumP (ix3 b r c) = ∑ j : Fin 4096, h (blockRow b j) c)
    (c : Fin 256) : meanRow sumP (ix1 c) = kerMean h c :=
  meanRow_apply sumP (fun b c => ∑ j : Fin 4096, h (blockRow b j) c) hP c

/-- The row of means of the block sums of squares is the blocked arrangement's mean of squares. -/
theorem meanRow_sumsq (sumsqP : FVec Ideal S32x8x256 .f32) (h : Rows → Chan → EReal)
    (hQ : ∀ (b : Fin 32) (r : Fin 8) (c : Fin 256),
      sumsqP (ix3 b r c) = ∑ j : Fin 4096, h (blockRow b j) c * h (blockRow b j) c)
    (c : Fin 256) : meanRow sumsqP (ix1 c) = kerMeanSq h c :=
  meanRow_apply sumsqP (fun b c => ∑ j : Fin 4096, h (blockRow b j) c * h (blockRow b j) c) hQ c

/-- The scale row at column `c` is the blocked arrangement's scale. -/
theorem scaleRow_apply (sumP sumsqP : FVec Ideal S32x8x256 .f32) (g : FVec Ideal S256 .f32) (h : Rows → Chan → EReal)
    (hP : ∀ (b : Fin 32) (r : Fin 8) (c : Fin 256), sumP (ix3 b r c) = ∑ j : Fin 4096, h (blockRow b j) c)
    (hQ : ∀ (b : Fin 32) (r : Fin 8) (c : Fin 256),
      sumsqP (ix3 b r c) = ∑ j : Fin 4096, h (blockRow b j) c * h (blockRow b j) c)
    (c : Fin 256) : scaleRow sumP sumsqP g (ix1 c) = kerScale h (fun c => g (ix1 c)) c := by
  show g (ix1 c) * Ideal.rsqrt ((meanRow sumsqP (ix1 c) - meanRow sumP (ix1 c) * meanRow sumP (ix1 c))
    + broadcastInDim S256 ![] bcast_S_S256 (constant (F := Ideal) S_ .f32 0x3727C5AC#32) (ix1 c)) = _
  rw [meanRow_sum sumP h hP, meanRow_sumsq sumsqP h hQ, broadcastInDim_scalar_apply, constant_apply]
  rfl

theorem scaleK_apply (sumP sumsqP : FVec Ideal S32x8x256 .f32) (g : FVec Ideal S256 .f32) (h : Rows → Chan → EReal)
    (hP : ∀ (b : Fin 32) (r : Fin 8) (c : Fin 256), sumP (ix3 b r c) = ∑ j : Fin 4096, h (blockRow b j) c)
    (hQ : ∀ (b : Fin 32) (r : Fin 8) (c : Fin 256),
      sumsqP (ix3 b r c) = ∑ j : Fin 4096, h (blockRow b j) c * h (blockRow b j) c)
    (u : Fin 1) (c : Fin 256) :
    scaleK sumP sumsqP g (ix2 u c) = kerScale h (fun c => g (ix1 c)) c := by
  unfold scaleK
  rw [shapeCast_a_1a_apply]
  exact scaleRow_apply sumP sumsqP g h hP hQ c

theorem shiftK_apply (sumP sumsqP : FVec Ideal S32x8x256 .f32) (g β : FVec Ideal S256 .f32) (h : Rows → Chan → EReal)
    (hP : ∀ (b : Fin 32) (r : Fin 8) (c : Fin 256), sumP (ix3 b r c) = ∑ j : Fin 4096, h (blockRow b j) c)
    (hQ : ∀ (b : Fin 32) (r : Fin 8) (c : Fin 256),
      sumsqP (ix3 b r c) = ∑ j : Fin 4096, h (blockRow b j) c * h (blockRow b j) c)
    (u : Fin 1) (c : Fin 256) :
    shiftK sumP sumsqP g β (ix2 u c) = kerShift h (fun c => g (ix1 c)) (fun c => β (ix1 c)) c := by
  unfold shiftK
  rw [shapeCast_a_1a_apply, subf_apply, mulf_apply, meanRow_sum sumP h hP, scaleRow_apply sumP sumsqP g h hP hQ]
  rfl

end Apply

end Cert.KernelIdeal.KHost

end
-- ==== Proof.KConv0.lean ====
/-
  Conv region 0: its three output arrays as whole-array functions of its two input arrays.

  The region runs 32 grid points. Point `t` stages rows [4096·t, 4096·t + 4096) of the gathered features `A`
  (131072×768) and all of the weights `Wt` (3×256×256), and writes back rows [4096·t, 4096·t + 4096) of the
  output `h` and row `t` (eight copies) of each statistics array. So, with
      convRow A Wt i q = ((0 + Σₖ A[i, k]·Wt[0, k, q]) + Σₖ A[i, 256 + k]·Wt[1, k, q]) + Σₖ A[i, 512 + k]·Wt[2, k, q],
  the output ends at `convRow`, the first statistics array at the block's column sums of `convRow` and the second at
  the block's column sums of its squares. The blocks tile each array, so every entry is covered.
-/
import proofs.«177556_j33500744909242_2_alg».proof.Proof.KPay
import proofs.«177556_j33500744909242_2_alg».proof.Proof.Spec

set_option maxRecDepth 16384

noncomputable section

namespace Cert.KernelIdeal.KValue

open Cert.KernelIdeal Cert.KernelIdeal.Gen Idealize.ShloMosaic Idealize.ShloMosaic.ValueIdx Idealize.ShloMosaic.TcCoe
open Idealize.SL.Sem
open Idealize.ShloMosaic.Pipeline (Dat)
open Cert.SubmBN (blockRow)

variable (V : (c : Dev nD) → (b : Ref sig .tc) → Buf (Elt Ideal) ((c : Thread nD τ).loc b))

/-- The printed index maps over the grid: the row-blocked windows move with the point, the weights stay. -/
theorem idx_facts0 : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- The staged feature block at point `t`, read at (p, k): row 4096·t + p of the array. -/
theorem blkA0_read (c : Dev nD) (t : Fin cfg0.N) (p : Fin 4096) (k : Fin 768) :
    iblk0 V c 0 t (ix2 p k) = V c main_v11 (ix2 (blockRow ⟨t.val, t.isLt⟩ p) k) := by
  obtain ⟨e0, e1, -⟩ := idx_facts0 t
  show V c main_v11 (((cfg0.win 0).blk t).view.emb (ix2 p k)) = _
  refine congrArg (V c main_v11) (funext fun a => Fin.ext ?_)
  match a with
  | ⟨0, _⟩ => show win0_0.index t (0 : Fin 2) * 4096 + 1 * p.val = t.val * 4096 + p.val; rw [e0]; omega
  | ⟨1, _⟩ => show win0_0.index t (1 : Fin 2) * 768 + 1 * k.val = k.val; rw [e1]; omega

/-- The staged weights at any point are the whole array. -/
theorem blkW0_read (c : Dev nD) (t : Fin cfg0.N) (s : Fin 3) (k q : Fin 256) :
    iblk0 V c 1 t (ix3 s k q) = V c main_v30 (ix3 s k q) := by
  obtain ⟨-, -, e0, e1, e2, -⟩ := idx_facts0 t
  show V c main_v30 (((cfg0.win 1).blk t).view.emb (ix3 s k q)) = _
  refine congrArg (V c main_v30) (funext fun a => Fin.ext ?_)
  match a with
  | ⟨0, _⟩ => show win0_1.index t (0 : Fin 3) * 3 + 1 * s.val = s.val; rw [e0]; omega
  | ⟨1, _⟩ => show win0_1.index t (1 : Fin 3) * 256 + 1 * k.val = k.val; rw [e1]; omega
  | ⟨2, _⟩ => show win0_1.index t (2 : Fin 3) * 256 + 1 * q.val = q.val; rw [e2]; omega

/-- The block the body computes at point `t` is rows 4096·t + p of `convRow` of the two arrays. -/
theorem hBlock0_eq (c : Dev nD) (t : Fin cfg0.N) (p : Fin 4096) (q : Fin 256) :
    hBlock (iblk0 V c 0 t) (iblk0 V c 1 t) p q = convRow (V c main_v11) (V c main_v30) (blockRow ⟨t.val, t.isLt⟩ p) q := by
  unfold hBlock convRow
  simp only [blkA0_read V c t, blkW0_read V c t]

/-! ## Output window 2: the block of `h` -/

/-- What point `t` writes back to the output is block `t` of `convRow`. -/
theorem flushed0_2_eq (c : Dev nD) (t : Fin cfg0.N) :
    (dat0 V c).flushed 2 t = ((cfg0.win 2).blk t).view.read (Elt Ideal)
      (fun i : S131072x256.Idx => convRow (V c main_v11) (V c main_v30) (i 0) (i 1)) := by
  show (cfg0.win 2).cut (grid0.coords t) ((dat0 V c).after 2 t) = _
  rw [after0_2]
  unfold out0_2
  rw [View.canon_unit_zero hz2]
  obtain ⟨-, -, -, -, -, e0, e1, -⟩ := idx_facts0 t
  funext j
  obtain ⟨p, q, rfl⟩ : ∃ (p : Fin 4096) (q : Fin 256), j = ix2 p q := ⟨j 0, j 1, eq_ix2 j⟩
  refine ((pay3_apply (iblk0 V c 0 t) (iblk0 V c 1 t) p q)).trans ?_
  refine (hBlock0_eq V c t p q).trans (congrArg₂ (convRow (V c main_v11) (V c main_v30)) (Fin.ext ?_) (Fin.ext ?_))
  · show t.val * 4096 + p.val = win0_2.index t (0 : Fin 2) * 4096 + 1 * p.val
    rw [e0]; omega
  · show q.val = win0_2.index t (1 : Fin 2) * 256 + 1 * q.val
    rw [e1]; omega

/-- An index of the output is in point `t`'s block iff each coordinate is in the block's range. -/
theorem mem_blk0_2 (t : Fin cfg0.N) (i : S131072x256.Idx) :
    i ∈ ((cfg0.win 2).blk t).view.set ↔ ∀ a : Fin 2, win0_2.index t a * S4096x256.size a ≤ (i a).val ∧ (i a).val < win0_2.index t a * S4096x256.size a + S4096x256.size a := by
  show i ∈ ((View.whole main_v33_0).slice (win0_2.rect t)).set ↔ _
  rw [View.set_slice_whole, Rect.mem_set_unit]
  exact Iff.rfl

/-- Every row of the output lies in the block of the point `row / 4096`. -/
theorem cover0_2_all (i : S131072x256.Idx) :
    ∃ t : Fin cfg0.N, (cfg0.win 2).flush t = true ∧ i ∈ ((cfg0.win 2).blk t).view.set := by
  have hi0 : (i 0).val < 131072 := idx2_lt0 i
  have hi1 : (i 1).val < 256 := idx2_lt1 i
  have ht : (i 0).val / 4096 < 32 := by omega
  refine ⟨⟨(i 0).val / 4096, ht⟩, flush0_2 _, ?_⟩
  obtain ⟨-, -, -, -, -, e0, e1, -⟩ := idx_facts0 ⟨(i 0).val / 4096, ht⟩
  rw [mem_blk0_2]
  intro a
  match a with
  | ⟨0, _⟩ =>
    show win0_2.index ⟨(i 0).val / 4096, ht⟩ (0 : Fin 2) * 4096 ≤ (i 0).val ∧ (i 0).val < win0_2.index ⟨(i 0).val / 4096, ht⟩ (0 : Fin 2) * 4096 + 4096
    rw [e0]; show (i 0).val / 4096 * 4096 ≤ (i 0).val ∧ (i 0).val < (i 0).val / 4096 * 4096 + 4096; omega
  | ⟨1, _⟩ =>
    show win0_2.index ⟨(i 0).val / 4096, ht⟩ (1 : Fin 2) * 256 ≤ (i 1).val ∧ (i 1).val < win0_2.index ⟨(i 0).val / 4096, ht⟩ (1 : Fin 2) * 256 + 256
    rw [e1]; omega

/-- The output array after the region: `convRow` of the region's two input arrays. -/
theorem final0_2 (c : Dev nD) :
    (dat0 V c).arrAt 2 cfg0.N = fun i : S131072x256.Idx => convRow (V c main_v11) (V c main_v30) (i 0) (i 1) :=
  (dat0 V c).arrAt_eq_of_cover 2 _ (fun t _ => flushed0_2_eq V c t) cover0_2_all

/-! ## Output windows 3 and 4: the block's column sums, and column sums of squares -/

/-- Column `q` of `convRow` summed over block `b`'s rows. -/
def colSum (A : S131072x768.Idx → EReal) (Wt : S3x256x256.Idx → EReal) (b : Fin 32) (q : Fin 256) : EReal :=
  ∑ p : Fin 4096, convRow A Wt (blockRow b p) q

/-- Column `q` of the squares of `convRow` summed over block `b`'s rows. -/
def colSumSq (A : S131072x768.Idx → EReal) (Wt : S3x256x256.Idx → EReal) (b : Fin 32) (q : Fin 256) : EReal :=
  ∑ p : Fin 4096, convRow A Wt (blockRow b p) q * convRow A Wt (blockRow b p) q

theorem flushed0_3_eq (c : Dev nD) (t : Fin cfg0.N) :
    (dat0 V c).flushed 3 t = ((cfg0.win 3).blk t).view.read (Elt Ideal)
      (fun i : S32x8x256.Idx => colSum (V c main_v11) (V c main_v30) (i 0) (i 2)) := by
  show (cfg0.win 3).cut (grid0.coords t) ((dat0 V c).after 3 t) = _
  rw [after0_3]
  unfold out0_3
  rw [View.canon_unit_zero hz3]
  obtain ⟨-, -, -, -, -, -, -, e0, e1, e2, -⟩ := idx_facts0 t
  funext j
  obtain ⟨u, r, q, rfl⟩ : ∃ (u : Fin 1) (r : Fin 8) (q : Fin 256), j = ix3 u r q := ⟨j 0, j 1, j 2, eq_ix3 j⟩
  refine ((pay4_apply (iblk0 V c 0 t) (iblk0 V c 1 t) u r q)).trans ?_
  refine (Finset.sum_congr rfl fun p _ => hBlock0_eq V c t p q).trans ?_
  refine congrArg₂ (colSum (V c main_v11) (V c main_v30)) (Fin.ext ?_) (Fin.ext ?_)
  · show t.val = win0_3.index t (0 : Fin 3) * 1 + 1 * u.val
    rw [e0]; omega
  · show q.val = win0_3.index t (2 : Fin 3) * 256 + 1 * q.val
    rw [e2]; omega

theorem flushed0_4_eq (c : Dev nD) (t : Fin cfg0.N) :
    (dat0 V c).flushed 4 t = ((cfg0.win 4).blk t).view.read (Elt Ideal)
      (fun i : S32x8x256.Idx => colSumSq (V c main_v11) (V c main_v30) (i 0) (i 2)) := by
  show (cfg0.win 4).cut (grid0.coords t) ((dat0 V c).after 4 t) = _
  rw [after0_4]
  unfold out0_4
  rw [View.canon_unit_zero hz3]
  obtain ⟨-, -, -, -, -, -, -, -, -, -, e0, e1, e2⟩ := idx_facts0 t
  funext j
  obtain ⟨u, r, q, rfl⟩ : ∃ (u : Fin 1) (r : Fin 8) (q : Fin 256), j = ix3 u r q := ⟨j 0, j 1, j 2, eq_ix3 j⟩
  refine ((pay15_apply (iblk0 V c 0 t) (iblk0 V c 1 t) u r q)).trans ?_
  refine (Finset.sum_congr rfl fun p _ => by rw [hBlock0_eq V c t p q]).trans ?_
  refine congrArg₂ (colSumSq (V c main_v11) (V c main_v30)) (Fin.ext ?_) (Fin.ext ?_)
  · show t.val = win0_4.index t (0 : Fin 3) * 1 + 1 * u.val
    rw [e0]; omega
  · show q.val = win0_4.index t (2 : Fin 3) * 256 + 1 * q.val
    rw [e2]; omega

theorem mem_blk0_3 (t : Fin cfg0.N) (i : S32x8x256.Idx) :
    i ∈ ((cfg0.win 3).blk t).view.set ↔ ∀ a : Fin 3, win0_3.index t a * S1x8x256.size a ≤ (i a).val ∧ (i a).val < win0_3.index t a * S1x8x256.size a + S1x8x256.size a := by
  show i ∈ ((View.whole main_v33_1).slice (win0_3.rect t)).set ↔ _
  rw [View.set_slice_whole, Rect.mem_set_unit]
  exact Iff.rfl

theorem mem_blk0_4 (t : Fin cfg0.N) (i : S32x8x256.Idx) :
    i ∈ ((cfg0.win 4).blk t).view.set ↔ ∀ a : Fin 3, win0_4.index t a * S1x8x256.size a ≤ (i a).val ∧ (i a).val < win0_4.index t a * S1x8x256.size a + S1x8x256.size a := by
  show i ∈ ((View.whole main_v33_2).slice (win0_4.rect t)).set ↔ _
  rw [View.set_slice_whole, Rect.mem_set_unit]
  exact Iff.rfl

theorem cover0_3_all (i : S32x8x256.Idx) :
    ∃ t : Fin cfg0.N, (cfg0.win 3).flush t = true ∧ i ∈ ((cfg0.win 3).blk t).view.set := by
  have hi0 : (i 0).val < 32 := (i 0).isLt
  have hi1 : (i 1).val < 8 := (i 1).isLt
  have hi2 : (i 2).val < 256 := (i 2).isLt
  refine ⟨⟨(i 0).val, hi0⟩, flush0_3 _, ?_⟩
  obtain ⟨-, -, -, -, -, -, -, e0, e1, e2, -⟩ := idx_facts0 ⟨(i 0).val, hi0⟩
  rw [mem_blk0_3]
  intro a
  match a with
  | ⟨0, _⟩ =>
    show win0_3.index ⟨(i 0).val, hi0⟩ (0 : Fin 3) * 1 ≤ (i 0).val ∧ (i 0).val < win0_3.index ⟨(i 0).val, hi0⟩ (0 : Fin 3) * 1 + 1
    rw [e0]; show (i 0).val * 1 ≤ (i 0).val ∧ (i 0).val < (i 0).val * 1 + 1; omega
  | ⟨1, _⟩ =>
    show win0_3.index ⟨(i 0).val, hi0⟩ (1 : Fin 3) * 8 ≤ (i 1).val ∧ (i 1).val < win0_3.index ⟨(i 0).val, hi0⟩ (1 : Fin 3) * 8 + 8
    rw [e1]; omega
  | ⟨2, _⟩ =>
    show win0_3.index ⟨(i 0).val, hi0⟩ (2 : Fin 3) * 256 ≤ (i 2).val ∧ (i 2).val < win0_3.index ⟨(i 0).val, hi0⟩ (2 : Fin 3) * 256 + 256
    rw [e2]; omega

theorem cover0_4_all (i : S32x8x256.Idx) :
    ∃ t : Fin cfg0.N, (cfg0.win 4).flush t = true ∧ i ∈ ((cfg0.win 4).blk t).view.set := by
  have hi0 : (i 0).val < 32 := (i 0).isLt
  have hi1 : (i 1).val < 8 := (i 1).isLt
  have hi2 : (i 2).val < 256 := (i 2).isLt
  refine ⟨⟨(i 0).val, hi0⟩, flush0_4 _, ?_⟩
  obtain ⟨-, -, -, -, -, -, -, -, -, -, e0, e1, e2⟩ := idx_facts0 ⟨(i 0).val, hi0⟩
  rw [mem_blk0_4]
  intro a
  match a with
  | ⟨0, _⟩ =>
    show win0_4.index ⟨(i 0).val, hi0⟩ (0 : Fin 3) * 1 ≤ (i 0).val ∧ (i 0).val < win0_4.index ⟨(i 0).val, hi0⟩ (0 : Fin 3) * 1 + 1
    rw [e0]; show (i 0).val * 1 ≤ (i 0).val ∧ (i 0).val < (i 0).val * 1 + 1; omega
  | ⟨1, _⟩ =>
    show win0_4.index ⟨(i 0).val, hi0⟩ (1 : Fin 3) * 8 ≤ (i 1).val ∧ (i 1).val < win0_4.index ⟨(i 0).val, hi0⟩ (1 : Fin 3) * 8 + 8
    rw [e1]; omega
  | ⟨2, _⟩ =>
    show win0_4.index ⟨(i 0).val, hi0⟩ (2 : Fin 3) * 256 ≤ (i 2).val ∧ (i 2).val < win0_4.index ⟨(i 0).val, hi0⟩ (2 : Fin 3) * 256 + 256
    rw [e2]; omega

/-- The first statistics array after the region: each block's column sums of `convRow`, on all eight rows. -/
theorem final0_3 (c : Dev nD) :
    (dat0 V c).arrAt 3 cfg0.N = fun i : S32x8x256.Idx => colSum (V c main_v11) (V c main_v30) (i 0) (i 2) :=
  (dat0 V c).arrAt_eq_of_cover 3 _ (fun t _ => flushed0_3_eq V c t) cover0_3_all

/-- The second statistics array after the region: each block's column sums of the squares of `convRow`. -/
theorem final0_4 (c : Dev nD) :
    (dat0 V c).arrAt 4 cfg0.N = fun i : S32x8x256.Idx => colSumSq (V c main_v11) (V c main_v30) (i 0) (i 2) :=
  (dat0 V c).arrAt_eq_of_cover 4 _ (fun t _ => flushed0_4_eq V c t) cover0_4_all

end Cert.KernelIdeal.KValue

end
-- ==== Proof.KConv1.lean ====
/-
  Conv region 1: its three output arrays as whole-array functions of its two input arrays.

  The region runs 32 grid points. Point `t` stages rows [4096·t, 4096·t + 4096) of the gathered features `A`
  (131072×768) and all of the weights `Wt` (3×256×256), and writes back rows [4096·t, 4096·t + 4096) of the
  output `h` and row `t` (eight copies) of each statistics array. So, with
      convRow A Wt i q = ((0 + Σₖ A[i, k]·Wt[0, k, q]) + Σₖ A[i, 256 + k]·Wt[1, k, q]) + Σₖ A[i, 512 + k]·Wt[2, k, q],
  the output ends at `convRow`, the first statistics array at the block's column sums of `convRow` and the second at
  the block's column sums of its squares. The blocks tile each array, so every entry is covered.
-/
import proofs.«177556_j33500744909242_2_alg».proof.Proof.KConv0

set_option maxRecDepth 16384

noncomputable section

namespace Cert.KernelIdeal.KValue

open Cert.KernelIdeal Cert.KernelIdeal.Gen Idealize.ShloMosaic Idealize.ShloMosaic.ValueIdx Idealize.ShloMosaic.TcCoe
open Idealize.SL.Sem
open Idealize.ShloMosaic.Pipeline (Dat)
open Cert.SubmBN (blockRow)

variable (V : (c : Dev nD) → (b : Ref sig .tc) → Buf (Elt Ideal) ((c : Thread nD τ).loc b))

/-- The printed index maps over the grid: the row-blocked windows move with the point, the weights stay. -/
theorem idx_facts1 : ∀ t : Fin cfg1.N,
    win1_0.index t (0 : Fin 2) = t.val ∧ win1_0.index t (1 : Fin 2) = 0
    ∧ win1_1.index t (0 : Fin 3) = 0 ∧ win1_1.index t (1 : Fin 3) = 0 ∧ win1_1.index t (2 : Fin 3) = 0
    ∧ win1_2.index t (0 : Fin 2) = t.val ∧ win1_2.index t (1 : Fin 2) = 0
    ∧ win1_3.index t (0 : Fin 3) = t.val ∧ win1_3.index t (1 : Fin 3) = 0 ∧ win1_3.index t (2 : Fin 3) = 0
    ∧ win1_4.index t (0 : Fin 3) = t.val ∧ win1_4.index t (1 : Fin 3) = 0 ∧ win1_4.index t (2 : Fin 3) = 0 :=
  (by decide +kernel : ∀ t : Fin grid1.N, _)

/-- The staged feature block at point `t`, read at (p, k): row 4096·t + p of the array. -/
theorem blkA1_read (c : Dev nD) (t : Fin cfg1.N) (p : Fin 4096) (k : Fin 768) :
    iblk1 V c 0 t (ix2 p k) = V c main_v20 (ix2 (blockRow ⟨t.val, t.isLt⟩ p) k) := by
  obtain ⟨e0, e1, -⟩ := idx_facts1 t
  show V c main_v20 (((cfg1.win 0).blk t).view.emb (ix2 p k)) = _
  refine congrArg (V c main_v20) (funext fun a => Fin.ext ?_)
  match a with
  | ⟨0, _⟩ => show win1_0.index t (0 : Fin 2) * 4096 + 1 * p.val = t.val * 4096 + p.val; rw [e0]; omega
  | ⟨1, _⟩ => show win1_0.index t (1 : Fin 2) * 768 + 1 * k.val = k.val; rw [e1]; omega

/-- The staged weights at any point are the whole array. -/
theorem blkW1_read (c : Dev nD) (t : Fin cfg1.N) (s : Fin 3) (k q : Fin 256) :
    iblk1 V c 1 t (ix3 s k q) = V c main_v31 (ix3 s k q) := by
  obtain ⟨-, -, e0, e1, e2, -⟩ := idx_facts1 t
  show V c main_v31 (((cfg1.win 1).blk t).view.emb (ix3 s k q)) = _
  refine congrArg (V c main_v31) (funext fun a => Fin.ext ?_)
  match a with
  | ⟨0, _⟩ => show win1_1.index t (0 : Fin 3) * 3 + 1 * s.val = s.val; rw [e0]; omega
  | ⟨1, _⟩ => show win1_1.index t (1 : Fin 3) * 256 + 1 * k.val = k.val; rw [e1]; omega
  | ⟨2, _⟩ => show win1_1.index t (2 : Fin 3) * 256 + 1 * q.val = q.val; rw [e2]; omega

/-- The block the body computes at point `t` is rows 4096·t + p of `convRow` of the two arrays. -/
theorem hBlock1_eq (c : Dev nD) (t : Fin cfg1.N) (p : Fin 4096) (q : Fin 256) :
    hBlock (iblk1 V c 0 t) (iblk1 V c 1 t) p q = convRow (V c main_v20) (V c main_v31) (blockRow ⟨t.val, t.isLt⟩ p) q := by
  unfold hBlock convRow
  simp only [blkA1_read V c t, blkW1_read V c t]

/-! ## Output window 2: the block of `h` -/

/-- What point `t` writes back to the output is block `t` of `convRow`. -/
theorem flushed1_2_eq (c : Dev nD) (t : Fin cfg1.N) :
    (dat1 V c).flushed 2 t = ((cfg1.win 2).blk t).view.read (Elt Ideal)
      (fun i : S131072x256.Idx => convRow (V c main_v20) (V c main_v31) (i 0) (i 1)) := by
  show (cfg1.win 2).cut (grid1.coords t) ((dat1 V c).after 2 t) = _
  rw [after1_2]
  unfold out1_2
  rw [View.canon_unit_zero hz2]
  obtain ⟨-, -, -, -, -, e0, e1, -⟩ := idx_facts1 t
  funext j
  obtain ⟨p, q, rfl⟩ : ∃ (p : Fin 4096) (q : Fin 256), j = ix2 p q := ⟨j 0, j 1, eq_ix2 j⟩
  refine ((congrFun (congrFun (congrFun (congrFun (congrFun (congrFun (congrFun k1_pay3_eq _) _) _) _) _) _) _).trans (pay3_apply (iblk1 V c 0 t) (iblk1 V c 1 t) p q)).trans ?_
  refine (hBlock1_eq V c t p q).trans (congrArg₂ (convRow (V c main_v20) (V c main_v31)) (Fin.ext ?_) (Fin.ext ?_))
  · show t.val * 4096 + p.val = win1_2.index t (0 : Fin 2) * 4096 + 1 * p.val
    rw [e0]; omega
  · show q.val = win1_2.index t (1 : Fin 2) * 256 + 1 * q.val
    rw [e1]; omega

/-- An index of the output is in point `t`'s block iff each coordinate is in the block's range. -/
theorem mem_blk1_2 (t : Fin cfg1.N) (i : S131072x256.Idx) :
    i ∈ ((cfg1.win 2).blk t).view.set ↔ ∀ a : Fin 2, win1_2.index t a * S4096x256.size a ≤ (i a).val ∧ (i a).val < win1_2.index t a * S4096x256.size a + S4096x256.size a := by
  show i ∈ ((View.whole main_v34_0).slice (win1_2.rect t)).set ↔ _
  rw [View.set_slice_whole, Rect.mem_set_unit]
  exact Iff.rfl

/-- Every row of the output lies in the block of the point `row / 4096`. -/
theorem cover1_2_all (i : S131072x256.Idx) :
    ∃ t : Fin cfg1.N, (cfg1.win 2).flush t = true ∧ i ∈ ((cfg1.win 2).blk t).view.set := by
  have hi0 : (i 0).val < 131072 := idx2_lt0 i
  have hi1 : (i 1).val < 256 := idx2_lt1 i
  have ht : (i 0).val / 4096 < 32 := by omega
  refine ⟨⟨(i 0).val / 4096, ht⟩, flush1_2 _, ?_⟩
  obtain ⟨-, -, -, -, -, e0, e1, -⟩ := idx_facts1 ⟨(i 0).val / 4096, ht⟩
  rw [mem_blk1_2]
  intro a
  match a with
  | ⟨0, _⟩ =>
    show win1_2.index ⟨(i 0).val / 4096, ht⟩ (0 : Fin 2) * 4096 ≤ (i 0).val ∧ (i 0).val < win1_2.index ⟨(i 0).val / 4096, ht⟩ (0 : Fin 2) * 4096 + 4096
    rw [e0]; show (i 0).val / 4096 * 4096 ≤ (i 0).val ∧ (i 0).val < (i 0).val / 4096 * 4096 + 4096; omega
  | ⟨1, _⟩ =>
    show win1_2.index ⟨(i 0).val / 4096, ht⟩ (1 : Fin 2) * 256 ≤ (i 1).val ∧ (i 1).val < win1_2.index ⟨(i 0).val / 4096, ht⟩ (1 : Fin 2) * 256 + 256
    rw [e1]; omega

/-- The output array after the region: `convRow` of the region's two input arrays. -/
theorem final1_2 (c : Dev nD) :
    (dat1 V c).arrAt 2 cfg1.N = fun i : S131072x256.Idx => convRow (V c main_v20) (V c main_v31) (i 0) (i 1) :=
  (dat1 V c).arrAt_eq_of_cover 2 _ (fun t _ => flushed1_2_eq V c t) cover1_2_all

/-! ## Output windows 3 and 4: the block's column sums, and column sums of squares -/

theorem flushed1_3_eq (c : Dev nD) (t : Fin cfg1.N) :
    (dat1 V c).flushed 3 t = ((cfg1.win 3).blk t).view.read (Elt Ideal)
      (fun i : S32x8x256.Idx => colSum (V c main_v20) (V c main_v31) (i 0) (i 2)) := by
  show (cfg1.win 3).cut (grid1.coords t) ((dat1 V c).after 3 t) = _
  rw [after1_3]
  unfold out1_3
  rw [View.canon_unit_zero hz3]
  obtain ⟨-, -, -, -, -, -, -, e0, e1, e2, -⟩ := idx_facts1 t
  funext j
  obtain ⟨u, r, q, rfl⟩ : ∃ (u : Fin 1) (r : Fin 8) (q : Fin 256), j = ix3 u r q := ⟨j 0, j 1, j 2, eq_ix3 j⟩
  refine ((congrFun (congrFun (congrFun (congrFun (congrFun (congrFun (congrFun k1_pay4_eq _) _) _) _) _) _) _).trans (pay4_apply (iblk1 V c 0 t) (iblk1 V c 1 t) u r q)).trans ?_
  refine (Finset.sum_congr rfl fun p _ => hBlock1_eq V c t p q).trans ?_
  refine congrArg₂ (colSum (V c main_v20) (V c main_v31)) (Fin.ext ?_) (Fin.ext ?_)
  · show t.val = win1_3.index t (0 : Fin 3) * 1 + 1 * u.val
    rw [e0]; omega
  · show q.val = win1_3.index t (2 : Fin 3) * 256 + 1 * q.val
    rw [e2]; omega

theorem flushed1_4_eq (c : Dev nD) (t : Fin cfg1.N) :
    (dat1 V c).flushed 4 t = ((cfg1.win 4).blk t).view.read (Elt Ideal)
      (fun i : S32x8x256.Idx => colSumSq (V c main_v20) (V c main_v31) (i 0) (i 2)) := by
  show (cfg1.win 4).cut (grid1.coords t) ((dat1 V c).after 4 t) = _
  rw [after1_4]
  unfold out1_4
  rw [View.canon_unit_zero hz3]
  obtain ⟨-, -, -, -, -, -, -, -, -, -, e0, e1, e2⟩ := idx_facts1 t
  funext j
  obtain ⟨u, r, q, rfl⟩ : ∃ (u : Fin 1) (r : Fin 8) (q : Fin 256), j = ix3 u r q := ⟨j 0, j 1, j 2, eq_ix3 j⟩
  refine ((congrFun (congrArg _ (congrFun (congrFun (congrFun (congrFun (congrFun (congrFun k1_pay5_eq _) _) _) _) _) _)) _).trans ((congrFun (congrFun k1_pay1_eq _) _).trans (pay15_apply (iblk1 V c 0 t) (iblk1 V c 1 t) u r q))).trans ?_
  refine (Finset.sum_congr rfl fun p _ => by rw [hBlock1_eq V c t p q]).trans ?_
  refine congrArg₂ (colSumSq (V c main_v20) (V c main_v31)) (Fin.ext ?_) (Fin.ext ?_)
  · show t.val = win1_4.index t (0 : Fin 3) * 1 + 1 * u.val
    rw [e0]; omega
  · show q.val = win1_4.index t (2 : Fin 3) * 256 + 1 * q.val
    rw [e2]; omega

theorem mem_blk1_3 (t : Fin cfg1.N) (i : S32x8x256.Idx) :
    i ∈ ((cfg1.win 3).blk t).view.set ↔ ∀ a : Fin 3, win1_3.index t a * S1x8x256.size a ≤ (i a).val ∧ (i a).val < win1_3.index t a * S1x8x256.size a + S1x8x256.size a := by
  show i ∈ ((View.whole main_v34_1).slice (win1_3.rect t)).set ↔ _
  rw [View.set_slice_whole, Rect.mem_set_unit]
  exact Iff.rfl

theorem mem_blk1_4 (t : Fin cfg1.N) (i : S32x8x256.Idx) :
    i ∈ ((cfg1.win 4).blk t).view.set ↔ ∀ a : Fin 3, win1_4.index t a * S1x8x256.size a ≤ (i a).val ∧ (i a).val < win1_4.index t a * S1x8x256.size a + S1x8x256.size a := by
  show i ∈ ((View.whole main_v34_2).slice (win1_4.rect t)).set ↔ _
  rw [View.set_slice_whole, Rect.mem_set_unit]
  exact Iff.rfl

theorem cover1_3_all (i : S32x8x256.Idx) :
    ∃ t : Fin cfg1.N, (cfg1.win 3).flush t = true ∧ i ∈ ((cfg1.win 3).blk t).view.set := by
  have hi0 : (i 0).val < 32 := (i 0).isLt
  have hi1 : (i 1).val < 8 := (i 1).isLt
  have hi2 : (i 2).val < 256 := (i 2).isLt
  refine ⟨⟨(i 0).val, hi0⟩, flush1_3 _, ?_⟩
  obtain ⟨-, -, -, -, -, -, -, e0, e1, e2, -⟩ := idx_facts1 ⟨(i 0).val, hi0⟩
  rw [mem_blk1_3]
  intro a
  match a with
  | ⟨0, _⟩ =>
    show win1_3.index ⟨(i 0).val, hi0⟩ (0 : Fin 3) * 1 ≤ (i 0).val ∧ (i 0).val < win1_3.index ⟨(i 0).val, hi0⟩ (0 : Fin 3) * 1 + 1
    rw [e0]; show (i 0).val * 1 ≤ (i 0).val ∧ (i 0).val < (i 0).val * 1 + 1; omega
  | ⟨1, _⟩ =>
    show win1_3.index ⟨(i 0).val, hi0⟩ (1 : Fin 3) * 8 ≤ (i 1).val ∧ (i 1).val < win1_3.index ⟨(i 0).val, hi0⟩ (1 : Fin 3) * 8 + 8
    rw [e1]; omega
  | ⟨2, _⟩ =>
    show win1_3.index ⟨(i 0).val, hi0⟩ (2 : Fin 3) * 256 ≤ (i 2).val ∧ (i 2).val < win1_3.index ⟨(i 0).val, hi0⟩ (2 : Fin 3) * 256 + 256
    rw [e2]; omega

theorem cover1_4_all (i : S32x8x256.Idx) :
    ∃ t : Fin cfg1.N, (cfg1.win 4).flush t = true ∧ i ∈ ((cfg1.win 4).blk t).view.set := by
  have hi0 : (i 0).val < 32 := (i 0).isLt
  have hi1 : (i 1).val < 8 := (i 1).isLt
  have hi2 : (i 2).val < 256 := (i 2).isLt
  refine ⟨⟨(i 0).val, hi0⟩, flush1_4 _, ?_⟩
  obtain ⟨-, -, -, -, -, -, -, -, -, -, e0, e1, e2⟩ := idx_facts1 ⟨(i 0).val, hi0⟩
  rw [mem_blk1_4]
  intro a
  match a with
  | ⟨0, _⟩ =>
    show win1_4.index ⟨(i 0).val, hi0⟩ (0 : Fin 3) * 1 ≤ (i 0).val ∧ (i 0).val < win1_4.index ⟨(i 0).val, hi0⟩ (0 : Fin 3) * 1 + 1
    rw [e0]; show (i 0).val * 1 ≤ (i 0).val ∧ (i 0).val < (i 0).val * 1 + 1; omega
  | ⟨1, _⟩ =>
    show win1_4.index ⟨(i 0).val, hi0⟩ (1 : Fin 3) * 8 ≤ (i 1).val ∧ (i 1).val < win1_4.index ⟨(i 0).val, hi0⟩ (1 : Fin 3) * 8 + 8
    rw [e1]; omega
  | ⟨2, _⟩ =>
    show win1_4.index ⟨(i 0).val, hi0⟩ (2 : Fin 3) * 256 ≤ (i 2).val ∧ (i 2).val < win1_4.index ⟨(i 0).val, hi0⟩ (2 : Fin 3) * 256 + 256
    rw [e2]; omega

/-- The first statistics array after the region: each block's column sums of `convRow`, on all eight rows. -/
theorem final1_3 (c : Dev nD) :
    (dat1 V c).arrAt 3 cfg1.N = fun i : S32x8x256.Idx => colSum (V c main_v20) (V c main_v31) (i 0) (i 2) :=
  (dat1 V c).arrAt_eq_of_cover 3 _ (fun t _ => flushed1_3_eq V c t) cover1_3_all

/-- The second statistics array after the region: each block's column sums of the squares of `convRow`. -/
theorem final1_4 (c : Dev nD) :
    (dat1 V c).arrAt 4 cfg1.N = fun i : S32x8x256.Idx => colSumSq (V c main_v20) (V c main_v31) (i 0) (i 2) :=
  (dat1 V c).arrAt_eq_of_cover 4 _ (fun t _ => flushed1_4_eq V c t) cover1_4_all

end Cert.KernelIdeal.KValue

end
-- ==== Proof.KConv2.lean ====
/-
  Conv region 2: its three output arrays as whole-array functions of its two input arrays.

  The region runs 32 grid points. Point `t` stages rows [4096·t, 4096·t + 4096) of the gathered features `A`
  (131072×768) and all of the weights `Wt` (3×256×256), and writes back rows [4096·t, 4096·t + 4096) of the
  output `h` and row `t` (eight copies) of each statistics array. So, with
      convRow A Wt i q = ((0 + Σₖ A[i, k]·Wt[0, k, q]) + Σₖ A[i, 256 + k]·Wt[1, k, q]) + Σₖ A[i, 512 + k]·Wt[2, k, q],
  the output ends at `convRow`, the first statistics array at the block's column sums of `convRow` and the second at
  the block's column sums of its squares. The blocks tile each array, so every entry is covered.
-/
import proofs.«177556_j33500744909242_2_alg».proof.Proof.KConv0

set_option maxRecDepth 16384

noncomputable section

namespace Cert.KernelIdeal.KValue

open Cert.KernelIdeal Cert.KernelIdeal.Gen Idealize.ShloMosaic Idealize.ShloMosaic.ValueIdx Idealize.ShloMosaic.TcCoe
open Idealize.SL.Sem
open Idealize.ShloMosaic.Pipeline (Dat)
open Cert.SubmBN (blockRow)

variable (V : (c : Dev nD) → (b : Ref sig .tc) → Buf (Elt Ideal) ((c : Thread nD τ).loc b))

/-- The printed index maps over the grid: the row-blocked windows move with the point, the weights stay. -/
theorem idx_facts2 : ∀ t : Fin cfg2.N,
    win2_0.index t (0 : Fin 2) = t.val ∧ win2_0.index t (1 : Fin 2) = 0
    ∧ win2_1.index t (0 : Fin 3) = 0 ∧ win2_1.index t (1 : Fin 3) = 0 ∧ win2_1.index t (2 : Fin 3) = 0
    ∧ win2_2.index t (0 : Fin 2) = t.val ∧ win2_2.index t (1 : Fin 2) = 0
    ∧ win2_3.index t (0 : Fin 3) = t.val ∧ win2_3.index t (1 : Fin 3) = 0 ∧ win2_3.index t (2 : Fin 3) = 0
    ∧ win2_4.index t (0 : Fin 3) = t.val ∧ win2_4.index t (1 : Fin 3) = 0 ∧ win2_4.index t (2 : Fin 3) = 0 :=
  (by decide +kernel : ∀ t : Fin grid2.N, _)

/-- The staged feature block at point `t`, read at (p, k): row 4096·t + p of the array. -/
theorem blkA2_read (c : Dev nD) (t : Fin cfg2.N) (p : Fin 4096) (k : Fin 768) :
    iblk2 V c 0 t (ix2 p k) = V c main_v29 (ix2 (blockRow ⟨t.val, t.isLt⟩ p) k) := by
  obtain ⟨e0, e1, -⟩ := idx_facts2 t
  show V c main_v29 (((cfg2.win 0).blk t).view.emb (ix2 p k)) = _
  refine congrArg (V c main_v29) (funext fun a => Fin.ext ?_)
  match a with
  | ⟨0, _⟩ => show win2_0.index t (0 : Fin 2) * 4096 + 1 * p.val = t.val * 4096 + p.val; rw [e0]; omega
  | ⟨1, _⟩ => show win2_0.index t (1 : Fin 2) * 768 + 1 * k.val = k.val; rw [e1]; omega

/-- The staged weights at any point are the whole array. -/
theorem blkW2_read (c : Dev nD) (t : Fin cfg2.N) (s : Fin 3) (k q : Fin 256) :
    iblk2 V c 1 t (ix3 s k q) = V c main_v32 (ix3 s k q) := by
  obtain ⟨-, -, e0, e1, e2, -⟩ := idx_facts2 t
  show V c main_v32 (((cfg2.win 1).blk t).view.emb (ix3 s k q)) = _
  refine congrArg (V c main_v32) (funext fun a => Fin.ext ?_)
  match a with
  | ⟨0, _⟩ => show win2_1.index t (0 : Fin 3) * 3 + 1 * s.val = s.val; rw [e0]; omega
  | ⟨1, _⟩ => show win2_1.index t (1 : Fin 3) * 256 + 1 * k.val = k.val; rw [e1]; omega
  | ⟨2, _⟩ => show win2_1.index t (2 : Fin 3) * 256 + 1 * q.val = q.val; rw [e2]; omega

/-- The block the body computes at point `t` is rows 4096·t + p of `convRow` of the two arrays. -/
theorem hBlock2_eq (c : Dev nD) (t : Fin cfg2.N) (p : Fin 4096) (q : Fin 256) :
    hBlock (iblk2 V c 0 t) (iblk2 V c 1 t) p q = convRow (V c main_v29) (V c main_v32) (blockRow ⟨t.val, t.isLt⟩ p) q := by
  unfold hBlock convRow
  simp only [blkA2_read V c t, blkW2_read V c t]

/-! ## Output window 2: the block of `h` -/

/-- What point `t` writes back to the output is block `t` of `convRow`. -/
theorem flushed2_2_eq (c : Dev nD) (t : Fin cfg2.N) :
    (dat2 V c).flushed 2 t = ((cfg2.win 2).blk t).view.read (Elt Ideal)
      (fun i : S131072x256.Idx => convRow (V c main_v29) (V c main_v32) (i 0) (i 1)) := by
  show (cfg2.win 2).cut (grid2.coords t) ((dat2 V c).after 2 t) = _
  rw [after2_2]
  unfold out2_2
  rw [View.canon_unit_zero hz2]
  obtain ⟨-, -, -, -, -, e0, e1, -⟩ := idx_facts2 t
  funext j
  obtain ⟨p, q, rfl⟩ : ∃ (p : Fin 4096) (q : Fin 256), j = ix2 p q := ⟨j 0, j 1, eq_ix2 j⟩
  refine ((congrFun (congrFun (congrFun (congrFun (congrFun (congrFun (congrFun k2_pay3_eq _) _) _) _) _) _) _).trans (pay3_apply (iblk2 V c 0 t) (iblk2 V c 1 t) p q)).trans ?_
  refine (hBlock2_eq V c t p q).trans (congrArg₂ (convRow (V c main_v29) (V c main_v32)) (Fin.ext ?_) (Fin.ext ?_))
  · show t.val * 4096 + p.val = win2_2.index t (0 : Fin 2) * 4096 + 1 * p.val
    rw [e0]; omega
  · show q.val = win2_2.index t (1 : Fin 2) * 256 + 1 * q.val
    rw [e1]; omega

/-- An index of the output is in point `t`'s block iff each coordinate is in the block's range. -/
theorem mem_blk2_2 (t : Fin cfg2.N) (i : S131072x256.Idx) :
    i ∈ ((cfg2.win 2).blk t).view.set ↔ ∀ a : Fin 2, win2_2.index t a * S4096x256.size a ≤ (i a).val ∧ (i a).val < win2_2.index t a * S4096x256.size a + S4096x256.size a := by
  show i ∈ ((View.whole main_v35_0).slice (win2_2.rect t)).set ↔ _
  rw [View.set_slice_whole, Rect.mem_set_unit]
  exact Iff.rfl

/-- Every row of the output lies in the block of the point `row / 4096`. -/
theorem cover2_2_all (i : S131072x256.Idx) :
    ∃ t : Fin cfg2.N, (cfg2.win 2).flush t = true ∧ i ∈ ((cfg2.win 2).blk t).view.set := by
  have hi0 : (i 0).val < 131072 := idx2_lt0 i
  have hi1 : (i 1).val < 256 := idx2_lt1 i
  have ht : (i 0).val / 4096 < 32 := by omega
  refine ⟨⟨(i 0).val / 4096, ht⟩, flush2_2 _, ?_⟩
  obtain ⟨-, -, -, -, -, e0, e1, -⟩ := idx_facts2 ⟨(i 0).val / 4096, ht⟩
  rw [mem_blk2_2]
  intro a
  match a with
  | ⟨0, _⟩ =>
    show win2_2.index ⟨(i 0).val / 4096, ht⟩ (0 : Fin 2) * 4096 ≤ (i 0).val ∧ (i 0).val < win2_2.index ⟨(i 0).val / 4096, ht⟩ (0 : Fin 2) * 4096 + 4096
    rw [e0]; show (i 0).val / 4096 * 4096 ≤ (i 0).val ∧ (i 0).val < (i 0).val / 4096 * 4096 + 4096; omega
  | ⟨1, _⟩ =>
    show win2_2.index ⟨(i 0).val / 4096, ht⟩ (1 : Fin 2) * 256 ≤ (i 1).val ∧ (i 1).val < win2_2.index ⟨(i 0).val / 4096, ht⟩ (1 : Fin 2) * 256 + 256
    rw [e1]; omega

/-- The output array after the region: `convRow` of the region's two input arrays. -/
theorem final2_2 (c : Dev nD) :
    (dat2 V c).arrAt 2 cfg2.N = fun i : S131072x256.Idx => convRow (V c main_v29) (V c main_v32) (i 0) (i 1) :=
  (dat2 V c).arrAt_eq_of_cover 2 _ (fun t _ => flushed2_2_eq V c t) cover2_2_all

/-! ## Output windows 3 and 4: the block's column sums, and column sums of squares -/

theorem flushed2_3_eq (c : Dev nD) (t : Fin cfg2.N) :
    (dat2 V c).flushed 3 t = ((cfg2.win 3).blk t).view.read (Elt Ideal)
      (fun i : S32x8x256.Idx => colSum (V c main_v29) (V c main_v32) (i 0) (i 2)) := by
  show (cfg2.win 3).cut (grid2.coords t) ((dat2 V c).after 3 t) = _
  rw [after2_3]
  unfold out2_3
  rw [View.canon_unit_zero hz3]
  obtain ⟨-, -, -, -, -, -, -, e0, e1, e2, -⟩ := idx_facts2 t
  funext j
  obtain ⟨u, r, q, rfl⟩ : ∃ (u : Fin 1) (r : Fin 8) (q : Fin 256), j = ix3 u r q := ⟨j 0, j 1, j 2, eq_ix3 j⟩
  refine ((congrFun (congrFun (congrFun (congrFun (congrFun (congrFun (congrFun k2_pay4_eq _) _) _) _) _) _) _).trans (pay4_apply (iblk2 V c 0 t) (iblk2 V c 1 t) u r q)).trans ?_
  refine (Finset.sum_congr rfl fun p _ => hBlock2_eq V c t p q).trans ?_
  refine congrArg₂ (colSum (V c main_v29) (V c main_v32)) (Fin.ext ?_) (Fin.ext ?_)
  · show t.val = win2_3.index t (0 : Fin 3) * 1 + 1 * u.val
    rw [e0]; omega
  · show q.val = win2_3.index t (2 : Fin 3) * 256 + 1 * q.val
    rw [e2]; omega

theorem flushed2_4_eq (c : Dev nD) (t : Fin cfg2.N) :
    (dat2 V c).flushed 4 t = ((cfg2.win 4).blk t).view.read (Elt Ideal)
      (fun i : S32x8x256.Idx => colSumSq (V c main_v29) (V c main_v32) (i 0) (i 2)) := by
  show (cfg2.win 4).cut (grid2.coords t) ((dat2 V c).after 4 t) = _
  rw [after2_4]
  unfold out2_4
  rw [View.canon_unit_zero hz3]
  obtain ⟨-, -, -, -, -, -, -, -, -, -, e0, e1, e2⟩ := idx_facts2 t
  funext j
  obtain ⟨u, r, q, rfl⟩ : ∃ (u : Fin 1) (r : Fin 8) (q : Fin 256), j = ix3 u r q := ⟨j 0, j 1, j 2, eq_ix3 j⟩
  refine ((congrFun (congrArg _ (congrFun (congrFun (congrFun (congrFun (congrFun (congrFun k2_pay5_eq _) _) _) _) _) _)) _).trans ((congrFun (congrFun k2_pay1_eq _) _).trans (pay15_apply (iblk2 V c 0 t) (iblk2 V c 1 t) u r q))).trans ?_
  refine (Finset.sum_congr rfl fun p _ => by rw [hBlock2_eq V c t p q]).trans ?_
  refine congrArg₂ (colSumSq (V c main_v29) (V c main_v32)) (Fin.ext ?_) (Fin.ext ?_)
  · show t.val = win2_4.index t (0 : Fin 3) * 1 + 1 * u.val
    rw [e0]; omega
  · show q.val = win2_4.index t (2 : Fin 3) * 256 + 1 * q.val
    rw [e2]; omega

theorem mem_blk2_3 (t : Fin cfg2.N) (i : S32x8x256.Idx) :
    i ∈ ((cfg2.win 3).blk t).view.set ↔ ∀ a : Fin 3, win2_3.index t a * S1x8x256.size a ≤ (i a).val ∧ (i a).val < win2_3.index t a * S1x8x256.size a + S1x8x256.size a := by
  show i ∈ ((View.whole main_v35_1).slice (win2_3.rect t)).set ↔ _
  rw [View.set_slice_whole, Rect.mem_set_unit]
  exact Iff.rfl

theorem mem_blk2_4 (t : Fin cfg2.N) (i : S32x8x256.Idx) :
    i ∈ ((cfg2.win 4).blk t).view.set ↔ ∀ a : Fin 3, win2_4.index t a * S1x8x256.size a ≤ (i a).val ∧ (i a).val < win2_4.index t a * S1x8x256.size a + S1x8x256.size a := by
  show i ∈ ((View.whole main_v35_2).slice (win2_4.rect t)).set ↔ _
  rw [View.set_slice_whole, Rect.mem_set_unit]
  exact Iff.rfl

theorem cover2_3_all (i : S32x8x256.Idx) :
    ∃ t : Fin cfg2.N, (cfg2.win 3).flush t = true ∧ i ∈ ((cfg2.win 3).blk t).view.set := by
  have hi0 : (i 0).val < 32 := (i 0).isLt
  have hi1 : (i 1).val < 8 := (i 1).isLt
  have hi2 : (i 2).val < 256 := (i 2).isLt
  refine ⟨⟨(i 0).val, hi0⟩, flush2_3 _, ?_⟩
  obtain ⟨-, -, -, -, -, -, -, e0, e1, e2, -⟩ := idx_facts2 ⟨(i 0).val, hi0⟩
  rw [mem_blk2_3]
  intro a
  match a with
  | ⟨0, _⟩ =>
    show win2_3.index ⟨(i 0).val, hi0⟩ (0 : Fin 3) * 1 ≤ (i 0).val ∧ (i 0).val < win2_3.index ⟨(i 0).val, hi0⟩ (0 : Fin 3) * 1 + 1
    rw [e0]; show (i 0).val * 1 ≤ (i 0).val ∧ (i 0).val < (i 0).val * 1 + 1; omega
  | ⟨1, _⟩ =>
    show win2_3.index ⟨(i 0).val, hi0⟩ (1 : Fin 3) * 8 ≤ (i 1).val ∧ (i 1).val < win2_3.index ⟨(i 0).val, hi0⟩ (1 : Fin 3) * 8 + 8
    rw [e1]; omega
  | ⟨2, _⟩ =>
    show win2_3.index ⟨(i 0).val, hi0⟩ (2 : Fin 3) * 256 ≤ (i 2).val ∧ (i 2).val < win2_3.index ⟨(i 0).val, hi0⟩ (2 : Fin 3) * 256 + 256
    rw [e2]; omega

theorem cover2_4_all (i : S32x8x256.Idx) :
    ∃ t : Fin cfg2.N, (cfg2.win 4).flush t = true ∧ i ∈ ((cfg2.win 4).blk t).view.set := by
  have hi0 : (i 0).val < 32 := (i 0).isLt
  have hi1 : (i 1).val < 8 := (i 1).isLt
  have hi2 : (i 2).val < 256 := (i 2).isLt
  refine ⟨⟨(i 0).val, hi0⟩, flush2_4 _, ?_⟩
  obtain ⟨-, -, -, -, -, -, -, -, -, -, e0, e1, e2⟩ := idx_facts2 ⟨(i 0).val, hi0⟩
  rw [mem_blk2_4]
  intro a
  match a with
  | ⟨0, _⟩ =>
    show win2_4.index ⟨(i 0).val, hi0⟩ (0 : Fin 3) * 1 ≤ (i 0).val ∧ (i 0).val < win2_4.index ⟨(i 0).val, hi0⟩ (0 : Fin 3) * 1 + 1
    rw [e0]; show (i 0).val * 1 ≤ (i 0).val ∧ (i 0).val < (i 0).val * 1 + 1; omega
  | ⟨1, _⟩ =>
    show win2_4.index ⟨(i 0).val, hi0⟩ (1 : Fin 3) * 8 ≤ (i 1).val ∧ (i 1).val < win2_4.index ⟨(i 0).val, hi0⟩ (1 : Fin 3) * 8 + 8
    rw [e1]; omega
  | ⟨2, _⟩ =>
    show win2_4.index ⟨(i 0).val, hi0⟩ (2 : Fin 3) * 256 ≤ (i 2).val ∧ (i 2).val < win2_4.index ⟨(i 0).val, hi0⟩ (2 : Fin 3) * 256 + 256
    rw [e2]; omega

/-- The first statistics array after the region: each block's column sums of `convRow`, on all eight rows. -/
theorem final2_3 (c : Dev nD) :
    (dat2 V c).arrAt 3 cfg2.N = fun i : S32x8x256.Idx => colSum (V c main_v29) (V c main_v32) (i 0) (i 2) :=
  (dat2 V c).arrAt_eq_of_cover 3 _ (fun t _ => flushed2_3_eq V c t) cover2_3_all

/-- The second statistics array after the region: each block's column sums of the squares of `convRow`. -/
theorem final2_4 (c : Dev nD) :
    (dat2 V c).arrAt 4 cfg2.N = fun i : S32x8x256.Idx => colSumSq (V c main_v29) (V c main_v32) (i 0) (i 2) :=
  (dat2 V c).arrAt_eq_of_cover 4 _ (fun t _ => flushed2_4_eq V c t) cover2_4_all

end Cert.KernelIdeal.KValue

end
-- ==== Proof.KPay3.lean ====
/-
  The combine body read at an index.

  At (row p, channel q) of a 2048 × 256 block the body computes, for each of the three branches, the logistic function
  of the branch's value times its per-channel scale plus its per-channel shift — the scale and the shift one-row
  matrices broadcast over the rows, the value widened from bf16, which is the identity on extended reals — then the sum
  of the three, times the features.
-/
import proofs.«177556_j33500744909242_2_alg».proof.Proof.Gen.KernelIdeal.Skeleton
import Idealize.ShloMosaic.Lib.ValueIdx
import Idealize.ShloMosaic.Lib.ValueLayout
import Idealize.ShloMosaic.Lib.Pipeline.Value

noncomputable section

namespace Cert.KernelIdeal.KValue

open Cert.KernelIdeal Cert.KernelIdeal.Gen Idealize.ShloMosaic Idealize.ShloMosaic.ValueIdx

/-- A one-row matrix broadcast over the 2048 rows reads the row at the channel. -/
theorem rowBcast_apply {α : Type} (u : S1x256.Idx → α) (p : Fin 2048) (q : Fin 256) :
    broadcastTo S2048x256 u broadcasts_S1x256_S2048x256 (ix2 p q) = u (ix2 (0 : Fin 1) q) :=
  broadcastTo_apply u broadcasts_S1x256_S2048x256 (ix2 p q) (ix2 (0 : Fin 1) q)
    (fun a => match a with | ⟨0, _⟩ => rfl | ⟨1, _⟩ => rfl)

/-- One branch's activation at (p, q): the logistic of value × scale + shift. -/
theorem branch_apply (v : FVec Ideal S2048x256 .bf16) (s t : FVec Ideal S1x256 .f32) (p : Fin 2048) (q : Fin 256) :
    logistic (addf (mulf (extf .f32 (shapeCast S2048x256 v shapeCasts_S2048x256_S2048x256) bitsLt_bf16_f32)
        (broadcastTo S2048x256 (shapeCast S1x256 s shapeCasts_S1x256_S1x256) broadcasts_S1x256_S2048x256))
        (broadcastTo S2048x256 (shapeCast S1x256 t shapeCasts_S1x256_S1x256) broadcasts_S1x256_S2048x256)) (ix2 p q)
      = Ideal.logistic (v (ix2 p q) * s (ix2 (0 : Fin 1) q) + t (ix2 (0 : Fin 1) q)) := by
  rw [shapeCast_self, shapeCast_self, shapeCast_self]
  show Ideal.logistic (v (ix2 p q) * broadcastTo S2048x256 s broadcasts_S1x256_S2048x256 (ix2 p q)
    + broadcastTo S2048x256 t broadcasts_S1x256_S2048x256 (ix2 p q)) = _
  rw [rowBcast_apply, rowBcast_apply]

/-- THE COMBINE BODY at (p, q): the three branches' activations summed, times the features. -/
theorem combine_apply (v0 v3 v6 : FVec Ideal S2048x256 .bf16) (v9 v13 v18 v22 v27 v31 : FVec Ideal S1x256 .f32)
    (v38 : FVec Ideal S2048x256 .f32) (p : Fin 2048) (q : Fin 256) :
    k3_pay1 (F := Ideal) (k3_pay2 (F := Ideal) v0 v3 v6 v9 v13 v18 v22 v27 v31) v38 (ix2 p q)
      = (Ideal.logistic (v0 (ix2 p q) * v9 (ix2 (0 : Fin 1) q) + v13 (ix2 (0 : Fin 1) q))
          + Ideal.logistic (v3 (ix2 p q) * v18 (ix2 (0 : Fin 1) q) + v22 (ix2 (0 : Fin 1) q))
          + Ideal.logistic (v6 (ix2 p q) * v27 (ix2 (0 : Fin 1) q) + v31 (ix2 (0 : Fin 1) q))) * v38 (ix2 p q) := by
  unfold k3_pay1 k3_pay2
  dsimp only
  refine congrArg (· * v38 (ix2 p q)) ?_
  exact congrArg₂ (· + ·) (congrArg₂ (· + ·) (branch_apply v0 v9 v13 p q) (branch_apply v3 v18 v22 p q))
    (branch_apply v6 v27 v31 p q)

end Cert.KernelIdeal.KValue

end
-- ==== Proof.KCombDef.lean ====
/-
  The combine region's result at one entry: the three branches' affine maps and logistic functions, summed, times the
  feature. `h₁ h₂ h₃` are the three linear maps' outputs, `sc` / `sh` the per-channel scale and shift rows.
-/
import proofs.«177556_j33500744909242_2_alg».proof.Proof.KPay

noncomputable section

namespace Cert.KernelIdeal.KValue

open Cert.KernelIdeal Idealize.ShloMosaic Idealize.ShloMosaic.ValueIdx

def combRow (h1 h2 h3 : S131072x256.Idx → EReal) (sc1 sh1 sc2 sh2 sc3 sh3 : S1x256.Idx → EReal) (x : S131072x256.Idx → EReal)
    (i : Fin 131072) (q : Fin 256) : EReal :=
  (Ideal.logistic (h1 (ix2 i q) * sc1 (ix2 (0 : Fin 1) q) + sh1 (ix2 (0 : Fin 1) q))
    + Ideal.logistic (h2 (ix2 i q) * sc2 (ix2 (0 : Fin 1) q) + sh2 (ix2 (0 : Fin 1) q))
    + Ideal.logistic (h3 (ix2 i q) * sc3 (ix2 (0 : Fin 1) q) + sh3 (ix2 (0 : Fin 1) q))) * x (ix2 i q)

end Cert.KernelIdeal.KValue

end
-- ==== Proof.KComb.lean ====
/-
  The combine region: its output array as a whole-array function of its ten input arrays.

  The region runs 64 grid points. Point `t` stages rows [2048·t, 2048·t + 2048) of the three branch arrays and of the
  features, and all of each of the six per-channel rows, and writes back rows [2048·t, 2048·t + 2048) of the output. So,
  with
      combRow h₁ h₂ h₃ sc₁ sh₁ sc₂ sh₂ sc₃ sh₃ x i q
        = (σ(h₁[i, q]·sc₁[0, q] + sh₁[0, q]) + σ(h₂[i, q]·sc₂[0, q] + sh₂[0, q]) + σ(h₃[i, q]·sc₃[0, q] + sh₃[0, q]))·x[i, q],
  σ the logistic function, the output ends at `combRow` of the ten arrays. The blocks tile the output, so every entry
  is covered.
-/
import proofs.«177556_j33500744909242_2_alg».proof.Proof.KPay3
import proofs.«177556_j33500744909242_2_alg».proof.Proof.KCombDef
import proofs.«177556_j33500744909242_2_alg».proof.Proof.KPay
import proofs.«177556_j33500744909242_2_alg».proof.Proof.Gen.KernelIdeal.Frame

set_option maxRecDepth 16384

noncomputable section

namespace Cert.KernelIdeal.KValue

open Cert.KernelIdeal Cert.KernelIdeal.Gen Idealize.ShloMosaic Idealize.ShloMosaic.ValueIdx Idealize.ShloMosaic.TcCoe
open Idealize.SL.Sem
open Idealize.ShloMosaic.Pipeline (Dat)

variable (V : (c : Dev nD) → (b : Ref sig .tc) → Buf (Elt Ideal) ((c : Thread nD τ).loc b))

/-- Row `p` of block `b` of 2048 rows. -/
def blkRow (b : Fin 64) (p : Fin 2048) : Fin 131072 := ⟨b.val * 2048 + p.val, by omega⟩

/-- The printed index maps over the grid: the row-blocked windows move with the point, the per-channel rows stay. -/
theorem idx_facts3 : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = 0 ∧ win3_8.index t (1 : Fin 2) = 0)
    ∧ (win3_9.index t (0 : Fin 2) = t.val ∧ win3_9.index t (1 : Fin 2) = 0)
    ∧ (win3_10.index t (0 : Fin 2) = t.val ∧ win3_10.index t (1 : Fin 2) = 0) :=
  (by decide +kernel : ∀ t : Fin grid3.N, _)

/-- Window 0's staged block at point `t`, read at (p, q): row 2048·t + p of its array. -/
theorem blk3_0_read (c : Dev nD) (t : Fin cfg3.N) (p : Fin 2048) (q : Fin 256) :
    iblk3 V c 0 t (ix2 p q) = V c main_v33_0 (ix2 (blkRow ⟨t.val, t.isLt⟩ p) q) := by
  obtain ⟨⟨e0, e1⟩, -⟩ := idx_facts3 t
  show V c main_v33_0 (((cfg3.win 0).blk t).view.emb (ix2 p q)) = _
  refine congrArg (V c main_v33_0) (funext fun a => Fin.ext ?_)
  match a with
  | ⟨0, _⟩ => show win3_0.index t (0 : Fin 2) * 2048 + 1 * p.val = t.val * 2048 + p.val; rw [e0]; omega
  | ⟨1, _⟩ => show win3_0.index t (1 : Fin 2) * 256 + 1 * q.val = q.val; rw [e1]; omega

/-- Window 1's staged block at point `t`, read at (p, q): row 2048·t + p of its array. -/
theorem blk3_1_read (c : Dev nD) (t : Fin cfg3.N) (p : Fin 2048) (q : Fin 256) :
    iblk3 V c 1 t (ix2 p q) = V c main_v34_0 (ix2 (blkRow ⟨t.val, t.isLt⟩ p) q) := by
  obtain ⟨-, ⟨e0, e1⟩, -⟩ := idx_facts3 t
  show V c main_v34_0 (((cfg3.win 1).blk t).view.emb (ix2 p q)) = _
  refine congrArg (V c main_v34_0) (funext fun a => Fin.ext ?_)
  match a with
  | ⟨0, _⟩ => show win3_1.index t (0 : Fin 2) * 2048 + 1 * p.val = t.val * 2048 + p.val; rw [e0]; omega
  | ⟨1, _⟩ => show win3_1.index t (1 : Fin 2) * 256 + 1 * q.val = q.val; rw [e1]; omega

/-- Window 2's staged block at point `t`, read at (p, q): row 2048·t + p of its array. -/
theorem blk3_2_read (c : Dev nD) (t : Fin cfg3.N) (p : Fin 2048) (q : Fin 256) :
    iblk3 V c 2 t (ix2 p q) = V c main_v35_0 (ix2 (blkRow ⟨t.val, t.isLt⟩ p) q) := by
  obtain ⟨-, -, ⟨e0, e1⟩, -⟩ := idx_facts3 t
  show V c main_v35_0 (((cfg3.win 2).blk t).view.emb (ix2 p q)) = _
  refine congrArg (V c main_v35_0) (funext fun a => Fin.ext ?_)
  match a with
  | ⟨0, _⟩ => show win3_2.index t (0 : Fin 2) * 2048 + 1 * p.val = t.val * 2048 + p.val; rw [e0]; omega
  | ⟨1, _⟩ => show win3_2.index t (1 : Fin 2) * 256 + 1 * q.val = q.val; rw [e1]; omega

/-- Window 3's staged row at any point is its whole array. -/
theorem blk3_3_read (c : Dev nD) (t : Fin cfg3.N) (u : Fin 1) (q : Fin 256) :
    iblk3 V c 3 t (ix2 u q) = V c main_v54 (ix2 u q) := by
  obtain ⟨-, -, -, ⟨e0, e1⟩, -⟩ := idx_facts3 t
  show V c main_v54 (((cfg3.win 3).blk t).view.emb (ix2 u q)) = _
  refine congrArg (V c main_v54) (funext fun a => Fin.ext ?_)
  match a with
  | ⟨0, _⟩ => show win3_3.index t (0 : Fin 2) * 1 + 1 * u.val = u.val; rw [e0]; omega
  | ⟨1, _⟩ => show win3_3.index t (1 : Fin 2) * 256 + 1 * q.val = q.val; rw [e1]; omega

/-- Window 4's staged row at any point is its whole array. -/
theorem blk3_4_read (c : Dev nD) (t : Fin cfg3.N) (u : Fin 1) (q : Fin 256) :
    iblk3 V c 4 t (ix2 u q) = V c main_v55 (ix2 u q) := by
  obtain ⟨-, -, -, -, ⟨e0, e1⟩, -⟩ := idx_facts3 t
  show V c main_v55 (((cfg3.win 4).blk t).view.emb (ix2 u q)) = _
  refine congrArg (V c main_v55) (funext fun a => Fin.ext ?_)
  match a with
  | ⟨0, _⟩ => show win3_4.index t (0 : Fin 2) * 1 + 1 * u.val = u.val; rw [e0]; omega
  | ⟨1, _⟩ => show win3_4.index t (1 : Fin 2) * 256 + 1 * q.val = q.val; rw [e1]; omega

/-- Window 5's staged row at any point is its whole array. -/
theorem blk3_5_read (c : Dev nD) (t : Fin cfg3.N) (u : Fin 1) (q : Fin 256) :
    iblk3 V c 5 t (ix2 u q) = V c main_v74 (ix2 u q) := by
  obtain ⟨-, -, -, -, -, ⟨e0, e1⟩, -⟩ := idx_facts3 t
  show V c main_v74 (((cfg3.win 5).blk t).view.emb (ix2 u q)) = _
  refine congrArg (V c main_v74) (funext fun a => Fin.ext ?_)
  match a with
  | ⟨0, _⟩ => show win3_5.index t (0 : Fin 2) * 1 + 1 * u.val = u.val; rw [e0]; omega
  | ⟨1, _⟩ => show win3_5.index t (1 : Fin 2) * 256 + 1 * q.val = q.val; rw [e1]; omega

/-- Window 6's staged row at any point is its whole array. -/
theorem blk3_6_read (c : Dev nD) (t : Fin cfg3.N) (u : Fin 1) (q : Fin 256) :
    iblk3 V c 6 t (ix2 u q) = V c main_v75 (ix2 u q) := by
  obtain ⟨-, -, -, -, -, -, ⟨e0, e1⟩, -⟩ := idx_facts3 t
  show V c main_v75 (((cfg3.win 6).blk t).view.emb (ix2 u q)) = _
  refine congrArg (V c main_v75) (funext fun a => Fin.ext ?_)
  match a with
  | ⟨0, _⟩ => show win3_6.index t (0 : Fin 2) * 1 + 1 * u.val = u.val; rw [e0]; omega
  | ⟨1, _⟩ => show win3_6.index t (1 : Fin 2) * 256 + 1 * q.val = q.val; rw [e1]; omega

/-- Window 7's staged row at any point is its whole array. -/
theorem blk3_7_read (c : Dev nD) (t : Fin cfg3.N) (u : Fin 1) (q : Fin 256) :
    iblk3 V c 7 t (ix2 u q) = V c main_v94 (ix2 u q) := by
  obtain ⟨-, -, -, -, -, -, -, ⟨e0, e1⟩, -⟩ := idx_facts3 t
  show V c main_v94 (((cfg3.win 7).blk t).view.emb (ix2 u q)) = _
  refine congrArg (V c main_v94) (funext fun a => Fin.ext ?_)
  match a with
  | ⟨0, _⟩ => show win3_7.index t (0 : Fin 2) * 1 + 1 * u.val = u.val; rw [e0]; omega
  | ⟨1, _⟩ => show win3_7.index t (1 : Fin 2) * 256 + 1 * q.val = q.val; rw [e1]; omega

/-- Window 8's staged row at any point is its whole array. -/
theorem blk3_8_read (c : Dev nD) (t : Fin cfg3.N) (u : Fin 1) (q : Fin 256) :
    iblk3 V c 8 t (ix2 u q) = V c main_v95 (ix2 u q) := by
  obtain ⟨-, -, -, -, -, -, -, -, ⟨e0, e1⟩, -⟩ := idx_facts3 t
  show V c main_v95 (((cfg3.win 8).blk t).view.emb (ix2 u q)) = _
  refine congrArg (V c main_v95) (funext fun a => Fin.ext ?_)
  match a with
  | ⟨0, _⟩ => show win3_8.index t (0 : Fin 2) * 1 + 1 * u.val = u.val; rw [e0]; omega
  | ⟨1, _⟩ => show win3_8.index t (1 : Fin 2) * 256 + 1 * q.val = q.val; rw [e1]; omega

/-- Window 9's staged block at point `t`, read at (p, q): row 2048·t + p of its array. -/
theorem blk3_9_read (c : Dev nD) (t : Fin cfg3.N) (p : Fin 2048) (q : Fin 256) :
    iblk3 V c 9 t (ix2 p q) = V c main_arg0 (ix2 (blkRow ⟨t.val, t.isLt⟩ p) q) := by
  obtain ⟨-, -, -, -, -, -, -, -, -, ⟨e0, e1⟩, -⟩ := idx_facts3 t
  show V c main_arg0 (((cfg3.win 9).blk t).view.emb (ix2 p q)) = _
  refine congrArg (V c main_arg0) (funext fun a => Fin.ext ?_)
  match a with
  | ⟨0, _⟩ => show win3_9.index t (0 : Fin 2) * 2048 + 1 * p.val = t.val * 2048 + p.val; rw [e0]; omega
  | ⟨1, _⟩ => show win3_9.index t (1 : Fin 2) * 256 + 1 * q.val = q.val; rw [e1]; omega

/-- The block the body computes at point `t` is rows 2048·t + p of `combRow` of the ten arrays. -/
theorem comb3_eq (c : Dev nD) (t : Fin cfg3.N) (p : Fin 2048) (q : Fin 256) :
    k3_pay1 (F := Ideal) (k3_pay2 (F := Ideal) (iblk3 V c 0 t) (iblk3 V c 1 t) (iblk3 V c 2 t) (iblk3 V c 3 t) (iblk3 V c 4 t) (iblk3 V c 5 t) (iblk3 V c 6 t) (iblk3 V c 7 t) (iblk3 V c 8 t)) (iblk3 V c 9 t) (ix2 p q)
      = combRow (V c main_v33_0) (V c main_v34_0) (V c main_v35_0) (V c main_v54) (V c main_v55) (V c main_v74) (V c main_v75) (V c main_v94) (V c main_v95) (V c main_arg0) (blkRow ⟨t.val, t.isLt⟩ p) q := by
  refine (combine_apply (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) p q).trans ?_
  rw [blk3_0_read V c t, blk3_1_read V c t, blk3_2_read V c t, blk3_3_read V c t, blk3_4_read V c t, blk3_5_read V c t,
    blk3_6_read V c t, blk3_7_read V c t, blk3_8_read V c t, blk3_9_read V c t]
  rfl

/-! ## Output window 10: the block of the result -/

/-- What point `t` writes back to the output is block `t` of `combRow`. -/
theorem flushed3_10_eq (c : Dev nD) (t : Fin cfg3.N) :
    (dat3 V c).flushed 10 t = ((cfg3.win 10).blk t).view.read (Elt Ideal)
      (fun i : S131072x256.Idx => combRow (V c main_v33_0) (V c main_v34_0) (V c main_v35_0) (V c main_v54) (V c main_v55) (V c main_v74) (V c main_v75) (V c main_v94) (V c main_v95) (V c main_arg0) (i 0) (i 1)) := by
  show (cfg3.win 10).cut (grid3.coords t) ((dat3 V c).after 10 t) = _
  rw [after3_10]
  unfold out3_10
  simp only [View.ld_unit_zero (S := S2048x256) hz2, View.ld_unit_zero (S := S1x256) hz2]
  rw [View.canon_unit_zero hz2]
  obtain ⟨-, -, -, -, -, -, -, -, -, -, ⟨e0, e1⟩⟩ := idx_facts3 t
  funext j
  obtain ⟨p, q, rfl⟩ : ∃ (p : Fin 2048) (q : Fin 256), j = ix2 p q := ⟨j 0, j 1, eq_ix2 j⟩
  refine (comb3_eq V c t p q).trans (congrArg₂ (combRow (V c main_v33_0) (V c main_v34_0) (V c main_v35_0) (V c main_v54) (V c main_v55) (V c main_v74) (V c main_v75) (V c main_v94) (V c main_v95) (V c main_arg0)) (Fin.ext ?_) (Fin.ext ?_))
  · show t.val * 2048 + p.val = win3_10.index t (0 : Fin 2) * 2048 + 1 * p.val
    rw [e0]; omega
  · show q.val = win3_10.index t (1 : Fin 2) * 256 + 1 * q.val
    rw [e1]; omega

/-- An index of the output is in point `t`'s block iff each coordinate is in the block's range. -/
theorem mem_blk3_10 (t : Fin cfg3.N) (i : S131072x256.Idx) :
    i ∈ ((cfg3.win 10).blk t).view.set ↔ ∀ a : Fin 2, win3_10.index t a * S2048x256.size a ≤ (i a).val ∧ (i a).val < win3_10.index t a * S2048x256.size a + S2048x256.size a := by
  show i ∈ ((View.whole main_v96).slice (win3_10.rect t)).set ↔ _
  rw [View.set_slice_whole, Rect.mem_set_unit]
  exact Iff.rfl

/-- Every row of the output lies in the block of the point `row / 2048`. -/
theorem cover3_10_all (i : S131072x256.Idx) :
    ∃ t : Fin cfg3.N, (cfg3.win 10).flush t = true ∧ i ∈ ((cfg3.win 10).blk t).view.set := by
  have hi0 : (i 0).val < 131072 := idx2_lt0 i
  have hi1 : (i 1).val < 256 := idx2_lt1 i
  have ht : (i 0).val / 2048 < 64 := by omega
  refine ⟨⟨(i 0).val / 2048, ht⟩, flush3_10 _, ?_⟩
  obtain ⟨-, -, -, -, -, -, -, -, -, -, ⟨e0, e1⟩⟩ := idx_facts3 ⟨(i 0).val / 2048, ht⟩
  rw [mem_blk3_10]
  intro a
  match a with
  | ⟨0, _⟩ =>
    show win3_10.index ⟨(i 0).val / 2048, ht⟩ (0 : Fin 2) * 2048 ≤ (i 0).val ∧ (i 0).val < win3_10.index ⟨(i 0).val / 2048, ht⟩ (0 : Fin 2) * 2048 + 2048
    rw [e0]; show (i 0).val / 2048 * 2048 ≤ (i 0).val ∧ (i 0).val < (i 0).val / 2048 * 2048 + 2048; omega
  | ⟨1, _⟩ =>
    show win3_10.index ⟨(i 0).val / 2048, ht⟩ (1 : Fin 2) * 256 ≤ (i 1).val ∧ (i 1).val < win3_10.index ⟨(i 0).val / 2048, ht⟩ (1 : Fin 2) * 256 + 256
    rw [e1]; omega

/-- The output array after the region: `combRow` of the region's ten input arrays. -/
theorem final3_10 (c : Dev nD) :
    (dat3 V c).arrAt 10 cfg3.N = fun i : S131072x256.Idx => combRow (V c main_v33_0) (V c main_v34_0) (V c main_v35_0) (V c main_v54) (V c main_v55) (V c main_v74) (V c main_v75) (V c main_v94) (V c main_v95) (V c main_arg0) (i 0) (i 1) :=
  (dat3 V c).arrAt_eq_of_cover 10 _ (fun t _ => flushed3_10_eq V c t) cover3_10_all

end Cert.KernelIdeal.KValue

end
-- ==== Proof.RefStages.lean ====
/-
  The reference program's stages as pure functions of their operands, each spelt with exactly the operations the
  program prints, in its operand order: the zero-padded features, the start indices of one tap, a tap (gather and
  contraction), the three-tap sum, the channel mean, the channel variance (the outlined variance function with its
  selection inlined, at the integer argument 0), the activation, and the whole result.
-/
import proofs.«177556_j33500744909242_2_alg».proof.ReferenceIdeal

noncomputable section

namespace Cert.ReferenceIdeal.RefRead

open Cert.ReferenceIdeal Idealize.ShloMosaic
open Cert.ReferenceIdeal.Facts₀ Cert.ReferenceIdeal.Facts

variable {F : FTy → Type} [FloatOps F]
variable [Cert.ReferenceIdeal.Facts]

/-- The features with one row of zeros appended (row 131072). -/
def padRows (x : FVec F S131072x256 .f32) : FVec F S131073x256 .f32 :=
  let v0 : (⟨S1x256, .f32⟩ : BufTy).Contents (Elt F) := (broadcastInDim S1x256 ![] bcast_S_S1x256 : (⟨S_, .f32⟩ : BufTy).Contents (Elt F) → (⟨S1x256, .f32⟩ : BufTy).Contents (Elt F)) (constant S_ .f32 0x00000000#32)
  ((fun a b => concatenate S131073x256 0 [⟨S131072x256, a⟩, ⟨S1x256, b⟩] concatenates_S131072x256_S1x256_S131073x256_d0) : (⟨S131072x256, .f32⟩ : BufTy).Contents (Elt F) → (⟨S1x256, .f32⟩ : BufTy).Contents (Elt F) → (⟨S131073x256, .f32⟩ : BufTy).Contents (Elt F)) x v0

/-- Column 0 of the neighbour table as gather start indices: a negative entry `j` is read as `j + 131073`
    (so `-1` names the appended zero row), then the column is given a trailing unit axis. -/
def startIdx0 (nbr : IVec S131072x3 32) : IVec S131072x1 32 :=
  let v2 : IVec S131072x1 32 := ((extractStridedSlice S131072x1 ![0, 0] · slices_S131072x3_S131072x1_0_0) : IVec S131072x3 32 → IVec S131072x1 32) nbr
  let v3 : IVec S131072 32 := shapeCast S131072 v2 shapeCasts_S131072x1_S131072
  let v4 : IVec S131072 32 := (broadcastInDim S131072 ![] bcast_S_S131072 : IVec S_ 32 → IVec S131072 32) (constantI S_ 32 0#32)
  let v5 : IVec S131072 1 := (cmpi .slt : IVec S131072 32 → IVec S131072 32 → IVec S131072 1) v3 v4
  let v6 : IVec S131072 32 := (broadcastInDim S131072 ![] bcast_S_S131072 : IVec S_ 32 → IVec S131072 32) (constantI S_ 32 131073#32)
  let v7 : IVec S131072 32 := (addi : IVec S131072 32 → IVec S131072 32 → IVec S131072 32) v3 v6
  let v8 : IVec S131072 32 := (select : IVec S131072 1 → IVec S131072 32 → IVec S131072 32 → IVec S131072 32) v5 v7 v3
  (broadcastInDim S131072x1 ![0] bcast_S131072_S131072x1_0 : IVec S131072 32 → IVec S131072x1 32) v8

/-- Column 1 of the neighbour table as gather start indices: a negative entry `j` is read as `j + 131073`
    (so `-1` names the appended zero row), then the column is given a trailing unit axis. -/
def startIdx1 (nbr : IVec S131072x3 32) : IVec S131072x1 32 :=
  let v2 : IVec S131072x1 32 := ((extractStridedSlice S131072x1 ![0, 1] · slices_S131072x3_S131072x1_0_1) : IVec S131072x3 32 → IVec S131072x1 32) nbr
  let v3 : IVec S131072 32 := shapeCast S131072 v2 shapeCasts_S131072x1_S131072
  let v4 : IVec S131072 32 := (broadcastInDim S131072 ![] bcast_S_S131072 : IVec S_ 32 → IVec S131072 32) (constantI S_ 32 0#32)
  let v5 : IVec S131072 1 := (cmpi .slt : IVec S131072 32 → IVec S131072 32 → IVec S131072 1) v3 v4
  let v6 : IVec S131072 32 := (broadcastInDim S131072 ![] bcast_S_S131072 : IVec S_ 32 → IVec S131072 32) (constantI S_ 32 131073#32)
  let v7 : IVec S131072 32 := (addi : IVec S131072 32 → IVec S131072 32 → IVec S131072 32) v3 v6
  let v8 : IVec S131072 32 := (select : IVec S131072 1 → IVec S131072 32 → IVec S131072 32 → IVec S131072 32) v5 v7 v3
  (broadcastInDim S131072x1 ![0] bcast_S131072_S131072x1_0 : IVec S131072 32 → IVec S131072x1 32) v8

/-- Column 2 of the neighbour table as gather start indices: a negative entry `j` is read as `j + 131073`
    (so `-1` names the appended zero row), then the column is given a trailing unit axis. -/
def startIdx2 (nbr : IVec S131072x3 32) : IVec S131072x1 32 :=
  let v2 : IVec S131072x1 32 := ((extractStridedSlice S131072x1 ![0, 2] · slices_S131072x3_S131072x1_0_2) : IVec S131072x3 32 → IVec S131072x1 32) nbr
  let v3 : IVec S131072 32 := shapeCast S131072 v2 shapeCasts_S131072x1_S131072
  let v4 : IVec S131072 32 := (broadcastInDim S131072 ![] bcast_S_S131072 : IVec S_ 32 → IVec S131072 32) (constantI S_ 32 0#32)
  let v5 : IVec S131072 1 := (cmpi .slt : IVec S131072 32 → IVec S131072 32 → IVec S131072 1) v3 v4
  let v6 : IVec S131072 32 := (broadcastInDim S131072 ![] bcast_S_S131072 : IVec S_ 32 → IVec S131072 32) (constantI S_ 32 131073#32)
  let v7 : IVec S131072 32 := (addi : IVec S131072 32 → IVec S131072 32 → IVec S131072 32) v3 v6
  let v8 : IVec S131072 32 := (select : IVec S131072 1 → IVec S131072 32 → IVec S131072 32 → IVec S131072 32) v5 v7 v3
  (broadcastInDim S131072x1 ![0] bcast_S131072_S131072x1_0 : IVec S131072 32 → IVec S131072x1 32) v8

/-- Tap 0: the padded rows gathered at column 0's start indices, contracted with slice 0 of the weights. -/
def tap0 (fp : FVec F S131073x256 .f32) (nbr : IVec S131072x3 32) (W : FVec F S3x256x256 .f32) : FVec F S131072x256 .f32 :=
  let v10 : (⟨S131072x256, .f32⟩ : BufTy).Contents (Elt F) := ((fun x i => Host.gather gather_S131073x256_S131072x1_S131072x256_1_0_n_n_0_1_1256 x i) : (⟨S131073x256, .f32⟩ : BufTy).Contents (Elt F) → (⟨S131072x1, .i32⟩ : BufTy).Contents (Elt F) → (⟨S131072x256, .f32⟩ : BufTy).Contents (Elt F)) fp (startIdx0 nbr)
  let v11 : (⟨S1x256x256, .f32⟩ : BufTy).Contents (Elt F) := ((extractStridedSlice S1x256x256 ![0, 0, 0] · slices_S3x256x256_S1x256x256_0_0_0) : (⟨S3x256x256, .f32⟩ : BufTy).Contents (Elt F) → (⟨S1x256x256, .f32⟩ : BufTy).Contents (Elt F)) W
  let v12 : (⟨S256x256, .f32⟩ : BufTy).Contents (Elt F) := shapeCast S256x256 v11 shapeCasts_S1x256x256_S256x256
  ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)) v10 v12

/-- Tap 1: the padded rows gathered at column 1's start indices, contracted with slice 1 of the weights. -/
def tap1 (fp : FVec F S131073x256 .f32) (nbr : IVec S131072x3 32) (W : FVec F S3x256x256 .f32) : FVec F S131072x256 .f32 :=
  let v10 : (⟨S131072x256, .f32⟩ : BufTy).Contents (Elt F) := ((fun x i => Host.gather gather_S131073x256_S131072x1_S131072x256_1_0_n_n_0_1_1256 x i) : (⟨S131073x256, .f32⟩ : BufTy).Contents (Elt F) → (⟨S131072x1, .i32⟩ : BufTy).Contents (Elt F) → (⟨S131072x256, .f32⟩ : BufTy).Contents (Elt F)) fp (startIdx1 nbr)
  let v11 : (⟨S1x256x256, .f32⟩ : BufTy).Contents (Elt F) := ((extractStridedSlice S1x256x256 ![1, 0, 0] · slices_S3x256x256_S1x256x256_1_0_0) : (⟨S3x256x256, .f32⟩ : BufTy).Contents (Elt F) → (⟨S1x256x256, .f32⟩ : BufTy).Contents (Elt F)) W
  let v12 : (⟨S256x256, .f32⟩ : BufTy).Contents (Elt F) := shapeCast S256x256 v11 shapeCasts_S1x256x256_S256x256
  ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)) v10 v12

/-- Tap 2: the padded rows gathered at column 2's start indices, contracted with slice 2 of the weights. -/
def tap2 (fp : FVec F S131073x256 .f32) (nbr : IVec S131072x3 32) (W : FVec F S3x256x256 .f32) : FVec F S131072x256 .f32 :=
  let v10 : (⟨S131072x256, .f32⟩ : BufTy).Contents (Elt F) := ((fun x i => Host.gather gather_S131073x256_S131072x1_S131072x256_1_0_n_n_0_1_1256 x i) : (⟨S131073x256, .f32⟩ : BufTy).Contents (Elt F) → (⟨S131072x1, .i32⟩ : BufTy).Contents (Elt F) → (⟨S131072x256, .f32⟩ : BufTy).Contents (Elt F)) fp (startIdx2 nbr)
  let v11 : (⟨S1x256x256, .f32⟩ : BufTy).Contents (Elt F) := ((extractStridedSlice S1x256x256 ![2, 0, 0] · slices_S3x256x256_S1x256x256_2_0_0) : (⟨S3x256x256, .f32⟩ : BufTy).Contents (Elt F) → (⟨S1x256x256, .f32⟩ : BufTy).Contents (Elt F)) W
  let v12 : (⟨S256x256, .f32⟩ : BufTy).Contents (Elt F) := shapeCast S256x256 v11 shapeCasts_S1x256x256_S256x256
  ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)) v10 v12

/-- The three-tap linear map: `(tap 0 + tap 1) + tap 2`. -/
def convR (fp : FVec F S131073x256 .f32) (nbr : IVec S131072x3 32) (W : FVec F S3x256x256 .f32) : FVec F S131072x256 .f32 :=
  (addf : (⟨S131072x256, .f32⟩ : BufTy).Contents (Elt F) → (⟨S131072x256, .f32⟩ : BufTy).Contents (Elt F) → (⟨S131072x256, .f32⟩ : BufTy).Contents (Elt F)) ((addf : (⟨S131072x256, .f32⟩ : BufTy).Contents (Elt F) → (⟨S131072x256, .f32⟩ : BufTy).Contents (Elt F) → (⟨S131072x256, .f32⟩ : BufTy).Contents (Elt F)) (tap0 fp nbr W) (tap1 fp nbr W)) (tap2 fp nbr W)

/-- The channel mean: the column sum from 0, divided by 131072. -/
def meanR (h : FVec F S131072x256 .f32) : FVec F S256 .f32 :=
  let v40 : (⟨S256, .f32⟩ : BufTy).Contents (Elt F) := ((fun x v => Host.reduceAdd x v reducesTo_S131072x256_S256_d0 h_S_) : (⟨S131072x256, .f32⟩ : BufTy).Contents (Elt F) → (⟨S_, .f32⟩ : BufTy).Contents (Elt F) → (⟨S256, .f32⟩ : BufTy).Contents (Elt F)) h (constant S_ .f32 0x00000000#32)
  let v41 : (⟨S256, .f32⟩ : BufTy).Contents (Elt F) := (broadcastInDim S256 ![] bcast_S_S256 : (⟨S_, .f32⟩ : BufTy).Contents (Elt F) → (⟨S256, .f32⟩ : BufTy).Contents (Elt F)) (constant S_ .f32 0x48000000#32)
  (Host.divf : (⟨S256, .f32⟩ : BufTy).Contents (Elt F) → (⟨S256, .f32⟩ : BufTy).Contents (Elt F) → (⟨S256, .f32⟩ : BufTy).Contents (Elt F)) v40 v41

/-- The channel variance as the outlined function computes it at the integer argument `0`: the centred column sum
    of squares divided by `131072 − 0`, selected against a NaN where `131072 − 0 > 0` fails. -/
def varR (h : FVec F S131072x256 .f32) : FVec F S256 .f32 :=
  let arg1 : (⟨S_, .i32⟩ : BufTy).Contents (Elt F) := constantI S_ 32 0#32
  let cst : (⟨S_, .f32⟩ : BufTy).Contents (Elt F) := constant S_ .f32 0x00000000#32
  let v0 : (⟨S256, .f32⟩ : BufTy).Contents (Elt F) := (fun x v => Host.reduceAdd x v reducesTo_S131072x256_S256_d0 h_S_) h cst
  let v1 : (⟨S1x256, .f32⟩ : BufTy).Contents (Elt F) := broadcastInDim S1x256 ![1] bcast_S256_S1x256_1 v0
  let cst_0 : (⟨S_, .f32⟩ : BufTy).Contents (Elt F) := constant S_ .f32 0x48000000#32
  let v2 : (⟨S1x256, .f32⟩ : BufTy).Contents (Elt F) := broadcastInDim S1x256 ![] bcast_S_S1x256 cst_0
  let v3 : (⟨S1x256, .f32⟩ : BufTy).Contents (Elt F) := Host.divf v1 v2
  let v4 : (⟨S131072x256, .f32⟩ : BufTy).Contents (Elt F) := broadcastInDim S131072x256 ![0, 1] bcast_S1x256_S131072x256_0_1 v3
  let v5 : (⟨S131072x256, .f32⟩ : BufTy).Contents (Elt F) := subf h v4
  let v6 : (⟨S131072x256, .f32⟩ : BufTy).Contents (Elt F) := mulf v5 v5
  let v7 : (⟨S_, .f32⟩ : BufTy).Contents (Elt F) := sitofp .f32 arg1
  let cst_1 : (⟨S_, .f32⟩ : BufTy).Contents (Elt F) := constant S_ .f32 0x48000000#32
  let v8 : (⟨S_, .f32⟩ : BufTy).Contents (Elt F) := subf cst_1 v7
  let cst_2 : (⟨S_, .f32⟩ : BufTy).Contents (Elt F) := constant S_ .f32 0x00000000#32
  let v9 : (⟨S256, .f32⟩ : BufTy).Contents (Elt F) := (fun x v => Host.reduceAdd x v reducesTo_S131072x256_S256_d0 h_S_) v6 cst_2
  let v10 : (⟨S256, .f32⟩ : BufTy).Contents (Elt F) := broadcastInDim S256 ![] bcast_S_S256 v8
  let v11 : (⟨S256, .f32⟩ : BufTy).Contents (Elt F) := Host.divf v9 v10
  let cst_3 : (⟨S_, .f32⟩ : BufTy).Contents (Elt F) := constant S_ .f32 0x00000000#32
  let v12 : (⟨S_, .i1⟩ : BufTy).Contents (Elt F) := cmpf .ogt v8 cst_3
  let cst_4 : (⟨S_, .f32⟩ : BufTy).Contents (Elt F) := constant S_ .f32 0x7FC00000#32
  let w0 : (⟨S_, .f32⟩ : BufTy).Contents (Elt F) := id cst_4
  let w1 : (⟨S256, .f32⟩ : BufTy).Contents (Elt F) := broadcastInDim S256 ![] bcast_S_S256 w0
  (fun p a b => select (broadcastInDim S256 ![] bcast_S_S256 p) a b) v12 v11 w1

/-- The activation: `1 / (1 + exp (−(g · (h − mean) · rsqrt (var + ε) + β)))`, the channel vectors broadcast over rows. -/
def actR (h : FVec F S131072x256 .f32) (g β : FVec F S256 .f32) : FVec F S131072x256 .f32 :=
  let v44 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) (meanR h)
  let v45 : (⟨S131072x256, .f32⟩ : BufTy).Contents (Elt F) := (broadcastInDim S131072x256 ![0, 1] bcast_S1x256_S131072x256_0_1 : (⟨S1x256, .f32⟩ : BufTy).Contents (Elt F) → (⟨S131072x256, .f32⟩ : BufTy).Contents (Elt F)) v44
  let v46 : (⟨S131072x256, .f32⟩ : BufTy).Contents (Elt F) := (subf : (⟨S131072x256, .f32⟩ : BufTy).Contents (Elt F) → (⟨S131072x256, .f32⟩ : BufTy).Contents (Elt F) → (⟨S131072x256, .f32⟩ : BufTy).Contents (Elt F)) h v45
  let v47 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) g
  let v48 : (⟨S131072x256, .f32⟩ : BufTy).Contents (Elt F) := (broadcastInDim S131072x256 ![0, 1] bcast_S1x256_S131072x256_0_1 : (⟨S1x256, .f32⟩ : BufTy).Contents (Elt F) → (⟨S131072x256, .f32⟩ : BufTy).Contents (Elt F)) v47
  let v49 : (⟨S131072x256, .f32⟩ : BufTy).Contents (Elt F) := (mulf : (⟨S131072x256, .f32⟩ : BufTy).Contents (Elt F) → (⟨S131072x256, .f32⟩ : BufTy).Contents (Elt F) → (⟨S131072x256, .f32⟩ : BufTy).Contents (Elt F)) v48 v46
  let v50 : (⟨S256, .f32⟩ : BufTy).Contents (Elt F) := (broadcastInDim S256 ![] bcast_S_S256 : (⟨S_, .f32⟩ : BufTy).Contents (Elt F) → (⟨S256, .f32⟩ : BufTy).Contents (Elt F)) (constant S_ .f32 0x3727C5AC#32)
  let v51 : (⟨S256, .f32⟩ : BufTy).Contents (Elt F) := (addf : (⟨S256, .f32⟩ : BufTy).Contents (Elt F) → (⟨S256, .f32⟩ : BufTy).Contents (Elt F) → (⟨S256, .f32⟩ : BufTy).Contents (Elt F)) (varR h) v50
  let v52 : (⟨S256, .f32⟩ : BufTy).Contents (Elt F) := (Host.rsqrt : (⟨S256, .f32⟩ : BufTy).Contents (Elt F) → (⟨S256, .f32⟩ : BufTy).Contents (Elt F)) v51
  let v53 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) v52
  let v54 : (⟨S131072x256, .f32⟩ : BufTy).Contents (Elt F) := (broadcastInDim S131072x256 ![0, 1] bcast_S1x256_S131072x256_0_1 : (⟨S1x256, .f32⟩ : BufTy).Contents (Elt F) → (⟨S131072x256, .f32⟩ : BufTy).Contents (Elt F)) v53
  let v55 : (⟨S131072x256, .f32⟩ : BufTy).Contents (Elt F) := (mulf : (⟨S131072x256, .f32⟩ : BufTy).Contents (Elt F) → (⟨S131072x256, .f32⟩ : BufTy).Contents (Elt F) → (⟨S131072x256, .f32⟩ : BufTy).Contents (Elt F)) v49 v54
  let v56 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) β
  let v57 : (⟨S131072x256, .f32⟩ : BufTy).Contents (Elt F) := (broadcastInDim S131072x256 ![0, 1] bcast_S1x256_S131072x256_0_1 : (⟨S1x256, .f32⟩ : BufTy).Contents (Elt F) → (⟨S131072x256, .f32⟩ : BufTy).Contents (Elt F)) v56
  let v58 : (⟨S131072x256, .f32⟩ : BufTy).Contents (Elt F) := (addf : (⟨S131072x256, .f32⟩ : BufTy).Contents (Elt F) → (⟨S131072x256, .f32⟩ : BufTy).Contents (Elt F) → (⟨S131072x256, .f32⟩ : BufTy).Contents (Elt F)) v55 v57
  let v59 : (⟨S131072x256, .f32⟩ : BufTy).Contents (Elt F) := (Host.negf : (⟨S131072x256, .f32⟩ : BufTy).Contents (Elt F) → (⟨S131072x256, .f32⟩ : BufTy).Contents (Elt F)) v58
  let v60 : (⟨S131072x256, .f32⟩ : BufTy).Contents (Elt F) := (Host.exp : (⟨S131072x256, .f32⟩ : BufTy).Contents (Elt F) → (⟨S131072x256, .f32⟩ : BufTy).Contents (Elt F)) v59
  let v61 : (⟨S131072x256, .f32⟩ : BufTy).Contents (Elt F) := (broadcastInDim S131072x256 ![] bcast_S_S131072x256 : (⟨S_, .f32⟩ : BufTy).Contents (Elt F) → (⟨S131072x256, .f32⟩ : BufTy).Contents (Elt F)) (constant S_ .f32 0x3F800000#32)
  let v62 : (⟨S131072x256, .f32⟩ : BufTy).Contents (Elt F) := (addf : (⟨S131072x256, .f32⟩ : BufTy).Contents (Elt F) → (⟨S131072x256, .f32⟩ : BufTy).Contents (Elt F) → (⟨S131072x256, .f32⟩ : BufTy).Contents (Elt F)) v61 v60
  let v63 : (⟨S131072x256, .f32⟩ : BufTy).Contents (Elt F) := (broadcastInDim S131072x256 ![] bcast_S_S131072x256 : (⟨S_, .f32⟩ : BufTy).Contents (Elt F) → (⟨S131072x256, .f32⟩ : BufTy).Contents (Elt F)) (constant S_ .f32 0x3F800000#32)
  (Host.divf : (⟨S131072x256, .f32⟩ : BufTy).Contents (Elt F) → (⟨S131072x256, .f32⟩ : BufTy).Contents (Elt F) → (⟨S131072x256, .f32⟩ : BufTy).Contents (Elt F)) v63 v62

/-- One branch: the activation of the three-tap map of the padded features. -/
def branchR (fp : FVec F S131073x256 .f32) (nbr : IVec S131072x3 32) (W : FVec F S3x256x256 .f32) (g β : FVec F S256 .f32) :
    FVec F S131072x256 .f32 :=
  actR (convR fp nbr W) g β

/-- The whole result: `((branch 1 + branch 2) + branch 3) · x`. -/
def refTerm (x : FVec F S131072x256 .f32) (W1 W2 W3 : FVec F S3x256x256 .f32) (g1 b1 g2 b2 g3 b3 : FVec F S256 .f32)
    (n1 n2 n3 : IVec S131072x3 32) : FVec F S131072x256 .f32 :=
  (mulf : (⟨S131072x256, .f32⟩ : BufTy).Contents (Elt F) → (⟨S131072x256, .f32⟩ : BufTy).Contents (Elt F) → (⟨S131072x256, .f32⟩ : BufTy).Contents (Elt F))
    ((addf : (⟨S131072x256, .f32⟩ : BufTy).Contents (Elt F) → (⟨S131072x256, .f32⟩ : BufTy).Contents (Elt F) → (⟨S131072x256, .f32⟩ : BufTy).Contents (Elt F))
      ((addf : (⟨S131072x256, .f32⟩ : BufTy).Contents (Elt F) → (⟨S131072x256, .f32⟩ : BufTy).Contents (Elt F) → (⟨S131072x256, .f32⟩ : BufTy).Contents (Elt F)) (branchR (padRows x) n1 W1 g1 b1) (branchR (padRows x) n2 W2 g2 b2))
      (branchR (padRows x) n3 W3 g3 b3))
    x

end Cert.ReferenceIdeal.RefRead

end
-- ==== Proof.RefValue.lean ====
/-
  The reference's stages read at an index.

  Each stage of the reference — the zero-padded features, a tap's start indices, the three-tap linear map, the channel
  mean, the channel variance, the activation, the whole result — read at plain (row, channel) indices is the
  corresponding function of the mathematics: the padding row reads 0, a start index is the neighbour word wrapped and
  clamped, a gather reads the padded row the word names, a contraction is the sum over the 256 input channels, a column
  reduction is 0 plus the sum over the 131072 rows, and the variance's guard `131072 − 0 > 0` holds so that its
  not-a-number branch is never taken.
-/
import proofs.«177556_j33500744909242_2_alg».proof.Proof.RefStages
import proofs.«177556_j33500744909242_2_alg».proof.Proof.Spec
import proofs.«177556_j33500744909242_2_alg».proof.Proof.Views
import proofs.«177556_j33500744909242_2_alg».proof.Proof.LibRowGather
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.RefRead Cert.SubmBN
open Idealize.ShloMosaic Idealize.ShloMosaic.ValueIdx
open Cert.ReferenceIdeal.Facts₀ Cert.ReferenceIdeal.Facts

variable [Cert.ReferenceIdeal.Facts]

/-! ## The zero-padded features -/

/-- The padded features at row `r`: the features' row below 131072, the zero of the appended row at 131072. -/
theorem padRows_apply (x : FVec Ideal S131072x256 .f32) (r : Fin 131073) (c : Chan) :
    padRows x (ix2 r c) = padded (mat x) r c := by
  unfold padRows padded
  by_cases h : r.val < 131072
  · rw [dif_pos h]
    exact concatenate_pair_apply_left (t := S131073x256) (s₁ := S131072x256) (s₂ := S1x256) (0 : Fin 2) x _ concatenates_S131072x256_S1x256_S131073x256_d0 (ix2 r c) rfl
      (ix2 ⟨r.val, h⟩ c) (fun b => match b with | ⟨0, _⟩ => rfl | ⟨1, _⟩ => rfl)
  · rw [dif_neg h]
    refine (concatenate_pair_apply_right (t := S131073x256) (s₁ := S131072x256) (s₂ := S1x256) (0 : Fin 2) x _ concatenates_S131072x256_S1x256_S131073x256_d0 (ix2 r c) rfl rfl
      (ix2 (⟨0, Nat.one_pos⟩ : Fin 1) c) (fun b hb => match b, hb with | ⟨0, _⟩, hb => absurd rfl hb | ⟨1, _⟩, _ => rfl) ?_).trans ?_
    · show 0 + 131072 = r.val
      have := r.isLt; omega
    · show Ideal.ofBits .f32 0x00000000#32 = 0
      exact Ideal.ofBits_zero_f32

/-! ## A tap's start indices -/

/-- A column of the neighbour table, sliced out and flattened, reads the table's word. -/
theorem col_apply (o : Nat) (ho : o < 3) (hs : S131072x3.Slices ![0, o] S131072x1) (nbr : IVec S131072x3 32) (r : Rows) :
    shapeCast S131072 (extractStridedSlice S131072x1 ![0, o] nbr hs) shapeCasts_S131072x1_S131072 (ix1 r)
      = nbr (ix2 r ⟨o, ho⟩) := by
  refine (shapeCast_apply _ shapeCasts_S131072x1_S131072 (ix1 r) (ix2 r (⟨0, Nat.one_pos⟩ : Fin 1)) ?_).trans ?_
  · rw [Shape.rowMajor_val_two, Shape.rowMajor_val_one]
    show r.val * 1 + 0 = r.val
    omega
  · exact extractStridedSlice_apply _ nbr hs _ (ix2 r ⟨o, ho⟩) (fun a => match a with
      | ⟨0, _⟩ => (Nat.zero_add _).symm
      | ⟨1, _⟩ => (Nat.add_zero _).symm)

/-- The wrap of a flat index vector, given a trailing unit axis, reads the word wrapped when negative. -/
theorem wrap_apply (v : IVec S131072 32) (r : Rows) :
    (broadcastInDim S131072x1 ![0] bcast_S131072_S131072x1_0
        (select (cmpi .slt v (broadcastInDim S131072 ![] bcast_S_S131072 (constantI S_ 32 0#32)))
          (addi v (broadcastInDim S131072 ![] bcast_S_S131072 (constantI S_ 32 131073#32))) v))
      (ix2 r (⟨0, Nat.one_pos⟩ : Fin 1))
      = Scalar.select (IntOp.cmpi .slt (v (ix1 r)) 0#32) (IntOp.addi (v (ix1 r)) 131073#32) (v (ix1 r)) :=
  broadcastInDim_apply _ bcast_S131072_S131072x1_0 _ (ix2 r (⟨0, Nat.one_pos⟩ : Fin 1)) (ix1 r)
    (fun a => match a with | ⟨0, _⟩ => rfl)

/-- Tap 0's start index of row `r` names the padded row `rowOf` of the table's word. -/
theorem startIdx0_row (nbr : IVec S131072x3 32) (r : Rows) :
    min (startIdx0 nbr (ix2 r (⟨0, Nat.one_pos⟩ : Fin 1))).toInt.toNat (131073 - 1) = (rows nbr r 0).val := by
  unfold startIdx0
  rw [wrap_apply, col_apply 0 (by decide)]
  rfl

/-- Tap 1's start index of row `r` names the padded row `rowOf` of the table's word. -/
theorem startIdx1_row (nbr : IVec S131072x3 32) (r : Rows) :
    min (startIdx1 nbr (ix2 r (⟨0, Nat.one_pos⟩ : Fin 1))).toInt.toNat (131073 - 1) = (rows nbr r 1).val := by
  unfold startIdx1
  rw [wrap_apply, col_apply 1 (by decide)]
  rfl

/-- Tap 2's start index of row `r` names the padded row `rowOf` of the table's word. -/
theorem startIdx2_row (nbr : IVec S131072x3 32) (r : Rows) :
    min (startIdx2 nbr (ix2 r (⟨0, Nat.one_pos⟩ : Fin 1))).toInt.toNat (131073 - 1) = (rows nbr r 2).val := by
  unfold startIdx2
  rw [wrap_apply, col_apply 2 (by decide)]
  rfl

/-! ## The gather and the contraction -/

/-- The row gather of the padded features reads the row the start index names. -/
theorem gather_apply (fp : FVec Ideal S131073x256 .f32) (idx : IVec S131072x1 32) (r : Rows) (c : Chan) (q : Fin 131073)
    (hq : min (idx (ix2 r (⟨0, Nat.one_pos⟩ : Fin 1))).toInt.toNat (131073 - 1) = q.val) :
    Host.gather gather_S131073x256_S131072x1_S131072x256_1_0_n_n_0_1_1256 fp idx (ix2 r c) = fp (ix2 q c) := by
  refine (RowGather.rowGather_apply (N := 131073) (C := 256) (R := 131072) (by decide) gather_S131073x256_S131072x1_S131072x256_1_0_n_n_0_1_1256 rfl rfl rfl rfl rfl rfl rfl
    fp idx r c).trans ?_
  exact congrArg (fun p => fp (ix2 p c)) (Fin.ext hq)

/-- The contraction's left operand index, axis 0: the output's row. -/
theorem lhs0 (j : S131072x256.Idx) (q : dot_S131072x256_S256x256_S131072x256_1_0_0_1_n_n.contr.Idx) : (dot_S131072x256_S256x256_S131072x256_1_0_0_1_n_n.lhsIdx j q 0).val = (j 0).val := by
  unfold DotDims.lhsIdx
  rw [dif_neg (show ¬ (0 : Fin S131072x256.rank) ∈ dot_S131072x256_S256x256_S131072x256_1_0_0_1_n_n.lhsBatch from List.not_mem_nil),
    dif_pos (show (0 : Fin S131072x256.rank) ∈ dot_S131072x256_S256x256_S131072x256_1_0_0_1_n_n.lhsNonContracting from List.mem_singleton.mpr rfl)]
  rfl

/-- The contraction's left operand index, axis 1: the contracted channel. -/
theorem lhs1 (j : S131072x256.Idx) (q : dot_S131072x256_S256x256_S131072x256_1_0_0_1_n_n.contr.Idx) :
    (dot_S131072x256_S256x256_S131072x256_1_0_0_1_n_n.lhsIdx j q 1).val = (q ⟨0, Nat.one_pos⟩).val :=
  dot_S131072x256_S256x256_S131072x256_1_0_0_1_n_n.lhsIdx_val_of_single rfl j q

/-- The contraction's right operand index, axis 0: the contracted channel. -/
theorem rhs0 (j : S131072x256.Idx) (q : dot_S131072x256_S256x256_S131072x256_1_0_0_1_n_n.contr.Idx) :
    (dot_S131072x256_S256x256_S131072x256_1_0_0_1_n_n.rhsIdx j q 0).val = (q ⟨0, Nat.one_pos⟩).val :=
  dot_S131072x256_S256x256_S131072x256_1_0_0_1_n_n.rhsIdx_val_of_single rfl j q

/-- The contraction's right operand index, axis 1: the output's channel. -/
theorem rhs1 (j : S131072x256.Idx) (q : dot_S131072x256_S256x256_S131072x256_1_0_0_1_n_n.contr.Idx) : (dot_S131072x256_S256x256_S131072x256_1_0_0_1_n_n.rhsIdx j q 1).val = (j 1).val := by
  unfold DotDims.rhsIdx
  rw [dif_neg (show ¬ (1 : Fin S256x256.rank) ∈ dot_S131072x256_S256x256_S131072x256_1_0_0_1_n_n.rhsBatch from List.not_mem_nil),
    dif_pos (show (1 : Fin S256x256.rank) ∈ dot_S131072x256_S256x256_S131072x256_1_0_0_1_n_n.rhsNonContracting from List.mem_singleton.mpr rfl)]
  rfl

/-- The contraction read at (row, output channel): the sum over the 256 input channels. -/
theorem dot_apply (l : FVec Ideal S131072x256 .f32) (w : FVec Ideal S256x256 .f32) (i : Rows) (o : Chan) :
    Host.dotGeneral dot_S131072x256_S256x256_S131072x256_1_0_0_1_n_n none l w (ix2 i o) = ∑ k : Chan, l (ix2 i k) * w (ix2 k o) := by
  show FloatOps.dotGeneral dot_S131072x256_S256x256_S131072x256_1_0_0_1_n_n none .single l w (ix2 i o) = _
  rw [Ideal.dotGeneral_apply, ← Equiv.sum_comp (contrEquiv1 dot_S131072x256_S256x256_S131072x256_1_0_0_1_n_n 256 rfl rfl).symm]
  refine Finset.sum_congr rfl fun k _ => ?_
  have hk := contrEquiv1_symm_val dot_S131072x256_S256x256_S131072x256_1_0_0_1_n_n 256 rfl rfl k
  have el : dot_S131072x256_S256x256_S131072x256_1_0_0_1_n_n.lhsIdx (ix2 i o) ((contrEquiv1 dot_S131072x256_S256x256_S131072x256_1_0_0_1_n_n 256 rfl rfl).symm k) = ix2 i k :=
    funext fun a => Fin.ext (by
      match a with
      | ⟨0, _⟩ => exact lhs0 _ _
      | ⟨1, _⟩ => exact (lhs1 _ _).trans hk)
  have er : dot_S131072x256_S256x256_S131072x256_1_0_0_1_n_n.rhsIdx (ix2 i o) ((contrEquiv1 dot_S131072x256_S256x256_S131072x256_1_0_0_1_n_n 256 rfl rfl).symm k) = ix2 k o :=
    funext fun a => Fin.ext (by
      match a with
      | ⟨0, _⟩ => exact (rhs0 _ _).trans hk
      | ⟨1, _⟩ => exact rhs1 _ _)
  rw [el, er]

/-- Slice `t` of the weights, its unit axis dropped, reads the weights at tap `t`. -/
theorem wslice_apply (t : Nat) (ht : t < 3) (hs : S3x256x256.Slices ![t, 0, 0] S1x256x256) (W : FVec Ideal S3x256x256 .f32)
    (k o : Chan) :
    shapeCast S256x256 (extractStridedSlice S1x256x256 ![t, 0, 0] W hs) shapeCasts_S1x256x256_S256x256 (ix2 k o)
      = W (ix3 ⟨t, ht⟩ k o) := by
  refine (shapeCast_1ab_ab_apply _ shapeCasts_S1x256x256_S256x256 k o).trans ?_
  exact extractStridedSlice_apply _ W hs _ (ix3 ⟨t, ht⟩ k o) (fun a => match a with
    | ⟨0, _⟩ => (Nat.add_zero _).symm
    | ⟨1, _⟩ => (Nat.zero_add _).symm
    | ⟨2, _⟩ => (Nat.zero_add _).symm)

/-- Tap 0 read at (row, output channel). -/
theorem tap0_apply (fp : FVec Ideal S131073x256 .f32) (nbr : IVec S131072x3 32) (W : FVec Ideal S3x256x256 .f32)
    (i : Rows) (o : Chan) :
    tap0 fp nbr W (ix2 i o) = ∑ k : Chan, fp (ix2 (rows nbr i 0) k) * ten W 0 k o := by
  unfold tap0
  refine (dot_apply _ _ i o).trans (Finset.sum_congr rfl fun k _ => ?_)
  exact congrArg₂ (· * ·) (gather_apply fp _ i k _ (startIdx0_row nbr i)) (wslice_apply 0 (by decide) _ W k o)

/-- Tap 1 read at (row, output channel). -/
theorem tap1_apply (fp : FVec Ideal S131073x256 .f32) (nbr : IVec S131072x3 32) (W : FVec Ideal S3x256x256 .f32)
    (i : Rows) (o : Chan) :
    tap1 fp nbr W (ix2 i o) = ∑ k : Chan, fp (ix2 (rows nbr i 1) k) * ten W 1 k o := by
  unfold tap1
  refine (dot_apply _ _ i o).trans (Finset.sum_congr rfl fun k _ => ?_)
  exact congrArg₂ (· * ·) (gather_apply fp _ i k _ (startIdx1_row nbr i)) (wslice_apply 1 (by decide) _ W k o)

/-- Tap 2 read at (row, output channel). -/
theorem tap2_apply (fp : FVec Ideal S131073x256 .f32) (nbr : IVec S131072x3 32) (W : FVec Ideal S3x256x256 .f32)
    (i : Rows) (o : Chan) :
    tap2 fp nbr W (ix2 i o) = ∑ k : Chan, fp (ix2 (rows nbr i 2) k) * ten W 2 k o := by
  unfold tap2
  refine (dot_apply _ _ i o).trans (Finset.sum_congr rfl fun k _ => ?_)
  exact congrArg₂ (· * ·) (gather_apply fp _ i k _ (startIdx2_row nbr i)) (wslice_apply 2 (by decide) _ W k o)

/-! ## The three-tap linear map -/

/-- The three-tap map of the padded features is the mathematics' `conv3`. -/
theorem convR_apply (x : FVec Ideal S131072x256 .f32) (nbr : IVec S131072x3 32) (W : FVec Ideal S3x256x256 .f32) :
    mat (convR (padRows x) nbr W) = conv3 (padded (mat x)) (rows nbr) (ten W) := by
  funext i o
  show convR (padRows x) nbr W (ix2 i o) = _
  unfold convR conv3
  show (tap0 (padRows x) nbr W (ix2 i o) + tap1 (padRows x) nbr W (ix2 i o)) + tap2 (padRows x) nbr W (ix2 i o) = _
  rw [tap0_apply, tap1_apply, tap2_apply]
  simp only [padRows_apply]

/-! ## Broadcasts read at an index -/

/-- A scalar broadcast to a channel vector reads the scalar. -/
theorem scalChan_apply {α : Type} (p : S_.Idx → α) (c : Chan) : broadcastInDim S256 ![] bcast_S_S256 p (ix1 c) = p ix0 :=
  broadcastInDim_apply _ bcast_S_S256 p (ix1 c) ix0 (fun a => a.elim0)

/-- A scalar broadcast to a one-row matrix reads the scalar. -/
theorem scalRow_apply {α : Type} (p : S_.Idx → α) (c : Chan) :
    broadcastInDim S1x256 ![] bcast_S_S1x256 p (ix2 (⟨0, Nat.one_pos⟩ : Fin 1) c) = p ix0 :=
  broadcastInDim_apply _ bcast_S_S1x256 p _ ix0 (fun a => a.elim0)

/-- A scalar broadcast to the full matrix reads the scalar. -/
theorem scalMat_apply {α : Type} (p : S_.Idx → α) (i : Rows) (c : Chan) :
    broadcastInDim S131072x256 ![] bcast_S_S131072x256 p (ix2 i c) = p ix0 :=
  broadcastInDim_apply _ bcast_S_S131072x256 p _ ix0 (fun a => a.elim0)

/-- A channel vector laid out as a one-row matrix reads the vector at the channel. -/
theorem chanRow_apply {α : Type} (v : S256.Idx → α) (c : Chan) :
    broadcastInDim S1x256 ![1] bcast_S256_S1x256_1 v (ix2 (⟨0, Nat.one_pos⟩ : Fin 1) c) = v (ix1 c) :=
  broadcastInDim_apply _ bcast_S256_S1x256_1 v _ (ix1 c) (fun a => match a with | ⟨0, _⟩ => rfl)

/-- A one-row matrix broadcast over the rows reads the row at the channel. -/
theorem rowMat_apply {α : Type} (u : S1x256.Idx → α) (i : Rows) (c : Chan) :
    broadcastInDim S131072x256 ![0, 1] bcast_S1x256_S131072x256_0_1 u (ix2 i c) = u (ix2 (⟨0, Nat.one_pos⟩ : Fin 1) c) :=
  broadcastInDim_apply _ bcast_S1x256_S131072x256_0_1 u _ _ (fun a => match a with | ⟨0, _⟩ => rfl | ⟨1, _⟩ => rfl)

/-- A channel vector broadcast over the rows reads the vector at the channel. -/
theorem chanMat_apply {α : Type} (v : S256.Idx → α) (i : Rows) (c : Chan) :
    broadcastInDim S131072x256 ![0, 1] bcast_S1x256_S131072x256_0_1 (broadcastInDim S1x256 ![1] bcast_S256_S1x256_1 v) (ix2 i c)
      = v (ix1 c) :=
  (rowMat_apply _ i c).trans (chanRow_apply v c)

/-! ## Column sums, the mean and the variance -/

/-- A column sum from the zero word: 0 plus the sum over the rows. -/
theorem colSum_apply (h : FVec Ideal S131072x256 .f32) (c : Chan) :
    Host.reduceAdd h (constant (F := Ideal) S_ .f32 0x00000000#32) reducesTo_S131072x256_S256_d0 h_S_ (ix1 c)
      = 0 + ∑ i : Rows, h (ix2 i c) := by
  show Ideal.hostReduceAdd reducesTo_S131072x256_S256_d0 h (Ideal.ofBits .f32 0x00000000#32) (ix1 c) = _
  rw [Ideal.hostReduceAdd_single reducesTo_S131072x256_S256_d0 (by decide), Ideal.ofBits_zero_f32]
  refine congrArg (0 + ·) (Finset.sum_congr rfl fun k _ => ?_)
  exact congrArg h (funext fun a => Fin.ext (by match a with | ⟨0, _⟩ => rfl | ⟨1, _⟩ => rfl))

/-- The channel mean at a channel. -/
theorem meanR_at (h : FVec Ideal S131072x256 .f32) (c : Chan) : meanR h (ix1 c) = refMean (mat h) c := by
  unfold meanR refMean
  dsimp only
  show Ideal.div (Host.reduceAdd h (constant (F := Ideal) S_ .f32 0x00000000#32) reducesTo_S131072x256_S256_d0 h_S_ (ix1 c))
    (broadcastInDim S256 ![] bcast_S_S256 (constant (F := Ideal) S_ .f32 0x48000000#32) (ix1 c)) = _
  rw [colSum_apply, scalChan_apply]
  rfl

/-- The channel mean is the mathematics' mean. -/
theorem meanR_apply (h : FVec Ideal S131072x256 .f32) : vec (meanR h) = refMean (mat h) :=
  funext fun c => meanR_at h c

/-- The literal 131072 is the real 131072. -/
theorem cN_real : cN = ((131072 : ℝ) : EReal) := by
  show Ideal.ofBits .f32 0x48000000#32 = _
  simp [Ideal.ofBits, Ideal.ieee, -EReal.coe_mul]; norm_num

/-- The variance's divisor: 131072 minus the integer 0 converted, which is 131072. -/
theorem divisor_eq : cN - (((0#32 : BitVec 32).toInt : ℝ) : EReal) = cN := by
  have h0 : (0#32 : BitVec 32).toInt = 0 := by decide
  rw [h0, Int.cast_zero, EReal.coe_zero, sub_zero]

/-- The variance's guard `131072 − 0 > 0` is the bit 1. -/
theorem guard_eq :
    Ideal.cmp .ogt (cN - (((0#32 : BitVec 32).toInt : ℝ) : EReal)) (Ideal.ofBits .f32 0x00000000#32) = 1#1 := by
  rw [divisor_eq, Ideal.ofBits_zero_f32, cN_real]
  show BitVec.ofBool (decide ((0 : EReal) < ((131072 : ℝ) : EReal))) = 1#1
  rw [decide_eq_true (EReal.coe_pos.mpr (by norm_num))]
  rfl

/-- A select on a broadcast scalar condition reads the scalar's bit. -/
theorem selScal_apply (p : IVec S_ 1) (a b : FVec Ideal S256 .f32) (c : Chan) :
    select (broadcastInDim S256 ![] bcast_S_S256 p) a b (ix1 c) = Scalar.select (p ix0) (a (ix1 c)) (b (ix1 c)) := by
  show Scalar.select (broadcastInDim S256 ![] bcast_S_S256 p (ix1 c)) _ _ = _
  rw [scalChan_apply]

/-- The mean as the variance function recomputes it (divided in the one-row layout), broadcast over the rows. -/
theorem meanB_apply (h : FVec Ideal S131072x256 .f32) (i : Rows) (c : Chan) :
    broadcastInDim S131072x256 ![0, 1] bcast_S1x256_S131072x256_0_1
        (Host.divf
          (broadcastInDim S1x256 ![1] bcast_S256_S1x256_1
            (Host.reduceAdd h (constant (F := Ideal) S_ .f32 0x00000000#32) reducesTo_S131072x256_S256_d0 h_S_))
          (broadcastInDim S1x256 ![] bcast_S_S1x256 (constant (F := Ideal) S_ .f32 0x48000000#32))) (ix2 i c)
      = refMean (mat h) c := by
  rw [rowMat_apply]
  show Ideal.div (broadcastInDim (s := S256) S1x256 ![1] bcast_S256_S1x256_1 _ (ix2 (⟨0, Nat.one_pos⟩ : Fin 1) c))
    (broadcastInDim (s := S_) S1x256 ![] bcast_S_S1x256 _ (ix2 (⟨0, Nat.one_pos⟩ : Fin 1) c)) = _
  rw [chanRow_apply, scalRow_apply, colSum_apply]
  rfl

/-- The channel variance at a channel: the guard holds, so the quotient is selected. -/
theorem varR_at (h : FVec Ideal S131072x256 .f32) (c : Chan) : varR h (ix1 c) = refVar (mat h) c := by
  unfold varR
  dsimp only
  refine (selScal_apply _ _ _ c).trans ?_
  have hg : cmpf .ogt (subf (constant (F := Ideal) S_ .f32 0x48000000#32) (sitofp .f32 (constantI S_ 32 0#32)))
      (constant (F := Ideal) S_ .f32 0x00000000#32) ix0 = 1#1 := guard_eq
  rw [hg, select_one]
  show Ideal.div (Host.reduceAdd _ (constant (F := Ideal) S_ .f32 0x00000000#32) reducesTo_S131072x256_S256_d0 h_S_ (ix1 c))
    (broadcastInDim (s := S_) S256 ![] bcast_S_S256 _ (ix1 c)) = _
  rw [colSum_apply, scalChan_apply]
  unfold refVar
  refine congrArg₂ Ideal.div (congrArg (0 + ·) (Finset.sum_congr rfl fun i _ => ?_)) divisor_eq
  show (h (ix2 i c) - _) * (h (ix2 i c) - _) = _
  rw [meanB_apply]
  rfl

/-- The channel variance is the mathematics' variance. -/
theorem varR_apply (h : FVec Ideal S131072x256 .f32) : vec (varR h) = refVar (mat h) :=
  funext fun c => varR_at h c

/-! ## The activation and the whole result -/

/-- The activation at (row, channel). -/
theorem actR_at (h : FVec Ideal S131072x256 .f32) (g β : FVec Ideal S256 .f32) (i : Rows) (c : Chan) :
    actR h g β (ix2 i c) = refAct (mat h) (vec g) (vec β) i c := by
  unfold actR
  dsimp only
  show Ideal.div (broadcastInDim (s := S_) S131072x256 ![] bcast_S_S131072x256 _ (ix2 i c))
    (broadcastInDim (s := S_) S131072x256 ![] bcast_S_S131072x256 _ (ix2 i c)
      + Ideal.exp (-(broadcastInDim (s := S1x256) S131072x256 ![0, 1] bcast_S1x256_S131072x256_0_1 _ (ix2 i c)
          * (h (ix2 i c) - broadcastInDim (s := S1x256) S131072x256 ![0, 1] bcast_S1x256_S131072x256_0_1 _ (ix2 i c))
          * broadcastInDim (s := S1x256) S131072x256 ![0, 1] bcast_S1x256_S131072x256_0_1 _ (ix2 i c)
          + broadcastInDim (s := S1x256) S131072x256 ![0, 1] bcast_S1x256_S131072x256_0_1 _ (ix2 i c)))) = _
  rw [scalMat_apply, chanMat_apply, chanMat_apply, chanMat_apply, chanMat_apply]
  show Ideal.div cOne (cOne + Ideal.exp (-(g (ix1 c) * (h (ix2 i c) - meanR h (ix1 c))
    * Ideal.rsqrt (varR h (ix1 c)
        + broadcastInDim (s := S_) S256 ![] bcast_S_S256 (constant (F := Ideal) S_ .f32 0x3727C5AC#32) (ix1 c))
    + β (ix1 c)))) = _
  rw [scalChan_apply, meanR_at, varR_at]
  rfl

/-- The activation is the mathematics' activation. -/
theorem actR_apply (h : FVec Ideal S131072x256 .f32) (g β : FVec Ideal S256 .f32) :
    mat (actR h g β) = refAct (mat h) (vec g) (vec β) :=
  funext fun i => funext fun c => actR_at h g β i c

/-- THE REFERENCE'S RESULT read at (row, channel): the three branches' activations summed, times the features. -/
theorem refTerm_apply (x : FVec Ideal S131072x256 .f32) (W1 W2 W3 : FVec Ideal S3x256x256 .f32)
    (g1 b1 g2 b2 g3 b3 : FVec Ideal S256 .f32) (n1 n2 n3 : IVec S131072x3 32) :
    mat (refTerm x W1 W2 W3 g1 b1 g2 b2 g3 b3 n1 n2 n3)
      = combine (refAct (conv3 (padded (mat x)) (rows n1) (ten W1)) (vec g1) (vec b1))
          (refAct (conv3 (padded (mat x)) (rows n2) (ten W2)) (vec g2) (vec b2))
          (refAct (conv3 (padded (mat x)) (rows n3) (ten W3)) (vec g3) (vec b3)) (mat x) := by
  funext i c
  show refTerm x W1 W2 W3 g1 b1 g2 b2 g3 b3 n1 n2 n3 (ix2 i c) = _
  unfold refTerm branchR combine
  show (actR (convR (padRows x) n1 W1) g1 b1 (ix2 i c) + actR (convR (padRows x) n2 W2) g2 b2 (ix2 i c)
    + actR (convR (padRows x) n3 W3) g3 b3 (ix2 i c)) * x (ix2 i c) = _
  rw [actR_at, actR_at, actR_at, convR_apply, convR_apply, convR_apply]
  rfl

end Cert.ReferenceIdeal.RefValue

end
-- ==== Proof.Algebra.lean ====
/-
  The extended-real algebra of the normalisation: on finite data the blocked arrangement (block sums written eight
  times, `E[h²] − mean²`, folded scale and shift, the logistic function) and the centred arrangement (mean, centred
  variance, affine map, `1 / (1 + e^(−t))`) are the same extended real; zero padding and the three-tap linear map keep
  finite data finite.
-/
import proofs.«177556_j33500744909242_2_alg».proof.Proof.Spec

noncomputable section

namespace Cert.SubmBN

open Idealize.ShloMosaic

namespace Alg

/-! ## The literals, each pattern unfolded once -/

/-- The pattern `0x41000000` denotes the real `8`. -/
theorem c8_eq : c8 = ((8 : ℝ) : EReal) := by
  simp [c8, Ideal.ofBits, Ideal.ieee, -EReal.coe_mul]; norm_num

/-- The pattern `0x48000000` denotes the real `131072 = 2¹⁷`. -/
theorem cN_eq : cN = ((131072 : ℝ) : EReal) := by
  simp [cN, Ideal.ofBits, Ideal.ieee, -EReal.coe_mul]; norm_num

/-- The pattern `0x3F800000` denotes `1`. -/
theorem cOne_eq : cOne = 1 := by
  simp [cOne, Ideal.ofBits, Ideal.ieee, -EReal.coe_mul]; norm_num

/-- The pattern `0x3727C5AC` denotes a positive real (the f32 nearest `1e-5`); only its sign is used. -/
theorem cEps_pos : ∃ e : ℝ, 0 < e ∧ cEps = (e : EReal) := by
  refine ⟨(2 ^ 23 + 2606508 : ℕ) * (2 : ℝ) ^ ((110 : ℤ) - 127 - 23), by positivity, ?_⟩
  simp [cEps, Ideal.ofBits, Ideal.ieee, -EReal.coe_mul]

/-! ## Sums of coerced reals, and the blocked sum -/

/-- A finite sum of coerced reals is the coercion of the real sum. -/
theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- Rows `b·4096 + j` of 32 blocks of 4096 enumerate all 131072 rows once. -/
theorem sum_blockRow (f : Rows → ℝ) : (∑ b : Fin 32, ∑ j : Fin 4096, f (blockRow b j)) = ∑ i : Rows, f i := by
  rw [← Fintype.sum_prod_type']
  refine Fintype.sum_equiv (finProdFinEquiv (m := 32) (n := 4096)) _ _ ?_
  rintro ⟨b, j⟩
  refine congrArg f (Fin.ext ?_)
  simp only [blockRow, finProdFinEquiv_apply_val]
  omega

/-- The blocked sum: every block sum written eight times, all 256 copies added, is eight times the full sum. -/
theorem sum_blocked (f : Rows → ℝ) :
    (∑ b : Fin 32, ∑ _r : Fin 8, ∑ j : Fin 4096, f (blockRow b j)) = 8 * ∑ i : Rows, f i := by
  rw [← sum_blockRow f, Finset.mul_sum]
  refine Finset.sum_congr rfl fun b _ => ?_
  rw [Finset.sum_const, Finset.card_univ, Fintype.card_fin, nsmul_eq_mul]
  norm_num

/-- The same at coerced reals, divided by `8` and by `131072` as the blocked arrangement does. -/
theorem blocked_div (f : Rows → ℝ) :
    Ideal.div (Ideal.div (0 + ∑ b : Fin 32, ∑ _r : Fin 8, ∑ j : Fin 4096, (f (blockRow b j) : EReal)) c8) cN
      = (((∑ i : Rows, f i) / 131072 : ℝ) : EReal) := by
  rw [c8_eq, cN_eq, Ideal.div_coe (by norm_num), Ideal.div_coe (by norm_num), zero_add]
  simp only [coe_sum]
  rw [sum_blocked, ← EReal.coe_mul, ← EReal.coe_mul]
  refine congrArg (fun r : ℝ => (r : EReal)) ?_
  ring

/-- The centred arrangement's division of a full sum by `131072`. -/
theorem full_div (f : Rows → ℝ) :
    Ideal.div (0 + ∑ i : Rows, (f i : EReal)) cN = (((∑ i : Rows, f i) / 131072 : ℝ) : EReal) := by
  rw [cN_eq, Ideal.div_coe (by norm_num), zero_add, coe_sum, ← EReal.coe_mul]
  refine congrArg (fun r : ℝ => (r : EReal)) ?_
  ring

/-! ## The variance identity over the reals -/

/-- `(Σ (fᵢ − μ)²) / N = (Σ fᵢ²) / N − μ²` for `μ = (Σ fᵢ) / N`, where `N` is the number of terms. -/
theorem var_identity {ι : Type*} (s : Finset ι) (f : ι → ℝ) (N : ℝ) (hN : N ≠ 0) (hcard : (s.card : ℝ) = N) :
    (∑ i ∈ s, (f i - (∑ j ∈ s, f j) / N) * (f i - (∑ j ∈ s, f j) / N)) / N
      = (∑ i ∈ s, f i * f i) / N - (∑ j ∈ s, f j) / N * ((∑ j ∈ s, f j) / N) := by
  have hS : ∑ j ∈ s, f j = N * ((∑ j ∈ s, f j) / N) := by field_simp
  generalize (∑ j ∈ s, f j) / N = μ at hS ⊢
  have h1 : ∑ i ∈ s, (f i - μ) * (f i - μ) = ∑ i ∈ s, f i * f i - 2 * μ * ∑ i ∈ s, f i + N * (μ * μ) := by
    have h2 : ∀ i, (f i - μ) * (f i - μ) = f i * f i - 2 * μ * f i + μ * μ := fun i => by ring
    simp only [h2, Finset.sum_add_distrib, Finset.sum_sub_distrib, ← Finset.mul_sum, Finset.sum_const, nsmul_eq_mul,
      hcard]
    ring
  rw [h1, hS]
  field_simp
  ring

/-! ## The two arrangements on finite data -/

/-- The real mean of channel `c` over all rows. -/
def meanR (hr : Rows → Chan → ℝ) (c : Chan) : ℝ := (∑ i : Rows, hr i c) / 131072

/-- The real (biased) variance of channel `c`, centred form. -/
def varR (hr : Rows → Chan → ℝ) (c : Chan) : ℝ :=
  (∑ i : Rows, (hr i c - meanR hr c) * (hr i c - meanR hr c)) / 131072

theorem varR_nonneg (hr : Rows → Chan → ℝ) (c : Chan) : 0 ≤ varR hr c :=
  div_nonneg (Finset.sum_nonneg fun _ _ => mul_self_nonneg _) (by norm_num)

theorem refMean_coe (hr : Rows → Chan → ℝ) (c : Chan) :
    refMean (fun i c => (hr i c : EReal)) c = (meanR hr c : EReal) :=
  full_div (fun i => hr i c)

theorem kerMean_coe (hr : Rows → Chan → ℝ) (c : Chan) :
    kerMean (fun i c => (hr i c : EReal)) c = (meanR hr c : EReal) :=
  blocked_div (fun i => hr i c)

theorem kerMeanSq_coe (hr : Rows → Chan → ℝ) (c : Chan) :
    kerMeanSq (fun i c => (hr i c : EReal)) c = (((∑ i : Rows, hr i c * hr i c) / 131072 : ℝ) : EReal) := by
  simp only [kerMeanSq, ← EReal.coe_mul]
  exact blocked_div (fun i => hr i c * hr i c)

theorem refVar_coe (hr : Rows → Chan → ℝ) (c : Chan) :
    refVar (fun i c => (hr i c : EReal)) c = (varR hr c : EReal) := by
  simp only [refVar, refMean_coe, ← EReal.coe_sub, ← EReal.coe_mul]
  exact full_div (fun i => (hr i c - meanR hr c) * (hr i c - meanR hr c))

/-- `E[h²] − mean²` is the centred variance. -/
theorem kerVar_coe (hr : Rows → Chan → ℝ) (c : Chan) :
    kerVar (fun i c => (hr i c : EReal)) c = (varR hr c : EReal) := by
  simp only [kerVar, kerMeanSq_coe, kerMean_coe, ← EReal.coe_mul, ← EReal.coe_sub]
  refine congrArg (fun r : ℝ => (r : EReal)) ?_
  simp only [varR, meanR]
  exact (var_identity Finset.univ (fun i => hr i c) 131072 (by norm_num) (by simp)).symm

/-- The reciprocal square root of a positive real. -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

end Alg

open Alg

/-! ## Finite data stay finite -/

/-- Appending a zero row keeps every entry a real. -/
theorem padded_finite (x : Rows → Chan → EReal) (hx : ∀ i c, ∃ v : ℝ, x i c = (v : EReal)) :
    ∀ r c, ∃ v : ℝ, padded x r c = (v : EReal) := by
  intro r c
  unfold padded
  split_ifs with h
  · exact hx ⟨r.val, h⟩ c
  · exact ⟨0, EReal.coe_zero.symm⟩

/-- A finite sum of products of reals is a real. -/
theorem Alg.sum_mul_finite {ι : Type*} (s : Finset ι) (a b : ι → EReal) (ha : ∀ k, ∃ v : ℝ, a k = (v : EReal))
    (hb : ∀ k, ∃ v : ℝ, b k = (v : EReal)) : ∃ v : ℝ, ∑ k ∈ s, a k * b k = (v : EReal) := by
  choose ar har using ha
  choose br hbr using hb
  exact ⟨∑ k ∈ s, ar k * br k, by simp only [har, hbr, ← EReal.coe_mul, coe_sum]⟩

/-- The three-tap linear map of finite features and finite weights is finite. -/
theorem conv3_finite (fp : Fin 131073 → Chan → EReal) (row : Rows → Fin 3 → Fin 131073) (W : Fin 3 → Chan → Chan → EReal)
    (hfp : ∀ r c, ∃ v : ℝ, fp r c = (v : EReal)) (hW : ∀ k a b, ∃ v : ℝ, W k a b = (v : EReal)) :
    ∀ i o, ∃ v : ℝ, conv3 fp row W i o = (v : EReal) := by
  intro i o
  obtain ⟨v0, h0⟩ := sum_mul_finite Finset.univ (fun k => fp (row i 0) k) (fun k => W 0 k o) (fun k => hfp _ k)
    (fun k => hW 0 k o)
  obtain ⟨v1, h1⟩ := sum_mul_finite Finset.univ (fun k => fp (row i 1) k) (fun k => W 1 k o) (fun k => hfp _ k)
    (fun k => hW 1 k o)
  obtain ⟨v2, h2⟩ := sum_mul_finite Finset.univ (fun k => fp (row i 2) k) (fun k => W 2 k o) (fun k => hfp _ k)
    (fun k => hW 2 k o)
  refine ⟨v0 + v1 + v2, ?_⟩
  unfold conv3
  rw [h0, h1, h2, EReal.coe_add, EReal.coe_add]

/-! ## The blocked arrangement is the centred one -/

/-- On finite data the blocked arrangement's activation (folded scale and shift, the logistic function) is the centred
    one's: both are the logistic function of the same real, because `E[h²] − mean²` is the centred variance (which is
    nonnegative, so adding the positive `ε` keeps the reciprocal square root real) and
    `h·(g·s) + (β − μ·(g·s)) = g·(h − μ)·s + β`. -/
theorem kerAct_eq_refAct (h : Rows → Chan → EReal) (g β : Chan → EReal) (hh : ∀ i c, ∃ v : ℝ, h i c = (v : EReal))
    (hg : ∀ c, ∃ v : ℝ, g c = (v : EReal)) (hβ : ∀ c, ∃ v : ℝ, β c = (v : EReal)) (i : Rows) (c : Chan) :
    kerAct h g β i c = refAct h g β i c := by
  choose hr hhr using hh
  choose gr hgr using hg
  choose βr hβr using hβ
  obtain rfl : h = fun i c => (hr i c : EReal) := funext fun i => funext fun c => hhr i c
  obtain rfl : g = fun c => (gr c : EReal) := funext hgr
  obtain rfl : β = fun c => (βr c : EReal) := funext hβr
  obtain ⟨e, he, hε⟩ := cEps_pos
  have hv : 0 < varR hr c + e := add_pos_of_nonneg_of_pos (varR_nonneg hr c) he
  -- the centred side is the logistic function of its argument, by definition
  have href : refAct (fun i c => (hr i c : EReal)) (fun c => (gr c : EReal)) (fun c => (βr c : EReal)) i c
      = Ideal.logistic ((gr c : EReal) * ((hr i c : EReal) - refMean (fun i c => (hr i c : EReal)) c)
          * Ideal.rsqrt (refVar (fun i c => (hr i c : EReal)) c + cEps) + (βr c : EReal)) := by
    simp only [refAct, cOne_eq]
    rfl
  rw [href]
  simp only [kerAct, kerShift, kerScale, kerVar_coe, refVar_coe, kerMean_coe, refMean_coe, hε, ← EReal.coe_add,
    rsqrt_coe_pos hv, ← EReal.coe_mul, ← EReal.coe_sub]
  refine congrArg (fun r : ℝ => Ideal.logistic (r : EReal)) ?_
  ring

end Cert.SubmBN

end
-- ==== Proof.Bridge.lean ====
/-
  The bridge: the kernel's result array is the reference's term.

  Per branch the kernel holds the three-tap linear map `h` of the gathered, padded features, the per-block column sums of
  `h` and of `h²`, and from them the scale and shift rows; its result is the sum over the three branches of the logistic
  function of `h · scale + shift`, times the features. That is the blocked arrangement of the normalisation; on finite
  inputs it equals the centred arrangement, which is what the reference's result is, entry by entry.
-/
import proofs.«177556_j33500744909242_2_alg».proof.Proof.KHost0
import proofs.«177556_j33500744909242_2_alg».proof.Proof.KHost3
import proofs.«177556_j33500744909242_2_alg».proof.Proof.KConv0
import proofs.«177556_j33500744909242_2_alg».proof.Proof.KCombDef
import proofs.«177556_j33500744909242_2_alg».proof.Proof.RefValue
import proofs.«177556_j33500744909242_2_alg».proof.Proof.Gen.ReferenceIdeal
import proofs.«177556_j33500744909242_2_alg».proof.Proof.Algebra
import proofs.«177556_j33500744909242_2_alg».proof.Proof.Views
import proofs.«177556_j33500744909242_2_alg».proof.Proof.Spec

noncomputable section

namespace Cert.KernelIdeal.KValue

open Cert.KernelIdeal Idealize.ShloMosaic Idealize.ShloMosaic.ValueIdx
open Cert.SubmBN

/-! ## One branch's arrays, from the inputs -/

/-- The branch's linear map as an array: entry (i, q) is row i, column q of the three-slab product of the gathered
    features with the narrowed weights. -/
def convOut (x : FVec Ideal S131072x256 .f32) (n : IVec S131072x3 32) (W : FVec Ideal S3x256x256 .f32) :
    S131072x256.Idx → EReal :=
  fun i => convRow (KHost.gatheredK x n) (KHost.weightsK W) (i 0) (i 1)

/-- Its per-block column sums, each written eight times. -/
def sumBlk (x : FVec Ideal S131072x256 .f32) (n : IVec S131072x3 32) (W : FVec Ideal S3x256x256 .f32) :
    S32x8x256.Idx → EReal :=
  fun i => colSum (KHost.gatheredK x n) (KHost.weightsK W) (i 0) (i 2)

/-- Its per-block column sums of squares, each written eight times. -/
def sumSqBlk (x : FVec Ideal S131072x256 .f32) (n : IVec S131072x3 32) (W : FVec Ideal S3x256x256 .f32) :
    S32x8x256.Idx → EReal :=
  fun i => colSumSq (KHost.gatheredK x n) (KHost.weightsK W) (i 0) (i 2)

/-- The branch's scale row. -/
def scaleOut (x : FVec Ideal S131072x256 .f32) (n : IVec S131072x3 32) (W : FVec Ideal S3x256x256 .f32)
    (g : FVec Ideal S256 .f32) : S1x256.Idx → EReal :=
  KHost.scaleK (sumBlk x n W) (sumSqBlk x n W) g

/-- The branch's shift row. -/
def shiftOut (x : FVec Ideal S131072x256 .f32) (n : IVec S131072x3 32) (W : FVec Ideal S3x256x256 .f32)
    (g β : FVec Ideal S256 .f32) : S1x256.Idx → EReal :=
  KHost.shiftK (sumBlk x n W) (sumSqBlk x n W) g β

/-- The linear map's array read at coordinates (the two lemmas after it read the two statistics arrays likewise). -/
theorem convOut_ix2 (x : FVec Ideal S131072x256 .f32) (n : IVec S131072x3 32) (W : FVec Ideal S3x256x256 .f32)
    (p : Fin 131072) (q : Fin 256) :
    convOut x n W (ix2 p q) = convRow (KHost.gatheredK x n) (KHost.weightsK W) p q := rfl

theorem sumBlk_ix3 (x : FVec Ideal S131072x256 .f32) (n : IVec S131072x3 32) (W : FVec Ideal S3x256x256 .f32)
    (b : Fin 32) (r : Fin 8) (c : Fin 256) :
    sumBlk x n W (ix3 b r c) = colSum (KHost.gatheredK x n) (KHost.weightsK W) b c := rfl

theorem sumSqBlk_ix3 (x : FVec Ideal S131072x256 .f32) (n : IVec S131072x3 32) (W : FVec Ideal S3x256x256 .f32)
    (b : Fin 32) (r : Fin 8) (c : Fin 256) :
    sumSqBlk x n W (ix3 b r c) = colSumSq (KHost.gatheredK x n) (KHost.weightsK W) b c := rfl

/-! ## One branch -/

/-- On finite inputs a branch's `logistic (h · scale + shift)` is the centred arrangement's activation of the three-tap
    linear map. -/
theorem branch_act (x : FVec Ideal S131072x256 .f32) (n : IVec S131072x3 32) (W : FVec Ideal S3x256x256 .f32)
    (g β : FVec Ideal S256 .f32) (hx : ∀ i, ∃ v : ℝ, x i = (v : EReal)) (hW : ∀ i, ∃ v : ℝ, W i = (v : EReal))
    (hg : ∀ i, ∃ v : ℝ, g i = (v : EReal)) (hβ : ∀ i, ∃ v : ℝ, β i = (v : EReal)) (p : Fin 131072) (q : Fin 256) :
    Ideal.logistic (convOut x n W (ix2 p q) * scaleOut x n W g (ix2 (0 : Fin 1) q)
        + shiftOut x n W g β (ix2 (0 : Fin 1) q))
      = refAct (conv3 (padded (mat x)) (rows n) (ten W)) (vec g) (vec β) p q := by
  have hH : ∀ (i : Fin 131072) (c : Fin 256),
      convRow (KHost.gatheredK x n) (KHost.weightsK W) i c = conv3 (padded (mat x)) (rows n) (ten W) i c :=
    fun i c => KHost.convRow_gatheredK x n W i c
  have hP : ∀ (b : Fin 32) (r : Fin 8) (c : Fin 256),
      sumBlk x n W (ix3 b r c) = ∑ j : Fin 4096, conv3 (padded (mat x)) (rows n) (ten W) (blockRow b j) c :=
    fun b r c => by
      rw [sumBlk_ix3, colSum]
      exact Finset.sum_congr rfl fun j _ => hH (blockRow b j) c
  have hQ : ∀ (b : Fin 32) (r : Fin 8) (c : Fin 256),
      sumSqBlk x n W (ix3 b r c) = ∑ j : Fin 4096, conv3 (padded (mat x)) (rows n) (ten W) (blockRow b j) c
        * conv3 (padded (mat x)) (rows n) (ten W) (blockRow b j) c :=
    fun b r c => by
      rw [sumSqBlk_ix3, colSumSq]
      exact Finset.sum_congr rfl fun j _ => by rw [hH (blockRow b j) c]
  have e1 : convOut x n W (ix2 p q) = conv3 (padded (mat x)) (rows n) (ten W) p q :=
    (convOut_ix2 x n W p q).trans (hH p q)
  rw [e1, scaleOut, shiftOut, KHost.scaleK_apply _ _ g _ hP hQ 0 q, KHost.shiftK_apply _ _ g β _ hP hQ 0 q]
  exact kerAct_eq_refAct (conv3 (padded (mat x)) (rows n) (ten W)) (vec g) (vec β)
    (conv3_finite (padded (mat x)) (rows n) (ten W) (padded_finite (mat x) (fun i c => hx (ix2 i c)))
      (fun k a b => hW (ix3 k a b)))
    (fun c => hg (ix1 c)) (fun c => hβ (ix1 c)) p q

/-! ## The whole result -/

/-- On finite inputs the kernel's result array, entry by entry the sum of the three branches' activations times the
    features, is the reference's term. -/
theorem kernel_eq_reference (x : FVec Ideal S131072x256 .f32) (W1 W2 W3 : FVec Ideal S3x256x256 .f32)
    (g1 b1 g2 b2 g3 b3 : FVec Ideal S256 .f32) (n1 n2 n3 : IVec S131072x3 32)
    (hx : ∀ i, ∃ v : ℝ, x i = (v : EReal)) (hW1 : ∀ i, ∃ v : ℝ, W1 i = (v : EReal))
    (hW2 : ∀ i, ∃ v : ℝ, W2 i = (v : EReal)) (hW3 : ∀ i, ∃ v : ℝ, W3 i = (v : EReal))
    (hg1 : ∀ i, ∃ v : ℝ, g1 i = (v : EReal)) (hb1 : ∀ i, ∃ v : ℝ, b1 i = (v : EReal))
    (hg2 : ∀ i, ∃ v : ℝ, g2 i = (v : EReal)) (hb2 : ∀ i, ∃ v : ℝ, b2 i = (v : EReal))
    (hg3 : ∀ i, ∃ v : ℝ, g3 i = (v : EReal)) (hb3 : ∀ i, ∃ v : ℝ, b3 i = (v : EReal)) :
    (fun i : S131072x256.Idx =>
        combRow (convOut x n1 W1) (convOut x n2 W2) (convOut x n3 W3) (scaleOut x n1 W1 g1) (shiftOut x n1 W1 g1 b1)
          (scaleOut x n2 W2 g2) (shiftOut x n2 W2 g2 b2) (scaleOut x n3 W3 g3) (shiftOut x n3 W3 g3 b3) x (i 0) (i 1))
      = Cert.ReferenceIdeal.RefRead.refTerm (F := Ideal) x W1 W2 W3 g1 b1 g2 b2 g3 b3 n1 n2 n3 := by
  funext i
  obtain ⟨p, q, rfl⟩ : ∃ (p : Fin 131072) (q : Fin 256), i = ix2 p q := ⟨i 0, i 1, eq_ix2 i⟩
  have hR := congrFun (congrFun
    (Cert.ReferenceIdeal.RefValue.refTerm_apply x W1 W2 W3 g1 b1 g2 b2 g3 b3 n1 n2 n3) p) q
  refine Eq.trans ?_ hR.symm
  show combRow _ _ _ _ _ _ _ _ _ x p q = _
  unfold combRow combine
  rw [branch_act x n1 W1 g1 b1 hx hW1 hg1 hb1 p q, branch_act x n2 W2 g2 b2 hx hW2 hg2 hb2 p q,
    branch_act x n3 W3 g3 b3 hx hW3 hg3 hb3 p q]
  rfl

end Cert.KernelIdeal.KValue

end
-- ==== Proof.KChain.lean ====
/-
  The idealized kernel's result buffer, walked back through the segment boundaries to the launch memory.

  The buffer contents at the boundaries are a fold from the launch memory: a host stretch applies its operations, a region
  replaces its windows' arrays and keeps every other buffer. Read backwards from the result: it is the combine region's output
  array, a function of ten entry arrays; three of them are the conv regions' outputs (untouched since), six are scale and shift
  rows the second host stretch computes from the conv regions' statistics arrays and the affine parameters, the tenth is the
  features; each conv region's outputs are functions of its two entry arrays, which the first host stretch computes from the
  features, a neighbour table and a weight tensor. No region stages another's arrays and no host operation writes an argument.
-/
import proofs.«177556_j33500744909242_2_alg».proof.Proof.Gen.KernelIdeal.Frame
import proofs.«177556_j33500744909242_2_alg».proof.Proof.KHost0
import proofs.«177556_j33500744909242_2_alg».proof.Proof.KHost3
import proofs.«177556_j33500744909242_2_alg».proof.Proof.KConv0
import proofs.«177556_j33500744909242_2_alg».proof.Proof.KConv1
import proofs.«177556_j33500744909242_2_alg».proof.Proof.KConv2
import proofs.«177556_j33500744909242_2_alg».proof.Proof.KComb
import proofs.«177556_j33500744909242_2_alg».proof.Proof.Bridge
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo (after after_of_writes_sub)

/-! ## The two host stretches, from any contents -/

/-- The buffers the first host stretch writes. -/
abbrev host0_W : List (Ref sig .tc) := [main_cst, main_v0, main_v1, main_v2, main_v3, main_c, main_v4, main_v5, main_c_0, main_v6, main_v7, main_v8, main_v9, main_v10, main_v11, main_v12, main_c_1, main_v13, main_v14, main_c_2, main_v15, main_v16, main_v17, main_v18, main_v19, main_v20, main_v21, main_c_3, main_v22, main_v23, main_c_4, main_v24, main_v25, main_v26, main_v27, main_v28, main_v29, main_v30, main_v31, main_v32]

set_option maxHeartbeats 4000000 in
theorem host0_writes : (hostOps0 : List (HloOp τ sig (Elt Ideal))).Forall fun op => op.writes ⊆ (host0_W.map (Proc.devRef (τ := τ) .tc)).toFinset := by
  simp only [hostOps0, List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A buffer the stretch does not write keeps its contents through it. -/
theorem host0_keep (W : Valuation τ sig (Elt Ideal)) (r : Ref sig .tc) (h : r ∉ host0_W) :
    after hostOps0 W (Proc.devRef .tc r) = W (Proc.devRef .tc r) :=
  after_of_writes_sub hostOps0 _ host0_writes h

set_option maxHeartbeats 4000000 in
/-- Branch 1's gathered features after the first host stretch, from any contents. -/
theorem host0_main_v11 (W : Valuation τ sig (Elt Ideal)) :
    after hostOps0 W (Proc.devRef .tc main_v11) = KHost.gatheredK (F := Ideal) (W (Proc.devRef .tc main_arg0)) (W (Proc.devRef .tc main_arg10)) := by
  open Idealize.ShloMosaic.StableHlo in after_results_simp
  rfl

/-- Branch 1's narrowed weights after the first host stretch, from any contents. -/
theorem host0_main_v30 (W : Valuation τ sig (Elt Ideal)) :
    after hostOps0 W (Proc.devRef .tc main_v30) = KHost.weightsK (F := Ideal) (W (Proc.devRef .tc main_arg1)) := by
  open Idealize.ShloMosaic.StableHlo in after_results_simp
  rfl

set_option maxHeartbeats 4000000 in
/-- Branch 2's gathered features after the first host stretch, from any contents. -/
theorem host0_main_v20 (W : Valuation τ sig (Elt Ideal)) :
    after hostOps0 W (Proc.devRef .tc main_v20) = KHost.gatheredK (F := Ideal) (W (Proc.devRef .tc main_arg0)) (W (Proc.devRef .tc main_arg11)) := by
  open Idealize.ShloMosaic.StableHlo in after_results_simp
  rfl

/-- Branch 2's narrowed weights after the first host stretch, from any contents. -/
theorem host0_main_v31 (W : Valuation τ sig (Elt Ideal)) :
    after hostOps0 W (Proc.devRef .tc main_v31) = KHost.weightsK (F := Ideal) (W (Proc.devRef .tc main_arg2)) := by
  open Idealize.ShloMosaic.StableHlo in after_results_simp
  rfl

set_option maxHeartbeats 4000000 in
/-- Branch 3's gathered features after the first host stretch, from any contents. -/
theorem host0_main_v29 (W : Valuation τ sig (Elt Ideal)) :
    after hostOps0 W (Proc.devRef .tc main_v29) = KHost.gatheredK (F := Ideal) (W (Proc.devRef .tc main_arg0)) (W (Proc.devRef .tc main_arg12)) := by
  open Idealize.ShloMosaic.StableHlo in after_results_simp
  rfl

/-- Branch 3's narrowed weights after the first host stretch, from any contents. -/
theorem host0_main_v32 (W : Valuation τ sig (Elt Ideal)) :
    after hostOps0 W (Proc.devRef .tc main_v32) = KHost.weightsK (F := Ideal) (W (Proc.devRef .tc main_arg3)) := by
  open Idealize.ShloMosaic.StableHlo in after_results_simp
  rfl

/-- The buffers the second host stretch writes. -/
abbrev host3_W : List (Ref sig .tc) := [main_cst_5, main_v36, main_cst_6, main_v37, main_v38, main_cst_7, main_v39, main_cst_8, main_v40, main_v41, main_cst_9, main_v42, main_v43, main_cst_10, main_v44, main_v45, main_v46, main_v47, main_cst_11, main_v48, main_v49, main_v50, main_v51, main_v52, main_v53, main_v54, main_v55, main_cst_12, main_v56, main_cst_13, main_v57, main_v58, main_cst_14, main_v59, main_cst_15, main_v60, main_v61, main_cst_16, main_v62, main_v63, main_cst_17, main_v64, main_v65, main_v66, main_v67, main_cst_18, main_v68, main_v69, main_v70, main_v71, main_v72, main_v73, main_v74, main_v75, main_cst_19, main_v76, main_cst_20, main_v77, main_v78, main_cst_21, main_v79, main_cst_22, main_v80, main_v81, main_cst_23, main_v82, main_v83, main_cst_24, main_v84, main_v85, main_v86, main_v87, main_cst_25, main_v88, main_v89, main_v90, main_v91, main_v92, main_v93, main_v94, main_v95]

set_option maxHeartbeats 4000000 in
theorem host3_writes : (hostOps3 : List (HloOp τ sig (Elt Ideal))).Forall fun op => op.writes ⊆ (host3_W.map (Proc.devRef (τ := τ) .tc)).toFinset := by
  simp only [hostOps3, List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A buffer the stretch does not write keeps its contents through it. -/
theorem host3_keep (W : Valuation τ sig (Elt Ideal)) (r : Ref sig .tc) (h : r ∉ host3_W) :
    after hostOps3 W (Proc.devRef .tc r) = W (Proc.devRef .tc r) :=
  after_of_writes_sub hostOps3 _ host3_writes h

set_option maxHeartbeats 4000000 in
/-- Branch 1's scale row after the second host stretch, from any contents. -/
theorem host3_main_v54 (W : Valuation τ sig (Elt Ideal)) :
    after hostOps3 W (Proc.devRef .tc main_v54) = KHost.scaleK (F := Ideal) (W (Proc.devRef .tc main_v33_1)) (W (Proc.devRef .tc main_v33_2)) (W (Proc.devRef .tc main_arg4)) := by
  open Idealize.ShloMosaic.StableHlo in after_results_simp
  rfl

set_option maxHeartbeats 4000000 in
/-- Branch 1's shift row after the second host stretch, from any contents. -/
theorem host3_main_v55 (W : Valuation τ sig (Elt Ideal)) :
    after hostOps3 W (Proc.devRef .tc main_v55) = KHost.shiftK (F := Ideal) (W (Proc.devRef .tc main_v33_1)) (W (Proc.devRef .tc main_v33_2)) (W (Proc.devRef .tc main_arg4)) (W (Proc.devRef .tc main_arg5)) := by
  open Idealize.ShloMosaic.StableHlo in after_results_simp
  rfl

set_option maxHeartbeats 4000000 in
/-- Branch 2's scale row after the second host stretch, from any contents. -/
theorem host3_main_v74 (W : Valuation τ sig (Elt Ideal)) :
    after hostOps3 W (Proc.devRef .tc main_v74) = KHost.scaleK (F := Ideal) (W (Proc.devRef .tc main_v34_1)) (W (Proc.devRef .tc main_v34_2)) (W (Proc.devRef .tc main_arg6)) := by
  open Idealize.ShloMosaic.StableHlo in after_results_simp
  rfl

set_option maxHeartbeats 4000000 in
/-- Branch 2's shift row after the second host stretch, from any contents. -/
theorem host3_main_v75 (W : Valuation τ sig (Elt Ideal)) :
    after hostOps3 W (Proc.devRef .tc main_v75) = KHost.shiftK (F := Ideal) (W (Proc.devRef .tc main_v34_1)) (W (Proc.devRef .tc main_v34_2)) (W (Proc.devRef .tc main_arg6)) (W (Proc.devRef .tc main_arg7)) := by
  open Idealize.ShloMosaic.StableHlo in after_results_simp
  rfl

set_option maxHeartbeats 4000000 in
/-- Branch 3's scale row after the second host stretch, from any contents. -/
theorem host3_main_v94 (W : Valuation τ sig (Elt Ideal)) :
    after hostOps3 W (Proc.devRef .tc main_v94) = KHost.scaleK (F := Ideal) (W (Proc.devRef .tc main_v35_1)) (W (Proc.devRef .tc main_v35_2)) (W (Proc.devRef .tc main_arg8)) := by
  open Idealize.ShloMosaic.StableHlo in after_results_simp
  rfl

set_option maxHeartbeats 4000000 in
/-- Branch 3's shift row after the second host stretch, from any contents. -/
theorem host3_main_v95 (W : Valuation τ sig (Elt Ideal)) :
    after hostOps3 W (Proc.devRef .tc main_v95) = KHost.shiftK (F := Ideal) (W (Proc.devRef .tc main_v35_1)) (W (Proc.devRef .tc main_v35_2)) (W (Proc.devRef .tc main_arg8)) (W (Proc.devRef .tc main_arg9)) := by
  open Idealize.ShloMosaic.StableHlo in after_results_simp
  rfl

/-! ## The walk, over a launch memory `m` -/

variable (m : (ℓ : Loc nD τ sig) → Buf (Elt Ideal) ℓ) (ρ : Dev nD → PrngReg)

/-! ## The launch memory through the first host stretch -/

theorem W1_main_v11 (c : Dev nD) : W1 m ρ c (Proc.devRef .tc main_v11) = (KHost.gatheredK (F := Ideal) (m ((c.tc : Thread nD τ).loc main_arg0)) (m ((c.tc : Thread nD τ).loc main_arg10))) := host0_main_v11 (W0 m ρ c)
theorem W1_main_v30 (c : Dev nD) : W1 m ρ c (Proc.devRef .tc main_v30) = (KHost.weightsK (F := Ideal) (m ((c.tc : Thread nD τ).loc main_arg1))) := host0_main_v30 (W0 m ρ c)
theorem W1_main_v20 (c : Dev nD) : W1 m ρ c (Proc.devRef .tc main_v20) = (KHost.gatheredK (F := Ideal) (m ((c.tc : Thread nD τ).loc main_arg0)) (m ((c.tc : Thread nD τ).loc main_arg11))) := host0_main_v20 (W0 m ρ c)
theorem W1_main_v31 (c : Dev nD) : W1 m ρ c (Proc.devRef .tc main_v31) = (KHost.weightsK (F := Ideal) (m ((c.tc : Thread nD τ).loc main_arg2))) := host0_main_v31 (W0 m ρ c)
theorem W1_main_v29 (c : Dev nD) : W1 m ρ c (Proc.devRef .tc main_v29) = (KHost.gatheredK (F := Ideal) (m ((c.tc : Thread nD τ).loc main_arg0)) (m ((c.tc : Thread nD τ).loc main_arg12))) := host0_main_v29 (W0 m ρ c)
theorem W1_main_v32 (c : Dev nD) : W1 m ρ c (Proc.devRef .tc main_v32) = (KHost.weightsK (F := Ideal) (m ((c.tc : Thread nD τ).loc main_arg3))) := host0_main_v32 (W0 m ρ c)

/-- A buffer the first host stretch does not write is, after it, as launched. -/
theorem W1_arg (c : Dev nD) (r : Ref sig .tc) (h : r ∉ host0_W) : W1 m ρ c (Proc.devRef .tc r) = m ((c.tc : Thread nD τ).loc r) :=
  host0_keep (W0 m ρ c) r h

/-! ## Each conv region's entry arrays, walked back to the first host stretch; its exit arrays; these carried to region 2's exit -/

theorem W2_main_v33_0 (c : Dev nD) : W2 m ρ c (Proc.devRef .tc main_v33_0) = (convOut (m ((c.tc : Thread nD τ).loc main_arg0)) (m ((c.tc : Thread nD τ).loc main_arg10)) (m ((c.tc : Thread nD τ).loc main_arg1))) := by
  refine (W2_arr m ρ c 2).trans ((final0_2 (V1 m ρ) c).trans ?_)
  show (fun i : S131072x256.Idx => convRow (W1 m ρ c (Proc.devRef .tc main_v11)) (W1 m ρ c (Proc.devRef .tc main_v30)) (i 0) (i 1)) = _
  rw [W1_main_v11, W1_main_v30]
  rfl
theorem W2_main_v33_1 (c : Dev nD) : W2 m ρ c (Proc.devRef .tc main_v33_1) = (sumBlk (m ((c.tc : Thread nD τ).loc main_arg0)) (m ((c.tc : Thread nD τ).loc main_arg10)) (m ((c.tc : Thread nD τ).loc main_arg1))) := by
  refine (W2_arr m ρ c 3).trans ((final0_3 (V1 m ρ) c).trans ?_)
  show (fun i : S32x8x256.Idx => colSum (W1 m ρ c (Proc.devRef .tc main_v11)) (W1 m ρ c (Proc.devRef .tc main_v30)) (i 0) (i 2)) = _
  rw [W1_main_v11, W1_main_v30]
  rfl
theorem W2_main_v33_2 (c : Dev nD) : W2 m ρ c (Proc.devRef .tc main_v33_2) = (sumSqBlk (m ((c.tc : Thread nD τ).loc main_arg0)) (m ((c.tc : Thread nD τ).loc main_arg10)) (m ((c.tc : Thread nD τ).loc main_arg1))) := by
  refine (W2_arr m ρ c 4).trans ((final0_4 (V1 m ρ) c).trans ?_)
  show (fun i : S32x8x256.Idx => colSumSq (W1 m ρ c (Proc.devRef .tc main_v11)) (W1 m ρ c (Proc.devRef .tc main_v30)) (i 0) (i 2)) = _
  rw [W1_main_v11, W1_main_v30]
  rfl
theorem W3_main_v33_0 (c : Dev nD) : W3 m ρ c (Proc.devRef .tc main_v33_0) = (convOut (m ((c.tc : Thread nD τ).loc main_arg0)) (m ((c.tc : Thread nD τ).loc main_arg10)) (m ((c.tc : Thread nD τ).loc main_arg1))) := (W3_of_ne m ρ c main_v33_0 (by decide)).trans (W2_main_v33_0 m ρ c)
theorem W4_main_v33_0 (c : Dev nD) : W4 m ρ c (Proc.devRef .tc main_v33_0) = (convOut (m ((c.tc : Thread nD τ).loc main_arg0)) (m ((c.tc : Thread nD τ).loc main_arg10)) (m ((c.tc : Thread nD τ).loc main_arg1))) := (W4_of_ne m ρ c main_v33_0 (by decide)).trans (W3_main_v33_0 m ρ c)
theorem W3_main_v33_1 (c : Dev nD) : W3 m ρ c (Proc.devRef .tc main_v33_1) = (sumBlk (m ((c.tc : Thread nD τ).loc main_arg0)) (m ((c.tc : Thread nD τ).loc main_arg10)) (m ((c.tc : Thread nD τ).loc main_arg1))) := (W3_of_ne m ρ c main_v33_1 (by decide)).trans (W2_main_v33_1 m ρ c)
theorem W4_main_v33_1 (c : Dev nD) : W4 m ρ c (Proc.devRef .tc main_v33_1) = (sumBlk (m ((c.tc : Thread nD τ).loc main_arg0)) (m ((c.tc : Thread nD τ).loc main_arg10)) (m ((c.tc : Thread nD τ).loc main_arg1))) := (W4_of_ne m ρ c main_v33_1 (by decide)).trans (W3_main_v33_1 m ρ c)
theorem W3_main_v33_2 (c : Dev nD) : W3 m ρ c (Proc.devRef .tc main_v33_2) = (sumSqBlk (m ((c.tc : Thread nD τ).loc main_arg0)) (m ((c.tc : Thread nD τ).loc main_arg10)) (m ((c.tc : Thread nD τ).loc main_arg1))) := (W3_of_ne m ρ c main_v33_2 (by decide)).trans (W2_main_v33_2 m ρ c)
theorem W4_main_v33_2 (c : Dev nD) : W4 m ρ c (Proc.devRef .tc main_v33_2) = (sumSqBlk (m ((c.tc : Thread nD τ).loc main_arg0)) (m ((c.tc : Thread nD τ).loc main_arg10)) (m ((c.tc : Thread nD τ).loc main_arg1))) := (W4_of_ne m ρ c main_v33_2 (by decide)).trans (W3_main_v33_2 m ρ c)

theorem W2_main_v20 (c : Dev nD) : W2 m ρ c (Proc.devRef .tc main_v20) = (KHost.gatheredK (F := Ideal) (m ((c.tc : Thread nD τ).loc main_arg0)) (m ((c.tc : Thread nD τ).loc main_arg11))) :=
  (W2_of_ne m ρ c main_v20 (by decide)).trans (W1_main_v20 m ρ c)
theorem W2_main_v31 (c : Dev nD) : W2 m ρ c (Proc.devRef .tc main_v31) = (KHost.weightsK (F := Ideal) (m ((c.tc : Thread nD τ).loc main_arg2))) :=
  (W2_of_ne m ρ c main_v31 (by decide)).trans (W1_main_v31 m ρ c)
theorem W3_main_v34_0 (c : Dev nD) : W3 m ρ c (Proc.devRef .tc main_v34_0) = (convOut (m ((c.tc : Thread nD τ).loc main_arg0)) (m ((c.tc : Thread nD τ).loc main_arg11)) (m ((c.tc : Thread nD τ).loc main_arg2))) := by
  refine (W3_arr m ρ c 2).trans ((final1_2 (V2 m ρ) c).trans ?_)
  show (fun i : S131072x256.Idx => convRow (W2 m ρ c (Proc.devRef .tc main_v20)) (W2 m ρ c (Proc.devRef .tc main_v31)) (i 0) (i 1)) = _
  rw [W2_main_v20, W2_main_v31]
  rfl
theorem W3_main_v34_1 (c : Dev nD) : W3 m ρ c (Proc.devRef .tc main_v34_1) = (sumBlk (m ((c.tc : Thread nD τ).loc main_arg0)) (m ((c.tc : Thread nD τ).loc main_arg11)) (m ((c.tc : Thread nD τ).loc main_arg2))) := by
  refine (W3_arr m ρ c 3).trans ((final1_3 (V2 m ρ) c).trans ?_)
  show (fun i : S32x8x256.Idx => colSum (W2 m ρ c (Proc.devRef .tc main_v20)) (W2 m ρ c (Proc.devRef .tc main_v31)) (i 0) (i 2)) = _
  rw [W2_main_v20, W2_main_v31]
  rfl
theorem W3_main_v34_2 (c : Dev nD) : W3 m ρ c (Proc.devRef .tc main_v34_2) = (sumSqBlk (m ((c.tc : Thread nD τ).loc main_arg0)) (m ((c.tc : Thread nD τ).loc main_arg11)) (m ((c.tc : Thread nD τ).loc main_arg2))) := by
  refine (W3_arr m ρ c 4).trans ((final1_4 (V2 m ρ) c).trans ?_)
  show (fun i : S32x8x256.Idx => colSumSq (W2 m ρ c (Proc.devRef .tc main_v20)) (W2 m ρ c (Proc.devRef .tc main_v31)) (i 0) (i 2)) = _
  rw [W2_main_v20, W2_main_v31]
  rfl
theorem W4_main_v34_0 (c : Dev nD) : W4 m ρ c (Proc.devRef .tc main_v34_0) = (convOut (m ((c.tc : Thread nD τ).loc main_arg0)) (m ((c.tc : Thread nD τ).loc main_arg11)) (m ((c.tc : Thread nD τ).loc main_arg2))) := (W4_of_ne m ρ c main_v34_0 (by decide)).trans (W3_main_v34_0 m ρ c)
theorem W4_main_v34_1 (c : Dev nD) : W4 m ρ c (Proc.devRef .tc main_v34_1) = (sumBlk (m ((c.tc : Thread nD τ).loc main_arg0)) (m ((c.tc : Thread nD τ).loc main_arg11)) (m ((c.tc : Thread nD τ).loc main_arg2))) := (W4_of_ne m ρ c main_v34_1 (by decide)).trans (W3_main_v34_1 m ρ c)
theorem W4_main_v34_2 (c : Dev nD) : W4 m ρ c (Proc.devRef .tc main_v34_2) = (sumSqBlk (m ((c.tc : Thread nD τ).loc main_arg0)) (m ((c.tc : Thread nD τ).loc main_arg11)) (m ((c.tc : Thread nD τ).loc main_arg2))) := (W4_of_ne m ρ c main_v34_2 (by decide)).trans (W3_main_v34_2 m ρ c)

theorem W3_main_v29 (c : Dev nD) : W3 m ρ c (Proc.devRef .tc main_v29) = (KHost.gatheredK (F := Ideal) (m ((c.tc : Thread nD τ).loc main_arg0)) (m ((c.tc : Thread nD τ).loc main_arg12))) :=
  (W3_of_ne m ρ c main_v29 (by decide)).trans ((W2_of_ne m ρ c main_v29 (by decide)).trans (W1_main_v29 m ρ c))
theorem W3_main_v32 (c : Dev nD) : W3 m ρ c (Proc.devRef .tc main_v32) = (KHost.weightsK (F := Ideal) (m ((c.tc : Thread nD τ).loc main_arg3))) :=
  (W3_of_ne m ρ c main_v32 (by decide)).trans ((W2_of_ne m ρ c main_v32 (by decide)).trans (W1_main_v32 m ρ c))
theorem W4_main_v35_0 (c : Dev nD) : W4 m ρ c (Proc.devRef .tc main_v35_0) = (convOut (m ((c.tc : Thread nD τ).loc main_arg0)) (m ((c.tc : Thread nD τ).loc main_arg12)) (m ((c.tc : Thread nD τ).loc main_arg3))) := by
  refine (W4_arr m ρ c 2).trans ((final2_2 (V3 m ρ) c).trans ?_)
  show (fun i : S131072x256.Idx => convRow (W3 m ρ c (Proc.devRef .tc main_v29)) (W3 m ρ c (Proc.devRef .tc main_v32)) (i 0) (i 1)) = _
  rw [W3_main_v29, W3_main_v32]
  rfl
theorem W4_main_v35_1 (c : Dev nD) : W4 m ρ c (Proc.devRef .tc main_v35_1) = (sumBlk (m ((c.tc : Thread nD τ).loc main_arg0)) (m ((c.tc : Thread nD τ).loc main_arg12)) (m ((c.tc : Thread nD τ).loc main_arg3))) := by
  refine (W4_arr m ρ c 3).trans ((final2_3 (V3 m ρ) c).trans ?_)
  show (fun i : S32x8x256.Idx => colSum (W3 m ρ c (Proc.devRef .tc main_v29)) (W3 m ρ c (Proc.devRef .tc main_v32)) (i 0) (i 2)) = _
  rw [W3_main_v29, W3_main_v32]
  rfl
theorem W4_main_v35_2 (c : Dev nD) : W4 m ρ c (Proc.devRef .tc main_v35_2) = (sumSqBlk (m ((c.tc : Thread nD τ).loc main_arg0)) (m ((c.tc : Thread nD τ).loc main_arg12)) (m ((c.tc : Thread nD τ).loc main_arg3))) := by
  refine (W4_arr m ρ c 4).trans ((final2_4 (V3 m ρ) c).trans ?_)
  show (fun i : S32x8x256.Idx => colSumSq (W3 m ρ c (Proc.devRef .tc main_v29)) (W3 m ρ c (Proc.devRef .tc main_v32)) (i 0) (i 2)) = _
  rw [W3_main_v29, W3_main_v32]
  rfl

/-- A buffer that the first host stretch does not write and no conv region stages is, at region 2's exit, as launched. -/
theorem W4_arg (c : Dev nD) (r : Ref sig .tc) (h1 : r ∉ host0_W) (h2 : ∀ w, Pipeline.arrRef spec0 w ≠ r) (h3 : ∀ w, Pipeline.arrRef spec1 w ≠ r)
    (h4 : ∀ w, Pipeline.arrRef spec2 w ≠ r) : W4 m ρ c (Proc.devRef .tc r) = m ((c.tc : Thread nD τ).loc r) :=
  (W4_of_ne m ρ c r h4).trans ((W3_of_ne m ρ c r h3).trans ((W2_of_ne m ρ c r h2).trans (W1_arg m ρ c r h1)))

/-! ## Through the second host stretch -/

theorem W5_main_v33_0 (c : Dev nD) : W5 m ρ c (Proc.devRef .tc main_v33_0) = (convOut (m ((c.tc : Thread nD τ).loc main_arg0)) (m ((c.tc : Thread nD τ).loc main_arg10)) (m ((c.tc : Thread nD τ).loc main_arg1))) := (host3_keep (W4 m ρ c) main_v33_0 (by decide)).trans (W4_main_v33_0 m ρ c)
theorem W5_main_v54 (c : Dev nD) : W5 m ρ c (Proc.devRef .tc main_v54) = (scaleOut (m ((c.tc : Thread nD τ).loc main_arg0)) (m ((c.tc : Thread nD τ).loc main_arg10)) (m ((c.tc : Thread nD τ).loc main_arg1)) (m ((c.tc : Thread nD τ).loc main_arg4))) := by
  refine (host3_main_v54 (W4 m ρ c)).trans ?_
  rw [W4_main_v33_1, W4_main_v33_2, W4_arg m ρ c main_arg4 (by decide) (by decide) (by decide) (by decide)]
  rfl
theorem W5_main_v55 (c : Dev nD) : W5 m ρ c (Proc.devRef .tc main_v55) = (shiftOut (m ((c.tc : Thread nD τ).loc main_arg0)) (m ((c.tc : Thread nD τ).loc main_arg10)) (m ((c.tc : Thread nD τ).loc main_arg1)) (m ((c.tc : Thread nD τ).loc main_arg4)) (m ((c.tc : Thread nD τ).loc main_arg5))) := by
  refine (host3_main_v55 (W4 m ρ c)).trans ?_
  rw [W4_main_v33_1, W4_main_v33_2, W4_arg m ρ c main_arg4 (by decide) (by decide) (by decide) (by decide),
    W4_arg m ρ c main_arg5 (by decide) (by decide) (by decide) (by decide)]
  rfl
theorem W5_main_v34_0 (c : Dev nD) : W5 m ρ c (Proc.devRef .tc main_v34_0) = (convOut (m ((c.tc : Thread nD τ).loc main_arg0)) (m ((c.tc : Thread nD τ).loc main_arg11)) (m ((c.tc : Thread nD τ).loc main_arg2))) := (host3_keep (W4 m ρ c) main_v34_0 (by decide)).trans (W4_main_v34_0 m ρ c)
theorem W5_main_v74 (c : Dev nD) : W5 m ρ c (Proc.devRef .tc main_v74) = (scaleOut (m ((c.tc : Thread nD τ).loc main_arg0)) (m ((c.tc : Thread nD τ).loc main_arg11)) (m ((c.tc : Thread nD τ).loc main_arg2)) (m ((c.tc : Thread nD τ).loc main_arg6))) := by
  refine (host3_main_v74 (W4 m ρ c)).trans ?_
  rw [W4_main_v34_1, W4_main_v34_2, W4_arg m ρ c main_arg6 (by decide) (by decide) (by decide) (by decide)]
  rfl
theorem W5_main_v75 (c : Dev nD) : W5 m ρ c (Proc.devRef .tc main_v75) = (shiftOut (m ((c.tc : Thread nD τ).loc main_arg0)) (m ((c.tc : Thread nD τ).loc main_arg11)) (m ((c.tc : Thread nD τ).loc main_arg2)) (m ((c.tc : Thread nD τ).loc main_arg6)) (m ((c.tc : Thread nD τ).loc main_arg7))) := by
  refine (host3_main_v75 (W4 m ρ c)).trans ?_
  rw [W4_main_v34_1, W4_main_v34_2, W4_arg m ρ c main_arg6 (by decide) (by decide) (by decide) (by decide),
    W4_arg m ρ c main_arg7 (by decide) (by decide) (by decide) (by decide)]
  rfl
theorem W5_main_v35_0 (c : Dev nD) : W5 m ρ c (Proc.devRef .tc main_v35_0) = (convOut (m ((c.tc : Thread nD τ).loc main_arg0)) (m ((c.tc : Thread nD τ).loc main_arg12)) (m ((c.tc : Thread nD τ).loc main_arg3))) := (host3_keep (W4 m ρ c) main_v35_0 (by decide)).trans (W4_main_v35_0 m ρ c)
theorem W5_main_v94 (c : Dev nD) : W5 m ρ c (Proc.devRef .tc main_v94) = (scaleOut (m ((c.tc : Thread nD τ).loc main_arg0)) (m ((c.tc : Thread nD τ).loc main_arg12)) (m ((c.tc : Thread nD τ).loc main_arg3)) (m ((c.tc : Thread nD τ).loc main_arg8))) := by
  refine (host3_main_v94 (W4 m ρ c)).trans ?_
  rw [W4_main_v35_1, W4_main_v35_2, W4_arg m ρ c main_arg8 (by decide) (by decide) (by decide) (by decide)]
  rfl
theorem W5_main_v95 (c : Dev nD) : W5 m ρ c (Proc.devRef .tc main_v95) = (shiftOut (m ((c.tc : Thread nD τ).loc main_arg0)) (m ((c.tc : Thread nD τ).loc main_arg12)) (m ((c.tc : Thread nD τ).loc main_arg3)) (m ((c.tc : Thread nD τ).loc main_arg8)) (m ((c.tc : Thread nD τ).loc main_arg9))) := by
  refine (host3_main_v95 (W4 m ρ c)).trans ?_
  rw [W4_main_v35_1, W4_main_v35_2, W4_arg m ρ c main_arg8 (by decide) (by decide) (by decide) (by decide),
    W4_arg m ρ c main_arg9 (by decide) (by decide) (by decide) (by decide)]
  rfl
theorem W5_main_arg0 (c : Dev nD) : W5 m ρ c (Proc.devRef .tc main_arg0) = m ((c.tc : Thread nD τ).loc main_arg0) :=
  (host3_keep (W4 m ρ c) main_arg0 (by decide)).trans (W4_arg m ρ c main_arg0 (by decide) (by decide) (by decide) (by decide))

/-! ## The result -/

/-- The result buffer at the last boundary: the combine region's output array over the three branches' linear maps, scale and
    shift rows, and the features, all of the launch memory. -/
theorem result_value (c : Dev nD) :
    W6 m ρ c (Proc.devRef .tc main_v96) = fun i : S131072x256.Idx =>
      combRow (convOut (m ((c.tc : Thread nD τ).loc main_arg0)) (m ((c.tc : Thread nD τ).loc main_arg10)) (m ((c.tc : Thread nD τ).loc main_arg1))) (convOut (m ((c.tc : Thread nD τ).loc main_arg0)) (m ((c.tc : Thread nD τ).loc main_arg11)) (m ((c.tc : Thread nD τ).loc main_arg2))) (convOut (m ((c.tc : Thread nD τ).loc main_arg0)) (m ((c.tc : Thread nD τ).loc main_arg12)) (m ((c.tc : Thread nD τ).loc main_arg3)))
        (scaleOut (m ((c.tc : Thread nD τ).loc main_arg0)) (m ((c.tc : Thread nD τ).loc main_arg10)) (m ((c.tc : Thread nD τ).loc main_arg1)) (m ((c.tc : Thread nD τ).loc main_arg4))) (shiftOut (m ((c.tc : Thread nD τ).loc main_arg0)) (m ((c.tc : Thread nD τ).loc main_arg10)) (m ((c.tc : Thread nD τ).loc main_arg1)) (m ((c.tc : Thread nD τ).loc main_arg4)) (m ((c.tc : Thread nD τ).loc main_arg5)))
        (scaleOut (m ((c.tc : Thread nD τ).loc main_arg0)) (m ((c.tc : Thread nD τ).loc main_arg11)) (m ((c.tc : Thread nD τ).loc main_arg2)) (m ((c.tc : Thread nD τ).loc main_arg6))) (shiftOut (m ((c.tc : Thread nD τ).loc main_arg0)) (m ((c.tc : Thread nD τ).loc main_arg11)) (m ((c.tc : Thread nD τ).loc main_arg2)) (m ((c.tc : Thread nD τ).loc main_arg6)) (m ((c.tc : Thread nD τ).loc main_arg7)))
        (scaleOut (m ((c.tc : Thread nD τ).loc main_arg0)) (m ((c.tc : Thread nD τ).loc main_arg12)) (m ((c.tc : Thread nD τ).loc main_arg3)) (m ((c.tc : Thread nD τ).loc main_arg8))) (shiftOut (m ((c.tc : Thread nD τ).loc main_arg0)) (m ((c.tc : Thread nD τ).loc main_arg12)) (m ((c.tc : Thread nD τ).loc main_arg3)) (m ((c.tc : Thread nD τ).loc main_arg8)) (m ((c.tc : Thread nD τ).loc main_arg9)))
        (m ((c.tc : Thread nD τ).loc main_arg0)) (i 0) (i 1) := by
  refine (W6_arr m ρ c 10).trans ((final3_10 (V5 m ρ) c).trans ?_)
  show (fun i : S131072x256.Idx => combRow (W5 m ρ c (Proc.devRef .tc main_v33_0)) (W5 m ρ c (Proc.devRef .tc main_v34_0)) (W5 m ρ c (Proc.devRef .tc main_v35_0))
      (W5 m ρ c (Proc.devRef .tc main_v54)) (W5 m ρ c (Proc.devRef .tc main_v55)) (W5 m ρ c (Proc.devRef .tc main_v74)) (W5 m ρ c (Proc.devRef .tc main_v75))
      (W5 m ρ c (Proc.devRef .tc main_v94)) (W5 m ρ c (Proc.devRef .tc main_v95)) (W5 m ρ c (Proc.devRef .tc main_arg0)) (i 0) (i 1)) = _
  rw [W5_main_v33_0, W5_main_v34_0, W5_main_v35_0, W5_main_v54, W5_main_v55, W5_main_v74, W5_main_v75, W5_main_v94, W5_main_v95,
    W5_main_arg0]

end Cert.KernelIdeal.KValue

end
-- ==== Proof.Finite.lean ====
/-
  The precondition read back: it is the conjunction, over the ten float arguments, of "every entry's absolute value is
  strictly below +∞"; an extended real whose absolute value is strictly below ⊤ is neither ⊥ nor ⊤, so it is a real.
-/
import proofs.«177556_j33500744909242_2_alg».proof.Pre_finite_inputs
import proofs.«177556_j33500744909242_2_alg».proof.Proof.Gen.Pre_finite_inputs
import Idealize.ShloMosaic.PureOps.Ideal.Laws
import Idealize.ShloMosaic.Lib.ReduceAll
import Idealize.ShloMosaic.Lib.ValueIdx

noncomputable section

namespace Cert.SubmBN

open Idealize.ShloMosaic Cert.Pre_finite_inputs

namespace PreFin

/-- The pattern `0x7F800000` denotes `+∞`. -/
theorem inf_eq : Ideal.ofBits .f32 0x7F800000#32 = (⊤ : EReal) := by
  simp [Ideal.ofBits, Ideal.ieee]

/-- `max x (−x) < ⊤` fails at `⊥` and at `⊤`: such an `x` is a real. -/
theorem finite_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ v : ℝ, x = (v : EReal) := by
  rw [Ideal.ofBits_def, inf_eq, Ideal.hostAbsf_def, Ideal.absf_def, Ideal.cmpf_def] at h
  induction x using EReal.rec with
  | bot => simp [Ideal.cmp] at h
  | coe r => exact ⟨r, rfl⟩
  | top => simp [Ideal.cmp] at h

/-- The scalar shape has one index. -/
instance : Subsingleton S_.Idx := ⟨fun a b => funext fun d => d.elim0⟩

/-- One `all (|x| < +∞)` that came out 1: every entry of `x` is a real. -/
theorem all_finite {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
      (constantI S_ 1 1#1) hr hu ValueIdx.ix0 = 1#1) :
    ∀ i, ∃ v : ℝ, x i = (v : EReal) := fun i =>
  finite_of_abs_lt_inf (x i) (Host.reduce_andi_all _ _ hr hu _ e i)

end PreFin

variable [Cert.Pre_finite_inputs.Facts]

/-- The precondition gives every float argument finite. -/
theorem finite_of_pre (a0 : FVec Ideal S131072x256 .f32) (a1 a2 a3 : FVec Ideal S3x256x256 .f32)
    (a4 a5 a6 a7 a8 a9 : FVec Ideal S256 .f32) (a10 a11 a12 : IVec S131072x3 32)
    (h : Cert.Pre_finite_inputs.fn (F := Ideal) a0 a1 a2 a3 a4 a5 a6 a7 a8 a9 a10 a11 a12 = fun _ => 1#1) :
    (∀ i, ∃ v : ℝ, a0 i = (v : EReal)) ∧ (∀ i, ∃ v : ℝ, a1 i = (v : EReal)) ∧ (∀ i, ∃ v : ℝ, a2 i = (v : EReal)) ∧
    (∀ i, ∃ v : ℝ, a3 i = (v : EReal)) ∧ (∀ i, ∃ v : ℝ, a4 i = (v : EReal)) ∧ (∀ i, ∃ v : ℝ, a5 i = (v : EReal)) ∧
    (∀ i, ∃ v : ℝ, a6 i = (v : EReal)) ∧ (∀ i, ∃ v : ℝ, a7 i = (v : EReal)) ∧ (∀ i, ∃ v : ℝ, a8 i = (v : EReal)) ∧
    (∀ i, ∃ v : ℝ, a9 i = (v : EReal)) := by
  have e := congrFun h ValueIdx.ix0
  dsimp only [Cert.Pre_finite_inputs.fn, Cert.Pre_finite_inputs.fn_part1, Cert.Pre_finite_inputs.fn_part2, andi] at e
  simp only [IntOp.andi_eq_one] at e
  obtain ⟨⟨⟨⟨⟨⟨⟨⟨⟨h0, h1⟩, h2⟩, h3⟩, h4⟩, h5⟩, h6⟩, h7⟩, h8⟩, h9⟩ := e
  exact ⟨PreFin.all_finite a0 _ _ _ h0, PreFin.all_finite a1 _ _ _ h1, PreFin.all_finite a2 _ _ _ h2, PreFin.all_finite a3 _ _ _ h3,
    PreFin.all_finite a4 _ _ _ h4, PreFin.all_finite a5 _ _ _ h5, PreFin.all_finite a6 _ _ _ h6, PreFin.all_finite a7 _ _ _ h7,
    PreFin.all_finite a8 _ _ _ h8, PreFin.all_finite a9 _ _ _ h9⟩

end Cert.SubmBN

end
-- ==== Proof.RefRun.lean ====
/-
  The reference program's run. Its 294 host operations in execution order (the outlined variance function's and its
  selection's inline at each of the three calls); the program is that straight line; so every weakly fair execution terminates
  with each buffer at the operations' fold over the launch contents; and that fold leaves, in the result buffer, the reference's
  term of the thirteen arguments (read stage by stage: padding, three-tap map, mean, variance, activation, final combination),
  and leaves every argument as it was.
-/
import proofs.«177556_j33500744909242_2_alg».proof.Proof.Gen.ReferenceIdeal
import proofs.«177556_j33500744909242_2_alg».proof.Proof.RefStages
import Idealize.ShloMosaic.Lib.StableHlo.Run
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents after two lines run one after the other. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-! ## The operations, in fourteen consecutive pieces (cut where a stage ends and where the printed program's own parts end) -/

/-- Operations 1 … 3 of 294: the zero row and its concatenation below the features. -/
def a0 : List (HloOp τ sig (Elt F)) :=
  [ nullary main_cst (constant S_ .f32 0x00000000#32),
    unary main_cst main_v0 (broadcastInDim S1x256 ![] bcast_S_S1x256 : (⟨S_, .f32⟩ : BufTy).Contents (Elt F) → (⟨S1x256, .f32⟩ : BufTy).Contents (Elt F)),
    binary main_arg0 main_v0 main_v1 ((fun a b => concatenate S131073x256 0 [⟨S131072x256, a⟩, ⟨S1x256, b⟩] concatenates_S131072x256_S1x256_S131073x256_d0) : (⟨S131072x256, .f32⟩ : BufTy).Contents (Elt F) → (⟨S1x256, .f32⟩ : BufTy).Contents (Elt F) → (⟨S131073x256, .f32⟩ : BufTy).Contents (Elt F)) ]

/-- The buffers they write. -/
abbrev a0_W : List (Ref sig .tc) := [main_cst, main_v0, main_v1]

theorem a0_sub : (a0 : List (HloOp τ sig (Elt F))).Forall fun op => op.bufs ⊆ tcRefs τ sig := by
  unfold a0
  exact ⟨nullary_bufs_sub .., unary_bufs_sub .., binary_bufs_sub ..⟩

theorem a0_fresh : ∀ op ∈ (a0 : List (HloOp τ sig (Elt F))), op.fresh = ∅ := by
  intro op h
  unfold a0 at h
  repeat (cases h with | head => rfl | tail _ h => ?_)
  exact nomatch h

theorem a0_writes : (a0 : List (HloOp τ sig (Elt F))).Forall fun op => op.writes ⊆ (a0_W.map (Proc.devRef (τ := τ) .tc)).toFinset := by
  unfold a0
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer they do not write keeps its contents. -/
theorem a0_keep (W : Valuation τ sig (Elt F)) (r : Ref sig .tc) (h : r ∉ a0_W) :
    after a0 W (no_index (Proc.devRef .tc r)) = W (Proc.devRef .tc r) :=
  after_of_writes_sub a0 _ a0_writes h

/-- Operations 4 … 47 of 294 (branch 1): the three taps (start indices, gather, weight slice, contraction) and their sum. -/
def a1 : List (HloOp τ sig (Elt F)) :=
  [ unary main_arg10 main_v2 ((extractStridedSlice S131072x1 ![0, 0] · slices_S131072x3_S131072x1_0_0) : (⟨S131072x3, .i32⟩ : BufTy).Contents (Elt F) → (⟨S131072x1, .i32⟩ : BufTy).Contents (Elt F)),
    reshape main_v2 main_v3 rfl shapeCasts_S131072x1_S131072,
    nullary main_c (constantI S_ 32 0#32),
    unary main_c main_v4 (broadcastInDim S131072 ![] bcast_S_S131072 : (⟨S_, .i32⟩ : BufTy).Contents (Elt F) → (⟨S131072, .i32⟩ : BufTy).Contents (Elt F)),
    binary main_v3 main_v4 main_v5 (cmpi .slt : (⟨S131072, .i32⟩ : BufTy).Contents (Elt F) → (⟨S131072, .i32⟩ : BufTy).Contents (Elt F) → (⟨S131072, .i1⟩ : BufTy).Contents (Elt F)),
    nullary main_c_0 (constantI S_ 32 131073#32),
    unary main_c_0 main_v6 (broadcastInDim S131072 ![] bcast_S_S131072 : (⟨S_, .i32⟩ : BufTy).Contents (Elt F) → (⟨S131072, .i32⟩ : BufTy).Contents (Elt F)),
    binary main_v3 main_v6 main_v7 (addi : (⟨S131072, .i32⟩ : BufTy).Contents (Elt F) → (⟨S131072, .i32⟩ : BufTy).Contents (Elt F) → (⟨S131072, .i32⟩ : BufTy).Contents (Elt F)),
    ternary main_v5 main_v7 main_v3 main_v8 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v8 main_v9 (broadcastInDim S131072x1 ![0] bcast_S131072_S131072x1_0 : (⟨S131072, .i32⟩ : BufTy).Contents (Elt F) → (⟨S131072x1, .i32⟩ : BufTy).Contents (Elt F)),
    binary main_v1 main_v9 main_v10 ((fun x i => Host.gather gather_S131073x256_S131072x1_S131072x256_1_0_n_n_0_1_1256 x i) : (⟨S131073x256, .f32⟩ : BufTy).Contents (Elt F) → (⟨S131072x1, .i32⟩ : BufTy).Contents (Elt F) → (⟨S131072x256, .f32⟩ : BufTy).Contents (Elt F)),
    unary main_arg1 main_v11 ((extractStridedSlice S1x256x256 ![0, 0, 0] · slices_S3x256x256_S1x256x256_0_0_0) : (⟨S3x256x256, .f32⟩ : BufTy).Contents (Elt F) → (⟨S1x256x256, .f32⟩ : BufTy).Contents (Elt F)),
    reshape main_v11 main_v12 rfl shapeCasts_S1x256x256_S256x256,
    binary main_v10 main_v12 main_v13 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    unary main_arg10 main_v14 ((extractStridedSlice S131072x1 ![0, 1] · slices_S131072x3_S131072x1_0_1) : (⟨S131072x3, .i32⟩ : BufTy).Contents (Elt F) → (⟨S131072x1, .i32⟩ : BufTy).Contents (Elt F)),
    reshape main_v14 main_v15 rfl shapeCasts_S131072x1_S131072,
    nullary main_c_1 (constantI S_ 32 0#32),
    unary main_c_1 main_v16 (broadcastInDim S131072 ![] bcast_S_S131072 : (⟨S_, .i32⟩ : BufTy).Contents (Elt F) → (⟨S131072, .i32⟩ : BufTy).Contents (Elt F)),
    binary main_v15 main_v16 main_v17 (cmpi .slt : (⟨S131072, .i32⟩ : BufTy).Contents (Elt F) → (⟨S131072, .i32⟩ : BufTy).Contents (Elt F) → (⟨S131072, .i1⟩ : BufTy).Contents (Elt F)),
    nullary main_c_2 (constantI S_ 32 131073#32),
    unary main_c_2 main_v18 (broadcastInDim S131072 ![] bcast_S_S131072 : (⟨S_, .i32⟩ : BufTy).Contents (Elt F) → (⟨S131072, .i32⟩ : BufTy).Contents (Elt F)),
    binary main_v15 main_v18 main_v19 (addi : (⟨S131072, .i32⟩ : BufTy).Contents (Elt F) → (⟨S131072, .i32⟩ : BufTy).Contents (Elt F) → (⟨S131072, .i32⟩ : BufTy).Contents (Elt F)),
    ternary main_v17 main_v19 main_v15 main_v20 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v20 main_v21 (broadcastInDim S131072x1 ![0] bcast_S131072_S131072x1_0 : (⟨S131072, .i32⟩ : BufTy).Contents (Elt F) → (⟨S131072x1, .i32⟩ : BufTy).Contents (Elt F)),
    binary main_v1 main_v21 main_v22 ((fun x i => Host.gather gather_S131073x256_S131072x1_S131072x256_1_0_n_n_0_1_1256 x i) : (⟨S131073x256, .f32⟩ : BufTy).Contents (Elt F) → (⟨S131072x1, .i32⟩ : BufTy).Contents (Elt F) → (⟨S131072x256, .f32⟩ : BufTy).Contents (Elt F)),
    unary main_arg1 main_v23 ((extractStridedSlice S1x256x256 ![1, 0, 0] · slices_S3x256x256_S1x256x256_1_0_0) : (⟨S3x256x256, .f32⟩ : BufTy).Contents (Elt F) → (⟨S1x256x256, .f32⟩ : BufTy).Contents (Elt F)),
    reshape main_v23 main_v24 rfl shapeCasts_S1x256x256_S256x256,
    binary main_v22 main_v24 main_v25 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    binary main_v13 main_v25 main_v26 (addf : (⟨S131072x256, .f32⟩ : BufTy).Contents (Elt F) → (⟨S131072x256, .f32⟩ : BufTy).Contents (Elt F) → (⟨S131072x256, .f32⟩ : BufTy).Contents (Elt F)),
    unary main_arg10 main_v27 ((extractStridedSlice S131072x1 ![0, 2] · slices_S131072x3_S131072x1_0_2) : (⟨S131072x3, .i32⟩ : BufTy).Contents (Elt F) → (⟨S131072x1, .i32⟩ : BufTy).Contents (Elt F)),
    reshape main_v27 main_v28 rfl shapeCasts_S131072x1_S131072,
    nullary main_c_3 (constantI S_ 32 0#32),
    unary main_c_3 main_v29 (broadcastInDim S131072 ![] bcast_S_S131072 : (⟨S_, .i32⟩ : BufTy).Contents (Elt F) → (⟨S131072, .i32⟩ : BufTy).Contents (Elt F)),
    binary main_v28 main_v29 main_v30 (cmpi .slt : (⟨S131072, .i32⟩ : BufTy).Contents (Elt F) → (⟨S131072, .i32⟩ : BufTy).Contents (Elt F) → (⟨S131072, .i1⟩ : BufTy).Contents (Elt F)),
    nullary main_c_4 (constantI S_ 32 131073#32),
    unary main_c_4 main_v31 (broadcastInDim S131072 ![] bcast_S_S131072 : (⟨S_, .i32⟩ : BufTy).Contents (Elt F) → (⟨S131072, .i32⟩ : BufTy).Contents (Elt F)),
    binary main_v28 main_v31 main_v32 (addi : (⟨S131072, .i32⟩ : BufTy).Contents (Elt F) → (⟨S131072, .i32⟩ : BufTy).Contents (Elt F) → (⟨S131072, .i32⟩ : BufTy).Contents (Elt F)),
    ternary main_v30 main_v32 main_v28 main_v33 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v33 main_v34 (broadcastInDim S131072x1 ![0] bcast_S131072_S131072x1_0 : (⟨S131072, .i32⟩ : BufTy).Contents (Elt F) → (⟨S131072x1, .i32⟩ : BufTy).Contents (Elt F)),
    binary main_v1 main_v34 main_v35 ((fun x i => Host.gather gather_S131073x256_S131072x1_S131072x256_1_0_n_n_0_1_1256 x i) : (⟨S131073x256, .f32⟩ : BufTy).Contents (Elt F) → (⟨S131072x1, .i32⟩ : BufTy).Contents (Elt F) → (⟨S131072x256, .f32⟩ : BufTy).Contents (Elt F)),
    unary main_arg1 main_v36 ((extractStridedSlice S1x256x256 ![2, 0, 0] · slices_S3x256x256_S1x256x256_2_0_0) : (⟨S3x256x256, .f32⟩ : BufTy).Contents (Elt F) → (⟨S1x256x256, .f32⟩ : BufTy).Contents (Elt F)),
    reshape main_v36 main_v37 rfl shapeCasts_S1x256x256_S256x256,
    binary main_v35 main_v37 main_v38 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    binary main_v26 main_v38 main_v39 (addf : (⟨S131072x256, .f32⟩ : BufTy).Contents (Elt F) → (⟨S131072x256, .f32⟩ : BufTy).Contents (Elt F) → (⟨S131072x256, .f32⟩ : BufTy).Contents (Elt F)) ]

/-- The buffers they write. -/
abbrev a1_W : List (Ref sig .tc) := [main_v2, main_v3, main_c, main_v4, main_v5, main_c_0, main_v6, main_v7, main_v8, main_v9, main_v10, main_v11, main_v12, main_v13, main_v14, main_v15, main_c_1, main_v16, main_v17, main_c_2, main_v18, main_v19, main_v20, main_v21, main_v22, main_v23, main_v24, main_v25, main_v26, main_v27, main_v28, main_c_3, main_v29, main_v30, main_c_4, main_v31, main_v32, main_v33, main_v34, main_v35, main_v36, main_v37, main_v38, main_v39]

theorem a1_sub : (a1 : List (HloOp τ sig (Elt F))).Forall fun op => op.bufs ⊆ tcRefs τ sig := by
  unfold a1
  exact ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub ..⟩

theorem a1_fresh : ∀ op ∈ (a1 : List (HloOp τ sig (Elt F))), op.fresh = ∅ := by
  intro op h
  unfold a1 at h
  repeat (cases h with | head => rfl | tail _ h => ?_)
  exact nomatch h

theorem a1_writes : (a1 : List (HloOp τ sig (Elt F))).Forall fun op => op.writes ⊆ (a1_W.map (Proc.devRef (τ := τ) .tc)).toFinset := by
  unfold a1
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer they do not write keeps its contents. -/
theorem a1_keep (W : Valuation τ sig (Elt F)) (r : Ref sig .tc) (h : r ∉ a1_W) :
    after a1 W (no_index (Proc.devRef .tc r)) = W (Proc.devRef .tc r) :=
  after_of_writes_sub a1 _ a1_writes h

/-- Operations 48 … 75 of 294 (branch 1): the channel mean, the integer constant 0, and the variance function's operations with its selection inline. -/
def a2 : List (HloOp τ sig (Elt F)) :=
  [ nullary main_cst_5 (constant S_ .f32 0x00000000#32),
    binary main_v39 main_cst_5 main_v40 ((fun x v => Host.reduceAdd x v reducesTo_S131072x256_S256_d0 h_S_) : (⟨S131072x256, .f32⟩ : BufTy).Contents (Elt F) → (⟨S_, .f32⟩ : BufTy).Contents (Elt F) → (⟨S256, .f32⟩ : BufTy).Contents (Elt F)),
    nullary main_cst_6 (constant S_ .f32 0x48000000#32),
    unary main_cst_6 main_v41 (broadcastInDim S256 ![] bcast_S_S256 : (⟨S_, .f32⟩ : BufTy).Contents (Elt F) → (⟨S256, .f32⟩ : BufTy).Contents (Elt F)),
    binary main_v40 main_v41 main_v42 (Host.divf : (⟨S256, .f32⟩ : BufTy).Contents (Elt F) → (⟨S256, .f32⟩ : BufTy).Contents (Elt F) → (⟨S256, .f32⟩ : BufTy).Contents (Elt F)),
    nullary main_c_7 (constantI S_ 32 0#32),
    TRef.nullary main_call0.cst (constant S_ .f32 0x00000000#32),
    TRef.binary (.of main_v39 : TRef sig ⟨S131072x256, .f32⟩) main_call0.cst main_call0.v0 (fun x v => Host.reduceAdd x v reducesTo_S131072x256_S256_d0 h_S_),
    TRef.unary main_call0.v0 main_call0.v1 (broadcastInDim S1x256 ![1] bcast_S256_S1x256_1),
    TRef.nullary main_call0.cst_0 (constant S_ .f32 0x48000000#32),
    TRef.unary main_call0.cst_0 main_call0.v2 (broadcastInDim S1x256 ![] bcast_S_S1x256),
    TRef.binary main_call0.v1 main_call0.v2 main_call0.v3 Host.divf,
    TRef.unary main_call0.v3 main_call0.v4 (broadcastInDim S131072x256 ![0, 1] bcast_S1x256_S131072x256_0_1),
    TRef.binary (.of main_v39 : TRef sig ⟨S131072x256, .f32⟩) main_call0.v4 main_call0.v5 subf,
    TRef.binary main_call0.v5 main_call0.v5 main_call0.v6 mulf,
    TRef.unary (.of main_c_7 : TRef sig ⟨S_, .i32⟩) main_call0.v7 (sitofp .f32),
    TRef.nullary main_call0.cst_1 (constant S_ .f32 0x48000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S131072x256_S256_d0 h_S_),
    TRef.unary main_call0.v8 main_call0.v10 (broadcastInDim S256 ![] bcast_S_S256),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S256 ![] bcast_S_S256),
    TRef.ternary main_call0.v12 main_call0.v11 main_call0.call0.v1 main_call0.call0.v2 (fun p a b => select (broadcastInDim S256 ![] bcast_S_S256 p) a b) ]

/-- The buffers they write. -/
abbrev a2_W : List (Ref sig .tc) := [main_cst_5, main_v40, main_cst_6, main_v41, main_v42, main_c_7, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v43]

theorem a2_sub : (a2 : List (HloOp τ sig (Elt F))).Forall fun op => op.bufs ⊆ tcRefs τ sig := by
  unfold a2
  exact ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem a2_fresh : ∀ op ∈ (a2 : List (HloOp τ sig (Elt F))), op.fresh = ∅ := by
  intro op h
  unfold a2 at h
  repeat (cases h with | head => rfl | tail _ h => ?_)
  exact nomatch h

theorem a2_writes : (a2 : List (HloOp τ sig (Elt F))).Forall fun op => op.writes ⊆ (a2_W.map (Proc.devRef (τ := τ) .tc)).toFinset := by
  unfold a2
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer they do not write keeps its contents. -/
theorem a2_keep (W : Valuation τ sig (Elt F)) (r : Ref sig .tc) (h : r ∉ a2_W) :
    after a2 W (no_index (Proc.devRef .tc r)) = W (Proc.devRef .tc r) :=
  after_of_writes_sub a2 _ a2_writes h

/-- Operations 76 … 81 of 294 (branch 1): the normalisation, affine map and logistic function (one part of them). -/
def a3 : List (HloOp τ sig (Elt F)) :=
  [ unary main_v42 main_v44 (broadcastInDim S1x256 ![1] bcast_S256_S1x256_1 : (⟨S256, .f32⟩ : BufTy).Contents (Elt F) → (⟨S1x256, .f32⟩ : BufTy).Contents (Elt F)),
    unary main_v44 main_v45 (broadcastInDim S131072x256 ![0, 1] bcast_S1x256_S131072x256_0_1 : (⟨S1x256, .f32⟩ : BufTy).Contents (Elt F) → (⟨S131072x256, .f32⟩ : BufTy).Contents (Elt F)),
    binary main_v39 main_v45 main_v46 (subf : (⟨S131072x256, .f32⟩ : BufTy).Contents (Elt F) → (⟨S131072x256, .f32⟩ : BufTy).Contents (Elt F) → (⟨S131072x256, .f32⟩ : BufTy).Contents (Elt F)),
    unary main_arg4 main_v47 (broadcastInDim S1x256 ![1] bcast_S256_S1x256_1 : (⟨S256, .f32⟩ : BufTy).Contents (Elt F) → (⟨S1x256, .f32⟩ : BufTy).Contents (Elt F)),
    unary main_v47 main_v48 (broadcastInDim S131072x256 ![0, 1] bcast_S1x256_S131072x256_0_1 : (⟨S1x256, .f32⟩ : BufTy).Contents (Elt F) → (⟨S131072x256, .f32⟩ : BufTy).Contents (Elt F)),
    binary main_v48 main_v46 main_v49 (mulf : (⟨S131072x256, .f32⟩ : BufTy).Contents (Elt F) → (⟨S131072x256, .f32⟩ : BufTy).Contents (Elt F) → (⟨S131072x256, .f32⟩ : BufTy).Contents (Elt F)) ]

/-- The buffers they write. -/
abbrev a3_W : List (Ref sig .tc) := [main_v44, main_v45, main_v46, main_v47, main_v48, main_v49]

theorem a3_sub : (a3 : List (HloOp τ sig (Elt F))).Forall fun op => op.bufs ⊆ tcRefs τ sig := by
  unfold a3
  exact ⟨unary_bufs_sub .., unary_bufs_sub .., binary_bufs_sub .., unary_bufs_sub .., unary_bufs_sub .., binary_bufs_sub ..⟩

theorem a3_fresh : ∀ op ∈ (a3 : List (HloOp τ sig (Elt F))), op.fresh = ∅ := by
  intro op h
  unfold a3 at h
  repeat (cases h with | head => rfl | tail _ h => ?_)
  exact nomatch h

theorem a3_writes : (a3 : List (HloOp τ sig (Elt F))).Forall fun op => op.writes ⊆ (a3_W.map (Proc.devRef (τ := τ) .tc)).toFinset := by
  unfold a3
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer they do not write keeps its contents. -/
theorem a3_keep (W : Valuation τ sig (Elt F)) (r : Ref sig .tc) (h : r ∉ a3_W) :
    after a3 W (no_index (Proc.devRef .tc r)) = W (Proc.devRef .tc r) :=
  after_of_writes_sub a3 _ a3_writes h

/-- Operations 82 … 99 of 294 (branch 1): the normalisation, affine map and logistic function (one part of them). -/
def a4 : List (HloOp τ sig (Elt F)) :=
  [ nullary main_cst_8 (constant S_ .f32 0x3727C5AC#32),
    unary main_cst_8 main_v50 (broadcastInDim S256 ![] bcast_S_S256 : (⟨S_, .f32⟩ : BufTy).Contents (Elt F) → (⟨S256, .f32⟩ : BufTy).Contents (Elt F)),
    binary main_v43 main_v50 main_v51 (addf : (⟨S256, .f32⟩ : BufTy).Contents (Elt F) → (⟨S256, .f32⟩ : BufTy).Contents (Elt F) → (⟨S256, .f32⟩ : BufTy).Contents (Elt F)),
    unary main_v51 main_v52 (Host.rsqrt : (⟨S256, .f32⟩ : BufTy).Contents (Elt F) → (⟨S256, .f32⟩ : BufTy).Contents (Elt F)),
    unary main_v52 main_v53 (broadcastInDim S1x256 ![1] bcast_S256_S1x256_1 : (⟨S256, .f32⟩ : BufTy).Contents (Elt F) → (⟨S1x256, .f32⟩ : BufTy).Contents (Elt F)),
    unary main_v53 main_v54 (broadcastInDim S131072x256 ![0, 1] bcast_S1x256_S131072x256_0_1 : (⟨S1x256, .f32⟩ : BufTy).Contents (Elt F) → (⟨S131072x256, .f32⟩ : BufTy).Contents (Elt F)),
    binary main_v49 main_v54 main_v55 (mulf : (⟨S131072x256, .f32⟩ : BufTy).Contents (Elt F) → (⟨S131072x256, .f32⟩ : BufTy).Contents (Elt F) → (⟨S131072x256, .f32⟩ : BufTy).Contents (Elt F)),
    unary main_arg5 main_v56 (broadcastInDim S1x256 ![1] bcast_S256_S1x256_1 : (⟨S256, .f32⟩ : BufTy).Contents (Elt F) → (⟨S1x256, .f32⟩ : BufTy).Contents (Elt F)),
    unary main_v56 main_v57 (broadcastInDim S131072x256 ![0, 1] bcast_S1x256_S131072x256_0_1 : (⟨S1x256, .f32⟩ : BufTy).Contents (Elt F) → (⟨S131072x256, .f32⟩ : BufTy).Contents (Elt F)),
    binary main_v55 main_v57 main_v58 (addf : (⟨S131072x256, .f32⟩ : BufTy).Contents (Elt F) → (⟨S131072x256, .f32⟩ : BufTy).Contents (Elt F) → (⟨S131072x256, .f32⟩ : BufTy).Contents (Elt F)),
    unary main_v58 main_v59 (Host.negf : (⟨S131072x256, .f32⟩ : BufTy).Contents (Elt F) → (⟨S131072x256, .f32⟩ : BufTy).Contents (Elt F)),
    unary main_v59 main_v60 (Host.exp : (⟨S131072x256, .f32⟩ : BufTy).Contents (Elt F) → (⟨S131072x256, .f32⟩ : BufTy).Contents (Elt F)),
    nullary main_cst_9 (constant S_ .f32 0x3F800000#32),
    unary main_cst_9 main_v61 (broadcastInDim S131072x256 ![] bcast_S_S131072x256 : (⟨S_, .f32⟩ : BufTy).Contents (Elt F) → (⟨S131072x256, .f32⟩ : BufTy).Contents (Elt F)),
    binary main_v61 main_v60 main_v62 (addf : (⟨S131072x256, .f32⟩ : BufTy).Contents (Elt F) → (⟨S131072x256, .f32⟩ : BufTy).Contents (Elt F) → (⟨S131072x256, .f32⟩ : BufTy).Contents (Elt F)),
    nullary main_cst_10 (constant S_ .f32 0x3F800000#32),
    unary main_cst_10 main_v63 (broadcastInDim S131072x256 ![] bcast_S_S131072x256 : (⟨S_, .f32⟩ : BufTy).Contents (Elt F) → (⟨S131072x256, .f32⟩ : BufTy).Contents (Elt F)),
    binary main_v63 main_v62 main_v64 (Host.divf : (⟨S131072x256, .f32⟩ : BufTy).Contents (Elt F) → (⟨S131072x256, .f32⟩ : BufTy).Contents (Elt F) → (⟨S131072x256, .f32⟩ : BufTy).Contents (Elt F)) ]

/-- The buffers they write. -/
abbrev a4_W : List (Ref sig .tc) := [main_cst_8, main_v50, main_v51, main_v52, main_v53, main_v54, main_v55, main_v56, main_v57, main_v58, main_v59, main_v60, main_cst_9, main_v61, main_v62, main_cst_10, main_v63, main_v64]

theorem a4_sub : (a4 : List (HloOp τ sig (Elt F))).Forall fun op => op.bufs ⊆ tcRefs τ sig := by
  unfold a4
  exact ⟨nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

theorem a4_fresh : ∀ op ∈ (a4 : List (HloOp τ sig (Elt F))), op.fresh = ∅ := by
  intro op h
  unfold a4 at h
  repeat (cases h with | head => rfl | tail _ h => ?_)
  exact nomatch h

theorem a4_writes : (a4 : List (HloOp τ sig (Elt F))).Forall fun op => op.writes ⊆ (a4_W.map (Proc.devRef (τ := τ) .tc)).toFinset := by
  unfold a4
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer they do not write keeps its contents. -/
theorem a4_keep (W : Valuation τ sig (Elt F)) (r : Ref sig .tc) (h : r ∉ a4_W) :
    after a4 W (no_index (Proc.devRef .tc r)) = W (Proc.devRef .tc r) :=
  after_of_writes_sub a4 _ a4_writes h

/-- Operations 100 … 141 of 294 (branch 2): the three taps (start indices, gather, weight slice, contraction) and their sum (one part of them). -/
def a5 : List (HloOp τ sig (Elt F)) :=
  [ unary main_arg11 main_v65 ((extractStridedSlice S131072x1 ![0, 0] · slices_S131072x3_S131072x1_0_0) : (⟨S131072x3, .i32⟩ : BufTy).Contents (Elt F) → (⟨S131072x1, .i32⟩ : BufTy).Contents (Elt F)),
    reshape main_v65 main_v66 rfl shapeCasts_S131072x1_S131072,
    nullary main_c_11 (constantI S_ 32 0#32),
    unary main_c_11 main_v67 (broadcastInDim S131072 ![] bcast_S_S131072 : (⟨S_, .i32⟩ : BufTy).Contents (Elt F) → (⟨S131072, .i32⟩ : BufTy).Contents (Elt F)),
    binary main_v66 main_v67 main_v68 (cmpi .slt : (⟨S131072, .i32⟩ : BufTy).Contents (Elt F) → (⟨S131072, .i32⟩ : BufTy).Contents (Elt F) → (⟨S131072, .i1⟩ : BufTy).Contents (Elt F)),
    nullary main_c_12 (constantI S_ 32 131073#32),
    unary main_c_12 main_v69 (broadcastInDim S131072 ![] bcast_S_S131072 : (⟨S_, .i32⟩ : BufTy).Contents (Elt F) → (⟨S131072, .i32⟩ : BufTy).Contents (Elt F)),
    binary main_v66 main_v69 main_v70 (addi : (⟨S131072, .i32⟩ : BufTy).Contents (Elt F) → (⟨S131072, .i32⟩ : BufTy).Contents (Elt F) → (⟨S131072, .i32⟩ : BufTy).Contents (Elt F)),
    ternary main_v68 main_v70 main_v66 main_v71 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v71 main_v72 (broadcastInDim S131072x1 ![0] bcast_S131072_S131072x1_0 : (⟨S131072, .i32⟩ : BufTy).Contents (Elt F) → (⟨S131072x1, .i32⟩ : BufTy).Contents (Elt F)),
    binary main_v1 main_v72 main_v73 ((fun x i => Host.gather gather_S131073x256_S131072x1_S131072x256_1_0_n_n_0_1_1256 x i) : (⟨S131073x256, .f32⟩ : BufTy).Contents (Elt F) → (⟨S131072x1, .i32⟩ : BufTy).Contents (Elt F) → (⟨S131072x256, .f32⟩ : BufTy).Contents (Elt F)),
    unary main_arg2 main_v74 ((extractStridedSlice S1x256x256 ![0, 0, 0] · slices_S3x256x256_S1x256x256_0_0_0) : (⟨S3x256x256, .f32⟩ : BufTy).Contents (Elt F) → (⟨S1x256x256, .f32⟩ : BufTy).Contents (Elt F)),
    reshape main_v74 main_v75 rfl shapeCasts_S1x256x256_S256x256,
    binary main_v73 main_v75 main_v76 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    unary main_arg11 main_v77 ((extractStridedSlice S131072x1 ![0, 1] · slices_S131072x3_S131072x1_0_1) : (⟨S131072x3, .i32⟩ : BufTy).Contents (Elt F) → (⟨S131072x1, .i32⟩ : BufTy).Contents (Elt F)),
    reshape main_v77 main_v78 rfl shapeCasts_S131072x1_S131072,
    nullary main_c_13 (constantI S_ 32 0#32),
    unary main_c_13 main_v79 (broadcastInDim S131072 ![] bcast_S_S131072 : (⟨S_, .i32⟩ : BufTy).Contents (Elt F) → (⟨S131072, .i32⟩ : BufTy).Contents (Elt F)),
    binary main_v78 main_v79 main_v80 (cmpi .slt : (⟨S131072, .i32⟩ : BufTy).Contents (Elt F) → (⟨S131072, .i32⟩ : BufTy).Contents (Elt F) → (⟨S131072, .i1⟩ : BufTy).Contents (Elt F)),
    nullary main_c_14 (constantI S_ 32 131073#32),
    unary main_c_14 main_v81 (broadcastInDim S131072 ![] bcast_S_S131072 : (⟨S_, .i32⟩ : BufTy).Contents (Elt F) → (⟨S131072, .i32⟩ : BufTy).Contents (Elt F)),
    binary main_v78 main_v81 main_v82 (addi : (⟨S131072, .i32⟩ : BufTy).Contents (Elt F) → (⟨S131072, .i32⟩ : BufTy).Contents (Elt F) → (⟨S131072, .i32⟩ : BufTy).Contents (Elt F)),
    ternary main_v80 main_v82 main_v78 main_v83 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v83 main_v84 (broadcastInDim S131072x1 ![0] bcast_S131072_S131072x1_0 : (⟨S131072, .i32⟩ : BufTy).Contents (Elt F) → (⟨S131072x1, .i32⟩ : BufTy).Contents (Elt F)),
    binary main_v1 main_v84 main_v85 ((fun x i => Host.gather gather_S131073x256_S131072x1_S131072x256_1_0_n_n_0_1_1256 x i) : (⟨S131073x256, .f32⟩ : BufTy).Contents (Elt F) → (⟨S131072x1, .i32⟩ : BufTy).Contents (Elt F) → (⟨S131072x256, .f32⟩ : BufTy).Contents (Elt F)),
    unary main_arg2 main_v86 ((extractStridedSlice S1x256x256 ![1, 0, 0] · slices_S3x256x256_S1x256x256_1_0_0) : (⟨S3x256x256, .f32⟩ : BufTy).Contents (Elt F) → (⟨S1x256x256, .f32⟩ : BufTy).Contents (Elt F)),
    reshape main_v86 main_v87 rfl shapeCasts_S1x256x256_S256x256,
    binary main_v85 main_v87 main_v88 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    binary main_v76 main_v88 main_v89 (addf : (⟨S131072x256, .f32⟩ : BufTy).Contents (Elt F) → (⟨S131072x256, .f32⟩ : BufTy).Contents (Elt F) → (⟨S131072x256, .f32⟩ : BufTy).Contents (Elt F)),
    unary main_arg11 main_v90 ((extractStridedSlice S131072x1 ![0, 2] · slices_S131072x3_S131072x1_0_2) : (⟨S131072x3, .i32⟩ : BufTy).Contents (Elt F) → (⟨S131072x1, .i32⟩ : BufTy).Contents (Elt F)),
    reshape main_v90 main_v91 rfl shapeCasts_S131072x1_S131072,
    nullary main_c_15 (constantI S_ 32 0#32),
    unary main_c_15 main_v92 (broadcastInDim S131072 ![] bcast_S_S131072 : (⟨S_, .i32⟩ : BufTy).Contents (Elt F) → (⟨S131072, .i32⟩ : BufTy).Contents (Elt F)),
    binary main_v91 main_v92 main_v93 (cmpi .slt : (⟨S131072, .i32⟩ : BufTy).Contents (Elt F) → (⟨S131072, .i32⟩ : BufTy).Contents (Elt F) → (⟨S131072, .i1⟩ : BufTy).Contents (Elt F)),
    nullary main_c_16 (constantI S_ 32 131073#32),
    unary main_c_16 main_v94 (broadcastInDim S131072 ![] bcast_S_S131072 : (⟨S_, .i32⟩ : BufTy).Contents (Elt F) → (⟨S131072, .i32⟩ : BufTy).Contents (Elt F)),
    binary main_v91 main_v94 main_v95 (addi : (⟨S131072, .i32⟩ : BufTy).Contents (Elt F) → (⟨S131072, .i32⟩ : BufTy).Contents (Elt F) → (⟨S131072, .i32⟩ : BufTy).Contents (Elt F)),
    ternary main_v93 main_v95 main_v91 main_v96 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v96 main_v97 (broadcastInDim S131072x1 ![0] bcast_S131072_S131072x1_0 : (⟨S131072, .i32⟩ : BufTy).Contents (Elt F) → (⟨S131072x1, .i32⟩ : BufTy).Contents (Elt F)),
    binary main_v1 main_v97 main_v98 ((fun x i => Host.gather gather_S131073x256_S131072x1_S131072x256_1_0_n_n_0_1_1256 x i) : (⟨S131073x256, .f32⟩ : BufTy).Contents (Elt F) → (⟨S131072x1, .i32⟩ : BufTy).Contents (Elt F) → (⟨S131072x256, .f32⟩ : BufTy).Contents (Elt F)),
    unary main_arg2 main_v99 ((extractStridedSlice S1x256x256 ![2, 0, 0] · slices_S3x256x256_S1x256x256_2_0_0) : (⟨S3x256x256, .f32⟩ : BufTy).Contents (Elt F) → (⟨S1x256x256, .f32⟩ : BufTy).Contents (Elt F)),
    reshape main_v99 main_v100 rfl shapeCasts_S1x256x256_S256x256 ]

/-- The buffers they write. -/
abbrev a5_W : List (Ref sig .tc) := [main_v65, main_v66, main_c_11, main_v67, main_v68, main_c_12, main_v69, main_v70, main_v71, main_v72, main_v73, main_v74, main_v75, main_v76, main_v77, main_v78, main_c_13, main_v79, main_v80, main_c_14, main_v81, main_v82, main_v83, main_v84, main_v85, main_v86, main_v87, main_v88, main_v89, main_v90, main_v91, main_c_15, main_v92, main_v93, main_c_16, main_v94, main_v95, main_v96, main_v97, main_v98, main_v99, main_v100]

theorem a5_sub : (a5 : List (HloOp τ sig (Elt F))).Forall fun op => op.bufs ⊆ tcRefs τ sig := by
  unfold a5
  exact ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub ..⟩

theorem a5_fresh : ∀ op ∈ (a5 : List (HloOp τ sig (Elt F))), op.fresh = ∅ := by
  intro op h
  unfold a5 at h
  repeat (cases h with | head => rfl | tail _ h => ?_)
  exact nomatch h

theorem a5_writes : (a5 : List (HloOp τ sig (Elt F))).Forall fun op => op.writes ⊆ (a5_W.map (Proc.devRef (τ := τ) .tc)).toFinset := by
  unfold a5
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer they do not write keeps its contents. -/
theorem a5_keep (W : Valuation τ sig (Elt F)) (r : Ref sig .tc) (h : r ∉ a5_W) :
    after a5 W (no_index (Proc.devRef .tc r)) = W (Proc.devRef .tc r) :=
  after_of_writes_sub a5 _ a5_writes h

/-- Operations 142 … 143 of 294 (branch 2): the three taps (start indices, gather, weight slice, contraction) and their sum (one part of them). -/
def a6 : List (HloOp τ sig (Elt F)) :=
  [ binary main_v98 main_v100 main_v101 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    binary main_v89 main_v101 main_v102 (addf : (⟨S131072x256, .f32⟩ : BufTy).Contents (Elt F) → (⟨S131072x256, .f32⟩ : BufTy).Contents (Elt F) → (⟨S131072x256, .f32⟩ : BufTy).Contents (Elt F)) ]

/-- The buffers they write. -/
abbrev a6_W : List (Ref sig .tc) := [main_v101, main_v102]

theorem a6_sub : (a6 : List (HloOp τ sig (Elt F))).Forall fun op => op.bufs ⊆ tcRefs τ sig := by
  unfold a6
  exact ⟨binary_bufs_sub .., binary_bufs_sub ..⟩

theorem a6_fresh : ∀ op ∈ (a6 : List (HloOp τ sig (Elt F))), op.fresh = ∅ := by
  intro op h
  unfold a6 at h
  repeat (cases h with | head => rfl | tail _ h => ?_)
  exact nomatch h

theorem a6_writes : (a6 : List (HloOp τ sig (Elt F))).Forall fun op => op.writes ⊆ (a6_W.map (Proc.devRef (τ := τ) .tc)).toFinset := by
  unfold a6
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer they do not write keeps its contents. -/
theorem a6_keep (W : Valuation τ sig (Elt F)) (r : Ref sig .tc) (h : r ∉ a6_W) :
    after a6 W (no_index (Proc.devRef .tc r)) = W (Proc.devRef .tc r) :=
  after_of_writes_sub a6 _ a6_writes h

/-- Operations 144 … 171 of 294 (branch 2): the channel mean, the integer constant 0, and the variance function's operations with its selection inline. -/
def a7 : List (HloOp τ sig (Elt F)) :=
  [ nullary main_cst_17 (constant S_ .f32 0x00000000#32),
    binary main_v102 main_cst_17 main_v103 ((fun x v => Host.reduceAdd x v reducesTo_S131072x256_S256_d0 h_S_) : (⟨S131072x256, .f32⟩ : BufTy).Contents (Elt F) → (⟨S_, .f32⟩ : BufTy).Contents (Elt F) → (⟨S256, .f32⟩ : BufTy).Contents (Elt F)),
    nullary main_cst_18 (constant S_ .f32 0x48000000#32),
    unary main_cst_18 main_v104 (broadcastInDim S256 ![] bcast_S_S256 : (⟨S_, .f32⟩ : BufTy).Contents (Elt F) → (⟨S256, .f32⟩ : BufTy).Contents (Elt F)),
    binary main_v103 main_v104 main_v105 (Host.divf : (⟨S256, .f32⟩ : BufTy).Contents (Elt F) → (⟨S256, .f32⟩ : BufTy).Contents (Elt F) → (⟨S256, .f32⟩ : BufTy).Contents (Elt F)),
    nullary main_c_19 (constantI S_ 32 0#32),
    TRef.nullary main_call1.cst (constant S_ .f32 0x00000000#32),
    TRef.binary (.of main_v102 : TRef sig ⟨S131072x256, .f32⟩) main_call1.cst main_call1.v0 (fun x v => Host.reduceAdd x v reducesTo_S131072x256_S256_d0 h_S_),
    TRef.unary main_call1.v0 main_call1.v1 (broadcastInDim S1x256 ![1] bcast_S256_S1x256_1),
    TRef.nullary main_call1.cst_0 (constant S_ .f32 0x48000000#32),
    TRef.unary main_call1.cst_0 main_call1.v2 (broadcastInDim S1x256 ![] bcast_S_S1x256),
    TRef.binary main_call1.v1 main_call1.v2 main_call1.v3 Host.divf,
    TRef.unary main_call1.v3 main_call1.v4 (broadcastInDim S131072x256 ![0, 1] bcast_S1x256_S131072x256_0_1),
    TRef.binary (.of main_v102 : TRef sig ⟨S131072x256, .f32⟩) main_call1.v4 main_call1.v5 subf,
    TRef.binary main_call1.v5 main_call1.v5 main_call1.v6 mulf,
    TRef.unary (.of main_c_19 : TRef sig ⟨S_, .i32⟩) main_call1.v7 (sitofp .f32),
    TRef.nullary main_call1.cst_1 (constant S_ .f32 0x48000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S131072x256_S256_d0 h_S_),
    TRef.unary main_call1.v8 main_call1.v10 (broadcastInDim S256 ![] bcast_S_S256),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S256 ![] bcast_S_S256),
    TRef.ternary main_call1.v12 main_call1.v11 main_call1.call0.v1 main_call1.call0.v2 (fun p a b => select (broadcastInDim S256 ![] bcast_S_S256 p) a b) ]

/-- The buffers they write. -/
abbrev a7_W : List (Ref sig .tc) := [main_cst_17, main_v103, main_cst_18, main_v104, main_v105, main_c_19, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v106]

theorem a7_sub : (a7 : List (HloOp τ sig (Elt F))).Forall fun op => op.bufs ⊆ tcRefs τ sig := by
  unfold a7
  exact ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem a7_fresh : ∀ op ∈ (a7 : List (HloOp τ sig (Elt F))), op.fresh = ∅ := by
  intro op h
  unfold a7 at h
  repeat (cases h with | head => rfl | tail _ h => ?_)
  exact nomatch h

theorem a7_writes : (a7 : List (HloOp τ sig (Elt F))).Forall fun op => op.writes ⊆ (a7_W.map (Proc.devRef (τ := τ) .tc)).toFinset := by
  unfold a7
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer they do not write keeps its contents. -/
theorem a7_keep (W : Valuation τ sig (Elt F)) (r : Ref sig .tc) (h : r ∉ a7_W) :
    after a7 W (no_index (Proc.devRef .tc r)) = W (Proc.devRef .tc r) :=
  after_of_writes_sub a7 _ a7_writes h

/-- Operations 172 … 195 of 294 (branch 2): the normalisation, affine map and logistic function. -/
def a8 : List (HloOp τ sig (Elt F)) :=
  [ unary main_v105 main_v107 (broadcastInDim S1x256 ![1] bcast_S256_S1x256_1 : (⟨S256, .f32⟩ : BufTy).Contents (Elt F) → (⟨S1x256, .f32⟩ : BufTy).Contents (Elt F)),
    unary main_v107 main_v108 (broadcastInDim S131072x256 ![0, 1] bcast_S1x256_S131072x256_0_1 : (⟨S1x256, .f32⟩ : BufTy).Contents (Elt F) → (⟨S131072x256, .f32⟩ : BufTy).Contents (Elt F)),
    binary main_v102 main_v108 main_v109 (subf : (⟨S131072x256, .f32⟩ : BufTy).Contents (Elt F) → (⟨S131072x256, .f32⟩ : BufTy).Contents (Elt F) → (⟨S131072x256, .f32⟩ : BufTy).Contents (Elt F)),
    unary main_arg6 main_v110 (broadcastInDim S1x256 ![1] bcast_S256_S1x256_1 : (⟨S256, .f32⟩ : BufTy).Contents (Elt F) → (⟨S1x256, .f32⟩ : BufTy).Contents (Elt F)),
    unary main_v110 main_v111 (broadcastInDim S131072x256 ![0, 1] bcast_S1x256_S131072x256_0_1 : (⟨S1x256, .f32⟩ : BufTy).Contents (Elt F) → (⟨S131072x256, .f32⟩ : BufTy).Contents (Elt F)),
    binary main_v111 main_v109 main_v112 (mulf : (⟨S131072x256, .f32⟩ : BufTy).Contents (Elt F) → (⟨S131072x256, .f32⟩ : BufTy).Contents (Elt F) → (⟨S131072x256, .f32⟩ : BufTy).Contents (Elt F)),
    nullary main_cst_20 (constant S_ .f32 0x3727C5AC#32),
    unary main_cst_20 main_v113 (broadcastInDim S256 ![] bcast_S_S256 : (⟨S_, .f32⟩ : BufTy).Contents (Elt F) → (⟨S256, .f32⟩ : BufTy).Contents (Elt F)),
    binary main_v106 main_v113 main_v114 (addf : (⟨S256, .f32⟩ : BufTy).Contents (Elt F) → (⟨S256, .f32⟩ : BufTy).Contents (Elt F) → (⟨S256, .f32⟩ : BufTy).Contents (Elt F)),
    unary main_v114 main_v115 (Host.rsqrt : (⟨S256, .f32⟩ : BufTy).Contents (Elt F) → (⟨S256, .f32⟩ : BufTy).Contents (Elt F)),
    unary main_v115 main_v116 (broadcastInDim S1x256 ![1] bcast_S256_S1x256_1 : (⟨S256, .f32⟩ : BufTy).Contents (Elt F) → (⟨S1x256, .f32⟩ : BufTy).Contents (Elt F)),
    unary main_v116 main_v117 (broadcastInDim S131072x256 ![0, 1] bcast_S1x256_S131072x256_0_1 : (⟨S1x256, .f32⟩ : BufTy).Contents (Elt F) → (⟨S131072x256, .f32⟩ : BufTy).Contents (Elt F)),
    binary main_v112 main_v117 main_v118 (mulf : (⟨S131072x256, .f32⟩ : BufTy).Contents (Elt F) → (⟨S131072x256, .f32⟩ : BufTy).Contents (Elt F) → (⟨S131072x256, .f32⟩ : BufTy).Contents (Elt F)),
    unary main_arg7 main_v119 (broadcastInDim S1x256 ![1] bcast_S256_S1x256_1 : (⟨S256, .f32⟩ : BufTy).Contents (Elt F) → (⟨S1x256, .f32⟩ : BufTy).Contents (Elt F)),
    unary main_v119 main_v120 (broadcastInDim S131072x256 ![0, 1] bcast_S1x256_S131072x256_0_1 : (⟨S1x256, .f32⟩ : BufTy).Contents (Elt F) → (⟨S131072x256, .f32⟩ : BufTy).Contents (Elt F)),
    binary main_v118 main_v120 main_v121 (addf : (⟨S131072x256, .f32⟩ : BufTy).Contents (Elt F) → (⟨S131072x256, .f32⟩ : BufTy).Contents (Elt F) → (⟨S131072x256, .f32⟩ : BufTy).Contents (Elt F)),
    unary main_v121 main_v122 (Host.negf : (⟨S131072x256, .f32⟩ : BufTy).Contents (Elt F) → (⟨S131072x256, .f32⟩ : BufTy).Contents (Elt F)),
    unary main_v122 main_v123 (Host.exp : (⟨S131072x256, .f32⟩ : BufTy).Contents (Elt F) → (⟨S131072x256, .f32⟩ : BufTy).Contents (Elt F)),
    nullary main_cst_21 (constant S_ .f32 0x3F800000#32),
    unary main_cst_21 main_v124 (broadcastInDim S131072x256 ![] bcast_S_S131072x256 : (⟨S_, .f32⟩ : BufTy).Contents (Elt F) → (⟨S131072x256, .f32⟩ : BufTy).Contents (Elt F)),
    binary main_v124 main_v123 main_v125 (addf : (⟨S131072x256, .f32⟩ : BufTy).Contents (Elt F) → (⟨S131072x256, .f32⟩ : BufTy).Contents (Elt F) → (⟨S131072x256, .f32⟩ : BufTy).Contents (Elt F)),
    nullary main_cst_22 (constant S_ .f32 0x3F800000#32),
    unary main_cst_22 main_v126 (broadcastInDim S131072x256 ![] bcast_S_S131072x256 : (⟨S_, .f32⟩ : BufTy).Contents (Elt F) → (⟨S131072x256, .f32⟩ : BufTy).Contents (Elt F)),
    binary main_v126 main_v125 main_v127 (Host.divf : (⟨S131072x256, .f32⟩ : BufTy).Contents (Elt F) → (⟨S131072x256, .f32⟩ : BufTy).Contents (Elt F) → (⟨S131072x256, .f32⟩ : BufTy).Contents (Elt F)) ]

/-- The buffers they write. -/
abbrev a8_W : List (Ref sig .tc) := [main_v107, main_v108, main_v109, main_v110, main_v111, main_v112, main_cst_20, main_v113, main_v114, main_v115, main_v116, main_v117, main_v118, main_v119, main_v120, main_v121, main_v122, main_v123, main_cst_21, main_v124, main_v125, main_cst_22, main_v126, main_v127]

theorem a8_sub : (a8 : List (HloOp τ sig (Elt F))).Forall fun op => op.bufs ⊆ tcRefs τ sig := by
  unfold a8
  exact ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

theorem a8_fresh : ∀ op ∈ (a8 : List (HloOp τ sig (Elt F))), op.fresh = ∅ := by
  intro op h
  unfold a8 at h
  repeat (cases h with | head => rfl | tail _ h => ?_)
  exact nomatch h

theorem a8_writes : (a8 : List (HloOp τ sig (Elt F))).Forall fun op => op.writes ⊆ (a8_W.map (Proc.devRef (τ := τ) .tc)).toFinset := by
  unfold a8
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer they do not write keeps its contents. -/
theorem a8_keep (W : Valuation τ sig (Elt F)) (r : Ref sig .tc) (h : r ∉ a8_W) :
    after a8 W (no_index (Proc.devRef .tc r)) = W (Proc.devRef .tc r) :=
  after_of_writes_sub a8 _ a8_writes h

/-- Operations 196 … 222 of 294 (branch 3): the three taps (start indices, gather, weight slice, contraction) and their sum (one part of them). -/
def a9 : List (HloOp τ sig (Elt F)) :=
  [ unary main_arg12 main_v128 ((extractStridedSlice S131072x1 ![0, 0] · slices_S131072x3_S131072x1_0_0) : (⟨S131072x3, .i32⟩ : BufTy).Contents (Elt F) → (⟨S131072x1, .i32⟩ : BufTy).Contents (Elt F)),
    reshape main_v128 main_v129 rfl shapeCasts_S131072x1_S131072,
    nullary main_c_23 (constantI S_ 32 0#32),
    unary main_c_23 main_v130 (broadcastInDim S131072 ![] bcast_S_S131072 : (⟨S_, .i32⟩ : BufTy).Contents (Elt F) → (⟨S131072, .i32⟩ : BufTy).Contents (Elt F)),
    binary main_v129 main_v130 main_v131 (cmpi .slt : (⟨S131072, .i32⟩ : BufTy).Contents (Elt F) → (⟨S131072, .i32⟩ : BufTy).Contents (Elt F) → (⟨S131072, .i1⟩ : BufTy).Contents (Elt F)),
    nullary main_c_24 (constantI S_ 32 131073#32),
    unary main_c_24 main_v132 (broadcastInDim S131072 ![] bcast_S_S131072 : (⟨S_, .i32⟩ : BufTy).Contents (Elt F) → (⟨S131072, .i32⟩ : BufTy).Contents (Elt F)),
    binary main_v129 main_v132 main_v133 (addi : (⟨S131072, .i32⟩ : BufTy).Contents (Elt F) → (⟨S131072, .i32⟩ : BufTy).Contents (Elt F) → (⟨S131072, .i32⟩ : BufTy).Contents (Elt F)),
    ternary main_v131 main_v133 main_v129 main_v134 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v134 main_v135 (broadcastInDim S131072x1 ![0] bcast_S131072_S131072x1_0 : (⟨S131072, .i32⟩ : BufTy).Contents (Elt F) → (⟨S131072x1, .i32⟩ : BufTy).Contents (Elt F)),
    binary main_v1 main_v135 main_v136 ((fun x i => Host.gather gather_S131073x256_S131072x1_S131072x256_1_0_n_n_0_1_1256 x i) : (⟨S131073x256, .f32⟩ : BufTy).Contents (Elt F) → (⟨S131072x1, .i32⟩ : BufTy).Contents (Elt F) → (⟨S131072x256, .f32⟩ : BufTy).Contents (Elt F)),
    unary main_arg3 main_v137 ((extractStridedSlice S1x256x256 ![0, 0, 0] · slices_S3x256x256_S1x256x256_0_0_0) : (⟨S3x256x256, .f32⟩ : BufTy).Contents (Elt F) → (⟨S1x256x256, .f32⟩ : BufTy).Contents (Elt F)),
    reshape main_v137 main_v138 rfl shapeCasts_S1x256x256_S256x256,
    binary main_v136 main_v138 main_v139 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    unary main_arg12 main_v140 ((extractStridedSlice S131072x1 ![0, 1] · slices_S131072x3_S131072x1_0_1) : (⟨S131072x3, .i32⟩ : BufTy).Contents (Elt F) → (⟨S131072x1, .i32⟩ : BufTy).Contents (Elt F)),
    reshape main_v140 main_v141 rfl shapeCasts_S131072x1_S131072,
    nullary main_c_25 (constantI S_ 32 0#32),
    unary main_c_25 main_v142 (broadcastInDim S131072 ![] bcast_S_S131072 : (⟨S_, .i32⟩ : BufTy).Contents (Elt F) → (⟨S131072, .i32⟩ : BufTy).Contents (Elt F)),
    binary main_v141 main_v142 main_v143 (cmpi .slt : (⟨S131072, .i32⟩ : BufTy).Contents (Elt F) → (⟨S131072, .i32⟩ : BufTy).Contents (Elt F) → (⟨S131072, .i1⟩ : BufTy).Contents (Elt F)),
    nullary main_c_26 (constantI S_ 32 131073#32),
    unary main_c_26 main_v144 (broadcastInDim S131072 ![] bcast_S_S131072 : (⟨S_, .i32⟩ : BufTy).Contents (Elt F) → (⟨S131072, .i32⟩ : BufTy).Contents (Elt F)),
    binary main_v141 main_v144 main_v145 (addi : (⟨S131072, .i32⟩ : BufTy).Contents (Elt F) → (⟨S131072, .i32⟩ : BufTy).Contents (Elt F) → (⟨S131072, .i32⟩ : BufTy).Contents (Elt F)),
    ternary main_v143 main_v145 main_v141 main_v146 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v146 main_v147 (broadcastInDim S131072x1 ![0] bcast_S131072_S131072x1_0 : (⟨S131072, .i32⟩ : BufTy).Contents (Elt F) → (⟨S131072x1, .i32⟩ : BufTy).Contents (Elt F)),
    binary main_v1 main_v147 main_v148 ((fun x i => Host.gather gather_S131073x256_S131072x1_S131072x256_1_0_n_n_0_1_1256 x i) : (⟨S131073x256, .f32⟩ : BufTy).Contents (Elt F) → (⟨S131072x1, .i32⟩ : BufTy).Contents (Elt F) → (⟨S131072x256, .f32⟩ : BufTy).Contents (Elt F)),
    unary main_arg3 main_v149 ((extractStridedSlice S1x256x256 ![1, 0, 0] · slices_S3x256x256_S1x256x256_1_0_0) : (⟨S3x256x256, .f32⟩ : BufTy).Contents (Elt F) → (⟨S1x256x256, .f32⟩ : BufTy).Contents (Elt F)),
    reshape main_v149 main_v150 rfl shapeCasts_S1x256x256_S256x256 ]

/-- The buffers they write. -/
abbrev a9_W : List (Ref sig .tc) := [main_v128, main_v129, main_c_23, main_v130, main_v131, main_c_24, main_v132, main_v133, main_v134, main_v135, main_v136, main_v137, main_v138, main_v139, main_v140, main_v141, main_c_25, main_v142, main_v143, main_c_26, main_v144, main_v145, main_v146, main_v147, main_v148, main_v149, main_v150]

theorem a9_sub : (a9 : List (HloOp τ sig (Elt F))).Forall fun op => op.bufs ⊆ tcRefs τ sig := by
  unfold a9
  exact ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub ..⟩

theorem a9_fresh : ∀ op ∈ (a9 : List (HloOp τ sig (Elt F))), op.fresh = ∅ := by
  intro op h
  unfold a9 at h
  repeat (cases h with | head => rfl | tail _ h => ?_)
  exact nomatch h

theorem a9_writes : (a9 : List (HloOp τ sig (Elt F))).Forall fun op => op.writes ⊆ (a9_W.map (Proc.devRef (τ := τ) .tc)).toFinset := by
  unfold a9
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer they do not write keeps its contents. -/
theorem a9_keep (W : Valuation τ sig (Elt F)) (r : Ref sig .tc) (h : r ∉ a9_W) :
    after a9 W (no_index (Proc.devRef .tc r)) = W (Proc.devRef .tc r) :=
  after_of_writes_sub a9 _ a9_writes h

/-- Operations 223 … 239 of 294 (branch 3): the three taps (start indices, gather, weight slice, contraction) and their sum (one part of them). -/
def a10 : List (HloOp τ sig (Elt F)) :=
  [ binary main_v148 main_v150 main_v151 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    binary main_v139 main_v151 main_v152 (addf : (⟨S131072x256, .f32⟩ : BufTy).Contents (Elt F) → (⟨S131072x256, .f32⟩ : BufTy).Contents (Elt F) → (⟨S131072x256, .f32⟩ : BufTy).Contents (Elt F)),
    unary main_arg12 main_v153 ((extractStridedSlice S131072x1 ![0, 2] · slices_S131072x3_S131072x1_0_2) : (⟨S131072x3, .i32⟩ : BufTy).Contents (Elt F) → (⟨S131072x1, .i32⟩ : BufTy).Contents (Elt F)),
    reshape main_v153 main_v154 rfl shapeCasts_S131072x1_S131072,
    nullary main_c_27 (constantI S_ 32 0#32),
    unary main_c_27 main_v155 (broadcastInDim S131072 ![] bcast_S_S131072 : (⟨S_, .i32⟩ : BufTy).Contents (Elt F) → (⟨S131072, .i32⟩ : BufTy).Contents (Elt F)),
    binary main_v154 main_v155 main_v156 (cmpi .slt : (⟨S131072, .i32⟩ : BufTy).Contents (Elt F) → (⟨S131072, .i32⟩ : BufTy).Contents (Elt F) → (⟨S131072, .i1⟩ : BufTy).Contents (Elt F)),
    nullary main_c_28 (constantI S_ 32 131073#32),
    unary main_c_28 main_v157 (broadcastInDim S131072 ![] bcast_S_S131072 : (⟨S_, .i32⟩ : BufTy).Contents (Elt F) → (⟨S131072, .i32⟩ : BufTy).Contents (Elt F)),
    binary main_v154 main_v157 main_v158 (addi : (⟨S131072, .i32⟩ : BufTy).Contents (Elt F) → (⟨S131072, .i32⟩ : BufTy).Contents (Elt F) → (⟨S131072, .i32⟩ : BufTy).Contents (Elt F)),
    ternary main_v156 main_v158 main_v154 main_v159 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v159 main_v160 (broadcastInDim S131072x1 ![0] bcast_S131072_S131072x1_0 : (⟨S131072, .i32⟩ : BufTy).Contents (Elt F) → (⟨S131072x1, .i32⟩ : BufTy).Contents (Elt F)),
    binary main_v1 main_v160 main_v161 ((fun x i => Host.gather gather_S131073x256_S131072x1_S131072x256_1_0_n_n_0_1_1256 x i) : (⟨S131073x256, .f32⟩ : BufTy).Contents (Elt F) → (⟨S131072x1, .i32⟩ : BufTy).Contents (Elt F) → (⟨S131072x256, .f32⟩ : BufTy).Contents (Elt F)),
    unary main_arg3 main_v162 ((extractStridedSlice S1x256x256 ![2, 0, 0] · slices_S3x256x256_S1x256x256_2_0_0) : (⟨S3x256x256, .f32⟩ : BufTy).Contents (Elt F) → (⟨S1x256x256, .f32⟩ : BufTy).Contents (Elt F)),
    reshape main_v162 main_v163 rfl shapeCasts_S1x256x256_S256x256,
    binary main_v161 main_v163 main_v164 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    binary main_v152 main_v164 main_v165 (addf : (⟨S131072x256, .f32⟩ : BufTy).Contents (Elt F) → (⟨S131072x256, .f32⟩ : BufTy).Contents (Elt F) → (⟨S131072x256, .f32⟩ : BufTy).Contents (Elt F)) ]

/-- The buffers they write. -/
abbrev a10_W : List (Ref sig .tc) := [main_v151, main_v152, main_v153, main_v154, main_c_27, main_v155, main_v156, main_c_28, main_v157, main_v158, main_v159, main_v160, main_v161, main_v162, main_v163, main_v164, main_v165]

theorem a10_sub : (a10 : List (HloOp τ sig (Elt F))).Forall fun op => op.bufs ⊆ tcRefs τ sig := by
  unfold a10
  exact ⟨binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub ..⟩

theorem a10_fresh : ∀ op ∈ (a10 : List (HloOp τ sig (Elt F))), op.fresh = ∅ := by
  intro op h
  unfold a10 at h
  repeat (cases h with | head => rfl | tail _ h => ?_)
  exact nomatch h

theorem a10_writes : (a10 : List (HloOp τ sig (Elt F))).Forall fun op => op.writes ⊆ (a10_W.map (Proc.devRef (τ := τ) .tc)).toFinset := by
  unfold a10
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer they do not write keeps its contents. -/
theorem a10_keep (W : Valuation τ sig (Elt F)) (r : Ref sig .tc) (h : r ∉ a10_W) :
    after a10 W (no_index (Proc.devRef .tc r)) = W (Proc.devRef .tc r) :=
  after_of_writes_sub a10 _ a10_writes h

/-- Operations 240 … 267 of 294 (branch 3): the channel mean, the integer constant 0, and the variance function's operations with its selection inline. -/
def a11 : List (HloOp τ sig (Elt F)) :=
  [ nullary main_cst_29 (constant S_ .f32 0x00000000#32),
    binary main_v165 main_cst_29 main_v166 ((fun x v => Host.reduceAdd x v reducesTo_S131072x256_S256_d0 h_S_) : (⟨S131072x256, .f32⟩ : BufTy).Contents (Elt F) → (⟨S_, .f32⟩ : BufTy).Contents (Elt F) → (⟨S256, .f32⟩ : BufTy).Contents (Elt F)),
    nullary main_cst_30 (constant S_ .f32 0x48000000#32),
    unary main_cst_30 main_v167 (broadcastInDim S256 ![] bcast_S_S256 : (⟨S_, .f32⟩ : BufTy).Contents (Elt F) → (⟨S256, .f32⟩ : BufTy).Contents (Elt F)),
    binary main_v166 main_v167 main_v168 (Host.divf : (⟨S256, .f32⟩ : BufTy).Contents (Elt F) → (⟨S256, .f32⟩ : BufTy).Contents (Elt F) → (⟨S256, .f32⟩ : BufTy).Contents (Elt F)),
    nullary main_c_31 (constantI S_ 32 0#32),
    TRef.nullary main_call2.cst (constant S_ .f32 0x00000000#32),
    TRef.binary (.of main_v165 : TRef sig ⟨S131072x256, .f32⟩) main_call2.cst main_call2.v0 (fun x v => Host.reduceAdd x v reducesTo_S131072x256_S256_d0 h_S_),
    TRef.unary main_call2.v0 main_call2.v1 (broadcastInDim S1x256 ![1] bcast_S256_S1x256_1),
    TRef.nullary main_call2.cst_0 (constant S_ .f32 0x48000000#32),
    TRef.unary main_call2.cst_0 main_call2.v2 (broadcastInDim S1x256 ![] bcast_S_S1x256),
    TRef.binary main_call2.v1 main_call2.v2 main_call2.v3 Host.divf,
    TRef.unary main_call2.v3 main_call2.v4 (broadcastInDim S131072x256 ![0, 1] bcast_S1x256_S131072x256_0_1),
    TRef.binary (.of main_v165 : TRef sig ⟨S131072x256, .f32⟩) main_call2.v4 main_call2.v5 subf,
    TRef.binary main_call2.v5 main_call2.v5 main_call2.v6 mulf,
    TRef.unary (.of main_c_31 : TRef sig ⟨S_, .i32⟩) main_call2.v7 (sitofp .f32),
    TRef.nullary main_call2.cst_1 (constant S_ .f32 0x48000000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S131072x256_S256_d0 h_S_),
    TRef.unary main_call2.v8 main_call2.v10 (broadcastInDim S256 ![] bcast_S_S256),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S256 ![] bcast_S_S256),
    TRef.ternary main_call2.v12 main_call2.v11 main_call2.call0.v1 main_call2.call0.v2 (fun p a b => select (broadcastInDim S256 ![] bcast_S_S256 p) a b) ]

/-- The buffers they write. -/
abbrev a11_W : List (Ref sig .tc) := [main_cst_29, main_v166, main_cst_30, main_v167, main_v168, main_c_31, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v169]

theorem a11_sub : (a11 : List (HloOp τ sig (Elt F))).Forall fun op => op.bufs ⊆ tcRefs τ sig := by
  unfold a11
  exact ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem a11_fresh : ∀ op ∈ (a11 : List (HloOp τ sig (Elt F))), op.fresh = ∅ := by
  intro op h
  unfold a11 at h
  repeat (cases h with | head => rfl | tail _ h => ?_)
  exact nomatch h

theorem a11_writes : (a11 : List (HloOp τ sig (Elt F))).Forall fun op => op.writes ⊆ (a11_W.map (Proc.devRef (τ := τ) .tc)).toFinset := by
  unfold a11
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer they do not write keeps its contents. -/
theorem a11_keep (W : Valuation τ sig (Elt F)) (r : Ref sig .tc) (h : r ∉ a11_W) :
    after a11 W (no_index (Proc.devRef .tc r)) = W (Proc.devRef .tc r) :=
  after_of_writes_sub a11 _ a11_writes h

/-- Operations 268 … 291 of 294 (branch 3): the normalisation, affine map and logistic function. -/
def a12 : List (HloOp τ sig (Elt F)) :=
  [ unary main_v168 main_v170 (broadcastInDim S1x256 ![1] bcast_S256_S1x256_1 : (⟨S256, .f32⟩ : BufTy).Contents (Elt F) → (⟨S1x256, .f32⟩ : BufTy).Contents (Elt F)),
    unary main_v170 main_v171 (broadcastInDim S131072x256 ![0, 1] bcast_S1x256_S131072x256_0_1 : (⟨S1x256, .f32⟩ : BufTy).Contents (Elt F) → (⟨S131072x256, .f32⟩ : BufTy).Contents (Elt F)),
    binary main_v165 main_v171 main_v172 (subf : (⟨S131072x256, .f32⟩ : BufTy).Contents (Elt F) → (⟨S131072x256, .f32⟩ : BufTy).Contents (Elt F) → (⟨S131072x256, .f32⟩ : BufTy).Contents (Elt F)),
    unary main_arg8 main_v173 (broadcastInDim S1x256 ![1] bcast_S256_S1x256_1 : (⟨S256, .f32⟩ : BufTy).Contents (Elt F) → (⟨S1x256, .f32⟩ : BufTy).Contents (Elt F)),
    unary main_v173 main_v174 (broadcastInDim S131072x256 ![0, 1] bcast_S1x256_S131072x256_0_1 : (⟨S1x256, .f32⟩ : BufTy).Contents (Elt F) → (⟨S131072x256, .f32⟩ : BufTy).Contents (Elt F)),
    binary main_v174 main_v172 main_v175 (mulf : (⟨S131072x256, .f32⟩ : BufTy).Contents (Elt F) → (⟨S131072x256, .f32⟩ : BufTy).Contents (Elt F) → (⟨S131072x256, .f32⟩ : BufTy).Contents (Elt F)),
    nullary main_cst_32 (constant S_ .f32 0x3727C5AC#32),
    unary main_cst_32 main_v176 (broadcastInDim S256 ![] bcast_S_S256 : (⟨S_, .f32⟩ : BufTy).Contents (Elt F) → (⟨S256, .f32⟩ : BufTy).Contents (Elt F)),
    binary main_v169 main_v176 main_v177 (addf : (⟨S256, .f32⟩ : BufTy).Contents (Elt F) → (⟨S256, .f32⟩ : BufTy).Contents (Elt F) → (⟨S256, .f32⟩ : BufTy).Contents (Elt F)),
    unary main_v177 main_v178 (Host.rsqrt : (⟨S256, .f32⟩ : BufTy).Contents (Elt F) → (⟨S256, .f32⟩ : BufTy).Contents (Elt F)),
    unary main_v178 main_v179 (broadcastInDim S1x256 ![1] bcast_S256_S1x256_1 : (⟨S256, .f32⟩ : BufTy).Contents (Elt F) → (⟨S1x256, .f32⟩ : BufTy).Contents (Elt F)),
    unary main_v179 main_v180 (broadcastInDim S131072x256 ![0, 1] bcast_S1x256_S131072x256_0_1 : (⟨S1x256, .f32⟩ : BufTy).Contents (Elt F) → (⟨S131072x256, .f32⟩ : BufTy).Contents (Elt F)),
    binary main_v175 main_v180 main_v181 (mulf : (⟨S131072x256, .f32⟩ : BufTy).Contents (Elt F) → (⟨S131072x256, .f32⟩ : BufTy).Contents (Elt F) → (⟨S131072x256, .f32⟩ : BufTy).Contents (Elt F)),
    unary main_arg9 main_v182 (broadcastInDim S1x256 ![1] bcast_S256_S1x256_1 : (⟨S256, .f32⟩ : BufTy).Contents (Elt F) → (⟨S1x256, .f32⟩ : BufTy).Contents (Elt F)),
    unary main_v182 main_v183 (broadcastInDim S131072x256 ![0, 1] bcast_S1x256_S131072x256_0_1 : (⟨S1x256, .f32⟩ : BufTy).Contents (Elt F) → (⟨S131072x256, .f32⟩ : BufTy).Contents (Elt F)),
    binary main_v181 main_v183 main_v184 (addf : (⟨S131072x256, .f32⟩ : BufTy).Contents (Elt F) → (⟨S131072x256, .f32⟩ : BufTy).Contents (Elt F) → (⟨S131072x256, .f32⟩ : BufTy).Contents (Elt F)),
    unary main_v184 main_v185 (Host.negf : (⟨S131072x256, .f32⟩ : BufTy).Contents (Elt F) → (⟨S131072x256, .f32⟩ : BufTy).Contents (Elt F)),
    unary main_v185 main_v186 (Host.exp : (⟨S131072x256, .f32⟩ : BufTy).Contents (Elt F) → (⟨S131072x256, .f32⟩ : BufTy).Contents (Elt F)),
    nullary main_cst_33 (constant S_ .f32 0x3F800000#32),
    unary main_cst_33 main_v187 (broadcastInDim S131072x256 ![] bcast_S_S131072x256 : (⟨S_, .f32⟩ : BufTy).Contents (Elt F) → (⟨S131072x256, .f32⟩ : BufTy).Contents (Elt F)),
    binary main_v187 main_v186 main_v188 (addf : (⟨S131072x256, .f32⟩ : BufTy).Contents (Elt F) → (⟨S131072x256, .f32⟩ : BufTy).Contents (Elt F) → (⟨S131072x256, .f32⟩ : BufTy).Contents (Elt F)),
    nullary main_cst_34 (constant S_ .f32 0x3F800000#32),
    unary main_cst_34 main_v189 (broadcastInDim S131072x256 ![] bcast_S_S131072x256 : (⟨S_, .f32⟩ : BufTy).Contents (Elt F) → (⟨S131072x256, .f32⟩ : BufTy).Contents (Elt F)),
    binary main_v189 main_v188 main_v190 (Host.divf : (⟨S131072x256, .f32⟩ : BufTy).Contents (Elt F) → (⟨S131072x256, .f32⟩ : BufTy).Contents (Elt F) → (⟨S131072x256, .f32⟩ : BufTy).Contents (Elt F)) ]

/-- The buffers they write. -/
abbrev a12_W : List (Ref sig .tc) := [main_v170, main_v171, main_v172, main_v173, main_v174, main_v175, main_cst_32, main_v176, main_v177, main_v178, main_v179, main_v180, main_v181, main_v182, main_v183, main_v184, main_v185, main_v186, main_cst_33, main_v187, main_v188, main_cst_34, main_v189, main_v190]

theorem a12_sub : (a12 : List (HloOp τ sig (Elt F))).Forall fun op => op.bufs ⊆ tcRefs τ sig := by
  unfold a12
  exact ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

theorem a12_fresh : ∀ op ∈ (a12 : List (HloOp τ sig (Elt F))), op.fresh = ∅ := by
  intro op h
  unfold a12 at h
  repeat (cases h with | head => rfl | tail _ h => ?_)
  exact nomatch h

theorem a12_writes : (a12 : List (HloOp τ sig (Elt F))).Forall fun op => op.writes ⊆ (a12_W.map (Proc.devRef (τ := τ) .tc)).toFinset := by
  unfold a12
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer they do not write keeps its contents. -/
theorem a12_keep (W : Valuation τ sig (Elt F)) (r : Ref sig .tc) (h : r ∉ a12_W) :
    after a12 W (no_index (Proc.devRef .tc r)) = W (Proc.devRef .tc r) :=
  after_of_writes_sub a12 _ a12_writes h

/-- Operations 292 … 294 of 294: the sum of the three activations and the product with the features. -/
def a13 : List (HloOp τ sig (Elt F)) :=
  [ binary main_v64 main_v127 main_v191 (addf : (⟨S131072x256, .f32⟩ : BufTy).Contents (Elt F) → (⟨S131072x256, .f32⟩ : BufTy).Contents (Elt F) → (⟨S131072x256, .f32⟩ : BufTy).Contents (Elt F)),
    binary main_v191 main_v190 main_v192 (addf : (⟨S131072x256, .f32⟩ : BufTy).Contents (Elt F) → (⟨S131072x256, .f32⟩ : BufTy).Contents (Elt F) → (⟨S131072x256, .f32⟩ : BufTy).Contents (Elt F)),
    binary main_v192 main_arg0 main_v193 (mulf : (⟨S131072x256, .f32⟩ : BufTy).Contents (Elt F) → (⟨S131072x256, .f32⟩ : BufTy).Contents (Elt F) → (⟨S131072x256, .f32⟩ : BufTy).Contents (Elt F)) ]

/-- The buffers they write. -/
abbrev a13_W : List (Ref sig .tc) := [main_v191, main_v192, main_v193]

theorem a13_sub : (a13 : List (HloOp τ sig (Elt F))).Forall fun op => op.bufs ⊆ tcRefs τ sig := by
  unfold a13
  exact ⟨binary_bufs_sub .., binary_bufs_sub .., binary_bufs_sub ..⟩

theorem a13_fresh : ∀ op ∈ (a13 : List (HloOp τ sig (Elt F))), op.fresh = ∅ := by
  intro op h
  unfold a13 at h
  repeat (cases h with | head => rfl | tail _ h => ?_)
  exact nomatch h

theorem a13_writes : (a13 : List (HloOp τ sig (Elt F))).Forall fun op => op.writes ⊆ (a13_W.map (Proc.devRef (τ := τ) .tc)).toFinset := by
  unfold a13
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer they do not write keeps its contents. -/
theorem a13_keep (W : Valuation τ sig (Elt F)) (r : Ref sig .tc) (h : r ∉ a13_W) :
    after a13 W (no_index (Proc.devRef .tc r)) = W (Proc.devRef .tc r) :=
  after_of_writes_sub a13 _ a13_writes h

/-- The activation from the three-tap map `h`, a channel mean `μ` and a channel variance `v`:
    `1 / (1 + exp (−(g · (h − μ) · rsqrt (v + ε) + β)))`, the channel vectors broadcast over the rows. -/
def actCore (h : FVec F S131072x256 .f32) (μ v g β : FVec F S256 .f32) : FVec F S131072x256 .f32 :=
  let v44 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) μ
  let v45 : (⟨S131072x256, .f32⟩ : BufTy).Contents (Elt F) := (broadcastInDim S131072x256 ![0, 1] bcast_S1x256_S131072x256_0_1 : (⟨S1x256, .f32⟩ : BufTy).Contents (Elt F) → (⟨S131072x256, .f32⟩ : BufTy).Contents (Elt F)) v44
  let v46 : (⟨S131072x256, .f32⟩ : BufTy).Contents (Elt F) := (subf : (⟨S131072x256, .f32⟩ : BufTy).Contents (Elt F) → (⟨S131072x256, .f32⟩ : BufTy).Contents (Elt F) → (⟨S131072x256, .f32⟩ : BufTy).Contents (Elt F)) h v45
  let v47 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) g
  let v48 : (⟨S131072x256, .f32⟩ : BufTy).Contents (Elt F) := (broadcastInDim S131072x256 ![0, 1] bcast_S1x256_S131072x256_0_1 : (⟨S1x256, .f32⟩ : BufTy).Contents (Elt F) → (⟨S131072x256, .f32⟩ : BufTy).Contents (Elt F)) v47
  let v49 : (⟨S131072x256, .f32⟩ : BufTy).Contents (Elt F) := (mulf : (⟨S131072x256, .f32⟩ : BufTy).Contents (Elt F) → (⟨S131072x256, .f32⟩ : BufTy).Contents (Elt F) → (⟨S131072x256, .f32⟩ : BufTy).Contents (Elt F)) v48 v46
  let v50 : (⟨S256, .f32⟩ : BufTy).Contents (Elt F) := (broadcastInDim S256 ![] bcast_S_S256 : (⟨S_, .f32⟩ : BufTy).Contents (Elt F) → (⟨S256, .f32⟩ : BufTy).Contents (Elt F)) (constant S_ .f32 0x3727C5AC#32)
  let v51 : (⟨S256, .f32⟩ : BufTy).Contents (Elt F) := (addf : (⟨S256, .f32⟩ : BufTy).Contents (Elt F) → (⟨S256, .f32⟩ : BufTy).Contents (Elt F) → (⟨S256, .f32⟩ : BufTy).Contents (Elt F)) v v50
  let v52 : (⟨S256, .f32⟩ : BufTy).Contents (Elt F) := (Host.rsqrt : (⟨S256, .f32⟩ : BufTy).Contents (Elt F) → (⟨S256, .f32⟩ : BufTy).Contents (Elt F)) v51
  let v53 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) v52
  let v54 : (⟨S131072x256, .f32⟩ : BufTy).Contents (Elt F) := (broadcastInDim S131072x256 ![0, 1] bcast_S1x256_S131072x256_0_1 : (⟨S1x256, .f32⟩ : BufTy).Contents (Elt F) → (⟨S131072x256, .f32⟩ : BufTy).Contents (Elt F)) v53
  let v55 : (⟨S131072x256, .f32⟩ : BufTy).Contents (Elt F) := (mulf : (⟨S131072x256, .f32⟩ : BufTy).Contents (Elt F) → (⟨S131072x256, .f32⟩ : BufTy).Contents (Elt F) → (⟨S131072x256, .f32⟩ : BufTy).Contents (Elt F)) v49 v54
  let v56 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) β
  let v57 : (⟨S131072x256, .f32⟩ : BufTy).Contents (Elt F) := (broadcastInDim S131072x256 ![0, 1] bcast_S1x256_S131072x256_0_1 : (⟨S1x256, .f32⟩ : BufTy).Contents (Elt F) → (⟨S131072x256, .f32⟩ : BufTy).Contents (Elt F)) v56
  let v58 : (⟨S131072x256, .f32⟩ : BufTy).Contents (Elt F) := (addf : (⟨S131072x256, .f32⟩ : BufTy).Contents (Elt F) → (⟨S131072x256, .f32⟩ : BufTy).Contents (Elt F) → (⟨S131072x256, .f32⟩ : BufTy).Contents (Elt F)) v55 v57
  let v59 : (⟨S131072x256, .f32⟩ : BufTy).Contents (Elt F) := (Host.negf : (⟨S131072x256, .f32⟩ : BufTy).Contents (Elt F) → (⟨S131072x256, .f32⟩ : BufTy).Contents (Elt F)) v58
  let v60 : (⟨S131072x256, .f32⟩ : BufTy).Contents (Elt F) := (Host.exp : (⟨S131072x256, .f32⟩ : BufTy).Contents (Elt F) → (⟨S131072x256, .f32⟩ : BufTy).Contents (Elt F)) v59
  let v61 : (⟨S131072x256, .f32⟩ : BufTy).Contents (Elt F) := (broadcastInDim S131072x256 ![] bcast_S_S131072x256 : (⟨S_, .f32⟩ : BufTy).Contents (Elt F) → (⟨S131072x256, .f32⟩ : BufTy).Contents (Elt F)) (constant S_ .f32 0x3F800000#32)
  let v62 : (⟨S131072x256, .f32⟩ : BufTy).Contents (Elt F) := (addf : (⟨S131072x256, .f32⟩ : BufTy).Contents (Elt F) → (⟨S131072x256, .f32⟩ : BufTy).Contents (Elt F) → (⟨S131072x256, .f32⟩ : BufTy).Contents (Elt F)) v61 v60
  let v63 : (⟨S131072x256, .f32⟩ : BufTy).Contents (Elt F) := (broadcastInDim S131072x256 ![] bcast_S_S131072x256 : (⟨S_, .f32⟩ : BufTy).Contents (Elt F) → (⟨S131072x256, .f32⟩ : BufTy).Contents (Elt F)) (constant S_ .f32 0x3F800000#32)
  (Host.divf : (⟨S131072x256, .f32⟩ : BufTy).Contents (Elt F) → (⟨S131072x256, .f32⟩ : BufTy).Contents (Elt F) → (⟨S131072x256, .f32⟩ : BufTy).Contents (Elt F)) v63 v62

/-- The activation of `h` is that at `h`'s own mean and variance. -/
theorem actR_eq (h : FVec F S131072x256 .f32) (g β : FVec F S256 .f32) :
    RefRead.actR h g β = actCore h (RefRead.meanR h) (RefRead.varR h) g β := rfl

/-! ## What each stage leaves in its result buffer, from any contents `W` -/

theorem pad_v1 (W : Valuation τ sig (Elt F)) : after a0 W (no_index (Proc.devRef .tc main_v1)) = RefRead.padRows (W (Proc.devRef .tc main_arg0)) := by
  simp only [a0]
  after_results_simp
  rfl

set_option maxHeartbeats 2000000 in
theorem conv1_h (W : Valuation τ sig (Elt F)) :
    after a1 W (no_index (Proc.devRef .tc main_v39)) = RefRead.convR (W (Proc.devRef .tc main_v1)) (W (Proc.devRef .tc main_arg10)) (W (Proc.devRef .tc main_arg1)) := by
  simp only [a1]
  after_results_simp
  rfl

set_option maxHeartbeats 2000000 in
theorem stats1_mean (W : Valuation τ sig (Elt F)) :
    after a2 W (no_index (Proc.devRef .tc main_v42)) = RefRead.meanR (W (Proc.devRef .tc main_v39)) := by
  simp only [a2]
  after_results_simp
  rfl

set_option maxHeartbeats 2000000 in
theorem stats1_var (W : Valuation τ sig (Elt F)) :
    after a2 W (no_index (Proc.devRef .tc main_v43)) = RefRead.varR (W (Proc.devRef .tc main_v39)) := by
  simp only [a2]
  after_results_simp
  rfl

set_option maxHeartbeats 2000000 in
theorem act1_out (W : Valuation τ sig (Elt F)) :
    after a4 (after a3 W) (no_index (Proc.devRef .tc main_v64)) = actCore (W (Proc.devRef .tc main_v39)) (W (Proc.devRef .tc main_v42)) (W (Proc.devRef .tc main_v43)) (W (Proc.devRef .tc main_arg4)) (W (Proc.devRef .tc main_arg5)) := by
  simp only [a3, a4]
  after_results_simp
  rfl

set_option maxHeartbeats 2000000 in
theorem conv2_h (W : Valuation τ sig (Elt F)) :
    after a6 (after a5 W) (no_index (Proc.devRef .tc main_v102)) = RefRead.convR (W (Proc.devRef .tc main_v1)) (W (Proc.devRef .tc main_arg11)) (W (Proc.devRef .tc main_arg2)) := by
  simp only [a5, a6]
  after_results_simp
  rfl

set_option maxHeartbeats 2000000 in
theorem stats2_mean (W : Valuation τ sig (Elt F)) :
    after a7 W (no_index (Proc.devRef .tc main_v105)) = RefRead.meanR (W (Proc.devRef .tc main_v102)) := by
  simp only [a7]
  after_results_simp
  rfl

set_option maxHeartbeats 2000000 in
theorem stats2_var (W : Valuation τ sig (Elt F)) :
    after a7 W (no_index (Proc.devRef .tc main_v106)) = RefRead.varR (W (Proc.devRef .tc main_v102)) := by
  simp only [a7]
  after_results_simp
  rfl

set_option maxHeartbeats 2000000 in
theorem act2_out (W : Valuation τ sig (Elt F)) :
    after a8 W (no_index (Proc.devRef .tc main_v127)) = actCore (W (Proc.devRef .tc main_v102)) (W (Proc.devRef .tc main_v105)) (W (Proc.devRef .tc main_v106)) (W (Proc.devRef .tc main_arg6)) (W (Proc.devRef .tc main_arg7)) := by
  simp only [a8]
  after_results_simp
  rfl

set_option maxHeartbeats 2000000 in
theorem conv3_h (W : Valuation τ sig (Elt F)) :
    after a10 (after a9 W) (no_index (Proc.devRef .tc main_v165)) = RefRead.convR (W (Proc.devRef .tc main_v1)) (W (Proc.devRef .tc main_arg12)) (W (Proc.devRef .tc main_arg3)) := by
  simp only [a9, a10]
  after_results_simp
  rfl

set_option maxHeartbeats 2000000 in
theorem stats3_mean (W : Valuation τ sig (Elt F)) :
    after a11 W (no_index (Proc.devRef .tc main_v168)) = RefRead.meanR (W (Proc.devRef .tc main_v165)) := by
  simp only [a11]
  after_results_simp
  rfl

set_option maxHeartbeats 2000000 in
theorem stats3_var (W : Valuation τ sig (Elt F)) :
    after a11 W (no_index (Proc.devRef .tc main_v169)) = RefRead.varR (W (Proc.devRef .tc main_v165)) := by
  simp only [a11]
  after_results_simp
  rfl

set_option maxHeartbeats 2000000 in
theorem act3_out (W : Valuation τ sig (Elt F)) :
    after a12 W (no_index (Proc.devRef .tc main_v190)) = actCore (W (Proc.devRef .tc main_v165)) (W (Proc.devRef .tc main_v168)) (W (Proc.devRef .tc main_v169)) (W (Proc.devRef .tc main_arg8)) (W (Proc.devRef .tc main_arg9)) := by
  simp only [a12]
  after_results_simp
  rfl

theorem tail_out (W : Valuation τ sig (Elt F)) :
    after a13 W (no_index (Proc.devRef .tc main_v193)) = (mulf : (⟨S131072x256, .f32⟩ : BufTy).Contents (Elt F) → (⟨S131072x256, .f32⟩ : BufTy).Contents (Elt F) → (⟨S131072x256, .f32⟩ : BufTy).Contents (Elt F))
      ((addf : (⟨S131072x256, .f32⟩ : BufTy).Contents (Elt F) → (⟨S131072x256, .f32⟩ : BufTy).Contents (Elt F) → (⟨S131072x256, .f32⟩ : BufTy).Contents (Elt F)) ((addf : (⟨S131072x256, .f32⟩ : BufTy).Contents (Elt F) → (⟨S131072x256, .f32⟩ : BufTy).Contents (Elt F) → (⟨S131072x256, .f32⟩ : BufTy).Contents (Elt F)) (W (Proc.devRef .tc main_v64)) (W (Proc.devRef .tc main_v127))) (W (Proc.devRef .tc main_v190)))
      (W (Proc.devRef .tc main_arg0)) := by
  simp only [a13]
  after_results_simp

/-! ## The program is the line of its operations -/

/-- The operations of the program's part 0 (`main_part0`). -/
abbrev p0 : List (HloOp τ sig (Elt F)) := a0 ++ a1 ++ a2 ++ a3

/-- The operations of the program's part 1 (`main_part1`). -/
abbrev p1 : List (HloOp τ sig (Elt F)) := a4 ++ a5

/-- The operations of the program's part 2 (`main_part2`). -/
abbrev p2 : List (HloOp τ sig (Elt F)) := a6 ++ a7 ++ a8 ++ a9

/-- The operations of the program's part 3 (`main_part3`). -/
abbrev p3 : List (HloOp τ sig (Elt F)) := a10 ++ a11 ++ a12 ++ a13

/-- The program's 294 host operations, in execution order: the variance function's nineteen and its selection's three inline at
    each of the three calls, over that call's buffers. -/
abbrev ops : List (HloOp τ sig (Elt F)) := p0 ++ (p1 ++ (p2 ++ p3))

set_option maxRecDepth 8192 in
set_option maxHeartbeats 4000000 in
/-- Part 0 is its operations in a line: the variance function unfolded at its call, sequencing reassociated. -/
theorem main_part0_eq (c : Dev nD) : main_part0 (F := F) c = seq p0 := by
  simp only [main_part0, fn_var.body, fn_where.body, p0, a0, a1, a2, a3, List.cons_append, List.nil_append, seq, bind_assoc, pure_bind]
  rfl

set_option maxRecDepth 8192 in
set_option maxHeartbeats 4000000 in
/-- Part 1 is its operations in a line: the variance function unfolded at its call, sequencing reassociated. -/
theorem main_part1_eq (c : Dev nD) : main_part1 (F := F) c = seq p1 := by
  simp only [main_part1, fn_var.body, fn_where.body, p1, a4, a5, List.cons_append, List.nil_append, seq, bind_assoc, pure_bind]
  rfl

set_option maxRecDepth 8192 in
set_option maxHeartbeats 4000000 in
/-- Part 2 is its operations in a line: the variance function unfolded at its call, sequencing reassociated. -/
theorem main_part2_eq (c : Dev nD) : main_part2 (F := F) c = seq p2 := by
  simp only [main_part2, fn_var.body, fn_where.body, p2, a6, a7, a8, a9, List.cons_append, List.nil_append, seq, bind_assoc, pure_bind]
  rfl

set_option maxRecDepth 8192 in
set_option maxHeartbeats 4000000 in
/-- Part 3 is its operations in a line: the variance function unfolded at its call, sequencing reassociated. -/
theorem main_part3_eq (c : Dev nD) : main_part3 (F := F) c = seq p3 := by
  simp only [main_part3, fn_var.body, fn_where.body, p3, a10, a11, a12, a13, List.cons_append, List.nil_append, seq, bind_assoc, pure_bind]

/-- The program is that straight line. -/
theorem main_eq (c : Dev nD) : main (F := F) c = seq ops := by
  simp only [main, ops, seq_append, ← main_part0_eq c, ← main_part1_eq c, ← main_part2_eq c, ← main_part3_eq c]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  List.forall_iff_forall_mem.mpr (by
  intro op h
  simp only [ops, p0, p1, p2, p3, List.mem_append, or_assoc] at h
  rcases h with h | h | h | h | h | h | h | h | h | h | h | h | h | h
  exacts [List.forall_iff_forall_mem.mp a0_sub op h, List.forall_iff_forall_mem.mp a1_sub op h, List.forall_iff_forall_mem.mp a2_sub op h, List.forall_iff_forall_mem.mp a3_sub op h, List.forall_iff_forall_mem.mp a4_sub op h, List.forall_iff_forall_mem.mp a5_sub op h, List.forall_iff_forall_mem.mp a6_sub op h, List.forall_iff_forall_mem.mp a7_sub op h, List.forall_iff_forall_mem.mp a8_sub op h, List.forall_iff_forall_mem.mp a9_sub op h, List.forall_iff_forall_mem.mp a10_sub op h, List.forall_iff_forall_mem.mp a11_sub op h, List.forall_iff_forall_mem.mp a12_sub op h, List.forall_iff_forall_mem.mp a13_sub op h])

/-- Every operation determines its results. -/
theorem ops_fresh : ∀ op ∈ (ops : List (HloOp τ sig (Elt F))), op.fresh = ∅ := by
  intro op h
  simp only [ops, p0, p1, p2, p3, List.mem_append, or_assoc] at h
  rcases h with h | h | h | h | h | h | h | h | h | h | h | h | h | h
  exacts [a0_fresh op h, a1_fresh op h, a2_fresh op h, a3_fresh op h, a4_fresh op h, a5_fresh op h, a6_fresh op h, a7_fresh op h, a8_fresh op h, a9_fresh op h, a10_fresh op h, a11_fresh op h, a12_fresh op h, a13_fresh op h]

/-- On every device, for any float values, from any memory with zero counters: every weakly fair execution of the program
    terminates, each TensorCore buffer at the operations' fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## What the line leaves -/

/-- The contents after the whole line are the pieces' folds, nested in order. -/
theorem after_ops (V : Valuation τ sig (Elt F)) :
    after ops V = after a13 (after a12 (after a11 (after a10 (after a9 (after a8 (after a7 (after a6 (after a5 (after a4 (after a3 (after a2 (after a1 (after a0 V))))))))))))) := by
  simp only [ops, p0, p1, p2, p3, after_app]

set_option maxHeartbeats 4000000 in
/-- The result buffer holds the reference's term of the thirteen arguments' contents. -/
theorem result_eq (V : Valuation τ sig (Elt F)) :
    after ops V (Proc.devRef .tc main_v193) = RefRead.refTerm (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [after_ops]
  simp (disch := decide) only [pad_v1, conv1_h, stats1_mean, stats1_var, act1_out, conv2_h, stats2_mean, stats2_var, act2_out, conv3_h, stats3_mean, stats3_var, act3_out, tail_out, a0_keep, a1_keep, a2_keep, a3_keep, a4_keep, a5_keep, a6_keep, a7_keep, a8_keep, a9_keep, a10_keep, a11_keep, a12_keep, a13_keep]
  simp only [RefRead.refTerm, RefRead.branchR, actR_eq]

/-- Argument 0 is not written. -/
theorem kept_arg0 (V : Valuation τ sig (Elt F)) : after ops V (Proc.devRef .tc main_arg0) = V (Proc.devRef .tc main_arg0) := by
  rw [after_ops]
  simp (disch := decide) only [a0_keep, a1_keep, a2_keep, a3_keep, a4_keep, a5_keep, a6_keep, a7_keep, a8_keep, a9_keep, a10_keep, a11_keep, a12_keep, a13_keep]

/-- Argument 1 is not written. -/
theorem kept_arg1 (V : Valuation τ sig (Elt F)) : after ops V (Proc.devRef .tc main_arg1) = V (Proc.devRef .tc main_arg1) := by
  rw [after_ops]
  simp (disch := decide) only [a0_keep, a1_keep, a2_keep, a3_keep, a4_keep, a5_keep, a6_keep, a7_keep, a8_keep, a9_keep, a10_keep, a11_keep, a12_keep, a13_keep]

/-- Argument 2 is not written. -/
theorem kept_arg2 (V : Valuation τ sig (Elt F)) : after ops V (Proc.devRef .tc main_arg2) = V (Proc.devRef .tc main_arg2) := by
  rw [after_ops]
  simp (disch := decide) only [a0_keep, a1_keep, a2_keep, a3_keep, a4_keep, a5_keep, a6_keep, a7_keep, a8_keep, a9_keep, a10_keep, a11_keep, a12_keep, a13_keep]

/-- Argument 3 is not written. -/
theorem kept_arg3 (V : Valuation τ sig (Elt F)) : after ops V (Proc.devRef .tc main_arg3) = V (Proc.devRef .tc main_arg3) := by
  rw [after_ops]
  simp (disch := decide) only [a0_keep, a1_keep, a2_keep, a3_keep, a4_keep, a5_keep, a6_keep, a7_keep, a8_keep, a9_keep, a10_keep, a11_keep, a12_keep, a13_keep]

/-- Argument 4 is not written. -/
theorem kept_arg4 (V : Valuation τ sig (Elt F)) : after ops V (Proc.devRef .tc main_arg4) = V (Proc.devRef .tc main_arg4) := by
  rw [after_ops]
  simp (disch := decide) only [a0_keep, a1_keep, a2_keep, a3_keep, a4_keep, a5_keep, a6_keep, a7_keep, a8_keep, a9_keep, a10_keep, a11_keep, a12_keep, a13_keep]

/-- Argument 5 is not written. -/
theorem kept_arg5 (V : Valuation τ sig (Elt F)) : after ops V (Proc.devRef .tc main_arg5) = V (Proc.devRef .tc main_arg5) := by
  rw [after_ops]
  simp (disch := decide) only [a0_keep, a1_keep, a2_keep, a3_keep, a4_keep, a5_keep, a6_keep, a7_keep, a8_keep, a9_keep, a10_keep, a11_keep, a12_keep, a13_keep]

/-- Argument 6 is not written. -/
theorem kept_arg6 (V : Valuation τ sig (Elt F)) : after ops V (Proc.devRef .tc main_arg6) = V (Proc.devRef .tc main_arg6) := by
  rw [after_ops]
  simp (disch := decide) only [a0_keep, a1_keep, a2_keep, a3_keep, a4_keep, a5_keep, a6_keep, a7_keep, a8_keep, a9_keep, a10_keep, a11_keep, a12_keep, a13_keep]

/-- Argument 7 is not written. -/
theorem kept_arg7 (V : Valuation τ sig (Elt F)) : after ops V (Proc.devRef .tc main_arg7) = V (Proc.devRef .tc main_arg7) := by
  rw [after_ops]
  simp (disch := decide) only [a0_keep, a1_keep, a2_keep, a3_keep, a4_keep, a5_keep, a6_keep, a7_keep, a8_keep, a9_keep, a10_keep, a11_keep, a12_keep, a13_keep]

/-- Argument 8 is not written. -/
theorem kept_arg8 (V : Valuation τ sig (Elt F)) : after ops V (Proc.devRef .tc main_arg8) = V (Proc.devRef .tc main_arg8) := by
  rw [after_ops]
  simp (disch := decide) only [a0_keep, a1_keep, a2_keep, a3_keep, a4_keep, a5_keep, a6_keep, a7_keep, a8_keep, a9_keep, a10_keep, a11_keep, a12_keep, a13_keep]

/-- Argument 9 is not written. -/
theorem kept_arg9 (V : Valuation τ sig (Elt F)) : after ops V (Proc.devRef .tc main_arg9) = V (Proc.devRef .tc main_arg9) := by
  rw [after_ops]
  simp (disch := decide) only [a0_keep, a1_keep, a2_keep, a3_keep, a4_keep, a5_keep, a6_keep, a7_keep, a8_keep, a9_keep, a10_keep, a11_keep, a12_keep, a13_keep]

/-- Argument 10 is not written. -/
theorem kept_arg10 (V : Valuation τ sig (Elt F)) : after ops V (Proc.devRef .tc main_arg10) = V (Proc.devRef .tc main_arg10) := by
  rw [after_ops]
  simp (disch := decide) only [a0_keep, a1_keep, a2_keep, a3_keep, a4_keep, a5_keep, a6_keep, a7_keep, a8_keep, a9_keep, a10_keep, a11_keep, a12_keep, a13_keep]

/-- Argument 11 is not written. -/
theorem kept_arg11 (V : Valuation τ sig (Elt F)) : after ops V (Proc.devRef .tc main_arg11) = V (Proc.devRef .tc main_arg11) := by
  rw [after_ops]
  simp (disch := decide) only [a0_keep, a1_keep, a2_keep, a3_keep, a4_keep, a5_keep, a6_keep, a7_keep, a8_keep, a9_keep, a10_keep, a11_keep, a12_keep, a13_keep]

/-- Argument 12 is not written. -/
theorem kept_arg12 (V : Valuation τ sig (Elt F)) : after ops V (Proc.devRef .tc main_arg12) = V (Proc.devRef .tc main_arg12) := by
  rw [after_ops]
  simp (disch := decide) only [a0_keep, a1_keep, a2_keep, a3_keep, a4_keep, a5_keep, a6_keep, a7_keep, a8_keep, a9_keep, a10_keep, a11_keep, a12_keep, a13_keep]

/-- At the ideal values, on every device, from any memory with zero counters: every weakly fair execution of the reference
    terminates with its result at the reference's term of the arguments' launch contents, and every argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v193) = RefRead.refTerm (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v193).trans (result_eq _),
      (h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _),
      (h c main_arg8).trans (kept_arg8 _),
      (h c main_arg9).trans (kept_arg9 _),
      (h c main_arg10).trans (kept_arg10 _),
      (h c main_arg11).trans (kept_arg11 _),
      (h c main_arg12).trans (kept_arg12 _)⟩)
    (run_after m ρ)

end Cert.ReferenceIdeal.RefRun

end
-- ==== Proof.lean ====
/-
  The certificate: a three-branch sparse convolution with batch normalisation, a logistic gate and a product with the
  features, computed by four pipelined kernels among host operations, against its plain array-program reference.

  Both programs compute, per branch, the three-tap linear map h of the zero-padded, row-gathered features; the reference
  normalises h by its batch mean and centred variance and applies σ(g·(h − μ)·rsqrt(var + ε) + β) with σ spelt out; the
  kernels accumulate per-block column sums of h and h² (each written eight times), the host turns their totals into a scale
  g·rsqrt(E[h²] − mean² + ε) and a shift β − mean·scale, and the last kernel applies σ(h·scale + shift) with σ one operation.
  On finite inputs — which the precondition states — the two arrangements are one function of the arguments: the block
  sums re-index to the row sum, E[h²] − mean² is the centred variance, and the affine maps agree by distributivity; at the
  ideal values σ as one operation IS its expansion. Every float format change is the identity there, and every literal is
  the same binary word on both sides.

  The frames of the two kernel programs are the generated ones. The reference's run is read off its list of host
  operations; its frame is that run with the result dropped. No rewrite was applied when the kernel was idealized, so
  there is nothing to preserve.
-/
import proofs.«177556_j33500744909242_2_alg».proof.Defs
import proofs.«177556_j33500744909242_2_alg».proof.Proof.Gen.Kernel
import proofs.«177556_j33500744909242_2_alg».proof.Proof.Gen.Kernel.Frame
import proofs.«177556_j33500744909242_2_alg».proof.Proof.Gen.KernelIdeal
import proofs.«177556_j33500744909242_2_alg».proof.Proof.Gen.KernelIdeal.Frame
import proofs.«177556_j33500744909242_2_alg».proof.Proof.Gen.ReferenceIdeal
import proofs.«177556_j33500744909242_2_alg».proof.Proof.Gen.Pre_finite_inputs
import proofs.«177556_j33500744909242_2_alg».proof.Proof.KRun
import proofs.«177556_j33500744909242_2_alg».proof.Proof.KChain
import proofs.«177556_j33500744909242_2_alg».proof.Proof.Bridge
import proofs.«177556_j33500744909242_2_alg».proof.Proof.Finite
import proofs.«177556_j33500744909242_2_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefRun.run m ρ)

/-- The idealization rewrote no operation. -/
theorem preserves : Cert.preserves_Kernel_KernelIdeal := trivial

/-- From memories agreeing on the arguments both programs end at the reference's term of the kernel's arguments: the
    kernel's result array, walked back through the four regions and two host stretches, is that term on finite inputs;
    the reference's run ends at the same term of its own arguments, which are the kernel's. -/
theorem algebraic : Cert.algebraic_KernelIdeal_ReferenceIdeal := by
  intro m ρ m' ρ' hpre hagree
  refine ⟨fun c => Cert.ReferenceIdeal.RefRead.refTerm (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · refine (θ_run Cert.KernelIdeal.defs _ _).mono (fun r h c => ⟨(h c).1.trans ?_, (h c).2⟩)
      (Cert.KernelIdeal.KValue.run_value m ρ)
    obtain ⟨f0, f1, f2, f3, f4, f5, f6, f7, f8, f9⟩ := Cert.SubmBN.finite_of_pre _ _ _ _ _ _ _ _ _ _ _ _ _ (hpre c)
    exact (Cert.KernelIdeal.KValue.result_value m ρ c).trans
      (Cert.KernelIdeal.KValue.kernel_eq_reference _ _ _ _ _ _ _ _ _ _ _ _ _ f0 f1 f2 f3 f4 f5 f6 f7 f8 f9)
  · refine (θ_run Cert.ReferenceIdeal.defs _ _).mono (fun r h c => ⟨(h c).1.trans ?_, (h c).2⟩)
      (Cert.ReferenceIdeal.RefRun.run m' ρ')
    obtain ⟨a0, a1, a2, a3, a4, a5, a6, a7, a8, a9, a10, a11, a12⟩ := hagree c
    rw [a0, a1, a2, a3, a4, a5, a6, a7, a8, a9, a10, a11, a12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
